-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v132)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v132) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v262) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg6 : FVec F S4x128 .f32) (main_arg7 : FVec F S3x128 .f32) (main_arg8 : FVec F S3x128 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S4x128x128 .f32) (main_arg6 : FVec F S4x128 .f32) (main_arg7 : FVec F S3x128 .f32) (main_arg8 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4x128x128 .f32 := Host.absf main_arg5
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x128x128 : Shape := ⟨3, ![1, 128, 128]⟩
abbrev S1x128 : Shape := ⟨2, ![1, 128]⟩
abbrev S2000x128 : Shape := ⟨2, ![2000, 128]⟩
abbrev S2000x1 : Shape := ⟨2, ![2000, 1]⟩
abbrev S800000x128 : Shape := ⟨2, ![800000, 128]⟩
abbrev S512 : Shape := ⟨1, ![512]⟩
abbrev S512x128 : Shape := ⟨2, ![512, 128]⟩
abbrev S512x1 : Shape := ⟨2, ![512, 1]⟩

abbrev nBuf : Space → Nat
  | .hbm => 233
  | .vmem => 78
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S4x128x128, .f32⟩
  | 6 => ⟨S4x128, .f32⟩
  | 7 => ⟨S3x128, .f32⟩
  | 8 => ⟨S3x128, .f32⟩
  | 9 => ⟨S1x800000, .i32⟩
  | 10 => ⟨S800000, .i32⟩
  | 11 => ⟨S1x800000, .i32⟩
  | 12 => ⟨S800000, .i32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S50000x1, .f32⟩
  | 24 => ⟨S1x128x128, .f32⟩
  | 25 => ⟨S128x128, .f32⟩
  | 26 => ⟨S1x128, .f32⟩
  | 27 => ⟨S50000x128, .bf16⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .bf16⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S1x128, .f32⟩
  | 43 => ⟨S128, .f32⟩
  | 44 => ⟨S1x128, .f32⟩
  | 45 => ⟨S50000x128, .f32⟩
  | 46 => ⟨S_, .f32⟩
  | 47 => ⟨S128, .f32⟩
  | 48 => ⟨S_, .f32⟩
  | 49 => ⟨S128, .f32⟩
  | 50 => ⟨S128, .f32⟩
  | 51 => ⟨S_, .i32⟩
  | 52 => ⟨S_, .f32⟩
  | 53 => ⟨S128, .f32⟩
  | 54 => ⟨S1x128, .f32⟩
  | 55 => ⟨S_, .f32⟩
  | 56 => ⟨S1x128, .f32⟩
  | 57 => ⟨S1x128, .f32⟩
  | 58 => ⟨S50000x128, .f32⟩
  | 59 => ⟨S50000x128, .f32⟩
  | 60 => ⟨S50000x128, .f32⟩
  | 61 => ⟨S_, .f32⟩
  | 62 => ⟨S_, .f32⟩
  | 63 => ⟨S_, .f32⟩
  | 64 => ⟨S_, .f32⟩
  | 65 => ⟨S128, .f32⟩
  | 66 => ⟨S128, .f32⟩
  | 67 => ⟨S128, .f32⟩
  | 68 => ⟨S_, .f32⟩
  | 69 => ⟨S_, .i1⟩
  | 70 => ⟨S_, .f32⟩
  | 71 => ⟨S_, .f32⟩
  | 72 => ⟨S128, .f32⟩
  | 73 => ⟨S128, .f32⟩
  | 74 => ⟨S1x128, .f32⟩
  | 75 => ⟨S128, .f32⟩
  | 76 => ⟨S1x128, .f32⟩
  | 77 => ⟨S128, .f32⟩
  | 78 => ⟨S1x128x128, .f32⟩
  | 79 => ⟨S128x128, .f32⟩
  | 80 => ⟨S1x128, .f32⟩
  | 81 => ⟨S1x128, .f32⟩
  | 82 => ⟨S1x128, .f32⟩
  | 83 => ⟨S1x128, .f32⟩
  | 84 => ⟨S50000x128, .bf16⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x128, .bf16⟩
  | 94 => ⟨S800000x128, .f32⟩
  | 95 => ⟨S_, .f32⟩
  | 96 => ⟨S50000x128, .f32⟩
  | 97 => ⟨S800000x1, .i32⟩
  | 98 => ⟨S50000x128, .f32⟩
  | 99 => ⟨S1x128, .f32⟩
  | 100 => ⟨S128, .f32⟩
  | 101 => ⟨S1x128, .f32⟩
  | 102 => ⟨S50000x128, .f32⟩
  | 103 => ⟨S_, .f32⟩
  | 104 => ⟨S128, .f32⟩
  | 105 => ⟨S_, .f32⟩
  | 106 => ⟨S128, .f32⟩
  | 107 => ⟨S128, .f32⟩
  | 108 => ⟨S_, .i32⟩
  | 109 => ⟨S_, .f32⟩
  | 110 => ⟨S128, .f32⟩
  | 111 => ⟨S1x128, .f32⟩
  | 112 => ⟨S_, .f32⟩
  | 113 => ⟨S1x128, .f32⟩
  | 114 => ⟨S1x128, .f32⟩
  | 115 => ⟨S50000x128, .f32⟩
  | 116 => ⟨S50000x128, .f32⟩
  | 117 => ⟨S50000x128, .f32⟩
  | 118 => ⟨S_, .f32⟩
  | 119 => ⟨S_, .f32⟩
  | 120 => ⟨S_, .f32⟩
  | 121 => ⟨S_, .f32⟩
  | 122 => ⟨S128, .f32⟩
  | 123 => ⟨S128, .f32⟩
  | 124 => ⟨S128, .f32⟩
  | 125 => ⟨S_, .f32⟩
  | 126 => ⟨S_, .i1⟩
  | 127 => ⟨S_, .f32⟩
  | _ => ⟨S50000x128, .f32⟩

abbrev hbmTy0_1 (i : Nat) : BufTy := match i % 128 with
  | 0 => ⟨S_, .f32⟩
  | 1 => ⟨S128, .f32⟩
  | 2 => ⟨S128, .f32⟩
  | 3 => ⟨S1x128, .f32⟩
  | 4 => ⟨S128, .f32⟩
  | 5 => ⟨S1x128, .f32⟩
  | 6 => ⟨S128, .f32⟩
  | 7 => ⟨S1x128x128, .f32⟩
  | 8 => ⟨S128x128, .f32⟩
  | 9 => ⟨S1x128, .f32⟩
  | 10 => ⟨S1x128, .f32⟩
  | 11 => ⟨S1x128, .f32⟩
  | 12 => ⟨S1x128, .f32⟩
  | 13 => ⟨S50000x128, .bf16⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x128, .bf16⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S1x128, .f32⟩
  | 29 => ⟨S128, .f32⟩
  | 30 => ⟨S1x128, .f32⟩
  | 31 => ⟨S50000x128, .f32⟩
  | 32 => ⟨S_, .f32⟩
  | 33 => ⟨S128, .f32⟩
  | 34 => ⟨S_, .f32⟩
  | 35 => ⟨S128, .f32⟩
  | 36 => ⟨S128, .f32⟩
  | 37 => ⟨S_, .i32⟩
  | 38 => ⟨S_, .f32⟩
  | 39 => ⟨S128, .f32⟩
  | 40 => ⟨S1x128, .f32⟩
  | 41 => ⟨S_, .f32⟩
  | 42 => ⟨S1x128, .f32⟩
  | 43 => ⟨S1x128, .f32⟩
  | 44 => ⟨S50000x128, .f32⟩
  | 45 => ⟨S50000x128, .f32⟩
  | 46 => ⟨S50000x128, .f32⟩
  | 47 => ⟨S_, .f32⟩
  | 48 => ⟨S_, .f32⟩
  | 49 => ⟨S_, .f32⟩
  | 50 => ⟨S_, .f32⟩
  | 51 => ⟨S128, .f32⟩
  | 52 => ⟨S128, .f32⟩
  | 53 => ⟨S128, .f32⟩
  | 54 => ⟨S_, .f32⟩
  | 55 => ⟨S_, .i1⟩
  | 56 => ⟨S_, .f32⟩
  | 57 => ⟨S_, .f32⟩
  | 58 => ⟨S128, .f32⟩
  | 59 => ⟨S128, .f32⟩
  | 60 => ⟨S1x128, .f32⟩
  | 61 => ⟨S128, .f32⟩
  | 62 => ⟨S1x128, .f32⟩
  | 63 => ⟨S128, .f32⟩
  | 64 => ⟨S1x128x128, .f32⟩
  | 65 => ⟨S128x128, .f32⟩
  | 66 => ⟨S1x128, .f32⟩
  | 67 => ⟨S1x128, .f32⟩
  | 68 => ⟨S1x128, .f32⟩
  | 69 => ⟨S1x128, .f32⟩
  | 70 => ⟨S50000x128, .bf16⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x128, .bf16⟩
  | 80 => ⟨S800000x128, .f32⟩
  | 81 => ⟨S_, .f32⟩
  | 82 => ⟨S50000x128, .f32⟩
  | 83 => ⟨S800000x1, .i32⟩
  | 84 => ⟨S50000x128, .f32⟩
  | 85 => ⟨S1x128, .f32⟩
  | 86 => ⟨S128, .f32⟩
  | 87 => ⟨S1x128, .f32⟩
  | 88 => ⟨S50000x128, .f32⟩
  | 89 => ⟨S_, .f32⟩
  | 90 => ⟨S50000, .f32⟩
  | 91 => ⟨S_, .f32⟩
  | 92 => ⟨S512, .f32⟩
  | 93 => ⟨S50000x1, .i32⟩
  | 94 => ⟨S512, .f32⟩
  | 95 => ⟨S_, .f32⟩
  | 96 => ⟨S512x128, .f32⟩
  | 97 => ⟨S50000x1, .i32⟩
  | 98 => ⟨S512x128, .f32⟩
  | 99 => ⟨S_, .f32⟩
  | 100 => ⟨S512, .f32⟩
  | 101 => ⟨S512, .f32⟩
  | 102 => ⟨S512x1, .f32⟩
  | 103 => ⟨S512x128, .f32⟩
  | 104 => ⟨S512x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S2000x1, .f32⟩
  | .local _ .vmem, ⟨6, _⟩ => ⟨S2000x1, .f32⟩
  | .local _ .vmem, ⟨7, _⟩ => ⟨S2000x128, .bf16⟩
  | .local _ .vmem, ⟨8, _⟩ => ⟨S2000x128, .bf16⟩
  | .local _ .vmem, ⟨9, _⟩ => ⟨S2000x128, .f32⟩
  | .local _ .vmem, ⟨10, _⟩ => ⟨S2000x128, .f32⟩
  | .local _ .vmem, ⟨11, _⟩ => ⟨S2000x128, .bf16⟩
  | .local _ .vmem, ⟨12, _⟩ => ⟨S2000x128, .bf16⟩
  | .local _ .vmem, ⟨13, _⟩ => ⟨S2000x1, .f32⟩
  | .local _ .vmem, ⟨14, _⟩ => ⟨S2000x1, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S128x128, .f32⟩
  | .local _ .vmem, ⟨25, _⟩ => ⟨S2000x1, .f32⟩
  | .local _ .vmem, ⟨26, _⟩ => ⟨S2000x1, .f32⟩
  | .local _ .vmem, ⟨27, _⟩ => ⟨S2000x128, .bf16⟩
  | .local _ .vmem, ⟨28, _⟩ => ⟨S2000x128, .bf16⟩
  | .local _ .vmem, ⟨29, _⟩ => ⟨S2000x128, .f32⟩
  | .local _ .vmem, ⟨30, _⟩ => ⟨S2000x128, .f32⟩
  | .local _ .vmem, ⟨31, _⟩ => ⟨S2000x128, .bf16⟩
  | .local _ .vmem, ⟨32, _⟩ => ⟨S2000x128, .bf16⟩
  | .local _ .vmem, ⟨33, _⟩ => ⟨S2000x1, .f32⟩
  | .local _ .vmem, ⟨34, _⟩ => ⟨S2000x1, .f32⟩
  | .local _ .vmem, ⟨35, _⟩ => ⟨S1x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S128x128, .f32⟩
  | .local _ .vmem, ⟨45, _⟩ => ⟨S2000x1, .f32⟩
  | .local _ .vmem, ⟨46, _⟩ => ⟨S2000x1, .f32⟩
  | .local _ .vmem, ⟨47, _⟩ => ⟨S2000x128, .bf16⟩
  | .local _ .vmem, ⟨48, _⟩ => ⟨S2000x128, .bf16⟩
  | .local _ .vmem, ⟨49, _⟩ => ⟨S2000x128, .f32⟩
  | .local _ .vmem, ⟨50, _⟩ => ⟨S2000x128, .f32⟩
  | .local _ .vmem, ⟨51, _⟩ => ⟨S2000x128, .bf16⟩
  | .local _ .vmem, ⟨52, _⟩ => ⟨S2000x128, .bf16⟩
  | .local _ .vmem, ⟨53, _⟩ => ⟨S2000x1, .f32⟩
  | .local _ .vmem, ⟨54, _⟩ => ⟨S2000x1, .f32⟩
  | .local _ .vmem, ⟨55, _⟩ => ⟨S1x128, .f32⟩
  | .local _ .vmem, ⟨56, _⟩ => ⟨S2000x128, .f32⟩
  | .local _ .vmem, ⟨57, _⟩ => ⟨S2000x128, .f32⟩
  | .local _ .vmem, ⟨58, _⟩ => ⟨S2000x128, .f32⟩
  | .local _ .vmem, ⟨59, _⟩ => ⟨S2000x128, .f32⟩
  | .local _ .vmem, ⟨60, _⟩ => ⟨S1x128, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S128x128, .f32⟩
  | .local _ .vmem, ⟨65, _⟩ => ⟨S2000x1, .f32⟩
  | .local _ .vmem, ⟨66, _⟩ => ⟨S2000x1, .f32⟩
  | .local _ .vmem, ⟨67, _⟩ => ⟨S2000x128, .bf16⟩
  | .local _ .vmem, ⟨68, _⟩ => ⟨S2000x128, .bf16⟩
  | .local _ .vmem, ⟨69, _⟩ => ⟨S2000x128, .f32⟩
  | .local _ .vmem, ⟨70, _⟩ => ⟨S2000x128, .f32⟩
  | .local _ .vmem, ⟨71, _⟩ => ⟨S2000x128, .bf16⟩
  | .local _ .vmem, ⟨72, _⟩ => ⟨S2000x128, .bf16⟩
  | .local _ .vmem, ⟨73, _⟩ => ⟨S2000x1, .f32⟩
  | .local _ .vmem, ⟨74, _⟩ => ⟨S2000x1, .f32⟩
  | .local _ .vmem, ⟨75, _⟩ => ⟨S1x128, .f32⟩
  | .local _ .vmem, ⟨76, _⟩ => ⟨S2000x128, .f32⟩
  | .local _ .vmem, ⟨77, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_call0_cst : Ref sig .tc := ⟨.hbm, 52, rfl⟩
abbrev main_call0_v0 : Ref sig .tc := ⟨.hbm, 53, rfl⟩
abbrev main_call0_v1 : Ref sig .tc := ⟨.hbm, 54, rfl⟩
abbrev main_call0_cst_0 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_cst_1 : Ref sig .tc := ⟨.hbm, 62, rfl⟩
abbrev main_call0_v8 : Ref sig .tc := ⟨.hbm, 63, rfl⟩
abbrev main_call0_cst_2 : Ref sig .tc := ⟨.hbm, 64, rfl⟩
abbrev main_call0_v9 : Ref sig .tc := ⟨.hbm, 65, rfl⟩
abbrev main_call0_v10 : Ref sig .tc := ⟨.hbm, 66, rfl⟩
abbrev main_call0_v11 : Ref sig .tc := ⟨.hbm, 67, rfl⟩
abbrev main_call0_cst_3 : Ref sig .tc := ⟨.hbm, 68, rfl⟩
abbrev main_call0_v12 : Ref sig .tc := ⟨.hbm, 69, rfl⟩
abbrev main_call0_cst_4 : Ref sig .tc := ⟨.hbm, 70, rfl⟩
abbrev main_call0_call0_v0 : Ref sig .tc := ⟨.hbm, 71, rfl⟩
abbrev main_call0_call0_v1 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_c_7 : Ref sig .tc := ⟨.hbm, 85, rfl⟩
abbrev main_v46 : Ref sig .tc := ⟨.hbm, 86, rfl⟩
abbrev main_v47 : Ref sig .tc := ⟨.hbm, 87, rfl⟩
abbrev main_c_8 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_cst_9 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_cst_10 : Ref sig .tc := ⟨.hbm, 103, rfl⟩
abbrev main_v61 : Ref sig .tc := ⟨.hbm, 104, rfl⟩
abbrev main_cst_11 : Ref sig .tc := ⟨.hbm, 105, rfl⟩
abbrev main_v62 : Ref sig .tc := ⟨.hbm, 106, rfl⟩
abbrev main_v63 : Ref sig .tc := ⟨.hbm, 107, rfl⟩
abbrev main_c_12 : Ref sig .tc := ⟨.hbm, 108, rfl⟩
abbrev main_call1_cst : Ref sig .tc := ⟨.hbm, 109, rfl⟩
abbrev main_call1_v0 : Ref sig .tc := ⟨.hbm, 110, rfl⟩
abbrev main_call1_v1 : Ref sig .tc := ⟨.hbm, 111, rfl⟩
abbrev main_call1_cst_0 : Ref sig .tc := ⟨.hbm, 112, rfl⟩
abbrev main_call1_v2 : Ref sig .tc := ⟨.hbm, 113, rfl⟩
abbrev main_call1_v3 : Ref sig .tc := ⟨.hbm, 114, rfl⟩
abbrev main_call1_v4 : Ref sig .tc := ⟨.hbm, 115, rfl⟩
abbrev main_call1_v5 : Ref sig .tc := ⟨.hbm, 116, rfl⟩
abbrev main_call1_v6 : Ref sig .tc := ⟨.hbm, 117, rfl⟩
abbrev main_call1_v7 : Ref sig .tc := ⟨.hbm, 118, rfl⟩
abbrev main_call1_cst_1 : Ref sig .tc := ⟨.hbm, 119, rfl⟩
abbrev main_call1_v8 : Ref sig .tc := ⟨.hbm, 120, rfl⟩
abbrev main_call1_cst_2 : Ref sig .tc := ⟨.hbm, 121, rfl⟩
abbrev main_call1_v9 : Ref sig .tc := ⟨.hbm, 122, rfl⟩
abbrev main_call1_v10 : Ref sig .tc := ⟨.hbm, 123, rfl⟩
abbrev main_call1_v11 : Ref sig .tc := ⟨.hbm, 124, rfl⟩
abbrev main_call1_cst_3 : Ref sig .tc := ⟨.hbm, 125, rfl⟩
abbrev main_call1_v12 : Ref sig .tc := ⟨.hbm, 126, rfl⟩
abbrev main_call1_cst_4 : Ref sig .tc := ⟨.hbm, 127, rfl⟩
abbrev main_call1_call0_v0 : Ref sig .tc := ⟨.hbm, 128, rfl⟩
abbrev main_call1_call0_v1 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_c_13 : Ref sig .tc := ⟨.hbm, 142, rfl⟩
abbrev main_v76 : Ref sig .tc := ⟨.hbm, 143, rfl⟩
abbrev main_v77 : Ref sig .tc := ⟨.hbm, 144, rfl⟩
abbrev main_c_14 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_cst_15 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_cst_16 : Ref sig .tc := ⟨.hbm, 160, rfl⟩
abbrev main_v91 : Ref sig .tc := ⟨.hbm, 161, rfl⟩
abbrev main_cst_17 : Ref sig .tc := ⟨.hbm, 162, rfl⟩
abbrev main_v92 : Ref sig .tc := ⟨.hbm, 163, rfl⟩
abbrev main_v93 : Ref sig .tc := ⟨.hbm, 164, rfl⟩
abbrev main_c_18 : Ref sig .tc := ⟨.hbm, 165, rfl⟩
abbrev main_call2_cst : Ref sig .tc := ⟨.hbm, 166, rfl⟩
abbrev main_call2_v0 : Ref sig .tc := ⟨.hbm, 167, rfl⟩
abbrev main_call2_v1 : Ref sig .tc := ⟨.hbm, 168, rfl⟩
abbrev main_call2_cst_0 : Ref sig .tc := ⟨.hbm, 169, rfl⟩
abbrev main_call2_v2 : Ref sig .tc := ⟨.hbm, 170, rfl⟩
abbrev main_call2_v3 : Ref sig .tc := ⟨.hbm, 171, rfl⟩
abbrev main_call2_v4 : Ref sig .tc := ⟨.hbm, 172, rfl⟩
abbrev main_call2_v5 : Ref sig .tc := ⟨.hbm, 173, rfl⟩
abbrev main_call2_v6 : Ref sig .tc := ⟨.hbm, 174, rfl⟩
abbrev main_call2_v7 : Ref sig .tc := ⟨.hbm, 175, rfl⟩
abbrev main_call2_cst_1 : Ref sig .tc := ⟨.hbm, 176, rfl⟩
abbrev main_call2_v8 : Ref sig .tc := ⟨.hbm, 177, rfl⟩
abbrev main_call2_cst_2 : Ref sig .tc := ⟨.hbm, 178, rfl⟩
abbrev main_call2_v9 : Ref sig .tc := ⟨.hbm, 179, rfl⟩
abbrev main_call2_v10 : Ref sig .tc := ⟨.hbm, 180, rfl⟩
abbrev main_call2_v11 : Ref sig .tc := ⟨.hbm, 181, rfl⟩
abbrev main_call2_cst_3 : Ref sig .tc := ⟨.hbm, 182, rfl⟩
abbrev main_call2_v12 : Ref sig .tc := ⟨.hbm, 183, rfl⟩
abbrev main_call2_cst_4 : Ref sig .tc := ⟨.hbm, 184, rfl⟩
abbrev main_call2_call0_v0 : Ref sig .tc := ⟨.hbm, 185, rfl⟩
abbrev main_call2_call0_v1 : Ref sig .tc := ⟨.hbm, 186, rfl⟩
abbrev main_v94 : Ref sig .tc := ⟨.hbm, 187, rfl⟩
abbrev main_v95 : Ref sig .tc := ⟨.hbm, 188, rfl⟩
abbrev main_v96 : Ref sig .tc := ⟨.hbm, 189, rfl⟩
abbrev main_v97 : Ref sig .tc := ⟨.hbm, 190, rfl⟩
abbrev main_v98 : Ref sig .tc := ⟨.hbm, 191, rfl⟩
abbrev main_v99 : Ref sig .tc := ⟨.hbm, 192, rfl⟩
abbrev main_v100 : Ref sig .tc := ⟨.hbm, 193, rfl⟩
abbrev main_v101 : Ref sig .tc := ⟨.hbm, 194, rfl⟩
abbrev main_v102 : Ref sig .tc := ⟨.hbm, 195, rfl⟩
abbrev main_v103 : Ref sig .tc := ⟨.hbm, 196, rfl⟩
abbrev main_v104 : Ref sig .tc := ⟨.hbm, 197, rfl⟩
abbrev main_v105 : Ref sig .tc := ⟨.hbm, 198, rfl⟩
abbrev main_c_19 : Ref sig .tc := ⟨.hbm, 199, rfl⟩
abbrev main_v106 : Ref sig .tc := ⟨.hbm, 200, rfl⟩
abbrev main_v107 : Ref sig .tc := ⟨.hbm, 201, rfl⟩
abbrev main_c_20 : Ref sig .tc := ⟨.hbm, 202, rfl⟩
abbrev main_v108 : Ref sig .tc := ⟨.hbm, 203, rfl⟩
abbrev main_v109 : Ref sig .tc := ⟨.hbm, 204, rfl⟩
abbrev main_v110 : Ref sig .tc := ⟨.hbm, 205, rfl⟩
abbrev main_v111 : Ref sig .tc := ⟨.hbm, 206, rfl⟩
abbrev main_v112 : Ref sig .tc := ⟨.hbm, 207, rfl⟩
abbrev main_v113 : Ref sig .tc := ⟨.hbm, 208, rfl⟩
abbrev main_cst_21 : Ref sig .tc := ⟨.hbm, 209, rfl⟩
abbrev main_v114 : Ref sig .tc := ⟨.hbm, 210, rfl⟩
abbrev main_v115 : Ref sig .tc := ⟨.hbm, 211, rfl⟩
abbrev main_v116 : Ref sig .tc := ⟨.hbm, 212, rfl⟩
abbrev main_v117 : Ref sig .tc := ⟨.hbm, 213, rfl⟩
abbrev main_v118 : Ref sig .tc := ⟨.hbm, 214, rfl⟩
abbrev main_v119 : Ref sig .tc := ⟨.hbm, 215, rfl⟩
abbrev main_v120 : Ref sig .tc := ⟨.hbm, 216, rfl⟩
abbrev main_cst_22 : Ref sig .tc := ⟨.hbm, 217, rfl⟩
abbrev main_v121 : Ref sig .tc := ⟨.hbm, 218, rfl⟩
abbrev main_cst_23 : Ref sig .tc := ⟨.hbm, 219, rfl⟩
abbrev main_v122 : Ref sig .tc := ⟨.hbm, 220, rfl⟩
abbrev main_v123 : Ref sig .tc := ⟨.hbm, 221, rfl⟩
abbrev main_v124 : Ref sig .tc := ⟨.hbm, 222, rfl⟩
abbrev main_cst_24 : Ref sig .tc := ⟨.hbm, 223, rfl⟩
abbrev main_v125 : Ref sig .tc := ⟨.hbm, 224, rfl⟩
abbrev main_v126 : Ref sig .tc := ⟨.hbm, 225, rfl⟩
abbrev main_v127 : Ref sig .tc := ⟨.hbm, 226, rfl⟩
abbrev main_cst_25 : Ref sig .tc := ⟨.hbm, 227, rfl⟩
abbrev main_v128 : Ref sig .tc := ⟨.hbm, 228, rfl⟩
abbrev main_v129 : Ref sig .tc := ⟨.hbm, 229, rfl⟩
abbrev main_v130 : Ref sig .tc := ⟨.hbm, 230, rfl⟩
abbrev main_v131 : Ref sig .tc := ⟨.hbm, 231, rfl⟩
abbrev main_v132 : Ref sig .tc := ⟨.hbm, 232, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc2_stg7_0 : Ref sig .tc := ⟨.vmem, 27, rfl⟩
abbrev cc2_stg7_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg4_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg5_0 : Ref sig .tc := ⟨.vmem, 44, rfl⟩
abbrev cc4_stg6_0 : Ref sig .tc := ⟨.vmem, 45, rfl⟩
abbrev cc4_stg6_1 : Ref sig .tc := ⟨.vmem, 46, rfl⟩
abbrev cc4_stg7_0 : Ref sig .tc := ⟨.vmem, 47, rfl⟩
abbrev cc4_stg7_1 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg1_1 : Ref sig .tc := ⟨.vmem, 52, rfl⟩
abbrev cc5_stg2_0 : Ref sig .tc := ⟨.vmem, 53, rfl⟩
abbrev cc5_stg2_1 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg4_1 : Ref sig .tc := ⟨.vmem, 57, rfl⟩
abbrev cc6_stg0_0 : Ref sig .tc := ⟨.vmem, 58, rfl⟩
abbrev cc6_stg0_1 : Ref sig .tc := ⟨.vmem, 59, rfl⟩
abbrev cc6_stg1_0 : Ref sig .tc := ⟨.vmem, 60, rfl⟩
abbrev cc6_stg2_0 : Ref sig .tc := ⟨.vmem, 61, rfl⟩
abbrev cc6_stg3_0 : Ref sig .tc := ⟨.vmem, 62, rfl⟩
abbrev cc6_stg4_0 : Ref sig .tc := ⟨.vmem, 63, rfl⟩
abbrev cc6_stg5_0 : Ref sig .tc := ⟨.vmem, 64, rfl⟩
abbrev cc6_stg6_0 : Ref sig .tc := ⟨.vmem, 65, rfl⟩
abbrev cc6_stg6_1 : Ref sig .tc := ⟨.vmem, 66, rfl⟩
abbrev cc6_stg7_0 : Ref sig .tc := ⟨.vmem, 67, rfl⟩
abbrev cc6_stg7_1 : Ref sig .tc := ⟨.vmem, 68, rfl⟩
abbrev cc7_stg0_0 : Ref sig .tc := ⟨.vmem, 69, rfl⟩
abbrev cc7_stg0_1 : Ref sig .tc := ⟨.vmem, 70, rfl⟩
abbrev cc7_stg1_0 : Ref sig .tc := ⟨.vmem, 71, rfl⟩
abbrev cc7_stg1_1 : Ref sig .tc := ⟨.vmem, 72, rfl⟩
abbrev cc7_stg2_0 : Ref sig .tc := ⟨.vmem, 73, rfl⟩
abbrev cc7_stg2_1 : Ref sig .tc := ⟨.vmem, 74, rfl⟩
abbrev cc7_stg3_0 : Ref sig .tc := ⟨.vmem, 75, rfl⟩
abbrev cc7_stg4_0 : Ref sig .tc := ⟨.vmem, 76, rfl⟩
abbrev cc7_stg4_1 : Ref sig .tc := ⟨.vmem, 77, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem6_1 : DmaSem sig := 26
abbrev cc2_sem7_0 : DmaSem sig := 27
abbrev cc2_sem7_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem4_0 : DmaSem sig := 36
abbrev cc3_sem4_1 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem3_0 : DmaSem sig := 42
abbrev cc4_sem4_0 : DmaSem sig := 43
abbrev cc4_sem5_0 : DmaSem sig := 44
abbrev cc4_sem6_0 : DmaSem sig := 45
abbrev cc4_sem6_1 : DmaSem sig := 46
abbrev cc4_sem7_0 : DmaSem sig := 47
abbrev cc4_sem7_1 : DmaSem sig := 48
abbrev cc5_sem0_0 : DmaSem sig := 49
abbrev cc5_sem0_1 : DmaSem sig := 50
abbrev cc5_sem1_0 : DmaSem sig := 51
abbrev cc5_sem1_1 : DmaSem sig := 52
abbrev cc5_sem2_0 : DmaSem sig := 53
abbrev cc5_sem2_1 : DmaSem sig := 54
abbrev cc5_sem3_0 : DmaSem sig := 55
abbrev cc5_sem4_0 : DmaSem sig := 56
abbrev cc5_sem4_1 : DmaSem sig := 57
abbrev cc6_sem0_0 : DmaSem sig := 58
abbrev cc6_sem0_1 : DmaSem sig := 59
abbrev cc6_sem1_0 : DmaSem sig := 60
abbrev cc6_sem2_0 : DmaSem sig := 61
abbrev cc6_sem3_0 : DmaSem sig := 62
abbrev cc6_sem4_0 : DmaSem sig := 63
abbrev cc6_sem5_0 : DmaSem sig := 64
abbrev cc6_sem6_0 : DmaSem sig := 65
abbrev cc6_sem6_1 : DmaSem sig := 66
abbrev cc6_sem7_0 : DmaSem sig := 67
abbrev cc6_sem7_1 : DmaSem sig := 68
abbrev cc7_sem0_0 : DmaSem sig := 69
abbrev cc7_sem0_1 : DmaSem sig := 70
abbrev cc7_sem1_0 : DmaSem sig := 71
abbrev cc7_sem1_1 : DmaSem sig := 72
abbrev cc7_sem2_0 : DmaSem sig := 73
abbrev cc7_sem2_1 : DmaSem sig := 74
abbrev cc7_sem3_0 : DmaSem sig := 75
abbrev cc7_sem4_0 : DmaSem sig := 76
abbrev cc7_sem4_1 : DmaSem sig := 77

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x128 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x1 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S2000x128 .bf16 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S2000x1 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S2000x128 .bf16 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x128 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S2000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  slices_S4x128x128_S1x128x128_0_0_0 : S4x128x128.Slices ![0, 0, 0] S1x128x128
  shapeCasts_S1x128x128_S128x128 : S1x128x128.ShapeCasts S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S128x128_S128x128 : S128x128.ShapeCasts S128x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  slices_S4x128_S1x128_0_0 : S4x128.Slices ![0, 0] S1x128
  shapeCasts_S1x128_S128 : S1x128.ShapeCasts S128
  shapeCasts_S2000x128_S2000x128 : S2000x128.ShapeCasts S2000x128
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  slices_S3x128_S1x128_0_0 : S3x128.Slices ![0, 0] S1x128
  slices_S4x128x128_S1x128x128_1_0_0 : S4x128x128.Slices ![1, 0, 0] S1x128x128
  slices_S4x128_S1x128_1_0 : S4x128.Slices ![1, 0] S1x128
  slices_S3x128_S1x128_1_0 : S3x128.Slices ![1, 0] S1x128
  slices_S4x128x128_S1x128x128_2_0_0 : S4x128x128.Slices ![2, 0, 0] S1x128x128
  slices_S4x128_S1x128_2_0 : S4x128.Slices ![2, 0] S1x128
  slices_S3x128_S1x128_2_0 : S3x128.Slices ![2, 0] S1x128
  slices_S4x128x128_S1x128x128_3_0_0 : S4x128x128.Slices ![3, 0, 0] S1x128x128
  slices_S4x128_S1x128_3_0 : S4x128.Slices ![3, 0] S1x128
  bcast_S_S512 : S_.BroadcastsInDim S512 (![] : Fin 0 → Fin S512.rank)
  bcast_S50000_S50000x1_0 : S50000.BroadcastsInDim S50000x1 (![0] : Fin 1 → Fin S50000x1.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S512_S50000x1_S50000_n_0_0_1_wf : ScatterDims.WF S512 S50000x1 S50000 [] [0] [0] 1
  scatter_S512x128_S50000x1_S50000x128_1_0_0_1_wf : ScatterDims.WF S512x128 S50000x1 S50000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S50000x1.size a
  hwx0_4 : ∀ i : grid0.Coords, EltTy.bits .f32 = 32 ∨ (Rect.block (s := S50000x1) S2000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .bf16 = 32 ∨ (Rect.block (s := S50000x128) S2000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .bf16 = 32 ∨ (Rect.block (s := S50000x128) S2000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x1.size a ≤ S50000x1.size a
  hwx2_6 : ∀ i : grid2.Coords, EltTy.bits .f32 = 32 ∨ (Rect.block (s := S50000x1) S2000x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S50000x128.size a
  hwx2_7 : ∀ i : grid2.Coords, EltTy.bits .bf16 = 32 ∨ (Rect.block (s := S50000x128) S2000x128.size (cc2_transform_7 i) (hinb2_7 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .bf16 = 32 ∨ (Rect.block (s := S50000x128) S2000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x1.size a ≤ S50000x1.size a
  hwx4_6 : ∀ i : grid4.Coords, EltTy.bits .f32 = 32 ∨ (Rect.block (s := S50000x1) S2000x1.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x128.size a ≤ S50000x128.size a
  hwx4_7 : ∀ i : grid4.Coords, EltTy.bits .bf16 = 32 ∨ (Rect.block (s := S50000x128) S2000x128.size (cc4_transform_7 i) (hinb4_7 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .bf16 = 32 ∨ (Rect.block (s := S50000x128) S2000x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x128.size a ≤ S50000x128.size a
  hwx5_4 : ∀ i : grid5.Coords, EltTy.bits .f32 = 32 ∨ (Rect.block (s := S50000x128) S2000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x1.size a ≤ S50000x1.size a
  hwx6_6 : ∀ i : grid6.Coords, EltTy.bits .f32 = 32 ∨ (Rect.block (s := S50000x1) S2000x1.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S2000x128.size a ≤ S50000x128.size a
  hwx6_7 : ∀ i : grid6.Coords, EltTy.bits .bf16 = 32 ∨ (Rect.block (s := S50000x128) S2000x128.size (cc6_transform_7 i) (hinb6_7 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x128.size a ≤ S50000x128.size a
  hwx7_1 : ∀ i : grid7.Coords, EltTy.bits .bf16 = 32 ∨ (Rect.block (s := S50000x128) S2000x128.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x1.size a ≤ S50000x1.size a
  hwx7_2 : ∀ i : grid7.Coords, EltTy.bits .f32 = 32 ∨ (Rect.block (s := S50000x1) S2000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x128.size a ≤ S50000x128.size a
  hwx7_4 : ∀ i : grid7.Coords, EltTy.bits .f32 = 32 ∨ (Rect.block (s := S50000x128) S2000x128.size (cc7_transform_4 i) (hinb7_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v30) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v11) S2000x1.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v45) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v56) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v60) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v73) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v74) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v70) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v11) S2000x1.size cc4_transform_6 reads4_6 false false 2 stage4_6 sem4_6
    hrank4 hreads4_6 hinb4_6 nbuf4_6 (Memref.isWhole_whole _) hwx4_6 hstage4_6

abbrev win4_7 : Pipeline.Window sig grid4 :=
  Pipeline.Window.ofSpec (Memref.whole main_v75) S2000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v86) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v11) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v89) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v90) S2000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v90) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v101) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v102) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v103) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v104) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v100) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v11) S2000x1.size cc6_transform_6 reads6_6 false false 2 stage6_6 sem6_6
    hrank6 hreads6_6 hinb6_6 nbuf6_6 (Memref.isWhole_whole _) hwx6_6 hstage6_6

abbrev win6_7 : Pipeline.Window sig grid6 :=
  Pipeline.Window.ofSpec (Memref.whole main_v105) S2000x128.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v116) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v105) S2000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v11) S2000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v119) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v120) S2000x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x128 : Shape := ⟨2, ![1, 128]⟩
abbrev S1x128x128 : Shape := ⟨3, ![1, 128, 128]⟩
abbrev S800000x128 : Shape := ⟨2, ![800000, 128]⟩
abbrev S50000x1 : Shape := ⟨2, ![50000, 1]⟩
abbrev S512 : Shape := ⟨1, ![512]⟩
abbrev S512x128 : Shape := ⟨2, ![512, 128]⟩
abbrev S512x1 : Shape := ⟨2, ![512, 1]⟩

abbrev nBuf : Space → Nat
  | .hbm => 388
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S4x128x128, .f32⟩
  | 6 => ⟨S4x128, .f32⟩
  | 7 => ⟨S3x128, .f32⟩
  | 8 => ⟨S3x128, .f32⟩
  | 9 => ⟨S1x800000, .i32⟩
  | 10 => ⟨S800000, .i32⟩
  | 11 => ⟨S1x800000, .i32⟩
  | 12 => ⟨S800000, .i32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S50000x128, .f32⟩
  | 24 => ⟨S1x128, .f32⟩
  | 25 => ⟨S50000x128, .f32⟩
  | 26 => ⟨S50000x128, .f32⟩
  | 27 => ⟨S1x128x128, .f32⟩
  | 28 => ⟨S128x128, .f32⟩
  | 29 => ⟨S1x128, .f32⟩
  | 30 => ⟨S128, .f32⟩
  | 31 => ⟨S50000x128, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S800000x1, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x128, .f32⟩
  | 61 => ⟨S800000x128, .f32⟩
  | 62 => ⟨S800000x128, .f32⟩
  | 63 => ⟨S_, .f32⟩
  | 64 => ⟨S50000x128, .f32⟩
  | 65 => ⟨S800000x1, .i32⟩
  | 66 => ⟨S50000x128, .f32⟩
  | 67 => ⟨S50000, .f32⟩
  | 68 => ⟨S50000x1, .f32⟩
  | 69 => ⟨S50000x128, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S1x128, .f32⟩
  | 79 => ⟨S128, .f32⟩
  | 80 => ⟨S1x128, .f32⟩
  | 81 => ⟨S128, .f32⟩
  | 82 => ⟨S_, .f32⟩
  | 83 => ⟨S128, .f32⟩
  | 84 => ⟨S_, .f32⟩
  | 85 => ⟨S128, .f32⟩
  | 86 => ⟨S128, .f32⟩
  | 87 => ⟨S_, .i32⟩
  | 88 => ⟨S_, .f32⟩
  | 89 => ⟨S128, .f32⟩
  | 90 => ⟨S1x128, .f32⟩
  | 91 => ⟨S_, .f32⟩
  | 92 => ⟨S1x128, .f32⟩
  | 93 => ⟨S1x128, .f32⟩
  | 94 => ⟨S50000x128, .f32⟩
  | 95 => ⟨S50000x128, .f32⟩
  | 96 => ⟨S50000x128, .f32⟩
  | 97 => ⟨S_, .f32⟩
  | 98 => ⟨S_, .f32⟩
  | 99 => ⟨S_, .f32⟩
  | 100 => ⟨S_, .f32⟩
  | 101 => ⟨S128, .f32⟩
  | 102 => ⟨S128, .f32⟩
  | 103 => ⟨S128, .f32⟩
  | 104 => ⟨S_, .f32⟩
  | 105 => ⟨S_, .i1⟩
  | 106 => ⟨S_, .f32⟩
  | 107 => ⟨S_, .f32⟩
  | 108 => ⟨S128, .f32⟩
  | 109 => ⟨S128, .f32⟩
  | 110 => ⟨S1x128, .f32⟩
  | 111 => ⟨S50000x128, .f32⟩
  | 112 => ⟨S50000x128, .f32⟩
  | 113 => ⟨S_, .f32⟩
  | 114 => ⟨S128, .f32⟩
  | 115 => ⟨S128, .f32⟩
  | 116 => ⟨S128, .f32⟩
  | 117 => ⟨S1x128, .f32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S1x128, .f32⟩
  | 124 => ⟨S50000x128, .f32⟩
  | 125 => ⟨S50000x128, .f32⟩
  | 126 => ⟨S1x128x128, .f32⟩
  | 127 => ⟨S128x128, .f32⟩
  | _ => ⟨S50000x128, .f32⟩

abbrev hbmTy0_1 (i : Nat) : BufTy := match i % 128 with
  | 0 => ⟨S1x128, .f32⟩
  | 1 => ⟨S128, .f32⟩
  | 2 => ⟨S50000x128, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000, .f32⟩
  | 21 => ⟨S800000, .f32⟩
  | 22 => ⟨S800000x1, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x128, .f32⟩
  | 32 => ⟨S800000x128, .f32⟩
  | 33 => ⟨S800000x128, .f32⟩
  | 34 => ⟨S_, .f32⟩
  | 35 => ⟨S50000x128, .f32⟩
  | 36 => ⟨S800000x1, .i32⟩
  | 37 => ⟨S50000x128, .f32⟩
  | 38 => ⟨S50000, .f32⟩
  | 39 => ⟨S50000x1, .f32⟩
  | 40 => ⟨S50000x128, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S1x128, .f32⟩
  | 50 => ⟨S128, .f32⟩
  | 51 => ⟨S1x128, .f32⟩
  | 52 => ⟨S128, .f32⟩
  | 53 => ⟨S_, .f32⟩
  | 54 => ⟨S128, .f32⟩
  | 55 => ⟨S_, .f32⟩
  | 56 => ⟨S128, .f32⟩
  | 57 => ⟨S128, .f32⟩
  | 58 => ⟨S_, .i32⟩
  | 59 => ⟨S_, .f32⟩
  | 60 => ⟨S128, .f32⟩
  | 61 => ⟨S1x128, .f32⟩
  | 62 => ⟨S_, .f32⟩
  | 63 => ⟨S1x128, .f32⟩
  | 64 => ⟨S1x128, .f32⟩
  | 65 => ⟨S50000x128, .f32⟩
  | 66 => ⟨S50000x128, .f32⟩
  | 67 => ⟨S50000x128, .f32⟩
  | 68 => ⟨S_, .f32⟩
  | 69 => ⟨S_, .f32⟩
  | 70 => ⟨S_, .f32⟩
  | 71 => ⟨S_, .f32⟩
  | 72 => ⟨S128, .f32⟩
  | 73 => ⟨S128, .f32⟩
  | 74 => ⟨S128, .f32⟩
  | 75 => ⟨S_, .f32⟩
  | 76 => ⟨S_, .i1⟩
  | 77 => ⟨S_, .f32⟩
  | 78 => ⟨S_, .f32⟩
  | 79 => ⟨S128, .f32⟩
  | 80 => ⟨S128, .f32⟩
  | 81 => ⟨S1x128, .f32⟩
  | 82 => ⟨S50000x128, .f32⟩
  | 83 => ⟨S50000x128, .f32⟩
  | 84 => ⟨S_, .f32⟩
  | 85 => ⟨S128, .f32⟩
  | 86 => ⟨S128, .f32⟩
  | 87 => ⟨S128, .f32⟩
  | 88 => ⟨S1x128, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S1x128x128, .f32⟩
  | 98 => ⟨S128x128, .f32⟩
  | 99 => ⟨S1x128, .f32⟩
  | 100 => ⟨S128, .f32⟩
  | 101 => ⟨S50000x128, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000, .f32⟩
  | 120 => ⟨S800000, .f32⟩
  | 121 => ⟨S800000x1, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x128, .f32⟩

abbrev hbmTy0_2 (i : Nat) : BufTy := match i % 128 with
  | 0 => ⟨S800000, .i32⟩
  | 1 => ⟨S800000x1, .i32⟩
  | 2 => ⟨S800000x128, .f32⟩
  | 3 => ⟨S800000x128, .f32⟩
  | 4 => ⟨S800000x128, .f32⟩
  | 5 => ⟨S_, .f32⟩
  | 6 => ⟨S50000x128, .f32⟩
  | 7 => ⟨S800000x1, .i32⟩
  | 8 => ⟨S50000x128, .f32⟩
  | 9 => ⟨S50000, .f32⟩
  | 10 => ⟨S50000x1, .f32⟩
  | 11 => ⟨S50000x128, .f32⟩
  | 12 => ⟨S50000x128, .f32⟩
  | 13 => ⟨S50000x128, .f32⟩
  | 14 => ⟨S1x128, .f32⟩
  | 15 => ⟨S50000x128, .f32⟩
  | 16 => ⟨S50000x128, .f32⟩
  | 17 => ⟨S_, .f32⟩
  | 18 => ⟨S50000x128, .f32⟩
  | 19 => ⟨S50000x128, .f32⟩
  | 20 => ⟨S1x128, .f32⟩
  | 21 => ⟨S128, .f32⟩
  | 22 => ⟨S1x128, .f32⟩
  | 23 => ⟨S128, .f32⟩
  | 24 => ⟨S_, .f32⟩
  | 25 => ⟨S128, .f32⟩
  | 26 => ⟨S_, .f32⟩
  | 27 => ⟨S128, .f32⟩
  | 28 => ⟨S128, .f32⟩
  | 29 => ⟨S_, .i32⟩
  | 30 => ⟨S_, .f32⟩
  | 31 => ⟨S128, .f32⟩
  | 32 => ⟨S1x128, .f32⟩
  | 33 => ⟨S_, .f32⟩
  | 34 => ⟨S1x128, .f32⟩
  | 35 => ⟨S1x128, .f32⟩
  | 36 => ⟨S50000x128, .f32⟩
  | 37 => ⟨S50000x128, .f32⟩
  | 38 => ⟨S50000x128, .f32⟩
  | 39 => ⟨S_, .f32⟩
  | 40 => ⟨S_, .f32⟩
  | 41 => ⟨S_, .f32⟩
  | 42 => ⟨S_, .f32⟩
  | 43 => ⟨S128, .f32⟩
  | 44 => ⟨S128, .f32⟩
  | 45 => ⟨S128, .f32⟩
  | 46 => ⟨S_, .f32⟩
  | 47 => ⟨S_, .i1⟩
  | 48 => ⟨S_, .f32⟩
  | 49 => ⟨S_, .f32⟩
  | 50 => ⟨S128, .f32⟩
  | 51 => ⟨S128, .f32⟩
  | 52 => ⟨S1x128, .f32⟩
  | 53 => ⟨S50000x128, .f32⟩
  | 54 => ⟨S50000x128, .f32⟩
  | 55 => ⟨S_, .f32⟩
  | 56 => ⟨S128, .f32⟩
  | 57 => ⟨S128, .f32⟩
  | 58 => ⟨S128, .f32⟩
  | 59 => ⟨S1x128, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S1x128, .f32⟩
  | 66 => ⟨S50000x128, .f32⟩
  | 67 => ⟨S50000x128, .f32⟩
  | 68 => ⟨S1x128x128, .f32⟩
  | 69 => ⟨S128x128, .f32⟩
  | 70 => ⟨S1x128, .f32⟩
  | 71 => ⟨S128, .f32⟩
  | 72 => ⟨S50000x128, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000, .f32⟩
  | 91 => ⟨S800000, .f32⟩
  | 92 => ⟨S800000x1, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x128, .f32⟩
  | 102 => ⟨S800000x128, .f32⟩
  | 103 => ⟨S800000x128, .f32⟩
  | 104 => ⟨S_, .f32⟩
  | 105 => ⟨S50000x128, .f32⟩
  | 106 => ⟨S800000x1, .i32⟩
  | 107 => ⟨S50000x128, .f32⟩
  | 108 => ⟨S50000, .f32⟩
  | 109 => ⟨S50000x1, .f32⟩
  | 110 => ⟨S50000x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S_, .f32⟩
  | 117 => ⟨S50000, .f32⟩
  | 118 => ⟨S_, .f32⟩
  | 119 => ⟨S512, .f32⟩
  | 120 => ⟨S50000x1, .i32⟩
  | 121 => ⟨S512, .f32⟩
  | 122 => ⟨S_, .f32⟩
  | 123 => ⟨S512x128, .f32⟩
  | 124 => ⟨S50000x1, .i32⟩
  | 125 => ⟨S512x128, .f32⟩
  | 126 => ⟨S_, .f32⟩
  | 127 => ⟨S512, .f32⟩
  | _ => ⟨S50000x128, .f32⟩

abbrev hbmTy0_3 (i : Nat) : BufTy := match i % 128 with
  | 0 => ⟨S512, .f32⟩
  | 1 => ⟨S512x1, .f32⟩
  | 2 => ⟨S512x128, .f32⟩
  | 3 => ⟨S512x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_3 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_5 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_call0_cst : Ref sig .tc := ⟨.hbm, 75, rfl⟩
abbrev main_call0_v0 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_8 : Ref sig .tc := ⟨.hbm, 82, rfl⟩
abbrev main_v61 : Ref sig .tc := ⟨.hbm, 83, rfl⟩
abbrev main_cst_9 : Ref sig .tc := ⟨.hbm, 84, rfl⟩
abbrev main_v62 : Ref sig .tc := ⟨.hbm, 85, rfl⟩
abbrev main_v63 : Ref sig .tc := ⟨.hbm, 86, rfl⟩
abbrev main_c_10 : Ref sig .tc := ⟨.hbm, 87, rfl⟩
abbrev main_call1_cst : Ref sig .tc := ⟨.hbm, 88, rfl⟩
abbrev main_call1_v0 : Ref sig .tc := ⟨.hbm, 89, rfl⟩
abbrev main_call1_v1 : Ref sig .tc := ⟨.hbm, 90, rfl⟩
abbrev main_call1_cst_0 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_call1_v5 : Ref sig .tc := ⟨.hbm, 95, rfl⟩
abbrev main_call1_v6 : Ref sig .tc := ⟨.hbm, 96, rfl⟩
abbrev main_call1_v7 : Ref sig .tc := ⟨.hbm, 97, rfl⟩
abbrev main_call1_cst_1 : Ref sig .tc := ⟨.hbm, 98, rfl⟩
abbrev main_call1_v8 : Ref sig .tc := ⟨.hbm, 99, rfl⟩
abbrev main_call1_cst_2 : Ref sig .tc := ⟨.hbm, 100, rfl⟩
abbrev main_call1_v9 : Ref sig .tc := ⟨.hbm, 101, rfl⟩
abbrev main_call1_v10 : Ref sig .tc := ⟨.hbm, 102, rfl⟩
abbrev main_call1_v11 : Ref sig .tc := ⟨.hbm, 103, rfl⟩
abbrev main_call1_cst_3 : Ref sig .tc := ⟨.hbm, 104, rfl⟩
abbrev main_call1_v12 : Ref sig .tc := ⟨.hbm, 105, rfl⟩
abbrev main_call1_cst_4 : Ref sig .tc := ⟨.hbm, 106, rfl⟩
abbrev main_call1_call0_v0 : Ref sig .tc := ⟨.hbm, 107, rfl⟩
abbrev main_call1_call0_v1 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_cst_11 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_c_12 : Ref sig .tc := ⟨.hbm, 131, rfl⟩
abbrev main_v85 : Ref sig .tc := ⟨.hbm, 132, rfl⟩
abbrev main_v86 : Ref sig .tc := ⟨.hbm, 133, rfl⟩
abbrev main_c_13 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_c_14 : Ref sig .tc := ⟨.hbm, 140, rfl⟩
abbrev main_v92 : Ref sig .tc := ⟨.hbm, 141, rfl⟩
abbrev main_v93 : Ref sig .tc := ⟨.hbm, 142, rfl⟩
abbrev main_c_15 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_c_16 : Ref sig .tc := ⟨.hbm, 151, rfl⟩
abbrev main_v101 : Ref sig .tc := ⟨.hbm, 152, rfl⟩
abbrev main_v102 : Ref sig .tc := ⟨.hbm, 153, rfl⟩
abbrev main_c_17 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_cst_18 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_call2_cst : Ref sig .tc := ⟨.hbm, 174, rfl⟩
abbrev main_call2_v0 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_cst_19 : Ref sig .tc := ⟨.hbm, 181, rfl⟩
abbrev main_v126 : Ref sig .tc := ⟨.hbm, 182, rfl⟩
abbrev main_cst_20 : Ref sig .tc := ⟨.hbm, 183, rfl⟩
abbrev main_v127 : Ref sig .tc := ⟨.hbm, 184, rfl⟩
abbrev main_v128 : Ref sig .tc := ⟨.hbm, 185, rfl⟩
abbrev main_c_21 : Ref sig .tc := ⟨.hbm, 186, rfl⟩
abbrev main_call3_cst : Ref sig .tc := ⟨.hbm, 187, rfl⟩
abbrev main_call3_v0 : Ref sig .tc := ⟨.hbm, 188, rfl⟩
abbrev main_call3_v1 : Ref sig .tc := ⟨.hbm, 189, rfl⟩
abbrev main_call3_cst_0 : Ref sig .tc := ⟨.hbm, 190, rfl⟩
abbrev main_call3_v2 : Ref sig .tc := ⟨.hbm, 191, rfl⟩
abbrev main_call3_v3 : Ref sig .tc := ⟨.hbm, 192, rfl⟩
abbrev main_call3_v4 : Ref sig .tc := ⟨.hbm, 193, rfl⟩
abbrev main_call3_v5 : Ref sig .tc := ⟨.hbm, 194, rfl⟩
abbrev main_call3_v6 : Ref sig .tc := ⟨.hbm, 195, rfl⟩
abbrev main_call3_v7 : Ref sig .tc := ⟨.hbm, 196, rfl⟩
abbrev main_call3_cst_1 : Ref sig .tc := ⟨.hbm, 197, rfl⟩
abbrev main_call3_v8 : Ref sig .tc := ⟨.hbm, 198, rfl⟩
abbrev main_call3_cst_2 : Ref sig .tc := ⟨.hbm, 199, rfl⟩
abbrev main_call3_v9 : Ref sig .tc := ⟨.hbm, 200, rfl⟩
abbrev main_call3_v10 : Ref sig .tc := ⟨.hbm, 201, rfl⟩
abbrev main_call3_v11 : Ref sig .tc := ⟨.hbm, 202, rfl⟩
abbrev main_call3_cst_3 : Ref sig .tc := ⟨.hbm, 203, rfl⟩
abbrev main_call3_v12 : Ref sig .tc := ⟨.hbm, 204, rfl⟩
abbrev main_call3_cst_4 : Ref sig .tc := ⟨.hbm, 205, rfl⟩
abbrev main_call3_call0_v0 : Ref sig .tc := ⟨.hbm, 206, rfl⟩
abbrev main_call3_call0_v1 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_cst_22 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_c_23 : Ref sig .tc := ⟨.hbm, 230, rfl⟩
abbrev main_v150 : Ref sig .tc := ⟨.hbm, 231, rfl⟩
abbrev main_v151 : Ref sig .tc := ⟨.hbm, 232, rfl⟩
abbrev main_c_24 : Ref sig .tc := ⟨.hbm, 233, rfl⟩
abbrev main_v152 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_c_25 : Ref sig .tc := ⟨.hbm, 239, rfl⟩
abbrev main_v157 : Ref sig .tc := ⟨.hbm, 240, rfl⟩
abbrev main_v158 : Ref sig .tc := ⟨.hbm, 241, rfl⟩
abbrev main_c_26 : Ref sig .tc := ⟨.hbm, 242, rfl⟩
abbrev main_v159 : Ref sig .tc := ⟨.hbm, 243, rfl⟩
abbrev main_v160 : Ref sig .tc := ⟨.hbm, 244, rfl⟩
abbrev main_v161 : Ref sig .tc := ⟨.hbm, 245, rfl⟩
abbrev main_v162 : Ref sig .tc := ⟨.hbm, 246, rfl⟩
abbrev main_v163 : Ref sig .tc := ⟨.hbm, 247, rfl⟩
abbrev main_v164 : Ref sig .tc := ⟨.hbm, 248, rfl⟩
abbrev main_v165 : Ref sig .tc := ⟨.hbm, 249, rfl⟩
abbrev main_c_27 : Ref sig .tc := ⟨.hbm, 250, rfl⟩
abbrev main_v166 : Ref sig .tc := ⟨.hbm, 251, rfl⟩
abbrev main_v167 : Ref sig .tc := ⟨.hbm, 252, rfl⟩
abbrev main_c_28 : Ref sig .tc := ⟨.hbm, 253, rfl⟩
abbrev main_v168 : Ref sig .tc := ⟨.hbm, 254, rfl⟩
abbrev main_v169 : Ref sig .tc := ⟨.hbm, 255, rfl⟩
abbrev main_v170 : Ref sig .tc := ⟨.hbm, 256, rfl⟩
abbrev main_v171 : Ref sig .tc := ⟨.hbm, 257, rfl⟩
abbrev main_v172 : Ref sig .tc := ⟨.hbm, 258, rfl⟩
abbrev main_v173 : Ref sig .tc := ⟨.hbm, 259, rfl⟩
abbrev main_v174 : Ref sig .tc := ⟨.hbm, 260, rfl⟩
abbrev main_cst_29 : Ref sig .tc := ⟨.hbm, 261, rfl⟩
abbrev main_v175 : Ref sig .tc := ⟨.hbm, 262, rfl⟩
abbrev main_v176 : Ref sig .tc := ⟨.hbm, 263, rfl⟩
abbrev main_v177 : Ref sig .tc := ⟨.hbm, 264, rfl⟩
abbrev main_v178 : Ref sig .tc := ⟨.hbm, 265, rfl⟩
abbrev main_v179 : Ref sig .tc := ⟨.hbm, 266, rfl⟩
abbrev main_v180 : Ref sig .tc := ⟨.hbm, 267, rfl⟩
abbrev main_v181 : Ref sig .tc := ⟨.hbm, 268, rfl⟩
abbrev main_v182 : Ref sig .tc := ⟨.hbm, 269, rfl⟩
abbrev main_v183 : Ref sig .tc := ⟨.hbm, 270, rfl⟩
abbrev main_v184 : Ref sig .tc := ⟨.hbm, 271, rfl⟩
abbrev main_v185 : Ref sig .tc := ⟨.hbm, 272, rfl⟩
abbrev main_call4_cst : Ref sig .tc := ⟨.hbm, 273, rfl⟩
abbrev main_call4_v0 : Ref sig .tc := ⟨.hbm, 274, rfl⟩
abbrev main_v186 : Ref sig .tc := ⟨.hbm, 275, rfl⟩
abbrev main_v187 : Ref sig .tc := ⟨.hbm, 276, rfl⟩
abbrev main_v188 : Ref sig .tc := ⟨.hbm, 277, rfl⟩
abbrev main_v189 : Ref sig .tc := ⟨.hbm, 278, rfl⟩
abbrev main_v190 : Ref sig .tc := ⟨.hbm, 279, rfl⟩
abbrev main_cst_30 : Ref sig .tc := ⟨.hbm, 280, rfl⟩
abbrev main_v191 : Ref sig .tc := ⟨.hbm, 281, rfl⟩
abbrev main_cst_31 : Ref sig .tc := ⟨.hbm, 282, rfl⟩
abbrev main_v192 : Ref sig .tc := ⟨.hbm, 283, rfl⟩
abbrev main_v193 : Ref sig .tc := ⟨.hbm, 284, rfl⟩
abbrev main_c_32 : Ref sig .tc := ⟨.hbm, 285, rfl⟩
abbrev main_call5_cst : Ref sig .tc := ⟨.hbm, 286, rfl⟩
abbrev main_call5_v0 : Ref sig .tc := ⟨.hbm, 287, rfl⟩
abbrev main_call5_v1 : Ref sig .tc := ⟨.hbm, 288, rfl⟩
abbrev main_call5_cst_0 : Ref sig .tc := ⟨.hbm, 289, rfl⟩
abbrev main_call5_v2 : Ref sig .tc := ⟨.hbm, 290, rfl⟩
abbrev main_call5_v3 : Ref sig .tc := ⟨.hbm, 291, rfl⟩
abbrev main_call5_v4 : Ref sig .tc := ⟨.hbm, 292, rfl⟩
abbrev main_call5_v5 : Ref sig .tc := ⟨.hbm, 293, rfl⟩
abbrev main_call5_v6 : Ref sig .tc := ⟨.hbm, 294, rfl⟩
abbrev main_call5_v7 : Ref sig .tc := ⟨.hbm, 295, rfl⟩
abbrev main_call5_cst_1 : Ref sig .tc := ⟨.hbm, 296, rfl⟩
abbrev main_call5_v8 : Ref sig .tc := ⟨.hbm, 297, rfl⟩
abbrev main_call5_cst_2 : Ref sig .tc := ⟨.hbm, 298, rfl⟩
abbrev main_call5_v9 : Ref sig .tc := ⟨.hbm, 299, rfl⟩
abbrev main_call5_v10 : Ref sig .tc := ⟨.hbm, 300, rfl⟩
abbrev main_call5_v11 : Ref sig .tc := ⟨.hbm, 301, rfl⟩
abbrev main_call5_cst_3 : Ref sig .tc := ⟨.hbm, 302, rfl⟩
abbrev main_call5_v12 : Ref sig .tc := ⟨.hbm, 303, rfl⟩
abbrev main_call5_cst_4 : Ref sig .tc := ⟨.hbm, 304, rfl⟩
abbrev main_call5_call0_v0 : Ref sig .tc := ⟨.hbm, 305, rfl⟩
abbrev main_call5_call0_v1 : Ref sig .tc := ⟨.hbm, 306, rfl⟩
abbrev main_v194 : Ref sig .tc := ⟨.hbm, 307, rfl⟩
abbrev main_v195 : Ref sig .tc := ⟨.hbm, 308, rfl⟩
abbrev main_v196 : Ref sig .tc := ⟨.hbm, 309, rfl⟩
abbrev main_v197 : Ref sig .tc := ⟨.hbm, 310, rfl⟩
abbrev main_cst_33 : Ref sig .tc := ⟨.hbm, 311, rfl⟩
abbrev main_v198 : Ref sig .tc := ⟨.hbm, 312, rfl⟩
abbrev main_v199 : Ref sig .tc := ⟨.hbm, 313, rfl⟩
abbrev main_v200 : Ref sig .tc := ⟨.hbm, 314, rfl⟩
abbrev main_v201 : Ref sig .tc := ⟨.hbm, 315, rfl⟩
abbrev main_v202 : Ref sig .tc := ⟨.hbm, 316, rfl⟩
abbrev main_v203 : Ref sig .tc := ⟨.hbm, 317, rfl⟩
abbrev main_v204 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_v208 : Ref sig .tc := ⟨.hbm, 322, rfl⟩
abbrev main_v209 : Ref sig .tc := ⟨.hbm, 323, rfl⟩
abbrev main_v210 : Ref sig .tc := ⟨.hbm, 324, rfl⟩
abbrev main_v211 : Ref sig .tc := ⟨.hbm, 325, rfl⟩
abbrev main_v212 : Ref sig .tc := ⟨.hbm, 326, rfl⟩
abbrev main_v213 : Ref sig .tc := ⟨.hbm, 327, rfl⟩
abbrev main_v214 : Ref sig .tc := ⟨.hbm, 328, rfl⟩
abbrev main_c_34 : Ref sig .tc := ⟨.hbm, 329, rfl⟩
abbrev main_v215 : Ref sig .tc := ⟨.hbm, 330, rfl⟩
abbrev main_v216 : Ref sig .tc := ⟨.hbm, 331, rfl⟩
abbrev main_c_35 : Ref sig .tc := ⟨.hbm, 332, rfl⟩
abbrev main_v217 : Ref sig .tc := ⟨.hbm, 333, rfl⟩
abbrev main_v218 : Ref sig .tc := ⟨.hbm, 334, rfl⟩
abbrev main_v219 : Ref sig .tc := ⟨.hbm, 335, rfl⟩
abbrev main_v220 : Ref sig .tc := ⟨.hbm, 336, rfl⟩
abbrev main_v221 : Ref sig .tc := ⟨.hbm, 337, rfl⟩
abbrev main_c_36 : Ref sig .tc := ⟨.hbm, 338, rfl⟩
abbrev main_v222 : Ref sig .tc := ⟨.hbm, 339, rfl⟩
abbrev main_v223 : Ref sig .tc := ⟨.hbm, 340, rfl⟩
abbrev main_c_37 : Ref sig .tc := ⟨.hbm, 341, rfl⟩
abbrev main_v224 : Ref sig .tc := ⟨.hbm, 342, rfl⟩
abbrev main_v225 : Ref sig .tc := ⟨.hbm, 343, rfl⟩
abbrev main_v226 : Ref sig .tc := ⟨.hbm, 344, rfl⟩
abbrev main_v227 : Ref sig .tc := ⟨.hbm, 345, rfl⟩
abbrev main_v228 : Ref sig .tc := ⟨.hbm, 346, rfl⟩
abbrev main_v229 : Ref sig .tc := ⟨.hbm, 347, rfl⟩
abbrev main_v230 : Ref sig .tc := ⟨.hbm, 348, rfl⟩
abbrev main_c_38 : Ref sig .tc := ⟨.hbm, 349, rfl⟩
abbrev main_v231 : Ref sig .tc := ⟨.hbm, 350, rfl⟩
abbrev main_v232 : Ref sig .tc := ⟨.hbm, 351, rfl⟩
abbrev main_c_39 : Ref sig .tc := ⟨.hbm, 352, rfl⟩
abbrev main_v233 : Ref sig .tc := ⟨.hbm, 353, rfl⟩
abbrev main_v234 : Ref sig .tc := ⟨.hbm, 354, rfl⟩
abbrev main_v235 : Ref sig .tc := ⟨.hbm, 355, rfl⟩
abbrev main_v236 : Ref sig .tc := ⟨.hbm, 356, rfl⟩
abbrev main_v237 : Ref sig .tc := ⟨.hbm, 357, rfl⟩
abbrev main_v238 : Ref sig .tc := ⟨.hbm, 358, rfl⟩
abbrev main_v239 : Ref sig .tc := ⟨.hbm, 359, rfl⟩
abbrev main_cst_40 : Ref sig .tc := ⟨.hbm, 360, rfl⟩
abbrev main_v240 : Ref sig .tc := ⟨.hbm, 361, rfl⟩
abbrev main_v241 : Ref sig .tc := ⟨.hbm, 362, rfl⟩
abbrev main_v242 : Ref sig .tc := ⟨.hbm, 363, rfl⟩
abbrev main_v243 : Ref sig .tc := ⟨.hbm, 364, rfl⟩
abbrev main_v244 : Ref sig .tc := ⟨.hbm, 365, rfl⟩
abbrev main_v245 : Ref sig .tc := ⟨.hbm, 366, rfl⟩
abbrev main_v246 : Ref sig .tc := ⟨.hbm, 367, rfl⟩
abbrev main_v247 : Ref sig .tc := ⟨.hbm, 368, rfl⟩
abbrev main_v248 : Ref sig .tc := ⟨.hbm, 369, rfl⟩
abbrev main_v249 : Ref sig .tc := ⟨.hbm, 370, rfl⟩
abbrev main_v250 : Ref sig .tc := ⟨.hbm, 371, rfl⟩
abbrev main_cst_41 : Ref sig .tc := ⟨.hbm, 372, rfl⟩
abbrev main_v251 : Ref sig .tc := ⟨.hbm, 373, rfl⟩
abbrev main_cst_42 : Ref sig .tc := ⟨.hbm, 374, rfl⟩
abbrev main_v252 : Ref sig .tc := ⟨.hbm, 375, rfl⟩
abbrev main_v253 : Ref sig .tc := ⟨.hbm, 376, rfl⟩
abbrev main_v254 : Ref sig .tc := ⟨.hbm, 377, rfl⟩
abbrev main_cst_43 : Ref sig .tc := ⟨.hbm, 378, rfl⟩
abbrev main_v255 : Ref sig .tc := ⟨.hbm, 379, rfl⟩
abbrev main_v256 : Ref sig .tc := ⟨.hbm, 380, rfl⟩
abbrev main_v257 : Ref sig .tc := ⟨.hbm, 381, rfl⟩
abbrev main_cst_44 : Ref sig .tc := ⟨.hbm, 382, rfl⟩
abbrev main_v258 : Ref sig .tc := ⟨.hbm, 383, rfl⟩
abbrev main_v259 : Ref sig .tc := ⟨.hbm, 384, rfl⟩
abbrev main_v260 : Ref sig .tc := ⟨.hbm, 385, rfl⟩
abbrev main_v261 : Ref sig .tc := ⟨.hbm, 386, rfl⟩
abbrev main_v262 : Ref sig .tc := ⟨.hbm, 387, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S3x128_S1x128_0_0 : S3x128.Slices ![0, 0] S1x128
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S4x128x128_S1x128x128_1_0_0 : S4x128x128.Slices ![1, 0, 0] S1x128x128
  slices_S4x128_S1x128_1_0 : S4x128.Slices ![1, 0] S1x128
  slices_S3x128_S1x128_1_0 : S3x128.Slices ![1, 0] S1x128
  slices_S4x128x128_S1x128x128_2_0_0 : S4x128x128.Slices ![2, 0, 0] S1x128x128
  slices_S4x128_S1x128_2_0 : S4x128.Slices ![2, 0] S1x128
  slices_S3x128_S1x128_2_0 : S3x128.Slices ![2, 0] S1x128
  slices_S4x128x128_S1x128x128_3_0_0 : S4x128x128.Slices ![3, 0, 0] S1x128x128
  slices_S4x128_S1x128_3_0 : S4x128.Slices ![3, 0] S1x128
  bcast_S_S512 : S_.BroadcastsInDim S512 (![] : Fin 0 → Fin S512.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S512_S50000x1_S50000_n_0_0_1_wf : ScatterDims.WF S512 S50000x1 S50000 [] [0] [0] 1
  scatter_S512x128_S50000x1_S50000x128_1_0_0_1_wf : ScatterDims.WF S512x128 S50000x1 S50000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf

class Facts : Prop extends Facts₀ where

variable [Facts]
-- ==== Proof.KerRun.lean ====
/- The idealized kernel program's run with its RESULT named: every weakly fair execution of @main terminates,
   nothing faulting, with the result buffer at the last boundary's contents (the fold of the host stretches and the
   eight regions' write-backs over the launch memory) and the arguments as launched. -/
import proofs.«113380_j111669150109_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the program's 23 segments, the final state read at every unscoped buffer; the result buffer is
    one of them. -/
theorem run_result : θ_run defs (onTc (τ := τ) (main (F := F))) ⟨m, fun _ => 0, ρ⟩ (fun r => ∀ c : Dev nD,
      r.2.mem ((c.tc : Thread nD τ).loc main_v132) = W23 m ρ c (Proc.devRef .tc main_v132)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h c =>
      ⟨h c _ (mem_uc main_v132 (by decide)),
       (h c _ (mem_uc main_arg0 (by decide))).trans (W23_main_arg0 m ρ c),
       (h c _ (mem_uc main_arg1 (by decide))).trans (W23_main_arg1 m ρ c),
       (h c _ (mem_uc main_arg2 (by decide))).trans (W23_main_arg2 m ρ c),
       (h c _ (mem_uc main_arg3 (by decide))).trans (W23_main_arg3 m ρ c),
       (h c _ (mem_uc main_arg4 (by decide))).trans (W23_main_arg4 m ρ c),
       (h c _ (mem_uc main_arg5 (by decide))).trans (W23_main_arg5 m ρ c),
       (h c _ (mem_uc main_arg6 (by decide))).trans (W23_main_arg6 m ρ c),
       (h c _ (mem_uc main_arg7 (by decide))).trans (W23_main_arg7 m ρ c),
       (h c _ (mem_uc main_arg8 (by decide))).trans (W23_main_arg8 m ρ c)⟩)

end Cert.KernelIdeal.Gen

end
-- ==== Proof.Shared.lean ====
/- The host-side functions both programs apply, written once over literal shapes: the edge endpoints cut out of
   the edge list, the degree weights d = rsqrt(1 + in-degree), the index arrays the gathers and scatters read, the
   per-layer slices of the parameters, the reference's layer (normalised aggregation + self-loop + bias), the
   kernel program's aggregation of gathered rows, the batch-norm statistics (mean and the variance function with
   its degrees-of-freedom guard), the batch-norm affine map, the rectifier and the mean pool over graphs.
   Every side condition of an operation here is a decidable fact about literal shapes. -/
import Idealize.ShloMosaic.PureOps.Ideal

noncomputable section

namespace Cert.Shared

open Idealize.ShloMosaic

variable {F : FTy → Type} [FloatOps F]

abbrev S_ : Shape := ⟨0, ![]⟩
abbrev SE2 : Shape := ⟨2, ![2, 800000]⟩
abbrev S1E : Shape := ⟨2, ![1, 800000]⟩
abbrev SE : Shape := ⟨1, ![800000]⟩
abbrev SE1 : Shape := ⟨2, ![800000, 1]⟩
abbrev SEC : Shape := ⟨2, ![800000, 128]⟩
abbrev SV : Shape := ⟨1, ![50000]⟩
abbrev N1 : Shape := ⟨2, ![50000, 1]⟩
abbrev NH : Shape := ⟨2, ![50000, 128]⟩
abbrev HH : Shape := ⟨2, ![128, 128]⟩
abbrev SH : Shape := ⟨1, ![128]⟩
abbrev R1 : Shape := ⟨2, ![1, 128]⟩
abbrev S4HH : Shape := ⟨3, ![4, 128, 128]⟩
abbrev S1HH : Shape := ⟨3, ![1, 128, 128]⟩
abbrev S4H : Shape := ⟨2, ![4, 128]⟩
abbrev S3H : Shape := ⟨2, ![3, 128]⟩
abbrev SG : Shape := ⟨1, ![512]⟩
abbrev SG1 : Shape := ⟨2, ![512, 1]⟩
abbrev SGH : Shape := ⟨2, ![512, 128]⟩

/-- Dimension numbers: the degree count (scalar updates scattered over nodes). -/
def sdDeg : ScatterDims SV SE1 SE := ⟨[], [0], [0], 1, by decide⟩
/-- Dimension numbers: rows of channels scattered over nodes. -/
def sdRows : ScatterDims NH SE1 SEC := ⟨[1], [0], [0], 1, by decide⟩
/-- Dimension numbers: a node scalar gathered per edge. -/
def gdVec : GatherDims SV SE1 SE := ⟨[], [0], [], [], [0], 1, ![1], by decide⟩
/-- Dimension numbers: a node row gathered per edge. -/
def gdRows : GatherDims NH SE1 SEC := ⟨[1], [0], [], [], [0], 1, ![1, 128], by decide⟩
/-- Dimension numbers: nodes × channels times channels × channels. -/
def dotN : DotDims NH HH NH := ⟨[1], [0], [0], [1], [], [], by decide⟩
/-- Dimension numbers: node count per graph. -/
def sdCnt : ScatterDims SG N1 SV := ⟨[], [0], [0], 1, by decide⟩
/-- Dimension numbers: node rows summed per graph. -/
def sdPool : ScatterDims SGH N1 NH := ⟨[1], [0], [0], 1, by decide⟩

/-- The scalar spread over a shape. -/
abbrev splat (T : Shape) (h : S_.BroadcastsInDim T (![] : Fin 0 → Fin T.rank)) {α : Type} (x : S_.Idx → α) : T.Idx → α :=
  broadcastInDim T ![] h x

/-- Source endpoints of the edges (row 0 of the edge list). -/
def srcOf (e : IVec SE2 32) : IVec SE 32 :=
  shapeCast SE (extractStridedSlice S1E ![0, 0] e (by decide)) (by decide)
/-- Destination endpoints of the edges (row 1 of the edge list). -/
def dstOf (e : IVec SE2 32) : IVec SE 32 :=
  shapeCast SE (extractStridedSlice S1E ![1, 0] e (by decide)) (by decide)

/-- An index vector as the column a scatter or gather reads. -/
def colIdx (x : IVec SE 32) : IVec SE1 32 := broadcastInDim SE1 ![0] (by decide) x
/-- The same with negative words wrapped around by the node count (jnp's indexing). -/
def wrapIdx (x : IVec SE 32) : IVec SE1 32 :=
  broadcastInDim SE1 ![0] (by decide)
    (select (cmpi .slt x (splat SE (by decide) (constantI S_ 32 0#32)))
      (addi x (splat SE (by decide) (constantI S_ 32 50000#32))) x)

/-- The degree weights: rsqrt of one plus the number of edges ending at the node. -/
def dinvF (dst : IVec SE 32) : FVec F SV .f32 :=
  Host.rsqrt (addf
    (Host.scatterAdd sdDeg (splat SV (by decide) (constant S_ .f32 0x00000000#32)) (colIdx dst)
      (splat SE (by decide) (constant S_ .f32 0x3F800000#32)))
    (splat SV (by decide) (constant S_ .f32 0x3F800000#32)))

/-- A vector of channels as a row spread over all nodes. -/
def rowsOf (b : FVec F SH .f32) : FVec F NH .f32 :=
  broadcastInDim NH ![0, 1] (by decide) (broadcastInDim R1 ![1] (by decide) b)

/-- The embedding `x · W + b`. -/
def embF (x : FVec F NH .f32) (W : FVec F HH .f32) (b : FVec F SH .f32) : FVec F NH .f32 :=
  addf (Host.dotGeneral dotN none x W) (rowsOf b)

/-- Layer 0's weight matrix. -/
def sliceW0 (W : FVec F S4HH .f32) : FVec F HH .f32 :=
  shapeCast HH (extractStridedSlice S1HH ![0, 0, 0] W (by decide)) (by decide)
/-- Layer 0's bias. -/
def sliceB0 (b : FVec F S4H .f32) : FVec F SH .f32 :=
  shapeCast SH (extractStridedSlice R1 ![0, 0] b (by decide)) (by decide)
/-- Layer 1's weight matrix. -/
def sliceW1 (W : FVec F S4HH .f32) : FVec F HH .f32 :=
  shapeCast HH (extractStridedSlice S1HH ![1, 0, 0] W (by decide)) (by decide)
/-- Layer 1's bias. -/
def sliceB1 (b : FVec F S4H .f32) : FVec F SH .f32 :=
  shapeCast SH (extractStridedSlice R1 ![1, 0] b (by decide)) (by decide)
/-- Layer 2's weight matrix. -/
def sliceW2 (W : FVec F S4HH .f32) : FVec F HH .f32 :=
  shapeCast HH (extractStridedSlice S1HH ![2, 0, 0] W (by decide)) (by decide)
/-- Layer 2's bias. -/
def sliceB2 (b : FVec F S4H .f32) : FVec F SH .f32 :=
  shapeCast SH (extractStridedSlice R1 ![2, 0] b (by decide)) (by decide)
/-- Layer 3's weight matrix. -/
def sliceW3 (W : FVec F S4HH .f32) : FVec F HH .f32 :=
  shapeCast HH (extractStridedSlice S1HH ![3, 0, 0] W (by decide)) (by decide)
/-- Layer 3's bias. -/
def sliceB3 (b : FVec F S4H .f32) : FVec F SH .f32 :=
  shapeCast SH (extractStridedSlice R1 ![3, 0] b (by decide)) (by decide)
/-- Batch norm 0's scale or shift. -/
def sliceG0 (g : FVec F S3H .f32) : FVec F SH .f32 :=
  shapeCast SH (extractStridedSlice R1 ![0, 0] g (by decide)) (by decide)
/-- Batch norm 1's scale or shift. -/
def sliceG1 (g : FVec F S3H .f32) : FVec F SH .f32 :=
  shapeCast SH (extractStridedSlice R1 ![1, 0] g (by decide)) (by decide)
/-- Batch norm 2's scale or shift. -/
def sliceG2 (g : FVec F S3H .f32) : FVec F SH .f32 :=
  shapeCast SH (extractStridedSlice R1 ![2, 0] g (by decide)) (by decide)

/-- The reference's layer before the rectifier: the normalised aggregation over incoming edges, the self-loop, the bias. -/
def refLayer (hin : FVec F NH .f32) (d : FVec F SV .f32) (src dst : IVec SE 32) (W : FVec F HH .f32) (b : FVec F SH .f32) :
    FVec F NH .f32 :=
  addf
    (addf
      (Host.scatterAdd sdRows (splat NH (by decide) (constant S_ .f32 0x00000000#32)) (colIdx dst)
        (mulf
          (broadcastInDim SEC ![0, 1] (by decide)
            (broadcastInDim SE1 ![0] (by decide)
              (mulf (Host.gather gdVec d (wrapIdx src)) (Host.gather gdVec d (wrapIdx dst)))))
          (Host.gather gdRows (Host.dotGeneral dotN none hin W) (wrapIdx src))))
      (mulf
        (broadcastInDim NH ![0, 1] (by decide) (broadcastInDim N1 ![0] (by decide) (mulf d d)))
        (Host.dotGeneral dotN none hin W)))
    (rowsOf b)

/-- The rectifier. -/
def reluF (x : FVec F NH .f32) : FVec F NH .f32 :=
  maximumf x (splat NH (by decide) (constant S_ .f32 0x00000000#32))

/-- The kernel program's aggregation: rows of `u` gathered per edge, widened, summed per destination. -/
def kerSeg (u : FVec F NH .bf16) (src dst : IVec SE 32) : FVec F NH .f32 :=
  Host.scatterAdd sdRows (splat NH (by decide) (constant S_ .f32 0x00000000#32)) (colIdx dst)
    (extf .f32 (Host.gather gdRows u (wrapIdx src)) (by decide))

/-- The mean over the nodes, per channel. -/
def meanF (x : FVec F NH .f32) : FVec F SH .f32 :=
  Host.divf (Host.reduceAdd x (constant S_ .f32 0x00000000#32) (by decide : NH.ReducesTo [0] SH) (by decide : 0 < S_.numel))
    (splat SH (by decide) (constant S_ .f32 0x47435000#32))

/-- The number of nodes minus the degrees of freedom removed (none), as the variance function computes it. -/
def dofF : FVec F S_ .f32 := subf (constant S_ .f32 0x47435000#32) (sitofp .f32 (constantI S_ 32 0#32))

/-- The variance over the nodes, per channel, as jnp.var spells it. -/
def varF (x : FVec F NH .f32) : FVec F SH .f32 :=
  select (splat SH (by decide) (cmpf .ogt (dofF (F := F)) (constant S_ .f32 0x00000000#32)))
    (Host.divf
      (Host.reduceAdd
        (mulf
          (subf x (broadcastInDim NH ![0, 1] (by decide)
            (Host.divf (broadcastInDim R1 ![1] (by decide) (Host.reduceAdd x (constant S_ .f32 0x00000000#32) (by decide : NH.ReducesTo [0] SH) (by decide : 0 < S_.numel)))
              (splat R1 (by decide) (constant S_ .f32 0x47435000#32)))))
          (subf x (broadcastInDim NH ![0, 1] (by decide)
            (Host.divf (broadcastInDim R1 ![1] (by decide) (Host.reduceAdd x (constant S_ .f32 0x00000000#32) (by decide : NH.ReducesTo [0] SH) (by decide : 0 < S_.numel)))
              (splat R1 (by decide) (constant S_ .f32 0x47435000#32))))))
        (constant S_ .f32 0x00000000#32) (by decide : NH.ReducesTo [0] SH) (by decide : 0 < S_.numel))
      (splat SH (by decide) (dofF (F := F))))
    (splat SH (by decide) (id (constant S_ .f32 0x7FC00000#32)))

/-- Batch normalisation from given statistics: `(x − μ) · rsqrt(σ² + ε) · γ + β`. -/
def bnF (x : FVec F NH .f32) (mu var g beta : FVec F SH .f32) : FVec F NH .f32 :=
  addf
    (mulf
      (mulf (subf x (rowsOf mu))
        (rowsOf (Host.rsqrt (addf var (splat SH (by decide) (constant S_ .f32 0x3727C5AC#32))))))
      (rowsOf g))
    (rowsOf beta)

/-- The mean pool over graphs: node rows summed per graph over the node count per graph (at least one). -/
def poolF (h : FVec F NH .f32) (batch : IVec SV 32) : FVec F SGH .f32 :=
  Host.divf
    (Host.scatterAdd sdPool (splat SGH (by decide) (constant S_ .f32 0x00000000#32)) (broadcastInDim N1 ![0] (by decide) batch) h)
    (broadcastInDim SGH ![0, 1] (by decide)
      (broadcastInDim SG1 ![0] (by decide)
        (maximumf
          (Host.scatterAdd sdCnt (splat SG (by decide) (constant S_ .f32 0x00000000#32)) (broadcastInDim N1 ![0] (by decide) batch)
            (splat SV (by decide) (constant S_ .f32 0x3F800000#32)))
          (splat SG (by decide) (constant S_ .f32 0x3F800000#32)))))

/-- A node vector as a column. -/
def colOf (d : FVec F SV .f32) : FVec F N1 .f32 := shapeCast N1 d (by decide)
/-- A channel vector as a row. -/
def rowOf1 (b : FVec F SH .f32) : FVec F R1 .f32 := shapeCast R1 b (by decide)

end Cert.Shared

end
-- ==== Proof.LibTypedRef.lean ====
/-
  A typed reference's two transports cancel.

  A host operation stated over typed references moves each operand from its buffer's contents to contents at the
  value's type, and the result back.  The two moves are transports along one equation of types, in opposite
  directions, so one after the other is the identity; this holds for any typed reference, with nothing about which
  buffer it is.
-/
import Idealize.ShloMosaic.Lib.StableHlo

namespace Cert.LibTypedRef

open Idealize.ShloMosaic Idealize.ShloMosaic.StableHlo

variable {sig : RefSig} {Val : EltTy → Type} {T : BufTy}

/-- Contents moved to the buffer's type and back are the contents. -/
theorem ofBuf_toBuf (x : TRef sig T) (v : T.Contents Val) : x.ofBuf (x.toBuf v) = v := by
  obtain ⟨r, h, h1, h2⟩ := x
  subst h
  rfl

/-- Contents of the buffer moved to the value's type and back are the contents. -/
theorem toBuf_ofBuf (x : TRef sig T) (v : x.ref.ty.Contents Val) : x.toBuf (x.ofBuf v) = v := by
  obtain ⟨r, h, h1, h2⟩ := x
  subst h
  rfl

end Cert.LibTypedRef
-- ==== Proof.KerHost0.lean ====
/- The first host stretch, read buffer by buffer: the edge list is cut into its source and destination rows, the
   degree weights are computed from the destinations and laid out as a column, the first layer's matrix is cut out of
   the weight table, and the embedding bias is laid out as a row; the arguments pass through unchanged. -/
import proofs.«113380_j111669150109_2_alg».proof.Proof.Gen.KernelIdeal.Launch
import proofs.«113380_j111669150109_2_alg».proof.Proof.Shared
import proofs.«113380_j111669150109_2_alg».proof.Proof.LibTypedRef
import Idealize.ShloMosaic.Lib.StableHlo

set_option maxRecDepth 16384

noncomputable section

namespace Cert.KernelIdeal.KerValue

open Cert.KernelIdeal Cert.KernelIdeal.Gen Idealize.ShloMosaic Idealize.ShloMosaic.TcCoe Idealize.ShloMosaic.StableHlo Idealize.SL.Sem

variable {F : FTy → Type} [FloatOps F]

theorem h0_src (V : Valuation τ sig (Elt F)) :
    StableHlo.after (hostOps0 (F := F)) V (Proc.devRef .tc main_v1) = Cert.Shared.srcOf (V (Proc.devRef .tc main_arg1)) := by
  after_results_simp; rfl

theorem h0_dst (V : Valuation τ sig (Elt F)) :
    StableHlo.after (hostOps0 (F := F)) V (Proc.devRef .tc main_v3) = Cert.Shared.dstOf (V (Proc.devRef .tc main_arg1)) := by
  after_results_simp; rfl

theorem h0_dcol (V : Valuation τ sig (Elt F)) :
    StableHlo.after (hostOps0 (F := F)) V (Proc.devRef .tc main_v11)
      = Cert.Shared.colOf (Cert.Shared.dinvF (F := F) (Cert.Shared.dstOf (V (Proc.devRef .tc main_arg1)))) := by
  after_results_simp; rfl

theorem h0_w0 (V : Valuation τ sig (Elt F)) :
    StableHlo.after (hostOps0 (F := F)) V (Proc.devRef .tc main_v13) = Cert.Shared.sliceW0 (F := F) (V (Proc.devRef .tc main_arg5)) := by
  after_results_simp; rfl

theorem h0_bemb (V : Valuation τ sig (Elt F)) :
    StableHlo.after (hostOps0 (F := F)) V (Proc.devRef .tc main_v14) = Cert.Shared.rowOf1 (F := F) (V (Proc.devRef .tc main_arg4)) := by
  after_results_simp; rfl

theorem h0_keep_arg0 (V : Valuation τ sig (Elt F)) :
    StableHlo.after (hostOps0 (F := F)) V (Proc.devRef .tc main_arg0) = V (Proc.devRef .tc main_arg0) := by after_results_simp
theorem h0_keep_arg2 (V : Valuation τ sig (Elt F)) :
    StableHlo.after (hostOps0 (F := F)) V (Proc.devRef .tc main_arg2) = V (Proc.devRef .tc main_arg2) := by after_results_simp
theorem h0_keep_arg3 (V : Valuation τ sig (Elt F)) :
    StableHlo.after (hostOps0 (F := F)) V (Proc.devRef .tc main_arg3) = V (Proc.devRef .tc main_arg3) := by after_results_simp
theorem h0_keep_arg5 (V : Valuation τ sig (Elt F)) :
    StableHlo.after (hostOps0 (F := F)) V (Proc.devRef .tc main_arg5) = V (Proc.devRef .tc main_arg5) := by after_results_simp
theorem h0_keep_arg6 (V : Valuation τ sig (Elt F)) :
    StableHlo.after (hostOps0 (F := F)) V (Proc.devRef .tc main_arg6) = V (Proc.devRef .tc main_arg6) := by after_results_simp
theorem h0_keep_arg7 (V : Valuation τ sig (Elt F)) :
    StableHlo.after (hostOps0 (F := F)) V (Proc.devRef .tc main_arg7) = V (Proc.devRef .tc main_arg7) := by after_results_simp
theorem h0_keep_arg8 (V : Valuation τ sig (Elt F)) :
    StableHlo.after (hostOps0 (F := F)) V (Proc.devRef .tc main_arg8) = V (Proc.devRef .tc main_arg8) := by after_results_simp

end Cert.KernelIdeal.KerValue

end
-- ==== Proof.KerHostSeg.lean ====
/- The four host stretches that precede the combine regions, read buffer by buffer: each gathers the rows of the
   projected features along the edges' sources, sums them per destination, and cuts the layer's bias out of the bias
   table; the edge endpoints, the degree weights, the projected features and the arguments pass through unchanged. -/
import proofs.«113380_j111669150109_2_alg».proof.Proof.Gen.KernelIdeal.Launch
import proofs.«113380_j111669150109_2_alg».proof.Proof.Shared
import proofs.«113380_j111669150109_2_alg».proof.Proof.LibTypedRef
import Idealize.ShloMosaic.Lib.StableHlo

set_option maxRecDepth 16384

noncomputable section

namespace Cert.KernelIdeal.KerValue

open Cert.KernelIdeal Cert.KernelIdeal.Gen Idealize.ShloMosaic Idealize.ShloMosaic.TcCoe Idealize.ShloMosaic.StableHlo Idealize.SL.Sem

variable {F : FTy → Type} [FloatOps F]

/-! ## The host stretch before combine region 1 -/

/-- The aggregation buffer: rows of the projected features gathered per edge, summed per destination. -/
theorem h1_seg (V : Valuation τ sig (Elt F)) :
    StableHlo.after (hostOps1 (F := F)) V (Proc.devRef .tc main_v26)
      = Cert.Shared.kerSeg (F := F) (V (Proc.devRef .tc main_v15)) (V (Proc.devRef .tc main_v1)) (V (Proc.devRef .tc main_v3)) := by
  after_results_simp; rfl

/-- The layer's bias as a row. -/
theorem h1_bias (V : Valuation τ sig (Elt F)) :
    StableHlo.after (hostOps1 (F := F)) V (Proc.devRef .tc main_v29) = Cert.Shared.rowOf1 (Cert.Shared.sliceB0 (F := F) (V (Proc.devRef .tc main_arg6))) := by
  after_results_simp; rfl

theorem h1_keep_v1 (V : Valuation τ sig (Elt F)) :
    StableHlo.after (hostOps1 (F := F)) V (Proc.devRef .tc main_v1) = V (Proc.devRef .tc main_v1) := by after_results_simp
theorem h1_keep_v3 (V : Valuation τ sig (Elt F)) :
    StableHlo.after (hostOps1 (F := F)) V (Proc.devRef .tc main_v3) = V (Proc.devRef .tc main_v3) := by after_results_simp
theorem h1_keep_v11 (V : Valuation τ sig (Elt F)) :
    StableHlo.after (hostOps1 (F := F)) V (Proc.devRef .tc main_v11) = V (Proc.devRef .tc main_v11) := by after_results_simp
theorem h1_keep_arg2 (V : Valuation τ sig (Elt F)) :
    StableHlo.after (hostOps1 (F := F)) V (Proc.devRef .tc main_arg2) = V (Proc.devRef .tc main_arg2) := by after_results_simp
theorem h1_keep_arg5 (V : Valuation τ sig (Elt F)) :
    StableHlo.after (hostOps1 (F := F)) V (Proc.devRef .tc main_arg5) = V (Proc.devRef .tc main_arg5) := by after_results_simp
theorem h1_keep_arg6 (V : Valuation τ sig (Elt F)) :
    StableHlo.after (hostOps1 (F := F)) V (Proc.devRef .tc main_arg6) = V (Proc.devRef .tc main_arg6) := by after_results_simp
theorem h1_keep_arg7 (V : Valuation τ sig (Elt F)) :
    StableHlo.after (hostOps1 (F := F)) V (Proc.devRef .tc main_arg7) = V (Proc.devRef .tc main_arg7) := by after_results_simp
theorem h1_keep_arg8 (V : Valuation τ sig (Elt F)) :
    StableHlo.after (hostOps1 (F := F)) V (Proc.devRef .tc main_arg8) = V (Proc.devRef .tc main_arg8) := by after_results_simp
theorem h1_keep_v15 (V : Valuation τ sig (Elt F)) :
    StableHlo.after (hostOps1 (F := F)) V (Proc.devRef .tc main_v15) = V (Proc.devRef .tc main_v15) := by after_results_simp

/-! ## The host stretch before combine region 3 -/

/-- The aggregation buffer: rows of the projected features gathered per edge, summed per destination. -/
theorem h3_seg (V : Valuation τ sig (Elt F)) :
    StableHlo.after (hostOps3 (F := F)) V (Proc.devRef .tc main_v56)
      = Cert.Shared.kerSeg (F := F) (V (Proc.devRef .tc main_v45)) (V (Proc.devRef .tc main_v1)) (V (Proc.devRef .tc main_v3)) := by
  after_results_simp; rfl

/-- The layer's bias as a row. -/
theorem h3_bias (V : Valuation τ sig (Elt F)) :
    StableHlo.after (hostOps3 (F := F)) V (Proc.devRef .tc main_v59) = Cert.Shared.rowOf1 (Cert.Shared.sliceB1 (F := F) (V (Proc.devRef .tc main_arg6))) := by
  after_results_simp; rfl

theorem h3_keep_v1 (V : Valuation τ sig (Elt F)) :
    StableHlo.after (hostOps3 (F := F)) V (Proc.devRef .tc main_v1) = V (Proc.devRef .tc main_v1) := by after_results_simp
theorem h3_keep_v3 (V : Valuation τ sig (Elt F)) :
    StableHlo.after (hostOps3 (F := F)) V (Proc.devRef .tc main_v3) = V (Proc.devRef .tc main_v3) := by after_results_simp
theorem h3_keep_v11 (V : Valuation τ sig (Elt F)) :
    StableHlo.after (hostOps3 (F := F)) V (Proc.devRef .tc main_v11) = V (Proc.devRef .tc main_v11) := by after_results_simp
theorem h3_keep_arg2 (V : Valuation τ sig (Elt F)) :
    StableHlo.after (hostOps3 (F := F)) V (Proc.devRef .tc main_arg2) = V (Proc.devRef .tc main_arg2) := by after_results_simp
theorem h3_keep_arg5 (V : Valuation τ sig (Elt F)) :
    StableHlo.after (hostOps3 (F := F)) V (Proc.devRef .tc main_arg5) = V (Proc.devRef .tc main_arg5) := by after_results_simp
theorem h3_keep_arg6 (V : Valuation τ sig (Elt F)) :
    StableHlo.after (hostOps3 (F := F)) V (Proc.devRef .tc main_arg6) = V (Proc.devRef .tc main_arg6) := by after_results_simp
theorem h3_keep_arg7 (V : Valuation τ sig (Elt F)) :
    StableHlo.after (hostOps3 (F := F)) V (Proc.devRef .tc main_arg7) = V (Proc.devRef .tc main_arg7) := by after_results_simp
theorem h3_keep_arg8 (V : Valuation τ sig (Elt F)) :
    StableHlo.after (hostOps3 (F := F)) V (Proc.devRef .tc main_arg8) = V (Proc.devRef .tc main_arg8) := by after_results_simp
theorem h3_keep_v45 (V : Valuation τ sig (Elt F)) :
    StableHlo.after (hostOps3 (F := F)) V (Proc.devRef .tc main_v45) = V (Proc.devRef .tc main_v45) := by after_results_simp

/-! ## The host stretch before combine region 5 -/

/-- The aggregation buffer: rows of the projected features gathered per edge, summed per destination. -/
theorem h5_seg (V : Valuation τ sig (Elt F)) :
    StableHlo.after (hostOps5 (F := F)) V (Proc.devRef .tc main_v86)
      = Cert.Shared.kerSeg (F := F) (V (Proc.devRef .tc main_v75)) (V (Proc.devRef .tc main_v1)) (V (Proc.devRef .tc main_v3)) := by
  after_results_simp; rfl

/-- The layer's bias as a row. -/
theorem h5_bias (V : Valuation τ sig (Elt F)) :
    StableHlo.after (hostOps5 (F := F)) V (Proc.devRef .tc main_v89) = Cert.Shared.rowOf1 (Cert.Shared.sliceB2 (F := F) (V (Proc.devRef .tc main_arg6))) := by
  after_results_simp; rfl

theorem h5_keep_v1 (V : Valuation τ sig (Elt F)) :
    StableHlo.after (hostOps5 (F := F)) V (Proc.devRef .tc main_v1) = V (Proc.devRef .tc main_v1) := by after_results_simp
theorem h5_keep_v3 (V : Valuation τ sig (Elt F)) :
    StableHlo.after (hostOps5 (F := F)) V (Proc.devRef .tc main_v3) = V (Proc.devRef .tc main_v3) := by after_results_simp
theorem h5_keep_v11 (V : Valuation τ sig (Elt F)) :
    StableHlo.after (hostOps5 (F := F)) V (Proc.devRef .tc main_v11) = V (Proc.devRef .tc main_v11) := by after_results_simp
theorem h5_keep_arg2 (V : Valuation τ sig (Elt F)) :
    StableHlo.after (hostOps5 (F := F)) V (Proc.devRef .tc main_arg2) = V (Proc.devRef .tc main_arg2) := by after_results_simp
theorem h5_keep_arg5 (V : Valuation τ sig (Elt F)) :
    StableHlo.after (hostOps5 (F := F)) V (Proc.devRef .tc main_arg5) = V (Proc.devRef .tc main_arg5) := by after_results_simp
theorem h5_keep_arg6 (V : Valuation τ sig (Elt F)) :
    StableHlo.after (hostOps5 (F := F)) V (Proc.devRef .tc main_arg6) = V (Proc.devRef .tc main_arg6) := by after_results_simp
theorem h5_keep_arg7 (V : Valuation τ sig (Elt F)) :
    StableHlo.after (hostOps5 (F := F)) V (Proc.devRef .tc main_arg7) = V (Proc.devRef .tc main_arg7) := by after_results_simp
theorem h5_keep_arg8 (V : Valuation τ sig (Elt F)) :
    StableHlo.after (hostOps5 (F := F)) V (Proc.devRef .tc main_arg8) = V (Proc.devRef .tc main_arg8) := by after_results_simp
theorem h5_keep_v75 (V : Valuation τ sig (Elt F)) :
    StableHlo.after (hostOps5 (F := F)) V (Proc.devRef .tc main_v75) = V (Proc.devRef .tc main_v75) := by after_results_simp

/-! ## The host stretch before combine region 7 -/

/-- The aggregation buffer: rows of the projected features gathered per edge, summed per destination. -/
theorem h7_seg (V : Valuation τ sig (Elt F)) :
    StableHlo.after (hostOps7 (F := F)) V (Proc.devRef .tc main_v116)
      = Cert.Shared.kerSeg (F := F) (V (Proc.devRef .tc main_v105)) (V (Proc.devRef .tc main_v1)) (V (Proc.devRef .tc main_v3)) := by
  after_results_simp; rfl

/-- The layer's bias as a row. -/
theorem h7_bias (V : Valuation τ sig (Elt F)) :
    StableHlo.after (hostOps7 (F := F)) V (Proc.devRef .tc main_v119) = Cert.Shared.rowOf1 (Cert.Shared.sliceB3 (F := F) (V (Proc.devRef .tc main_arg6))) := by
  after_results_simp; rfl

theorem h7_keep_v1 (V : Valuation τ sig (Elt F)) :
    StableHlo.after (hostOps7 (F := F)) V (Proc.devRef .tc main_v1) = V (Proc.devRef .tc main_v1) := by after_results_simp
theorem h7_keep_v3 (V : Valuation τ sig (Elt F)) :
    StableHlo.after (hostOps7 (F := F)) V (Proc.devRef .tc main_v3) = V (Proc.devRef .tc main_v3) := by after_results_simp
theorem h7_keep_v11 (V : Valuation τ sig (Elt F)) :
    StableHlo.after (hostOps7 (F := F)) V (Proc.devRef .tc main_v11) = V (Proc.devRef .tc main_v11) := by after_results_simp
theorem h7_keep_arg2 (V : Valuation τ sig (Elt F)) :
    StableHlo.after (hostOps7 (F := F)) V (Proc.devRef .tc main_arg2) = V (Proc.devRef .tc main_arg2) := by after_results_simp
theorem h7_keep_arg5 (V : Valuation τ sig (Elt F)) :
    StableHlo.after (hostOps7 (F := F)) V (Proc.devRef .tc main_arg5) = V (Proc.devRef .tc main_arg5) := by after_results_simp
theorem h7_keep_arg6 (V : Valuation τ sig (Elt F)) :
    StableHlo.after (hostOps7 (F := F)) V (Proc.devRef .tc main_arg6) = V (Proc.devRef .tc main_arg6) := by after_results_simp
theorem h7_keep_arg7 (V : Valuation τ sig (Elt F)) :
    StableHlo.after (hostOps7 (F := F)) V (Proc.devRef .tc main_arg7) = V (Proc.devRef .tc main_arg7) := by after_results_simp
theorem h7_keep_arg8 (V : Valuation τ sig (Elt F)) :
    StableHlo.after (hostOps7 (F := F)) V (Proc.devRef .tc main_arg8) = V (Proc.devRef .tc main_arg8) := by after_results_simp
theorem h7_keep_v105 (V : Valuation τ sig (Elt F)) :
    StableHlo.after (hostOps7 (F := F)) V (Proc.devRef .tc main_v105) = V (Proc.devRef .tc main_v105) := by after_results_simp

end Cert.KernelIdeal.KerValue

end
-- ==== Proof.KerHostBn2.lean ====
/- The host stretches between combine region 1 and batch-norm region 2, read buffer by buffer: the per-channel mean
   and variance of the rectified features over the nodes, the layer's scale, shift and weight matrix cut out of the
   parameter tables, each per-channel vector laid out as a row; everything else passes through unchanged. -/
import proofs.«113380_j111669150109_2_alg».proof.Proof.Gen.KernelIdeal.Launch
import proofs.«113380_j111669150109_2_alg».proof.Proof.Shared
import proofs.«113380_j111669150109_2_alg».proof.Proof.LibTypedRef
import Idealize.ShloMosaic.Lib.StableHlo

set_option maxRecDepth 16384

noncomputable section

namespace Cert.KernelIdeal.KerValue

open Cert.KernelIdeal Cert.KernelIdeal.Gen Idealize.ShloMosaic Idealize.ShloMosaic.TcCoe Idealize.ShloMosaic.StableHlo Idealize.SL.Sem

variable {F : FTy → Type} [FloatOps F]

/-! ## The three host stretches before batch-norm region 2 -/

theorem h2_mean (V : Valuation τ sig (Elt F)) :
    StableHlo.after (hostOps2_2 (F := F)) (StableHlo.after (hostOps2_1 (F := F)) (StableHlo.after (hostOps2 (F := F)) V)) (Proc.devRef .tc main_v41) = Cert.Shared.rowOf1 (Cert.Shared.meanF (F := F) (V (Proc.devRef .tc main_v30))) := by
  after_results_simp; rfl

theorem h2_var (V : Valuation τ sig (Elt F)) :
    StableHlo.after (hostOps2_2 (F := F)) (StableHlo.after (hostOps2_1 (F := F)) (StableHlo.after (hostOps2 (F := F)) V)) (Proc.devRef .tc main_v42) = Cert.Shared.rowOf1 (Cert.Shared.varF (F := F) (V (Proc.devRef .tc main_v30))) := by
  after_results_simp; simp only [Cert.LibTypedRef.ofBuf_toBuf, Cert.LibTypedRef.toBuf_ofBuf]; rfl

theorem h2_gamma (V : Valuation τ sig (Elt F)) :
    StableHlo.after (hostOps2_2 (F := F)) (StableHlo.after (hostOps2_1 (F := F)) (StableHlo.after (hostOps2 (F := F)) V)) (Proc.devRef .tc main_v43) = Cert.Shared.rowOf1 (Cert.Shared.sliceG0 (F := F) (V (Proc.devRef .tc main_arg7))) := by
  after_results_simp; rfl

theorem h2_beta (V : Valuation τ sig (Elt F)) :
    StableHlo.after (hostOps2_2 (F := F)) (StableHlo.after (hostOps2_1 (F := F)) (StableHlo.after (hostOps2 (F := F)) V)) (Proc.devRef .tc main_v44) = Cert.Shared.rowOf1 (Cert.Shared.sliceG0 (F := F) (V (Proc.devRef .tc main_arg8))) := by
  after_results_simp; rfl

theorem h2_w (V : Valuation τ sig (Elt F)) :
    StableHlo.after (hostOps2_2 (F := F)) (StableHlo.after (hostOps2_1 (F := F)) (StableHlo.after (hostOps2 (F := F)) V)) (Proc.devRef .tc main_v40) = Cert.Shared.sliceW1 (F := F) (V (Proc.devRef .tc main_arg5)) := by
  after_results_simp; rfl

theorem h2_keep_v1 (V : Valuation τ sig (Elt F)) :
    StableHlo.after (hostOps2_2 (F := F)) (StableHlo.after (hostOps2_1 (F := F)) (StableHlo.after (hostOps2 (F := F)) V)) (Proc.devRef .tc main_v1) = V (Proc.devRef .tc main_v1) := by after_results_simp
theorem h2_keep_v3 (V : Valuation τ sig (Elt F)) :
    StableHlo.after (hostOps2_2 (F := F)) (StableHlo.after (hostOps2_1 (F := F)) (StableHlo.after (hostOps2 (F := F)) V)) (Proc.devRef .tc main_v3) = V (Proc.devRef .tc main_v3) := by after_results_simp
theorem h2_keep_v11 (V : Valuation τ sig (Elt F)) :
    StableHlo.after (hostOps2_2 (F := F)) (StableHlo.after (hostOps2_1 (F := F)) (StableHlo.after (hostOps2 (F := F)) V)) (Proc.devRef .tc main_v11) = V (Proc.devRef .tc main_v11) := by after_results_simp
theorem h2_keep_arg2 (V : Valuation τ sig (Elt F)) :
    StableHlo.after (hostOps2_2 (F := F)) (StableHlo.after (hostOps2_1 (F := F)) (StableHlo.after (hostOps2 (F := F)) V)) (Proc.devRef .tc main_arg2) = V (Proc.devRef .tc main_arg2) := by after_results_simp
theorem h2_keep_arg5 (V : Valuation τ sig (Elt F)) :
    StableHlo.after (hostOps2_2 (F := F)) (StableHlo.after (hostOps2_1 (F := F)) (StableHlo.after (hostOps2 (F := F)) V)) (Proc.devRef .tc main_arg5) = V (Proc.devRef .tc main_arg5) := by after_results_simp
theorem h2_keep_arg6 (V : Valuation τ sig (Elt F)) :
    StableHlo.after (hostOps2_2 (F := F)) (StableHlo.after (hostOps2_1 (F := F)) (StableHlo.after (hostOps2 (F := F)) V)) (Proc.devRef .tc main_arg6) = V (Proc.devRef .tc main_arg6) := by after_results_simp
theorem h2_keep_arg7 (V : Valuation τ sig (Elt F)) :
    StableHlo.after (hostOps2_2 (F := F)) (StableHlo.after (hostOps2_1 (F := F)) (StableHlo.after (hostOps2 (F := F)) V)) (Proc.devRef .tc main_arg7) = V (Proc.devRef .tc main_arg7) := by after_results_simp
theorem h2_keep_arg8 (V : Valuation τ sig (Elt F)) :
    StableHlo.after (hostOps2_2 (F := F)) (StableHlo.after (hostOps2_1 (F := F)) (StableHlo.after (hostOps2 (F := F)) V)) (Proc.devRef .tc main_arg8) = V (Proc.devRef .tc main_arg8) := by after_results_simp
theorem h2_keep_v30 (V : Valuation τ sig (Elt F)) :
    StableHlo.after (hostOps2_2 (F := F)) (StableHlo.after (hostOps2_1 (F := F)) (StableHlo.after (hostOps2 (F := F)) V)) (Proc.devRef .tc main_v30) = V (Proc.devRef .tc main_v30) := by after_results_simp

end Cert.KernelIdeal.KerValue

end
-- ==== Proof.KerHostBn4.lean ====
/- The host stretches between combine region 3 and batch-norm region 4, read buffer by buffer: the per-channel mean
   and variance of the rectified features over the nodes, the layer's scale, shift and weight matrix cut out of the
   parameter tables, each per-channel vector laid out as a row; everything else passes through unchanged. -/
import proofs.«113380_j111669150109_2_alg».proof.Proof.Gen.KernelIdeal.Launch
import proofs.«113380_j111669150109_2_alg».proof.Proof.Shared
import proofs.«113380_j111669150109_2_alg».proof.Proof.LibTypedRef
import Idealize.ShloMosaic.Lib.StableHlo

set_option maxRecDepth 16384

noncomputable section

namespace Cert.KernelIdeal.KerValue

open Cert.KernelIdeal Cert.KernelIdeal.Gen Idealize.ShloMosaic Idealize.ShloMosaic.TcCoe Idealize.ShloMosaic.StableHlo Idealize.SL.Sem

variable {F : FTy → Type} [FloatOps F]

/-! ## The three host stretches before batch-norm region 4 -/

theorem h4_mean (V : Valuation τ sig (Elt F)) :
    StableHlo.after (hostOps4_2 (F := F)) (StableHlo.after (hostOps4_1 (F := F)) (StableHlo.after (hostOps4 (F := F)) V)) (Proc.devRef .tc main_v71) = Cert.Shared.rowOf1 (Cert.Shared.meanF (F := F) (V (Proc.devRef .tc main_v60))) := by
  after_results_simp; rfl

theorem h4_var (V : Valuation τ sig (Elt F)) :
    StableHlo.after (hostOps4_2 (F := F)) (StableHlo.after (hostOps4_1 (F := F)) (StableHlo.after (hostOps4 (F := F)) V)) (Proc.devRef .tc main_v72) = Cert.Shared.rowOf1 (Cert.Shared.varF (F := F) (V (Proc.devRef .tc main_v60))) := by
  after_results_simp; simp only [Cert.LibTypedRef.ofBuf_toBuf, Cert.LibTypedRef.toBuf_ofBuf]; rfl

theorem h4_gamma (V : Valuation τ sig (Elt F)) :
    StableHlo.after (hostOps4_2 (F := F)) (StableHlo.after (hostOps4_1 (F := F)) (StableHlo.after (hostOps4 (F := F)) V)) (Proc.devRef .tc main_v73) = Cert.Shared.rowOf1 (Cert.Shared.sliceG1 (F := F) (V (Proc.devRef .tc main_arg7))) := by
  after_results_simp; rfl

theorem h4_beta (V : Valuation τ sig (Elt F)) :
    StableHlo.after (hostOps4_2 (F := F)) (StableHlo.after (hostOps4_1 (F := F)) (StableHlo.after (hostOps4 (F := F)) V)) (Proc.devRef .tc main_v74) = Cert.Shared.rowOf1 (Cert.Shared.sliceG1 (F := F) (V (Proc.devRef .tc main_arg8))) := by
  after_results_simp; rfl

theorem h4_w (V : Valuation τ sig (Elt F)) :
    StableHlo.after (hostOps4_2 (F := F)) (StableHlo.after (hostOps4_1 (F := F)) (StableHlo.after (hostOps4 (F := F)) V)) (Proc.devRef .tc main_v70) = Cert.Shared.sliceW2 (F := F) (V (Proc.devRef .tc main_arg5)) := by
  after_results_simp; rfl

theorem h4_keep_v1 (V : Valuation τ sig (Elt F)) :
    StableHlo.after (hostOps4_2 (F := F)) (StableHlo.after (hostOps4_1 (F := F)) (StableHlo.after (hostOps4 (F := F)) V)) (Proc.devRef .tc main_v1) = V (Proc.devRef .tc main_v1) := by after_results_simp
theorem h4_keep_v3 (V : Valuation τ sig (Elt F)) :
    StableHlo.after (hostOps4_2 (F := F)) (StableHlo.after (hostOps4_1 (F := F)) (StableHlo.after (hostOps4 (F := F)) V)) (Proc.devRef .tc main_v3) = V (Proc.devRef .tc main_v3) := by after_results_simp
theorem h4_keep_v11 (V : Valuation τ sig (Elt F)) :
    StableHlo.after (hostOps4_2 (F := F)) (StableHlo.after (hostOps4_1 (F := F)) (StableHlo.after (hostOps4 (F := F)) V)) (Proc.devRef .tc main_v11) = V (Proc.devRef .tc main_v11) := by after_results_simp
theorem h4_keep_arg2 (V : Valuation τ sig (Elt F)) :
    StableHlo.after (hostOps4_2 (F := F)) (StableHlo.after (hostOps4_1 (F := F)) (StableHlo.after (hostOps4 (F := F)) V)) (Proc.devRef .tc main_arg2) = V (Proc.devRef .tc main_arg2) := by after_results_simp
theorem h4_keep_arg5 (V : Valuation τ sig (Elt F)) :
    StableHlo.after (hostOps4_2 (F := F)) (StableHlo.after (hostOps4_1 (F := F)) (StableHlo.after (hostOps4 (F := F)) V)) (Proc.devRef .tc main_arg5) = V (Proc.devRef .tc main_arg5) := by after_results_simp
theorem h4_keep_arg6 (V : Valuation τ sig (Elt F)) :
    StableHlo.after (hostOps4_2 (F := F)) (StableHlo.after (hostOps4_1 (F := F)) (StableHlo.after (hostOps4 (F := F)) V)) (Proc.devRef .tc main_arg6) = V (Proc.devRef .tc main_arg6) := by after_results_simp
theorem h4_keep_arg7 (V : Valuation τ sig (Elt F)) :
    StableHlo.after (hostOps4_2 (F := F)) (StableHlo.after (hostOps4_1 (F := F)) (StableHlo.after (hostOps4 (F := F)) V)) (Proc.devRef .tc main_arg7) = V (Proc.devRef .tc main_arg7) := by after_results_simp
theorem h4_keep_arg8 (V : Valuation τ sig (Elt F)) :
    StableHlo.after (hostOps4_2 (F := F)) (StableHlo.after (hostOps4_1 (F := F)) (StableHlo.after (hostOps4 (F := F)) V)) (Proc.devRef .tc main_arg8) = V (Proc.devRef .tc main_arg8) := by after_results_simp
theorem h4_keep_v60 (V : Valuation τ sig (Elt F)) :
    StableHlo.after (hostOps4_2 (F := F)) (StableHlo.after (hostOps4_1 (F := F)) (StableHlo.after (hostOps4 (F := F)) V)) (Proc.devRef .tc main_v60) = V (Proc.devRef .tc main_v60) := by after_results_simp

end Cert.KernelIdeal.KerValue

end
-- ==== Proof.KerHostBn6.lean ====
/- The host stretches between combine region 5 and batch-norm region 6, read buffer by buffer: the per-channel mean
   and variance of the rectified features over the nodes, the layer's scale, shift and weight matrix cut out of the
   parameter tables, each per-channel vector laid out as a row; everything else passes through unchanged. -/
import proofs.«113380_j111669150109_2_alg».proof.Proof.Gen.KernelIdeal.Launch
import proofs.«113380_j111669150109_2_alg».proof.Proof.Shared
import proofs.«113380_j111669150109_2_alg».proof.Proof.LibTypedRef
import Idealize.ShloMosaic.Lib.StableHlo

set_option maxRecDepth 16384

noncomputable section

namespace Cert.KernelIdeal.KerValue

open Cert.KernelIdeal Cert.KernelIdeal.Gen Idealize.ShloMosaic Idealize.ShloMosaic.TcCoe Idealize.ShloMosaic.StableHlo Idealize.SL.Sem

variable {F : FTy → Type} [FloatOps F]

/-! ## The three host stretches before batch-norm region 6 -/

theorem h6_mean (V : Valuation τ sig (Elt F)) :
    StableHlo.after (hostOps6_2 (F := F)) (StableHlo.after (hostOps6_1 (F := F)) (StableHlo.after (hostOps6 (F := F)) V)) (Proc.devRef .tc main_v101) = Cert.Shared.rowOf1 (Cert.Shared.meanF (F := F) (V (Proc.devRef .tc main_v90))) := by
  after_results_simp; rfl

theorem h6_var (V : Valuation τ sig (Elt F)) :
    StableHlo.after (hostOps6_2 (F := F)) (StableHlo.after (hostOps6_1 (F := F)) (StableHlo.after (hostOps6 (F := F)) V)) (Proc.devRef .tc main_v102) = Cert.Shared.rowOf1 (Cert.Shared.varF (F := F) (V (Proc.devRef .tc main_v90))) := by
  after_results_simp; simp only [Cert.LibTypedRef.ofBuf_toBuf, Cert.LibTypedRef.toBuf_ofBuf]; rfl

theorem h6_gamma (V : Valuation τ sig (Elt F)) :
    StableHlo.after (hostOps6_2 (F := F)) (StableHlo.after (hostOps6_1 (F := F)) (StableHlo.after (hostOps6 (F := F)) V)) (Proc.devRef .tc main_v103) = Cert.Shared.rowOf1 (Cert.Shared.sliceG2 (F := F) (V (Proc.devRef .tc main_arg7))) := by
  after_results_simp; rfl

theorem h6_beta (V : Valuation τ sig (Elt F)) :
    StableHlo.after (hostOps6_2 (F := F)) (StableHlo.after (hostOps6_1 (F := F)) (StableHlo.after (hostOps6 (F := F)) V)) (Proc.devRef .tc main_v104) = Cert.Shared.rowOf1 (Cert.Shared.sliceG2 (F := F) (V (Proc.devRef .tc main_arg8))) := by
  after_results_simp; rfl

theorem h6_w (V : Valuation τ sig (Elt F)) :
    StableHlo.after (hostOps6_2 (F := F)) (StableHlo.after (hostOps6_1 (F := F)) (StableHlo.after (hostOps6 (F := F)) V)) (Proc.devRef .tc main_v100) = Cert.Shared.sliceW3 (F := F) (V (Proc.devRef .tc main_arg5)) := by
  after_results_simp; rfl

theorem h6_keep_v1 (V : Valuation τ sig (Elt F)) :
    StableHlo.after (hostOps6_2 (F := F)) (StableHlo.after (hostOps6_1 (F := F)) (StableHlo.after (hostOps6 (F := F)) V)) (Proc.devRef .tc main_v1) = V (Proc.devRef .tc main_v1) := by after_results_simp
theorem h6_keep_v3 (V : Valuation τ sig (Elt F)) :
    StableHlo.after (hostOps6_2 (F := F)) (StableHlo.after (hostOps6_1 (F := F)) (StableHlo.after (hostOps6 (F := F)) V)) (Proc.devRef .tc main_v3) = V (Proc.devRef .tc main_v3) := by after_results_simp
theorem h6_keep_v11 (V : Valuation τ sig (Elt F)) :
    StableHlo.after (hostOps6_2 (F := F)) (StableHlo.after (hostOps6_1 (F := F)) (StableHlo.after (hostOps6 (F := F)) V)) (Proc.devRef .tc main_v11) = V (Proc.devRef .tc main_v11) := by after_results_simp
theorem h6_keep_arg2 (V : Valuation τ sig (Elt F)) :
    StableHlo.after (hostOps6_2 (F := F)) (StableHlo.after (hostOps6_1 (F := F)) (StableHlo.after (hostOps6 (F := F)) V)) (Proc.devRef .tc main_arg2) = V (Proc.devRef .tc main_arg2) := by after_results_simp
theorem h6_keep_arg5 (V : Valuation τ sig (Elt F)) :
    StableHlo.after (hostOps6_2 (F := F)) (StableHlo.after (hostOps6_1 (F := F)) (StableHlo.after (hostOps6 (F := F)) V)) (Proc.devRef .tc main_arg5) = V (Proc.devRef .tc main_arg5) := by after_results_simp
theorem h6_keep_arg6 (V : Valuation τ sig (Elt F)) :
    StableHlo.after (hostOps6_2 (F := F)) (StableHlo.after (hostOps6_1 (F := F)) (StableHlo.after (hostOps6 (F := F)) V)) (Proc.devRef .tc main_arg6) = V (Proc.devRef .tc main_arg6) := by after_results_simp
theorem h6_keep_arg7 (V : Valuation τ sig (Elt F)) :
    StableHlo.after (hostOps6_2 (F := F)) (StableHlo.after (hostOps6_1 (F := F)) (StableHlo.after (hostOps6 (F := F)) V)) (Proc.devRef .tc main_arg7) = V (Proc.devRef .tc main_arg7) := by after_results_simp
theorem h6_keep_arg8 (V : Valuation τ sig (Elt F)) :
    StableHlo.after (hostOps6_2 (F := F)) (StableHlo.after (hostOps6_1 (F := F)) (StableHlo.after (hostOps6 (F := F)) V)) (Proc.devRef .tc main_arg8) = V (Proc.devRef .tc main_arg8) := by after_results_simp
theorem h6_keep_v90 (V : Valuation τ sig (Elt F)) :
    StableHlo.after (hostOps6_2 (F := F)) (StableHlo.after (hostOps6_1 (F := F)) (StableHlo.after (hostOps6 (F := F)) V)) (Proc.devRef .tc main_v90) = V (Proc.devRef .tc main_v90) := by after_results_simp

end Cert.KernelIdeal.KerValue

end
-- ==== Proof.KerHost8.lean ====
/- The last host stretch: the mean pool of the last combine region's output over the graphs. -/
import proofs.«113380_j111669150109_2_alg».proof.Proof.Gen.KernelIdeal.Launch
import proofs.«113380_j111669150109_2_alg».proof.Proof.Shared
import proofs.«113380_j111669150109_2_alg».proof.Proof.LibTypedRef
import Idealize.ShloMosaic.Lib.StableHlo

set_option maxRecDepth 16384

noncomputable section

namespace Cert.KernelIdeal.KerValue

open Cert.KernelIdeal Cert.KernelIdeal.Gen Idealize.ShloMosaic Idealize.ShloMosaic.TcCoe Idealize.ShloMosaic.StableHlo Idealize.SL.Sem

variable {F : FTy → Type} [FloatOps F]

theorem h8_pool (V : Valuation τ sig (Elt F)) :
    StableHlo.after (hostOps8 (F := F)) V (Proc.devRef .tc main_v132)
      = Cert.Shared.poolF (F := F) (V (Proc.devRef .tc main_v120)) (V (Proc.devRef .tc main_arg2)) := by
  after_results_simp; rfl

end Cert.KernelIdeal.KerValue

end
-- ==== Proof.KerInv.lean ====
/- What every boundary of the kernel program keeps: the edge endpoints, the column of degree weights and the five
   arguments read later (graph assignment, weight table, bias table, scale and shift tables) are written once, before
   the first region, and no later host stretch or region changes them. A host stretch does not write them; a region
   reads the weights through an input window and touches none of the others. -/
import proofs.«113380_j111669150109_2_alg».proof.Proof.Gen.KernelIdeal.Frame
import proofs.«113380_j111669150109_2_alg».proof.Proof.KerHost0
import proofs.«113380_j111669150109_2_alg».proof.Proof.KerHostSeg
import proofs.«113380_j111669150109_2_alg».proof.Proof.KerHostBn2
import proofs.«113380_j111669150109_2_alg».proof.Proof.KerHostBn4
import proofs.«113380_j111669150109_2_alg».proof.Proof.KerHostBn6
import proofs.«113380_j111669150109_2_alg».proof.Proof.KerHost8
import Idealize.ShloMosaic.Lib.Pipeline.Value

set_option maxRecDepth 16384

noncomputable section

namespace Cert.KernelIdeal.KerValue

open Cert.KernelIdeal Cert.KernelIdeal.Gen Idealize.ShloMosaic Idealize.ShloMosaic.TcCoe Idealize.ShloMosaic.StableHlo Idealize.SL.Sem

variable {F : FTy → Type} [FloatOps F]

open Idealize.ShloMosaic.Pipeline (Dat)

/-- The contents a boundary keeps, as whole arrays. -/
structure Inv (W : Valuation τ sig (Elt Ideal)) (src dst : IVec Cert.Shared.SE 32) (d2 : FVec Ideal Cert.Shared.N1 .f32)
    (batch : IVec Cert.Shared.SV 32) (Wc : FVec Ideal Cert.Shared.S4HH .f32) (bc : FVec Ideal Cert.Shared.S4H .f32)
    (g beta : FVec Ideal Cert.Shared.S3H .f32) : Prop where
  v1 : W (Proc.devRef .tc main_v1) = src
  v3 : W (Proc.devRef .tc main_v3) = dst
  v11 : W (Proc.devRef .tc main_v11) = d2
  a2 : W (Proc.devRef .tc main_arg2) = batch
  a5 : W (Proc.devRef .tc main_arg5) = Wc
  a6 : W (Proc.devRef .tc main_arg6) = bc
  a7 : W (Proc.devRef .tc main_arg7) = g
  a8 : W (Proc.devRef .tc main_arg8) = beta

/-! ## Host stretches keep them -/

theorem inv_h1 {W : Valuation τ sig (Elt Ideal)} {src dst : IVec Cert.Shared.SE 32} {d2 : FVec Ideal Cert.Shared.N1 .f32}
    {batch : IVec Cert.Shared.SV 32} {Wc : FVec Ideal Cert.Shared.S4HH .f32} {bc : FVec Ideal Cert.Shared.S4H .f32} {g beta : FVec Ideal Cert.Shared.S3H .f32}
    (h : Inv W src dst d2 batch Wc bc g beta) : Inv (StableHlo.after (hostOps1 (F := Ideal)) W) src dst d2 batch Wc bc g beta :=
  ⟨(h1_keep_v1 (F := Ideal) W).trans h.v1,
   (h1_keep_v3 (F := Ideal) W).trans h.v3,
   (h1_keep_v11 (F := Ideal) W).trans h.v11,
   (h1_keep_arg2 (F := Ideal) W).trans h.a2,
   (h1_keep_arg5 (F := Ideal) W).trans h.a5,
   (h1_keep_arg6 (F := Ideal) W).trans h.a6,
   (h1_keep_arg7 (F := Ideal) W).trans h.a7,
   (h1_keep_arg8 (F := Ideal) W).trans h.a8⟩

theorem inv_h3 {W : Valuation τ sig (Elt Ideal)} {src dst : IVec Cert.Shared.SE 32} {d2 : FVec Ideal Cert.Shared.N1 .f32}
    {batch : IVec Cert.Shared.SV 32} {Wc : FVec Ideal Cert.Shared.S4HH .f32} {bc : FVec Ideal Cert.Shared.S4H .f32} {g beta : FVec Ideal Cert.Shared.S3H .f32}
    (h : Inv W src dst d2 batch Wc bc g beta) : Inv (StableHlo.after (hostOps3 (F := Ideal)) W) src dst d2 batch Wc bc g beta :=
  ⟨(h3_keep_v1 (F := Ideal) W).trans h.v1,
   (h3_keep_v3 (F := Ideal) W).trans h.v3,
   (h3_keep_v11 (F := Ideal) W).trans h.v11,
   (h3_keep_arg2 (F := Ideal) W).trans h.a2,
   (h3_keep_arg5 (F := Ideal) W).trans h.a5,
   (h3_keep_arg6 (F := Ideal) W).trans h.a6,
   (h3_keep_arg7 (F := Ideal) W).trans h.a7,
   (h3_keep_arg8 (F := Ideal) W).trans h.a8⟩

theorem inv_h5 {W : Valuation τ sig (Elt Ideal)} {src dst : IVec Cert.Shared.SE 32} {d2 : FVec Ideal Cert.Shared.N1 .f32}
    {batch : IVec Cert.Shared.SV 32} {Wc : FVec Ideal Cert.Shared.S4HH .f32} {bc : FVec Ideal Cert.Shared.S4H .f32} {g beta : FVec Ideal Cert.Shared.S3H .f32}
    (h : Inv W src dst d2 batch Wc bc g beta) : Inv (StableHlo.after (hostOps5 (F := Ideal)) W) src dst d2 batch Wc bc g beta :=
  ⟨(h5_keep_v1 (F := Ideal) W).trans h.v1,
   (h5_keep_v3 (F := Ideal) W).trans h.v3,
   (h5_keep_v11 (F := Ideal) W).trans h.v11,
   (h5_keep_arg2 (F := Ideal) W).trans h.a2,
   (h5_keep_arg5 (F := Ideal) W).trans h.a5,
   (h5_keep_arg6 (F := Ideal) W).trans h.a6,
   (h5_keep_arg7 (F := Ideal) W).trans h.a7,
   (h5_keep_arg8 (F := Ideal) W).trans h.a8⟩

theorem inv_h7 {W : Valuation τ sig (Elt Ideal)} {src dst : IVec Cert.Shared.SE 32} {d2 : FVec Ideal Cert.Shared.N1 .f32}
    {batch : IVec Cert.Shared.SV 32} {Wc : FVec Ideal Cert.Shared.S4HH .f32} {bc : FVec Ideal Cert.Shared.S4H .f32} {g beta : FVec Ideal Cert.Shared.S3H .f32}
    (h : Inv W src dst d2 batch Wc bc g beta) : Inv (StableHlo.after (hostOps7 (F := Ideal)) W) src dst d2 batch Wc bc g beta :=
  ⟨(h7_keep_v1 (F := Ideal) W).trans h.v1,
   (h7_keep_v3 (F := Ideal) W).trans h.v3,
   (h7_keep_v11 (F := Ideal) W).trans h.v11,
   (h7_keep_arg2 (F := Ideal) W).trans h.a2,
   (h7_keep_arg5 (F := Ideal) W).trans h.a5,
   (h7_keep_arg6 (F := Ideal) W).trans h.a6,
   (h7_keep_arg7 (F := Ideal) W).trans h.a7,
   (h7_keep_arg8 (F := Ideal) W).trans h.a8⟩

theorem inv_h2 {W : Valuation τ sig (Elt Ideal)} {src dst : IVec Cert.Shared.SE 32} {d2 : FVec Ideal Cert.Shared.N1 .f32}
    {batch : IVec Cert.Shared.SV 32} {Wc : FVec Ideal Cert.Shared.S4HH .f32} {bc : FVec Ideal Cert.Shared.S4H .f32} {g beta : FVec Ideal Cert.Shared.S3H .f32}
    (h : Inv W src dst d2 batch Wc bc g beta) : Inv (StableHlo.after (hostOps2_2 (F := Ideal)) (StableHlo.after (hostOps2_1 (F := Ideal)) (StableHlo.after (hostOps2 (F := Ideal)) W))) src dst d2 batch Wc bc g beta :=
  ⟨(h2_keep_v1 (F := Ideal) W).trans h.v1,
   (h2_keep_v3 (F := Ideal) W).trans h.v3,
   (h2_keep_v11 (F := Ideal) W).trans h.v11,
   (h2_keep_arg2 (F := Ideal) W).trans h.a2,
   (h2_keep_arg5 (F := Ideal) W).trans h.a5,
   (h2_keep_arg6 (F := Ideal) W).trans h.a6,
   (h2_keep_arg7 (F := Ideal) W).trans h.a7,
   (h2_keep_arg8 (F := Ideal) W).trans h.a8⟩

theorem inv_h4 {W : Valuation τ sig (Elt Ideal)} {src dst : IVec Cert.Shared.SE 32} {d2 : FVec Ideal Cert.Shared.N1 .f32}
    {batch : IVec Cert.Shared.SV 32} {Wc : FVec Ideal Cert.Shared.S4HH .f32} {bc : FVec Ideal Cert.Shared.S4H .f32} {g beta : FVec Ideal Cert.Shared.S3H .f32}
    (h : Inv W src dst d2 batch Wc bc g beta) : Inv (StableHlo.after (hostOps4_2 (F := Ideal)) (StableHlo.after (hostOps4_1 (F := Ideal)) (StableHlo.after (hostOps4 (F := Ideal)) W))) src dst d2 batch Wc bc g beta :=
  ⟨(h4_keep_v1 (F := Ideal) W).trans h.v1,
   (h4_keep_v3 (F := Ideal) W).trans h.v3,
   (h4_keep_v11 (F := Ideal) W).trans h.v11,
   (h4_keep_arg2 (F := Ideal) W).trans h.a2,
   (h4_keep_arg5 (F := Ideal) W).trans h.a5,
   (h4_keep_arg6 (F := Ideal) W).trans h.a6,
   (h4_keep_arg7 (F := Ideal) W).trans h.a7,
   (h4_keep_arg8 (F := Ideal) W).trans h.a8⟩

theorem inv_h6 {W : Valuation τ sig (Elt Ideal)} {src dst : IVec Cert.Shared.SE 32} {d2 : FVec Ideal Cert.Shared.N1 .f32}
    {batch : IVec Cert.Shared.SV 32} {Wc : FVec Ideal Cert.Shared.S4HH .f32} {bc : FVec Ideal Cert.Shared.S4H .f32} {g beta : FVec Ideal Cert.Shared.S3H .f32}
    (h : Inv W src dst d2 batch Wc bc g beta) : Inv (StableHlo.after (hostOps6_2 (F := Ideal)) (StableHlo.after (hostOps6_1 (F := Ideal)) (StableHlo.after (hostOps6 (F := Ideal)) W))) src dst d2 batch Wc bc g beta :=
  ⟨(h6_keep_v1 (F := Ideal) W).trans h.v1,
   (h6_keep_v3 (F := Ideal) W).trans h.v3,
   (h6_keep_v11 (F := Ideal) W).trans h.v11,
   (h6_keep_arg2 (F := Ideal) W).trans h.a2,
   (h6_keep_arg5 (F := Ideal) W).trans h.a5,
   (h6_keep_arg6 (F := Ideal) W).trans h.a6,
   (h6_keep_arg7 (F := Ideal) W).trans h.a7,
   (h6_keep_arg8 (F := Ideal) W).trans h.a8⟩

/-! ## Regions keep them -/

variable (m : (ℓ : Loc nD τ sig) → Buf (Elt Ideal) ℓ) (ρ : Dev nD → PrngReg) (c : Dev nD)

theorem inv_r0 {src dst : IVec Cert.Shared.SE 32} {d2 : FVec Ideal Cert.Shared.N1 .f32}
    {batch : IVec Cert.Shared.SV 32} {Wc : FVec Ideal Cert.Shared.S4HH .f32} {bc : FVec Ideal Cert.Shared.S4H .f32} {g beta : FVec Ideal Cert.Shared.S3H .f32}
    (h : Inv (W1 m ρ c) src dst d2 batch Wc bc g beta) : Inv (W2 m ρ c) src dst d2 batch Wc bc g beta :=
  ⟨(W2_of_ne m ρ c main_v1 (by decide)).trans h.v1,
   (W2_of_ne m ρ c main_v3 (by decide)).trans h.v3,
   ((W2_arr m ρ c 4).trans (((dat0 (V1 m ρ) c).arrAt_in 4 rfl _).trans (A_eq0 (V1 m ρ) c 4))).trans h.v11,
   (W2_of_ne m ρ c main_arg2 (by decide)).trans h.a2,
   (W2_of_ne m ρ c main_arg5 (by decide)).trans h.a5,
   (W2_of_ne m ρ c main_arg6 (by decide)).trans h.a6,
   (W2_of_ne m ρ c main_arg7 (by decide)).trans h.a7,
   (W2_of_ne m ρ c main_arg8 (by decide)).trans h.a8⟩

theorem inv_r1 {src dst : IVec Cert.Shared.SE 32} {d2 : FVec Ideal Cert.Shared.N1 .f32}
    {batch : IVec Cert.Shared.SV 32} {Wc : FVec Ideal Cert.Shared.S4HH .f32} {bc : FVec Ideal Cert.Shared.S4H .f32} {g beta : FVec Ideal Cert.Shared.S3H .f32}
    (h : Inv (W3 m ρ c) src dst d2 batch Wc bc g beta) : Inv (W4 m ρ c) src dst d2 batch Wc bc g beta :=
  ⟨(W4_of_ne m ρ c main_v1 (by decide)).trans h.v1,
   (W4_of_ne m ρ c main_v3 (by decide)).trans h.v3,
   ((W4_arr m ρ c 2).trans (((dat1 (V3 m ρ) c).arrAt_in 2 rfl _).trans (A_eq1 (V3 m ρ) c 2))).trans h.v11,
   (W4_of_ne m ρ c main_arg2 (by decide)).trans h.a2,
   (W4_of_ne m ρ c main_arg5 (by decide)).trans h.a5,
   (W4_of_ne m ρ c main_arg6 (by decide)).trans h.a6,
   (W4_of_ne m ρ c main_arg7 (by decide)).trans h.a7,
   (W4_of_ne m ρ c main_arg8 (by decide)).trans h.a8⟩

theorem inv_r2 {src dst : IVec Cert.Shared.SE 32} {d2 : FVec Ideal Cert.Shared.N1 .f32}
    {batch : IVec Cert.Shared.SV 32} {Wc : FVec Ideal Cert.Shared.S4HH .f32} {bc : FVec Ideal Cert.Shared.S4H .f32} {g beta : FVec Ideal Cert.Shared.S3H .f32}
    (h : Inv (W7 m ρ c) src dst d2 batch Wc bc g beta) : Inv (W8 m ρ c) src dst d2 batch Wc bc g beta :=
  ⟨(W8_of_ne m ρ c main_v1 (by decide)).trans h.v1,
   (W8_of_ne m ρ c main_v3 (by decide)).trans h.v3,
   ((W8_arr m ρ c 6).trans (((dat2 (V7 m ρ) c).arrAt_in 6 rfl _).trans (A_eq2 (V7 m ρ) c 6))).trans h.v11,
   (W8_of_ne m ρ c main_arg2 (by decide)).trans h.a2,
   (W8_of_ne m ρ c main_arg5 (by decide)).trans h.a5,
   (W8_of_ne m ρ c main_arg6 (by decide)).trans h.a6,
   (W8_of_ne m ρ c main_arg7 (by decide)).trans h.a7,
   (W8_of_ne m ρ c main_arg8 (by decide)).trans h.a8⟩

theorem inv_r3 {src dst : IVec Cert.Shared.SE 32} {d2 : FVec Ideal Cert.Shared.N1 .f32}
    {batch : IVec Cert.Shared.SV 32} {Wc : FVec Ideal Cert.Shared.S4HH .f32} {bc : FVec Ideal Cert.Shared.S4H .f32} {g beta : FVec Ideal Cert.Shared.S3H .f32}
    (h : Inv (W9 m ρ c) src dst d2 batch Wc bc g beta) : Inv (W10 m ρ c) src dst d2 batch Wc bc g beta :=
  ⟨(W10_of_ne m ρ c main_v1 (by decide)).trans h.v1,
   (W10_of_ne m ρ c main_v3 (by decide)).trans h.v3,
   ((W10_arr m ρ c 2).trans (((dat3 (V9 m ρ) c).arrAt_in 2 rfl _).trans (A_eq3 (V9 m ρ) c 2))).trans h.v11,
   (W10_of_ne m ρ c main_arg2 (by decide)).trans h.a2,
   (W10_of_ne m ρ c main_arg5 (by decide)).trans h.a5,
   (W10_of_ne m ρ c main_arg6 (by decide)).trans h.a6,
   (W10_of_ne m ρ c main_arg7 (by decide)).trans h.a7,
   (W10_of_ne m ρ c main_arg8 (by decide)).trans h.a8⟩

theorem inv_r4 {src dst : IVec Cert.Shared.SE 32} {d2 : FVec Ideal Cert.Shared.N1 .f32}
    {batch : IVec Cert.Shared.SV 32} {Wc : FVec Ideal Cert.Shared.S4HH .f32} {bc : FVec Ideal Cert.Shared.S4H .f32} {g beta : FVec Ideal Cert.Shared.S3H .f32}
    (h : Inv (W13 m ρ c) src dst d2 batch Wc bc g beta) : Inv (W14 m ρ c) src dst d2 batch Wc bc g beta :=
  ⟨(W14_of_ne m ρ c main_v1 (by decide)).trans h.v1,
   (W14_of_ne m ρ c main_v3 (by decide)).trans h.v3,
   ((W14_arr m ρ c 6).trans (((dat4 (V13 m ρ) c).arrAt_in 6 rfl _).trans (A_eq4 (V13 m ρ) c 6))).trans h.v11,
   (W14_of_ne m ρ c main_arg2 (by decide)).trans h.a2,
   (W14_of_ne m ρ c main_arg5 (by decide)).trans h.a5,
   (W14_of_ne m ρ c main_arg6 (by decide)).trans h.a6,
   (W14_of_ne m ρ c main_arg7 (by decide)).trans h.a7,
   (W14_of_ne m ρ c main_arg8 (by decide)).trans h.a8⟩

theorem inv_r5 {src dst : IVec Cert.Shared.SE 32} {d2 : FVec Ideal Cert.Shared.N1 .f32}
    {batch : IVec Cert.Shared.SV 32} {Wc : FVec Ideal Cert.Shared.S4HH .f32} {bc : FVec Ideal Cert.Shared.S4H .f32} {g beta : FVec Ideal Cert.Shared.S3H .f32}
    (h : Inv (W15 m ρ c) src dst d2 batch Wc bc g beta) : Inv (W16 m ρ c) src dst d2 batch Wc bc g beta :=
  ⟨(W16_of_ne m ρ c main_v1 (by decide)).trans h.v1,
   (W16_of_ne m ρ c main_v3 (by decide)).trans h.v3,
   ((W16_arr m ρ c 2).trans (((dat5 (V15 m ρ) c).arrAt_in 2 rfl _).trans (A_eq5 (V15 m ρ) c 2))).trans h.v11,
   (W16_of_ne m ρ c main_arg2 (by decide)).trans h.a2,
   (W16_of_ne m ρ c main_arg5 (by decide)).trans h.a5,
   (W16_of_ne m ρ c main_arg6 (by decide)).trans h.a6,
   (W16_of_ne m ρ c main_arg7 (by decide)).trans h.a7,
   (W16_of_ne m ρ c main_arg8 (by decide)).trans h.a8⟩

theorem inv_r6 {src dst : IVec Cert.Shared.SE 32} {d2 : FVec Ideal Cert.Shared.N1 .f32}
    {batch : IVec Cert.Shared.SV 32} {Wc : FVec Ideal Cert.Shared.S4HH .f32} {bc : FVec Ideal Cert.Shared.S4H .f32} {g beta : FVec Ideal Cert.Shared.S3H .f32}
    (h : Inv (W19 m ρ c) src dst d2 batch Wc bc g beta) : Inv (W20 m ρ c) src dst d2 batch Wc bc g beta :=
  ⟨(W20_of_ne m ρ c main_v1 (by decide)).trans h.v1,
   (W20_of_ne m ρ c main_v3 (by decide)).trans h.v3,
   ((W20_arr m ρ c 6).trans (((dat6 (V19 m ρ) c).arrAt_in 6 rfl _).trans (A_eq6 (V19 m ρ) c 6))).trans h.v11,
   (W20_of_ne m ρ c main_arg2 (by decide)).trans h.a2,
   (W20_of_ne m ρ c main_arg5 (by decide)).trans h.a5,
   (W20_of_ne m ρ c main_arg6 (by decide)).trans h.a6,
   (W20_of_ne m ρ c main_arg7 (by decide)).trans h.a7,
   (W20_of_ne m ρ c main_arg8 (by decide)).trans h.a8⟩

theorem inv_r7 {src dst : IVec Cert.Shared.SE 32} {d2 : FVec Ideal Cert.Shared.N1 .f32}
    {batch : IVec Cert.Shared.SV 32} {Wc : FVec Ideal Cert.Shared.S4HH .f32} {bc : FVec Ideal Cert.Shared.S4H .f32} {g beta : FVec Ideal Cert.Shared.S3H .f32}
    (h : Inv (W21 m ρ c) src dst d2 batch Wc bc g beta) : Inv (W22 m ρ c) src dst d2 batch Wc bc g beta :=
  ⟨(W22_of_ne m ρ c main_v1 (by decide)).trans h.v1,
   (W22_of_ne m ρ c main_v3 (by decide)).trans h.v3,
   ((W22_arr m ρ c 2).trans (((dat7 (V21 m ρ) c).arrAt_in 2 rfl _).trans (A_eq7 (V21 m ρ) c 2))).trans h.v11,
   (W22_of_ne m ρ c main_arg2 (by decide)).trans h.a2,
   (W22_of_ne m ρ c main_arg5 (by decide)).trans h.a5,
   (W22_of_ne m ρ c main_arg6 (by decide)).trans h.a6,
   (W22_of_ne m ρ c main_arg7 (by decide)).trans h.a7,
   (W22_of_ne m ρ c main_arg8 (by decide)).trans h.a8⟩

end Cert.KernelIdeal.KerValue

end
-- ==== Proof.Spec.lean ====
/- The three kinds of array the eight device regions produce, each as ONE function of whole arrays, index by index,
   on the extended reals.  Rows are nodes (50000), columns are the 128 hidden channels; `d` is the column of
   degree weights (50000 × 1); a matrix product contracts the 128 channels. -/
import Idealize.ShloMosaic.PureOps.Ideal
import Idealize.ShloMosaic.Lib.ValueIdx

noncomputable section

namespace Cert.Spec

open Idealize.ShloMosaic Idealize.ShloMosaic.ValueIdx

/-- nodes × channels -/
abbrev NH : Shape := ⟨2, ![50000, 128]⟩
/-- channels × channels -/
abbrev HH : Shape := ⟨2, ![128, 128]⟩
/-- one row of channels -/
abbrev R1 : Shape := ⟨2, ![1, 128]⟩
/-- one column of nodes -/
abbrev N1 : Shape := ⟨2, ![50000, 1]⟩

/-- The batch-norm epsilon, the f32 word both programs carry. -/
abbrev eps : EReal := Ideal.ofBits .f32 0x3727C5AC#32

/-- A matrix product at an entry: row `r` of `h` against column `c` of `W`. -/
def mm (h : NH.Idx → EReal) (W : HH.Idx → EReal) (r : Fin 50000) (c : Fin 128) : EReal :=
  ∑ k : Fin 128, h (ix2 r k) * W (ix2 k c)

/-- The embedding `x · W + b` at an entry. -/
def embed (x : NH.Idx → EReal) (W : HH.Idx → EReal) (b : R1.Idx → EReal) (r : Fin 50000) (c : Fin 128) : EReal :=
  mm x W r c + b (ix2 0 c)

/-- Region of the first layer: the weighted projection `d · ((x · W + b) · W0)`. -/
def embedConv (x : NH.Idx → EReal) (W : HH.Idx → EReal) (b : R1.Idx → EReal) (W0 : HH.Idx → EReal) (d : N1.Idx → EReal) :
    NH.Idx → EReal :=
  fun i => d (ix2 (i 0) 0) * ∑ k : Fin 128, embed x W b (i 0) k * W0 (ix2 k (i 1))

/-- Batch normalisation at an entry: `(h − μ) · rsqrt(σ² + ε) · γ + β`, the statistics per channel. -/
def bn (h : NH.Idx → EReal) (mu var g beta : R1.Idx → EReal) (r : Fin 50000) (c : Fin 128) : EReal :=
  (h (ix2 r c) - mu (ix2 0 c)) * Ideal.rsqrt (var (ix2 0 c) + eps) * g (ix2 0 c) + beta (ix2 0 c)

/-- Region of a later layer: the weighted projection `d · (bn(h) · W)`. -/
def bnConv (h : NH.Idx → EReal) (mu var g beta : R1.Idx → EReal) (W : HH.Idx → EReal) (d : N1.Idx → EReal) :
    NH.Idx → EReal :=
  fun i => d (ix2 (i 0) 0) * ∑ k : Fin 128, bn h mu var g beta (i 0) k * W (ix2 k (i 1))

/-- The combine region without the rectifier: `d · (seg + u) + b`. -/
def combine (seg u : NH.Idx → EReal) (d : N1.Idx → EReal) (b : R1.Idx → EReal) : NH.Idx → EReal :=
  fun i => d (ix2 (i 0) 0) * (seg i + u i) + b (ix2 0 (i 1))

/-- The combine region with the rectifier. -/
def combineRelu (seg u : NH.Idx → EReal) (d : N1.Idx → EReal) (b : R1.Idx → EReal) : NH.Idx → EReal :=
  fun i => max (combine seg u d b i) (Ideal.ofBits .f32 0x00000000#32)

end Cert.Spec

end
-- ==== Proof.Nets.lean ====
/- The two programs' results as compositions of whole-array functions of the nine arguments, at the extended reals.
   `refNet` follows the reference: embedding, four layers (rectified and batch-normalised but the last), mean pool.
   `kerNet` follows the kernel program: per layer the weighted projection u (one device region), the aggregation of
   gathered rows of u on the host, the combine region; the statistics on the host between layers; the same pool. -/
import proofs.«113380_j111669150109_2_alg».proof.Proof.Shared
import proofs.«113380_j111669150109_2_alg».proof.Proof.Spec

noncomputable section

namespace Cert.Nets

open Idealize.ShloMosaic Cert.Shared

variable (x : FVec Ideal NH .f32) (e : IVec SE2 32) (batch : IVec SV 32) (Wemb : FVec Ideal HH .f32) (bemb : FVec Ideal SH .f32)
  (Wc : FVec Ideal S4HH .f32) (bc : FVec Ideal S4H .f32) (g beta : FVec Ideal S3H .f32)

/-- The reference's result. -/
def refNet : FVec Ideal SGH .f32 :=
  let src := srcOf e
  let dst := dstOf e
  let d : FVec Ideal SV .f32 := dinvF dst
  let h0 := embF x Wemb bemb
  let a0 := reluF (refLayer h0 d src dst (sliceW0 Wc) (sliceB0 bc))
  let n0 := bnF a0 (meanF a0) (varF a0) (sliceG0 g) (sliceG0 beta)
  let a1 := reluF (refLayer n0 d src dst (sliceW1 Wc) (sliceB1 bc))
  let n1 := bnF a1 (meanF a1) (varF a1) (sliceG1 g) (sliceG1 beta)
  let a2 := reluF (refLayer n1 d src dst (sliceW2 Wc) (sliceB2 bc))
  let n2 := bnF a2 (meanF a2) (varF a2) (sliceG2 g) (sliceG2 beta)
  let a3 := refLayer n2 d src dst (sliceW3 Wc) (sliceB3 bc)
  poolF a3 batch

/-- The kernel program's result. -/
def kerNet : FVec Ideal SGH .f32 :=
  let src := srcOf e
  let dst := dstOf e
  let d : FVec Ideal SV .f32 := dinvF dst
  let d2 : FVec Ideal N1 .f32 := colOf d
  let u0 : FVec Ideal NH .bf16 := Cert.Spec.embedConv x Wemb (rowOf1 bemb) (sliceW0 Wc) d2
  let a0 : FVec Ideal NH .f32 := Cert.Spec.combineRelu (kerSeg u0 src dst) u0 d2 (rowOf1 (sliceB0 bc))
  let u1 : FVec Ideal NH .bf16 := Cert.Spec.bnConv a0 (rowOf1 (meanF a0)) (rowOf1 (varF a0)) (rowOf1 (sliceG0 g)) (rowOf1 (sliceG0 beta)) (sliceW1 Wc) d2
  let a1 : FVec Ideal NH .f32 := Cert.Spec.combineRelu (kerSeg u1 src dst) u1 d2 (rowOf1 (sliceB1 bc))
  let u2 : FVec Ideal NH .bf16 := Cert.Spec.bnConv a1 (rowOf1 (meanF a1)) (rowOf1 (varF a1)) (rowOf1 (sliceG1 g)) (rowOf1 (sliceG1 beta)) (sliceW2 Wc) d2
  let a2 : FVec Ideal NH .f32 := Cert.Spec.combineRelu (kerSeg u2 src dst) u2 d2 (rowOf1 (sliceB2 bc))
  let u3 : FVec Ideal NH .bf16 := Cert.Spec.bnConv a2 (rowOf1 (meanF a2)) (rowOf1 (varF a2)) (rowOf1 (sliceG2 g)) (rowOf1 (sliceG2 beta)) (sliceW3 Wc) d2
  let a3 : FVec Ideal NH .f32 := Cert.Spec.combine (kerSeg u3 src dst) u3 d2 (rowOf1 (sliceB3 bc))
  poolF a3 batch

end Cert.Nets

end
-- ==== Proof.RegionCommon.lean ====
/- Two small facts every region's reading uses: the zero offsets of a whole-block access, and a column of
   per-row values broadcast over the columns of a block. -/
import Idealize.ShloMosaic.Lib.ValueIdx
import Idealize.ShloMosaic.Lib.ValueLayout
import Idealize.ShloMosaic.Lib.Pipeline.Value

noncomputable section

namespace Cert.KernelIdeal.RegionValue

open Idealize.ShloMosaic Idealize.ShloMosaic.ValueIdx

/-- The offsets of an access to a whole two-axis block are zero on both axes. -/
theorem hz2 : (![0, 0] : Fin 2 → Nat) = fun _ => 0 := funext fun a => by fin_cases a <;> rfl

/-- A column `[a, 1]` broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KernelIdeal.RegionValue

end
-- ==== Proof.RegionMatmul.lean ====
/- The matrix product of a 2000 x 128 block with a 128 x 128 matrix, accumulated into zero, read at an entry:
   entry (p, q) is the sum over the 128 contracted channels k of the block's (p, k) times the matrix's (k, q). -/
import proofs.«113380_j111669150109_2_alg».proof.Proof.Gen.KernelIdeal.Skeleton
import proofs.«113380_j111669150109_2_alg».proof.Proof.RegionCommon
import Idealize.ShloMosaic.PureOps.Ideal.Laws

noncomputable section

namespace Cert.KernelIdeal.RegionValue

open Cert.KernelIdeal Cert.KernelIdeal.Gen Idealize.ShloMosaic Idealize.ShloMosaic.ValueIdx

/-- The one contraction of every region: rows against a square matrix of channels, no accumulator. -/
theorem matmul_zero_apply {φ₁ φ₂ : FTy} (A : FVec Ideal S2000x128 φ₁) (B : FVec Ideal S128x128 φ₂) (p : Fin 2000) (q : Fin 128) :
    matmul dot_S2000x128_S128x128_S2000x128_1_0_0_1_n_n none A B (constant (F := Ideal) S2000x128 .f32 0x00000000#32) (ix2 p q)
      = ∑ k : Fin 128, A (ix2 p k) * B (ix2 k q) := by
  show FloatOps.matmul dot_S2000x128_S128x128_S2000x128_1_0_0_1_n_n none A B _ (ix2 p q) = _
  rw [Ideal.matmul_constant_zero_apply,
    ← Equiv.sum_comp (contrEquiv1 dot_S2000x128_S128x128_S2000x128_1_0_0_1_n_n 128 rfl rfl).symm]
  refine Finset.sum_congr rfl fun c _ => ?_
  have c2 := contrEquiv1_symm_val dot_S2000x128_S128x128_S2000x128_1_0_0_1_n_n 128 rfl rfl c
  have l2 : dot_S2000x128_S128x128_S2000x128_1_0_0_1_n_n.lhsIdx (ix2 p q)
      ((contrEquiv1 dot_S2000x128_S128x128_S2000x128_1_0_0_1_n_n 128 rfl rfl).symm c) = ix2 p c := by
    funext ax; apply Fin.ext
    match ax with
    | ⟨0, _⟩ => simp [DotDims.lhsIdx, dot_S2000x128_S128x128_S2000x128_1_0_0_1_n_n]; rfl
    | ⟨1, _⟩ => simp [DotDims.lhsIdx, dot_S2000x128_S128x128_S2000x128_1_0_0_1_n_n]; exact c2
  have r2 : dot_S2000x128_S128x128_S2000x128_1_0_0_1_n_n.rhsIdx (ix2 p q)
      ((contrEquiv1 dot_S2000x128_S128x128_S2000x128_1_0_0_1_n_n 128 rfl rfl).symm c) = ix2 c q := by
    funext ax; apply Fin.ext
    match ax with
    | ⟨0, _⟩ => simp [DotDims.rhsIdx, dot_S2000x128_S128x128_S2000x128_1_0_0_1_n_n]; exact c2
    | ⟨1, _⟩ => simp [DotDims.rhsIdx, dot_S2000x128_S128x128_S2000x128_1_0_0_1_n_n]; rfl
  rw [l2, r2]

end Cert.KernelIdeal.RegionValue

end
-- ==== Proof.RegionPayEmbed.lean ====
/- The first region's body at an entry of its block. The block of 2000 input rows is multiplied by the embedding
   matrix, the embedding bias is added to every row, the result is multiplied by the first layer's weight matrix,
   and each row is scaled by its degree weight. Entry (p, q) therefore is the weight of row p times the sum over
   channels k of (the embedded row p at k) times the layer matrix at (k, q). The second half states it against
   whole arrays. -/
import proofs.«113380_j111669150109_2_alg».proof.Proof.Gen.KernelIdeal.Skeleton
import proofs.«113380_j111669150109_2_alg».proof.Proof.Spec
import proofs.«113380_j111669150109_2_alg».proof.Proof.RegionMatmul

noncomputable section

namespace Cert.KernelIdeal.RegionValue

open Cert.KernelIdeal Cert.KernelIdeal.Gen Idealize.ShloMosaic Idealize.ShloMosaic.ValueIdx

/-- The body's entry: row weight times (embedded row) · (column of the layer matrix). -/
def embedConvAt (x0 : S2000x128.Idx → EReal) (x1 : S128x128.Idx → EReal) (x2 : S1x128.Idx → EReal) (x3 : S128x128.Idx → EReal)
    (x4 : S2000x1.Idx → EReal) (p : Fin 2000) (q : Fin 128) : EReal :=
  x4 (ix2 p 0) * ∑ k : Fin 128, ((∑ k' : Fin 128, x0 (ix2 p k') * x1 (ix2 k' k)) + x2 (ix2 0 k)) * x3 (ix2 k q)

/-- The body of region 0 at entry `(p, q)`. -/
theorem pay0_apply (x0 : Vec Ideal S2000x128 .f32) (x1 : Vec Ideal S128x128 .f32) (x2 : Vec Ideal S1x128 .f32)
    (x3 : Vec Ideal S128x128 .f32) (x4 : Vec Ideal S2000x1 .f32) (p : Fin 2000) (q : Fin 128) :
    k0_pay1 (F := Ideal) x0 x1 x2 x3 x4 (ix2 p q) = embedConvAt x0 x1 x2 x3 x4 p q := by
  have e4 : broadcastTo S2000x128 x4 broadcasts_S2000x1_S2000x128 (ix2 p q) = x4 (ix2 p 0) := broadcastTo_a1_ab_apply x4 _ p q
  unfold k0_pay1 embedConvAt
  simp only [shapeCast_self]
  show broadcastTo S2000x128 x4 broadcasts_S2000x1_S2000x128 (ix2 p q)
      * matmul dot_S2000x128_S128x128_S2000x128_1_0_0_1_n_n none
          (truncf .bf16 (addf (matmul dot_S2000x128_S128x128_S2000x128_1_0_0_1_n_n none (truncf .bf16 x0 bitsLt_bf16_f32) (truncf .bf16 x1 bitsLt_bf16_f32)
              (constant (F := Ideal) S2000x128 .f32 0x00000000#32))
            (broadcastTo S2000x128 x2 broadcasts_S1x128_S2000x128)) bitsLt_bf16_f32)
          (truncf .bf16 x3 bitsLt_bf16_f32) (constant (F := Ideal) S2000x128 .f32 0x00000000#32) (ix2 p q) = _
  rw [e4]
  refine congrArg (x4 (ix2 p 0) * ·) ((matmul_zero_apply _ _ p q).trans (Finset.sum_congr rfl fun k _ => ?_))
  show (matmul dot_S2000x128_S128x128_S2000x128_1_0_0_1_n_n none (truncf .bf16 x0 bitsLt_bf16_f32) (truncf .bf16 x1 bitsLt_bf16_f32)
        (constant (F := Ideal) S2000x128 .f32 0x00000000#32) (ix2 p k)
      + broadcastTo S2000x128 x2 broadcasts_S1x128_S2000x128 (ix2 p k)) * x3 (ix2 k q) = _
  rw [matmul_zero_apply, broadcastTo_1b_ab_apply]
  rfl

/-- The body against whole arrays: when the block of rows holds row `i 0` of the input array at row `y 0`, the weight
    block holds that row's weight, the small operands are the whole matrices and the bias row, and `y` and `i` name the
    same column, the body's entry at `y` is the whole-array function at `i`. -/
theorem embedConv_block (x0 : Vec Ideal S2000x128 .f32) (x1 : Vec Ideal S128x128 .f32) (x2 : Vec Ideal S1x128 .f32)
    (x3 : Vec Ideal S128x128 .f32) (x4 : Vec Ideal S2000x1 .f32)
    (X : Cert.Spec.NH.Idx → EReal) (W : Cert.Spec.HH.Idx → EReal) (B : Cert.Spec.R1.Idx → EReal) (W0 : Cert.Spec.HH.Idx → EReal)
    (Dg : Cert.Spec.N1.Idx → EReal) (y : S2000x128.Idx) (i : Cert.Spec.NH.Idx)
    (h0 : ∀ k : Fin 128, x0 (ix2 (y 0) k) = X (ix2 (i 0) k))
    (h1 : ∀ k' k : Fin 128, x1 (ix2 k' k) = W (ix2 k' k))
    (h2 : ∀ k : Fin 128, x2 (ix2 0 k) = B (ix2 0 k))
    (h3 : ∀ k : Fin 128, x3 (ix2 k (y 1)) = W0 (ix2 k (i 1)))
    (h4 : x4 (ix2 (y 0) 0) = Dg (ix2 (i 0) 0)) :
    k0_pay1 (F := Ideal) x0 x1 x2 x3 x4 y = Cert.Spec.embedConv X W B W0 Dg i := by
  obtain ⟨p, q, rfl⟩ : ∃ (p : Fin 2000) (q : Fin 128), y = ix2 p q := ⟨y 0, y 1, eq_ix2 y⟩
  have h0' : ∀ k : Fin 128, x0 (ix2 p k) = X (ix2 (i 0) k) := h0
  have h3' : ∀ k : Fin 128, x3 (ix2 k q) = W0 (ix2 k (i 1)) := h3
  have h4' : x4 (ix2 p 0) = Dg (ix2 (i 0) 0) := h4
  rw [pay0_apply]
  unfold embedConvAt Cert.Spec.embedConv Cert.Spec.embed Cert.Spec.mm
  rw [h4']
  refine congrArg (Dg (ix2 (i 0) 0) * ·) (Finset.sum_congr rfl fun k _ => ?_)
  rw [h3' k, h2 k]
  refine congrArg (fun s => (s + B (ix2 0 k)) * W0 (ix2 k (i 1))) (Finset.sum_congr rfl fun k' _ => ?_)
  rw [h0' k', h1 k' k]

end Cert.KernelIdeal.RegionValue

end
-- ==== Proof.Region0.lean ====
/- Region 0 (embedding and first projection): the output array after all 25 grid points, as one function of the
   five input arrays. Point t works on rows 2000 t .. 2000 t + 1999: it reads those rows of the node features and
   of the column of degree weights, and the whole of the two 128 x 128 matrices and the bias row, and writes those
   rows of the output. The block a point writes back is the block of the whole-array function, and the 25 row
   blocks tile the 50000 rows. -/
import proofs.«113380_j111669150109_2_alg».proof.Proof.Gen.KernelIdeal.Frame
import proofs.«113380_j111669150109_2_alg».proof.Proof.Spec
import proofs.«113380_j111669150109_2_alg».proof.Proof.RegionPayEmbed
import Idealize.ShloMosaic.Lib.Pipeline.Value

noncomputable section

namespace Cert.KernelIdeal.RegionValue

open Cert.KernelIdeal Cert.KernelIdeal.Gen Idealize.ShloMosaic Idealize.ShloMosaic.ValueIdx

open Idealize.ShloMosaic.TcCoe Idealize.SL.Sem
open Idealize.ShloMosaic.Pipeline (Dat)

variable (V : (c : Dev nD) → (b : Ref sig .tc) → Buf (Elt Ideal) ((c : Thread nD τ).loc b))

/-- The block indices at point `t`: the row-blocked windows sit at row block `t`, the whole-array windows at their one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

set_option maxHeartbeats 1000000 in
/-- What point `t` writes back is block `t` of the whole-array function of the arrays as the region finds them. -/
theorem flushed0_eq (c : Dev nD) (t : Fin cfg0.N) :
    (dat0 (F := Ideal) V c).flushed 5 t = ((cfg0.win 5).blk t).view.read (Elt Ideal)
      (Cert.Spec.embedConv (V c main_arg0 : Cert.Spec.NH.Idx → EReal) (V c main_arg3 : Cert.Spec.HH.Idx → EReal)
        (V c main_v14 : Cert.Spec.R1.Idx → EReal) (V c main_v13 : Cert.Spec.HH.Idx → EReal) (V c main_v11 : Cert.Spec.N1.Idx → EReal)) := by
  show (cfg0.win 5).cut (grid0.coords t) ((dat0 V c).after 5 t) = _
  rw [after0_5]
  unfold out0_5
  rw [View.canon_unit_zero hz2]
  simp only [View.ld_unit_zero (S := S2000x128) hz2, View.ld_unit_zero (S := S128x128) hz2, View.ld_unit_zero (S := S1x128) hz2,
    View.ld_unit_zero (S := S2000x1) hz2]
  obtain ⟨a00, a01, a10, a11, a20, a21, a30, a31, a40, a41, a50, a51⟩ := idx_facts0 t
  funext j
  have hj0 : (j 0).val < 2000 := (j 0).isLt
  have hj1 : (j 1).val < 128 := (j 1).isLt
  have h0 : ∀ k : Fin 128, ((cfg0.win 0).blk t).view.emb (ix2 (j 0) k : S2000x128.Idx) = (ix2 ((((cfg0.win 5).blk t).view.emb j) 0) k : Cert.Spec.NH.Idx) := by
    intro k; funext a; apply Fin.ext
    match a with
    | ⟨0, _⟩ => show win0_0.index t (0 : Fin 2) * 2000 + 1 * (j 0).val = win0_5.index t (0 : Fin 2) * 2000 + 1 * (j 0).val; omega
    | ⟨1, _⟩ => show win0_0.index t (1 : Fin 2) * 128 + 1 * k.val = k.val; omega
  have h1 : ∀ k' k : Fin 128, ((cfg0.win 1).blk t).view.emb (ix2 k' k : S128x128.Idx) = (ix2 k' k : Cert.Spec.HH.Idx) := by
    intro k' k; funext a; apply Fin.ext
    match a with
    | ⟨0, _⟩ => show win0_1.index t (0 : Fin 2) * 128 + 1 * k'.val = k'.val; omega
    | ⟨1, _⟩ => show win0_1.index t (1 : Fin 2) * 128 + 1 * k.val = k.val; omega
  have h2 : ∀ k : Fin 128, ((cfg0.win 2).blk t).view.emb (ix2 (0 : Fin 1) k : S1x128.Idx) = (ix2 (0 : Fin 1) k : Cert.Spec.R1.Idx) := by
    intro k; funext a; apply Fin.ext
    match a with
    | ⟨0, _⟩ => show win0_2.index t (0 : Fin 2) * 1 + 1 * 0 = 0; omega
    | ⟨1, _⟩ => show win0_2.index t (1 : Fin 2) * 128 + 1 * k.val = k.val; omega
  have h3 : ∀ k : Fin 128, ((cfg0.win 3).blk t).view.emb (ix2 k (j 1) : S128x128.Idx) = (ix2 k ((((cfg0.win 5).blk t).view.emb j) 1) : Cert.Spec.HH.Idx) := by
    intro k; funext a; apply Fin.ext
    match a with
    | ⟨0, _⟩ => show win0_3.index t (0 : Fin 2) * 128 + 1 * k.val = k.val; omega
    | ⟨1, _⟩ => show win0_3.index t (1 : Fin 2) * 128 + 1 * (j 1).val = win0_5.index t (1 : Fin 2) * 128 + 1 * (j 1).val; omega
  have h4 : ((cfg0.win 4).blk t).view.emb (ix2 (j 0) (0 : Fin 1) : S2000x1.Idx) = (ix2 ((((cfg0.win 5).blk t).view.emb j) 0) (0 : Fin 1) : Cert.Spec.N1.Idx) := by
    funext a; apply Fin.ext
    match a with
    | ⟨0, _⟩ => show win0_4.index t (0 : Fin 2) * 2000 + 1 * (j 0).val = win0_5.index t (0 : Fin 2) * 2000 + 1 * (j 0).val; omega
    | ⟨1, _⟩ => show win0_4.index t (1 : Fin 2) * 1 + 1 * 0 = 0; omega
  show k0_pay1 (F := Ideal) (iblk0 V c 0 t) (iblk0 V c 1 t) (iblk0 V c 2 t) (iblk0 V c 3 t) (iblk0 V c 4 t) j
    = Cert.Spec.embedConv (V c main_arg0 : Cert.Spec.NH.Idx → EReal) (V c main_arg3 : Cert.Spec.HH.Idx → EReal)
        (V c main_v14 : Cert.Spec.R1.Idx → EReal) (V c main_v13 : Cert.Spec.HH.Idx → EReal) (V c main_v11 : Cert.Spec.N1.Idx → EReal) (((cfg0.win 5).blk t).view.emb j)
  refine embedConv_block (iblk0 V c 0 t) (iblk0 V c 1 t) (iblk0 V c 2 t) (iblk0 V c 3 t) (iblk0 V c 4 t)
    (V c main_arg0) (V c main_arg3) (V c main_v14) (V c main_v13) (V c main_v11) j (((cfg0.win 5).blk t).view.emb j) ?_ ?_ ?_ ?_ ?_
  · intro k
    show V c main_arg0 (((cfg0.win 0).blk t).view.emb (ix2 (j 0) k : S2000x128.Idx)) = V c main_arg0 (ix2 ((((cfg0.win 5).blk t).view.emb j) 0) k : Cert.Spec.NH.Idx)
    rw [h0 k]
  · intro k' k
    show V c main_arg3 (((cfg0.win 1).blk t).view.emb (ix2 k' k : S128x128.Idx)) = V c main_arg3 (ix2 k' k : Cert.Spec.HH.Idx)
    rw [h1 k' k]
  · intro k
    show V c main_v14 (((cfg0.win 2).blk t).view.emb (ix2 (0 : Fin 1) k : S1x128.Idx)) = V c main_v14 (ix2 (0 : Fin 1) k : Cert.Spec.R1.Idx)
    rw [h2 k]
  · intro k
    show V c main_v13 (((cfg0.win 3).blk t).view.emb (ix2 k (j 1) : S128x128.Idx)) = V c main_v13 (ix2 k ((((cfg0.win 5).blk t).view.emb j) 1) : Cert.Spec.HH.Idx)
    rw [h3 k]
  · show V c main_v11 (((cfg0.win 4).blk t).view.emb (ix2 (j 0) (0 : Fin 1) : S2000x1.Idx)) = V c main_v11 (ix2 ((((cfg0.win 5).blk t).view.emb j) 0) (0 : Fin 1) : Cert.Spec.N1.Idx)
    rw [h4]

/-- An index of the output array is in point `t`'s block iff each coordinate is in the block's range on its axis. -/
theorem mem_blk0 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v15).slice (win0_5.rect t)).set ↔ _
  rw [View.set_slice_whole, Rect.mem_set_unit]
  exact Iff.rfl

/-- Every entry of the output is written: row `r` by the point `r / 2000`. -/
theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  have hlt : (i 0).val / 2000 < cfg0.N := by rw [hN]; omega
  obtain ⟨-, -, -, -, -, -, -, -, -, -, ao0, ao1⟩ := idx_facts0 ⟨(i 0).val / 2000, hlt⟩
  have ao0' : win0_5.index ⟨(i 0).val / 2000, hlt⟩ (0 : Fin 2) = (i 0).val / 2000 := ao0
  refine ⟨⟨(i 0).val / 2000, hlt⟩, flush0_5 _, ?_⟩
  rw [mem_blk0]
  intro a
  match a with
  | ⟨0, _⟩ =>
    show win0_5.index ⟨(i 0).val / 2000, hlt⟩ (0 : Fin 2) * 2000 ≤ (i 0).val ∧ (i 0).val < win0_5.index ⟨(i 0).val / 2000, hlt⟩ (0 : Fin 2) * 2000 + 2000
    rw [ao0']; omega
  | ⟨1, _⟩ =>
    show win0_5.index ⟨(i 0).val / 2000, hlt⟩ (1 : Fin 2) * 128 ≤ (i 1).val ∧ (i 1).val < win0_5.index ⟨(i 0).val / 2000, hlt⟩ (1 : Fin 2) * 128 + 128
    rw [ao1]; omega

/-- The output array after the whole grid is the whole-array function of the five input arrays. -/
theorem final0 (c : Dev nD) :
    (dat0 (F := Ideal) V c).arrAt 5 cfg0.N
      = Cert.Spec.embedConv (V c main_arg0 : Cert.Spec.NH.Idx → EReal) (V c main_arg3 : Cert.Spec.HH.Idx → EReal)
        (V c main_v14 : Cert.Spec.R1.Idx → EReal) (V c main_v13 : Cert.Spec.HH.Idx → EReal) (V c main_v11 : Cert.Spec.N1.Idx → EReal) :=
  (dat0 V c).arrAt_eq_of_cover 5 _ (fun t _ => flushed0_eq V c t) cover0

end Cert.KernelIdeal.RegionValue

end
-- ==== Proof.RegionPayCombine.lean ====
/- The combine body at an entry of its block. A block is 2000 rows of 128 channels; entry (p, q) of the result is
   the row's degree weight times the sum of the two feature blocks at (p, q), plus the bias of channel q, and, in the
   rectified form, the maximum of that with zero. The column of weights (2000 x 1) and the row of biases (1 x 128) are
   each broadcast over the block, so the entry reads the weight of row p and the bias of column q. The second half
   says the same against whole arrays: if the four blocks are the rows of four arrays that entry i of the result
   needs, the body's entry is the whole-array combine at i. -/
import proofs.«113380_j111669150109_2_alg».proof.Proof.Gen.KernelIdeal.Skeleton
import proofs.«113380_j111669150109_2_alg».proof.Proof.Spec
import proofs.«113380_j111669150109_2_alg».proof.Proof.RegionCommon

noncomputable section

namespace Cert.KernelIdeal.RegionValue

open Cert.KernelIdeal Cert.KernelIdeal.Gen Idealize.ShloMosaic Idealize.ShloMosaic.ValueIdx

/-- The unrectified combine at an entry: weight of the row times the sum of the two blocks, plus the channel's bias. -/
def combineAt (x0 x1 : S2000x128.Idx → EReal) (x2 : S2000x1.Idx → EReal) (x3 : S1x128.Idx → EReal) (p : Fin 2000) (q : Fin 128) : EReal :=
  x2 (ix2 p 0) * (x0 (ix2 p q) + x1 (ix2 p q)) + x3 (ix2 0 q)

/-- The rectified combine body (regions 1, 3, 5 share this text) at entry `(p, q)`. -/
theorem pay1_apply (x0 : Vec Ideal S2000x128 .f32) (x1 : Vec Ideal S2000x128 .bf16) (x2 : Vec Ideal S2000x1 .f32) (x3 : Vec Ideal S1x128 .f32)
    (p : Fin 2000) (q : Fin 128) :
    k1_pay1 (F := Ideal) x0 x1 x2 x3 (ix2 p q) = max (combineAt x0 x1 x2 x3 p q) (Ideal.ofBits .f32 0x00000000#32) := by
  have e2 : broadcastTo S2000x128 x2 broadcasts_S2000x1_S2000x128 (ix2 p q) = x2 (ix2 p 0) := broadcastTo_a1_ab_apply x2 _ p q
  have e3 : broadcastTo S2000x128 x3 broadcasts_S1x128_S2000x128 (ix2 p q) = x3 (ix2 0 q) := broadcastTo_1b_ab_apply x3 _ p q
  unfold k1_pay1 combineAt
  simp only [shapeCast_self]
  show max (broadcastTo S2000x128 x2 broadcasts_S2000x1_S2000x128 (ix2 p q) * (x0 (ix2 p q) + x1 (ix2 p q))
      + broadcastTo S2000x128 x3 broadcasts_S1x128_S2000x128 (ix2 p q)) (Ideal.ofBits .f32 0x00000000#32) = _
  rw [e2, e3]

/-- The three rectified combine bodies are one function. -/
theorem pay3_eq : @k3_pay1 = @k1_pay1 := rfl
theorem pay5_eq : @k5_pay1 = @k1_pay1 := rfl

/-- The last combine body (region 7, no rectifier) at entry `(p, q)`. -/
theorem pay7_apply (x0 : Vec Ideal S2000x128 .f32) (x1 : Vec Ideal S2000x128 .bf16) (x2 : Vec Ideal S2000x1 .f32) (x3 : Vec Ideal S1x128 .f32)
    (p : Fin 2000) (q : Fin 128) :
    k7_pay1 (F := Ideal) x0 x1 x2 x3 (ix2 p q) = combineAt x0 x1 x2 x3 p q := by
  have e2 : broadcastTo S2000x128 x2 broadcasts_S2000x1_S2000x128 (ix2 p q) = x2 (ix2 p 0) := broadcastTo_a1_ab_apply x2 _ p q
  have e3 : broadcastTo S2000x128 x3 broadcasts_S1x128_S2000x128 (ix2 p q) = x3 (ix2 0 q) := broadcastTo_1b_ab_apply x3 _ p q
  unfold k7_pay1 combineAt
  simp only [shapeCast_self]
  show broadcastTo S2000x128 x2 broadcasts_S2000x1_S2000x128 (ix2 p q) * (x0 (ix2 p q) + x1 (ix2 p q))
      + broadcastTo S2000x128 x3 broadcasts_S1x128_S2000x128 (ix2 p q) = _
  rw [e2, e3]

/-- The rectified body against whole arrays: when the blocks hold, at `y`, the entries of the arrays that entry `i`
    of the result reads (the two feature arrays at `i`, the weight of `i`'s row, the bias of `i`'s column), the
    body's entry at `y` is the whole-array rectified combine at `i`. -/
theorem combineRelu_block (x0 : Vec Ideal S2000x128 .f32) (x1 : Vec Ideal S2000x128 .bf16) (x2 : Vec Ideal S2000x1 .f32) (x3 : Vec Ideal S1x128 .f32)
    (A0 A1 : Cert.Spec.NH.Idx → EReal) (A2 : Cert.Spec.N1.Idx → EReal) (A3 : Cert.Spec.R1.Idx → EReal)
    (y : S2000x128.Idx) (i : Cert.Spec.NH.Idx)
    (h0 : x0 y = A0 i) (h1 : x1 y = A1 i)
    (h2 : x2 (ix2 (y 0) 0) = A2 (ix2 (i 0) 0)) (h3 : x3 (ix2 0 (y 1)) = A3 (ix2 0 (i 1))) :
    k1_pay1 (F := Ideal) x0 x1 x2 x3 y = Cert.Spec.combineRelu A0 A1 A2 A3 i := by
  obtain ⟨p, q, rfl⟩ : ∃ (p : Fin 2000) (q : Fin 128), y = ix2 p q := ⟨y 0, y 1, eq_ix2 y⟩
  have h2' : x2 (ix2 p 0) = A2 (ix2 (i 0) 0) := h2
  have h3' : x3 (ix2 0 q) = A3 (ix2 0 (i 1)) := h3
  rw [pay1_apply]
  unfold combineAt Cert.Spec.combineRelu Cert.Spec.combine
  rw [h0, h1, h2', h3']

/-- The unrectified body against whole arrays, in the same form. -/
theorem combine_block (x0 : Vec Ideal S2000x128 .f32) (x1 : Vec Ideal S2000x128 .bf16) (x2 : Vec Ideal S2000x1 .f32) (x3 : Vec Ideal S1x128 .f32)
    (A0 A1 : Cert.Spec.NH.Idx → EReal) (A2 : Cert.Spec.N1.Idx → EReal) (A3 : Cert.Spec.R1.Idx → EReal)
    (y : S2000x128.Idx) (i : Cert.Spec.NH.Idx)
    (h0 : x0 y = A0 i) (h1 : x1 y = A1 i)
    (h2 : x2 (ix2 (y 0) 0) = A2 (ix2 (i 0) 0)) (h3 : x3 (ix2 0 (y 1)) = A3 (ix2 0 (i 1))) :
    k7_pay1 (F := Ideal) x0 x1 x2 x3 y = Cert.Spec.combine A0 A1 A2 A3 i := by
  obtain ⟨p, q, rfl⟩ : ∃ (p : Fin 2000) (q : Fin 128), y = ix2 p q := ⟨y 0, y 1, eq_ix2 y⟩
  have h2' : x2 (ix2 p 0) = A2 (ix2 (i 0) 0) := h2
  have h3' : x3 (ix2 0 q) = A3 (ix2 0 (i 1)) := h3
  rw [pay7_apply]
  unfold combineAt Cert.Spec.combine
  rw [h0, h1, h2', h3']

end Cert.KernelIdeal.RegionValue

end
-- ==== Proof.Region1.lean ====
/- Region 1 (a combine region): the output array after all 25 grid points, as one function of the four
   input arrays. Point t of the grid works on rows 2000 t .. 2000 t + 1999: it reads those rows of the two feature
   arrays and of the column of degree weights, and the one row of biases, and writes those rows of the output. So
   the block a point writes back is the block of the whole-array combine, and since the 25 row blocks tile the
   50000 rows, the array ends holding the whole-array combine. -/
import proofs.«113380_j111669150109_2_alg».proof.Proof.Gen.KernelIdeal.Frame
import proofs.«113380_j111669150109_2_alg».proof.Proof.Spec
import proofs.«113380_j111669150109_2_alg».proof.Proof.RegionPayCombine
import Idealize.ShloMosaic.Lib.Pipeline.Value

noncomputable section

namespace Cert.KernelIdeal.RegionValue

open Cert.KernelIdeal Cert.KernelIdeal.Gen Idealize.ShloMosaic Idealize.ShloMosaic.ValueIdx

open Idealize.ShloMosaic.TcCoe Idealize.SL.Sem
open Idealize.ShloMosaic.Pipeline (Dat)

variable (V : (c : Dev nD) → (b : Ref sig .tc) → Buf (Elt Ideal) ((c : Thread nD τ).loc b))

/-- The block indices at point `t`: the row-blocked windows sit at row block `t`, the bias at its one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the whole-array combine of the arrays as the region finds them. -/
theorem flushed1_eq (c : Dev nD) (t : Fin cfg1.N) :
    (dat1 (F := Ideal) V c).flushed 4 t = ((cfg1.win 4).blk t).view.read (Elt Ideal)
      (Cert.Spec.combineRelu (V c main_v26 : Cert.Spec.NH.Idx → EReal) (V c main_v15 : Cert.Spec.NH.Idx → EReal)
        (V c main_v11 : Cert.Spec.N1.Idx → EReal) (V c main_v29 : Cert.Spec.R1.Idx → EReal)) := by
  show (cfg1.win 4).cut (grid1.coords t) ((dat1 V c).after 4 t) = _
  rw [after1_4]
  unfold out1_4
  rw [View.canon_unit_zero hz2]
  simp only [View.ld_unit_zero (S := S2000x128) hz2, View.ld_unit_zero (S := S2000x1) hz2, View.ld_unit_zero (S := S1x128) hz2]
  obtain ⟨a00, a01, a10, a11, a20, a21, a30, a31, a40, a41⟩ := idx_facts1 t
  funext j
  have hj0 : (j 0).val < 2000 := (j 0).isLt
  have hj1 : (j 1).val < 128 := (j 1).isLt
  have h0 : ((cfg1.win 0).blk t).view.emb j = ((cfg1.win 4).blk t).view.emb j := by
    funext a; apply Fin.ext
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 128 + 1 * (j 1).val = win1_4.index t (1 : Fin 2) * 128 + 1 * (j 1).val; omega
  have h1 : ((cfg1.win 1).blk t).view.emb j = ((cfg1.win 4).blk t).view.emb j := by
    funext a; apply Fin.ext
    match a with
    | ⟨0, _⟩ => show win1_1.index t (0 : Fin 2) * 2000 + 1 * (j 0).val = win1_4.index t (0 : Fin 2) * 2000 + 1 * (j 0).val; omega
    | ⟨1, _⟩ => show win1_1.index t (1 : Fin 2) * 128 + 1 * (j 1).val = win1_4.index t (1 : Fin 2) * 128 + 1 * (j 1).val; omega
  have h2 : ((cfg1.win 2).blk t).view.emb (ix2 (j 0) (0 : Fin 1)) = (ix2 ((((cfg1.win 4).blk t).view.emb j) 0) (0 : Fin 1) : Cert.Spec.N1.Idx) := by
    funext a; apply Fin.ext
    match a with
    | ⟨0, _⟩ => show win1_2.index t (0 : Fin 2) * 2000 + 1 * (j 0).val = win1_4.index t (0 : Fin 2) * 2000 + 1 * (j 0).val; omega
    | ⟨1, _⟩ => show win1_2.index t (1 : Fin 2) * 1 + 1 * 0 = 0; omega
  have h3 : ((cfg1.win 3).blk t).view.emb (ix2 (0 : Fin 1) (j 1)) = (ix2 (0 : Fin 1) ((((cfg1.win 4).blk t).view.emb j) 1) : Cert.Spec.R1.Idx) := by
    funext a; apply Fin.ext
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega
  show k1_pay1 (F := Ideal) (iblk1 V c 0 t) (iblk1 V c 1 t) (iblk1 V c 2 t) (iblk1 V c 3 t) j
    = Cert.Spec.combineRelu (V c main_v26 : Cert.Spec.NH.Idx → EReal) (V c main_v15 : Cert.Spec.NH.Idx → EReal)
        (V c main_v11 : Cert.Spec.N1.Idx → EReal) (V c main_v29 : Cert.Spec.R1.Idx → EReal) (((cfg1.win 4).blk t).view.emb j)
  refine combineRelu_block (iblk1 V c 0 t) (iblk1 V c 1 t) (iblk1 V c 2 t) (iblk1 V c 3 t)
    (V c main_v26) (V c main_v15) (V c main_v11) (V c main_v29) j (((cfg1.win 4).blk t).view.emb j) ?_ ?_ ?_ ?_
  · show V c main_v26 (((cfg1.win 0).blk t).view.emb j) = V c main_v26 (((cfg1.win 4).blk t).view.emb j)
    rw [h0]
  · show V c main_v15 (((cfg1.win 1).blk t).view.emb j) = V c main_v15 (((cfg1.win 4).blk t).view.emb j)
    rw [h1]
  · show V c main_v11 (((cfg1.win 2).blk t).view.emb (ix2 (j 0) (0 : Fin 1))) = V c main_v11 (ix2 ((((cfg1.win 4).blk t).view.emb j) 0) (0 : Fin 1))
    rw [h2]
  · show V c main_v29 (((cfg1.win 3).blk t).view.emb (ix2 (0 : Fin 1) (j 1))) = V c main_v29 (ix2 (0 : Fin 1) ((((cfg1.win 4).blk t).view.emb j) 1))
    rw [h3]

/-- An index of the output array is in point `t`'s block iff each coordinate is in the block's range on its axis. -/
theorem mem_blk1 (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v30).slice (win1_4.rect t)).set ↔ _
  rw [View.set_slice_whole, Rect.mem_set_unit]
  exact Iff.rfl

/-- Every entry of the output is written: row `r` by the point `r / 2000`. -/
theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 25 := N_1
  have hlt : (i 0).val / 2000 < cfg1.N := by rw [hN]; omega
  obtain ⟨-, -, -, -, -, -, -, -, a40, a41⟩ := idx_facts1 ⟨(i 0).val / 2000, hlt⟩
  have a40' : win1_4.index ⟨(i 0).val / 2000, hlt⟩ (0 : Fin 2) = (i 0).val / 2000 := a40
  refine ⟨⟨(i 0).val / 2000, hlt⟩, flush1_4 _, ?_⟩
  rw [mem_blk1]
  intro a
  match a with
  | ⟨0, _⟩ =>
    show win1_4.index ⟨(i 0).val / 2000, hlt⟩ (0 : Fin 2) * 2000 ≤ (i 0).val ∧ (i 0).val < win1_4.index ⟨(i 0).val / 2000, hlt⟩ (0 : Fin 2) * 2000 + 2000
    rw [a40']; omega
  | ⟨1, _⟩ =>
    show win1_4.index ⟨(i 0).val / 2000, hlt⟩ (1 : Fin 2) * 128 ≤ (i 1).val ∧ (i 1).val < win1_4.index ⟨(i 0).val / 2000, hlt⟩ (1 : Fin 2) * 128 + 128
    rw [a41]; omega

/-- The output array after the whole grid is the whole-array combine of the four input arrays. -/
theorem final1 (c : Dev nD) :
    (dat1 (F := Ideal) V c).arrAt 4 cfg1.N
      = Cert.Spec.combineRelu (V c main_v26 : Cert.Spec.NH.Idx → EReal) (V c main_v15 : Cert.Spec.NH.Idx → EReal)
          (V c main_v11 : Cert.Spec.N1.Idx → EReal) (V c main_v29 : Cert.Spec.R1.Idx → EReal) :=
  (dat1 V c).arrAt_eq_of_cover 4 _ (fun t _ => flushed1_eq V c t) cover1

end Cert.KernelIdeal.RegionValue

end
-- ==== Proof.RegionPayBn.lean ====
/- The batch-norm regions' body at an entry of its block. Each of the 2000 rows is normalised channel by channel
   (subtract the channel's mean, multiply by the reciprocal square root of its variance plus epsilon, by its scale,
   add its shift), the normalised block is multiplied by the layer's weight matrix, and each row is scaled by its
   degree weight. Entry (p, q) is the weight of row p times the sum over channels k of the normalised (p, k) times
   the matrix at (k, q). The second half states it against whole arrays. -/
import proofs.«113380_j111669150109_2_alg».proof.Proof.Gen.KernelIdeal.Skeleton
import proofs.«113380_j111669150109_2_alg».proof.Proof.Spec
import proofs.«113380_j111669150109_2_alg».proof.Proof.RegionMatmul

noncomputable section

namespace Cert.KernelIdeal.RegionValue

open Cert.KernelIdeal Cert.KernelIdeal.Gen Idealize.ShloMosaic Idealize.ShloMosaic.ValueIdx

/-- The body's entry: row weight times (normalised row) · (column of the layer matrix). The arguments come in the
    body's own order: variance, features, mean, scale, shift, matrix, weights. -/
def bnConvAt (xv : S1x128.Idx → EReal) (xh : S2000x128.Idx → EReal) (xm xg xb : S1x128.Idx → EReal) (xW : S128x128.Idx → EReal)
    (xd : S2000x1.Idx → EReal) (p : Fin 2000) (q : Fin 128) : EReal :=
  xd (ix2 p 0) * ∑ k : Fin 128,
    ((xh (ix2 p k) - xm (ix2 0 k)) * Ideal.rsqrt (xv (ix2 0 k) + Cert.Spec.eps) * xg (ix2 0 k) + xb (ix2 0 k)) * xW (ix2 k q)

/-- The normalised block, before the product. -/
def bnBlock (xv : Vec Ideal S1x128 .f32) (xh : Vec Ideal S2000x128 .f32) (xm xg xb : Vec Ideal S1x128 .f32) : FVec Ideal S2000x128 .f32 :=
  addf (mulf (mulf (subf xh (broadcastTo S2000x128 xm broadcasts_S1x128_S2000x128))
      (broadcastTo S2000x128 (rsqrt (addf xv (broadcast S1x128 (Scalar.ofBits (F := Ideal) .f32 0x3727C5AC#32)))) broadcasts_S1x128_S2000x128))
      (broadcastTo S2000x128 xg broadcasts_S1x128_S2000x128))
    (broadcastTo S2000x128 xb broadcasts_S1x128_S2000x128)

/-- The normalised block at an entry. -/
theorem bnBlock_apply (xv : Vec Ideal S1x128 .f32) (xh : Vec Ideal S2000x128 .f32) (xm xg xb : Vec Ideal S1x128 .f32) (p : Fin 2000) (k : Fin 128) :
    bnBlock xv xh xm xg xb (ix2 p k)
      = (xh (ix2 p k) - xm (ix2 0 k)) * Ideal.rsqrt (xv (ix2 0 k) + Cert.Spec.eps) * xg (ix2 0 k) + xb (ix2 0 k) := by
  unfold bnBlock
  show (xh (ix2 p k) - broadcastTo S2000x128 xm broadcasts_S1x128_S2000x128 (ix2 p k))
      * broadcastTo S2000x128 (rsqrt (addf xv (broadcast S1x128 (Scalar.ofBits (F := Ideal) .f32 0x3727C5AC#32)))) broadcasts_S1x128_S2000x128 (ix2 p k)
      * broadcastTo S2000x128 xg broadcasts_S1x128_S2000x128 (ix2 p k)
      + broadcastTo S2000x128 xb broadcasts_S1x128_S2000x128 (ix2 p k) = _
  rw [broadcastTo_1b_ab_apply, broadcastTo_1b_ab_apply, broadcastTo_1b_ab_apply, broadcastTo_1b_ab_apply]
  rfl

/-- The body of regions 2, 4, 6 (one text) at entry `(p, q)`. -/
theorem pay2_apply (xv : Vec Ideal S1x128 .f32) (xh : Vec Ideal S2000x128 .f32) (xm xg xb : Vec Ideal S1x128 .f32)
    (xW : Vec Ideal S128x128 .f32) (xd : Vec Ideal S2000x1 .f32) (p : Fin 2000) (q : Fin 128) :
    k2_pay1 (F := Ideal) xv xh xm xg xb xW xd (ix2 p q) = bnConvAt xv xh xm xg xb xW xd p q := by
  have ed : broadcastTo S2000x128 xd broadcasts_S2000x1_S2000x128 (ix2 p q) = xd (ix2 p 0) := broadcastTo_a1_ab_apply xd _ p q
  unfold k2_pay1 bnConvAt
  simp only [shapeCast_self]
  show broadcastTo S2000x128 xd broadcasts_S2000x1_S2000x128 (ix2 p q)
      * matmul dot_S2000x128_S128x128_S2000x128_1_0_0_1_n_n none (truncf .bf16 (bnBlock xv xh xm xg xb) bitsLt_bf16_f32)
          (truncf .bf16 xW bitsLt_bf16_f32) (constant (F := Ideal) S2000x128 .f32 0x00000000#32) (ix2 p q) = _
  rw [ed]
  refine congrArg (xd (ix2 p 0) * ·) ((matmul_zero_apply _ _ p q).trans (Finset.sum_congr rfl fun k _ => ?_))
  show bnBlock xv xh xm xg xb (ix2 p k) * xW (ix2 k q) = _
  rw [bnBlock_apply]

/-- The three batch-norm bodies are one function. -/
theorem pay4_eq : @k4_pay1 = @k2_pay1 := rfl
theorem pay6_eq : @k6_pay1 = @k2_pay1 := rfl

/-- The body against whole arrays: the feature block holds row `i 0` of the feature array at row `y 0`, the weight
    block that row's weight, the per-channel rows and the matrix are the whole small arrays, and `y`, `i` name the
    same column. -/
theorem bnConv_block (xv : Vec Ideal S1x128 .f32) (xh : Vec Ideal S2000x128 .f32) (xm xg xb : Vec Ideal S1x128 .f32)
    (xW : Vec Ideal S128x128 .f32) (xd : Vec Ideal S2000x1 .f32)
    (H : Cert.Spec.NH.Idx → EReal) (MU VAR G BETA : Cert.Spec.R1.Idx → EReal) (W : Cert.Spec.HH.Idx → EReal)
    (Dg : Cert.Spec.N1.Idx → EReal) (y : S2000x128.Idx) (i : Cert.Spec.NH.Idx)
    (hh : ∀ k : Fin 128, xh (ix2 (y 0) k) = H (ix2 (i 0) k))
    (hm : ∀ k : Fin 128, xm (ix2 0 k) = MU (ix2 0 k))
    (hv : ∀ k : Fin 128, xv (ix2 0 k) = VAR (ix2 0 k))
    (hg : ∀ k : Fin 128, xg (ix2 0 k) = G (ix2 0 k))
    (hb : ∀ k : Fin 128, xb (ix2 0 k) = BETA (ix2 0 k))
    (hW : ∀ k : Fin 128, xW (ix2 k (y 1)) = W (ix2 k (i 1)))
    (hd : xd (ix2 (y 0) 0) = Dg (ix2 (i 0) 0)) :
    k2_pay1 (F := Ideal) xv xh xm xg xb xW xd y = Cert.Spec.bnConv H MU VAR G BETA W Dg i := by
  obtain ⟨p, q, rfl⟩ : ∃ (p : Fin 2000) (q : Fin 128), y = ix2 p q := ⟨y 0, y 1, eq_ix2 y⟩
  have hh' : ∀ k : Fin 128, xh (ix2 p k) = H (ix2 (i 0) k) := hh
  have hW' : ∀ k : Fin 128, xW (ix2 k q) = W (ix2 k (i 1)) := hW
  have hd' : xd (ix2 p 0) = Dg (ix2 (i 0) 0) := hd
  rw [pay2_apply]
  unfold bnConvAt Cert.Spec.bnConv Cert.Spec.bn
  rw [hd']
  refine congrArg (Dg (ix2 (i 0) 0) * ·) (Finset.sum_congr rfl fun k _ => ?_)
  rw [hh' k, hm k, hv k, hg k, hb k, hW' k]

end Cert.KernelIdeal.RegionValue

end
-- ==== Proof.Region2.lean ====
/- Region 2 (batch normalisation and projection): the output array after all 25 grid points, as one function of
   the seven input arrays. Point t works on rows 2000 t .. 2000 t + 1999: it reads those rows of the features and of
   the column of degree weights, and the whole of the four per-channel rows (mean, variance, scale, shift) and of the
   128 x 128 matrix, and writes those rows of the output. The block a point writes back is the block of the
   whole-array function, and the 25 row blocks tile the 50000 rows. -/
import proofs.«113380_j111669150109_2_alg».proof.Proof.Gen.KernelIdeal.Frame
import proofs.«113380_j111669150109_2_alg».proof.Proof.Spec
import proofs.«113380_j111669150109_2_alg».proof.Proof.RegionPayBn
import Idealize.ShloMosaic.Lib.Pipeline.Value

noncomputable section

namespace Cert.KernelIdeal.RegionValue

open Cert.KernelIdeal Cert.KernelIdeal.Gen Idealize.ShloMosaic Idealize.ShloMosaic.ValueIdx

open Idealize.ShloMosaic.TcCoe Idealize.SL.Sem
open Idealize.ShloMosaic.Pipeline (Dat)

variable (V : (c : Dev nD) → (b : Ref sig .tc) → Buf (Elt Ideal) ((c : Thread nD τ).loc b))

/-- The block indices at point `t`: the row-blocked windows sit at row block `t`, the whole-array windows at their one block. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

set_option maxHeartbeats 1000000 in
/-- What point `t` writes back is block `t` of the whole-array function of the arrays as the region finds them. -/
theorem flushed2_eq (c : Dev nD) (t : Fin cfg2.N) :
    (dat2 (F := Ideal) V c).flushed 7 t = ((cfg2.win 7).blk t).view.read (Elt Ideal)
      (Cert.Spec.bnConv (V c main_v30 : Cert.Spec.NH.Idx → EReal) (V c main_v41 : Cert.Spec.R1.Idx → EReal)
        (V c main_v42 : Cert.Spec.R1.Idx → EReal) (V c main_v43 : Cert.Spec.R1.Idx → EReal) (V c main_v44 : Cert.Spec.R1.Idx → EReal)
        (V c main_v40 : Cert.Spec.HH.Idx → EReal) (V c main_v11 : Cert.Spec.N1.Idx → EReal)) := by
  show (cfg2.win 7).cut (grid2.coords t) ((dat2 V c).after 7 t) = _
  rw [after2_7]
  unfold out2_7
  rw [View.canon_unit_zero hz2]
  simp only [View.ld_unit_zero (S := S2000x128) hz2, View.ld_unit_zero (S := S128x128) hz2, View.ld_unit_zero (S := S1x128) hz2,
    View.ld_unit_zero (S := S2000x1) hz2]
  obtain ⟨a00, a01, a10, a11, a20, a21, a30, a31, a40, a41, a50, a51, a60, a61, a70, a71⟩ := idx_facts2 t
  funext j
  have hj0 : (j 0).val < 2000 := (j 0).isLt
  have hj1 : (j 1).val < 128 := (j 1).isLt
  have h0 : ∀ k : Fin 128, ((cfg2.win 0).blk t).view.emb (ix2 (j 0) k : S2000x128.Idx) = (ix2 ((((cfg2.win 7).blk t).view.emb j) 0) k : Cert.Spec.NH.Idx) := by
    intro k; funext a; apply Fin.ext
    match a with
    | ⟨0, _⟩ => show win2_0.index t (0 : Fin 2) * 2000 + 1 * (j 0).val = win2_7.index t (0 : Fin 2) * 2000 + 1 * (j 0).val; omega
    | ⟨1, _⟩ => show win2_0.index t (1 : Fin 2) * 128 + 1 * k.val = k.val; omega
  have h1 : ∀ k : Fin 128, ((cfg2.win 1).blk t).view.emb (ix2 (0 : Fin 1) k : S1x128.Idx) = (ix2 (0 : Fin 1) k : Cert.Spec.R1.Idx) := by
    intro k; funext a; apply Fin.ext
    match a with
    | ⟨0, _⟩ => show win2_1.index t (0 : Fin 2) * 1 + 1 * 0 = 0; omega
    | ⟨1, _⟩ => show win2_1.index t (1 : Fin 2) * 128 + 1 * k.val = k.val; omega
  have h2 : ∀ k : Fin 128, ((cfg2.win 2).blk t).view.emb (ix2 (0 : Fin 1) k : S1x128.Idx) = (ix2 (0 : Fin 1) k : Cert.Spec.R1.Idx) := by
    intro k; funext a; apply Fin.ext
    match a with
    | ⟨0, _⟩ => show win2_2.index t (0 : Fin 2) * 1 + 1 * 0 = 0; omega
    | ⟨1, _⟩ => show win2_2.index t (1 : Fin 2) * 128 + 1 * k.val = k.val; omega
  have h3 : ∀ k : Fin 128, ((cfg2.win 3).blk t).view.emb (ix2 (0 : Fin 1) k : S1x128.Idx) = (ix2 (0 : Fin 1) k : Cert.Spec.R1.Idx) := by
    intro k; funext a; apply Fin.ext
    match a with
    | ⟨0, _⟩ => show win2_3.index t (0 : Fin 2) * 1 + 1 * 0 = 0; omega
    | ⟨1, _⟩ => show win2_3.index t (1 : Fin 2) * 128 + 1 * k.val = k.val; omega
  have h4 : ∀ k : Fin 128, ((cfg2.win 4).blk t).view.emb (ix2 (0 : Fin 1) k : S1x128.Idx) = (ix2 (0 : Fin 1) k : Cert.Spec.R1.Idx) := by
    intro k; funext a; apply Fin.ext
    match a with
    | ⟨0, _⟩ => show win2_4.index t (0 : Fin 2) * 1 + 1 * 0 = 0; omega
    | ⟨1, _⟩ => show win2_4.index t (1 : Fin 2) * 128 + 1 * k.val = k.val; omega
  have h5 : ∀ k : Fin 128, ((cfg2.win 5).blk t).view.emb (ix2 k (j 1) : S128x128.Idx) = (ix2 k ((((cfg2.win 7).blk t).view.emb j) 1) : Cert.Spec.HH.Idx) := by
    intro k; funext a; apply Fin.ext
    match a with
    | ⟨0, _⟩ => show win2_5.index t (0 : Fin 2) * 128 + 1 * k.val = k.val; omega
    | ⟨1, _⟩ => show win2_5.index t (1 : Fin 2) * 128 + 1 * (j 1).val = win2_7.index t (1 : Fin 2) * 128 + 1 * (j 1).val; omega
  have h6 : ((cfg2.win 6).blk t).view.emb (ix2 (j 0) (0 : Fin 1) : S2000x1.Idx) = (ix2 ((((cfg2.win 7).blk t).view.emb j) 0) (0 : Fin 1) : Cert.Spec.N1.Idx) := by
    funext a; apply Fin.ext
    match a with
    | ⟨0, _⟩ => show win2_6.index t (0 : Fin 2) * 2000 + 1 * (j 0).val = win2_7.index t (0 : Fin 2) * 2000 + 1 * (j 0).val; omega
    | ⟨1, _⟩ => show win2_6.index t (1 : Fin 2) * 1 + 1 * 0 = 0; omega
  show k2_pay1 (F := Ideal) (iblk2 V c 2 t) (iblk2 V c 0 t) (iblk2 V c 1 t) (iblk2 V c 3 t) (iblk2 V c 4 t) (iblk2 V c 5 t) (iblk2 V c 6 t) j
    = Cert.Spec.bnConv (V c main_v30 : Cert.Spec.NH.Idx → EReal) (V c main_v41 : Cert.Spec.R1.Idx → EReal)
        (V c main_v42 : Cert.Spec.R1.Idx → EReal) (V c main_v43 : Cert.Spec.R1.Idx → EReal) (V c main_v44 : Cert.Spec.R1.Idx → EReal)
        (V c main_v40 : Cert.Spec.HH.Idx → EReal) (V c main_v11 : Cert.Spec.N1.Idx → EReal) (((cfg2.win 7).blk t).view.emb j)
  refine bnConv_block (iblk2 V c 2 t) (iblk2 V c 0 t) (iblk2 V c 1 t) (iblk2 V c 3 t) (iblk2 V c 4 t) (iblk2 V c 5 t) (iblk2 V c 6 t)
    (V c main_v30) (V c main_v41) (V c main_v42) (V c main_v43) (V c main_v44) (V c main_v40) (V c main_v11) j (((cfg2.win 7).blk t).view.emb j) ?_ ?_ ?_ ?_ ?_ ?_ ?_
  · intro k
    show V c main_v30 (((cfg2.win 0).blk t).view.emb (ix2 (j 0) k : S2000x128.Idx)) = V c main_v30 (ix2 ((((cfg2.win 7).blk t).view.emb j) 0) k : Cert.Spec.NH.Idx)
    rw [h0 k]
  · intro k
    show V c main_v41 (((cfg2.win 1).blk t).view.emb (ix2 (0 : Fin 1) k : S1x128.Idx)) = V c main_v41 (ix2 (0 : Fin 1) k : Cert.Spec.R1.Idx)
    rw [h1 k]
  · intro k
    show V c main_v42 (((cfg2.win 2).blk t).view.emb (ix2 (0 : Fin 1) k : S1x128.Idx)) = V c main_v42 (ix2 (0 : Fin 1) k : Cert.Spec.R1.Idx)
    rw [h2 k]
  · intro k
    show V c main_v43 (((cfg2.win 3).blk t).view.emb (ix2 (0 : Fin 1) k : S1x128.Idx)) = V c main_v43 (ix2 (0 : Fin 1) k : Cert.Spec.R1.Idx)
    rw [h3 k]
  · intro k
    show V c main_v44 (((cfg2.win 4).blk t).view.emb (ix2 (0 : Fin 1) k : S1x128.Idx)) = V c main_v44 (ix2 (0 : Fin 1) k : Cert.Spec.R1.Idx)
    rw [h4 k]
  · intro k
    show V c main_v40 (((cfg2.win 5).blk t).view.emb (ix2 k (j 1) : S128x128.Idx)) = V c main_v40 (ix2 k ((((cfg2.win 7).blk t).view.emb j) 1) : Cert.Spec.HH.Idx)
    rw [h5 k]
  · show V c main_v11 (((cfg2.win 6).blk t).view.emb (ix2 (j 0) (0 : Fin 1) : S2000x1.Idx)) = V c main_v11 (ix2 ((((cfg2.win 7).blk t).view.emb j) 0) (0 : Fin 1) : Cert.Spec.N1.Idx)
    rw [h6]

/-- An index of the output array is in point `t`'s block iff each coordinate is in the block's range on its axis. -/
theorem mem_blk2 (t : Fin cfg2.N) (i : S50000x128.Idx) :
    i ∈ ((cfg2.win 7).blk t).view.set ↔ ∀ a : Fin 2, win2_7.index t a * S2000x128.size a ≤ (i a).val ∧ (i a).val < win2_7.index t a * S2000x128.size a + S2000x128.size a := by
  show i ∈ ((View.whole main_v45).slice (win2_7.rect t)).set ↔ _
  rw [View.set_slice_whole, Rect.mem_set_unit]
  exact Iff.rfl

/-- Every entry of the output is written: row `r` by the point `r / 2000`. -/
theorem cover2 (i : S50000x128.Idx) :
    ∃ t : Fin cfg2.N, (cfg2.win 7).flush t = true ∧ i ∈ ((cfg2.win 7).blk t).view.set := by
  have hi0 : (i 0).val < 50000 := (i 0).isLt
  have hi1 : (i 1).val < 128 := (i 1).isLt
  have hN : cfg2.N = 25 := N_2
  have hlt : (i 0).val / 2000 < cfg2.N := by rw [hN]; omega
  obtain ⟨-, -, -, -, -, -, -, -, -, -, -, -, -, -, ao0, ao1⟩ := idx_facts2 ⟨(i 0).val / 2000, hlt⟩
  have ao0' : win2_7.index ⟨(i 0).val / 2000, hlt⟩ (0 : Fin 2) = (i 0).val / 2000 := ao0
  refine ⟨⟨(i 0).val / 2000, hlt⟩, flush2_7 _, ?_⟩
  rw [mem_blk2]
  intro a
  match a with
  | ⟨0, _⟩ =>
    show win2_7.index ⟨(i 0).val / 2000, hlt⟩ (0 : Fin 2) * 2000 ≤ (i 0).val ∧ (i 0).val < win2_7.index ⟨(i 0).val / 2000, hlt⟩ (0 : Fin 2) * 2000 + 2000
    rw [ao0']; omega
  | ⟨1, _⟩ =>
    show win2_7.index ⟨(i 0).val / 2000, hlt⟩ (1 : Fin 2) * 128 ≤ (i 1).val ∧ (i 1).val < win2_7.index ⟨(i 0).val / 2000, hlt⟩ (1 : Fin 2) * 128 + 128
    rw [ao1]; omega

/-- The output array after the whole grid is the whole-array function of the seven input arrays. -/
theorem final2 (c : Dev nD) :
    (dat2 (F := Ideal) V c).arrAt 7 cfg2.N
      = Cert.Spec.bnConv (V c main_v30 : Cert.Spec.NH.Idx → EReal) (V c main_v41 : Cert.Spec.R1.Idx → EReal)
        (V c main_v42 : Cert.Spec.R1.Idx → EReal) (V c main_v43 : Cert.Spec.R1.Idx → EReal) (V c main_v44 : Cert.Spec.R1.Idx → EReal)
        (V c main_v40 : Cert.Spec.HH.Idx → EReal) (V c main_v11 : Cert.Spec.N1.Idx → EReal) :=
  (dat2 V c).arrAt_eq_of_cover 7 _ (fun t _ => flushed2_eq V c t) cover2

end Cert.KernelIdeal.RegionValue

end
-- ==== Proof.Region3.lean ====
/- Region 3 (a combine region): the output array after all 25 grid points, as one function of the four
   input arrays. Point t of the grid works on rows 2000 t .. 2000 t + 1999: it reads those rows of the two feature
   arrays and of the column of degree weights, and the one row of biases, and writes those rows of the output. So
   the block a point writes back is the block of the whole-array combine, and since the 25 row blocks tile the
   50000 rows, the array ends holding the whole-array combine. -/
import proofs.«113380_j111669150109_2_alg».proof.Proof.Gen.KernelIdeal.Frame
import proofs.«113380_j111669150109_2_alg».proof.Proof.Spec
import proofs.«113380_j111669150109_2_alg».proof.Proof.RegionPayCombine
import Idealize.ShloMosaic.Lib.Pipeline.Value

noncomputable section

namespace Cert.KernelIdeal.RegionValue

open Cert.KernelIdeal Cert.KernelIdeal.Gen Idealize.ShloMosaic Idealize.ShloMosaic.ValueIdx

open Idealize.ShloMosaic.TcCoe Idealize.SL.Sem
open Idealize.ShloMosaic.Pipeline (Dat)

variable (V : (c : Dev nD) → (b : Ref sig .tc) → Buf (Elt Ideal) ((c : Thread nD τ).loc b))

/-- The block indices at point `t`: the row-blocked windows sit at row block `t`, the bias at its one block. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point `t` writes back is block `t` of the whole-array combine of the arrays as the region finds them. -/
theorem flushed3_eq (c : Dev nD) (t : Fin cfg3.N) :
    (dat3 (F := Ideal) V c).flushed 4 t = ((cfg3.win 4).blk t).view.read (Elt Ideal)
      (Cert.Spec.combineRelu (V c main_v56 : Cert.Spec.NH.Idx → EReal) (V c main_v45 : Cert.Spec.NH.Idx → EReal)
        (V c main_v11 : Cert.Spec.N1.Idx → EReal) (V c main_v59 : Cert.Spec.R1.Idx → EReal)) := by
  show (cfg3.win 4).cut (grid3.coords t) ((dat3 V c).after 4 t) = _
  rw [after3_4]
  unfold out3_4
  rw [View.canon_unit_zero hz2]
  simp only [View.ld_unit_zero (S := S2000x128) hz2, View.ld_unit_zero (S := S2000x1) hz2, View.ld_unit_zero (S := S1x128) hz2]
  rw [pay3_eq]
  obtain ⟨a00, a01, a10, a11, a20, a21, a30, a31, a40, a41⟩ := idx_facts3 t
  funext j
  have hj0 : (j 0).val < 2000 := (j 0).isLt
  have hj1 : (j 1).val < 128 := (j 1).isLt
  have h0 : ((cfg3.win 0).blk t).view.emb j = ((cfg3.win 4).blk t).view.emb j := by
    funext a; apply Fin.ext
    match a with
    | ⟨0, _⟩ => show win3_0.index t (0 : Fin 2) * 2000 + 1 * (j 0).val = win3_4.index t (0 : Fin 2) * 2000 + 1 * (j 0).val; omega
    | ⟨1, _⟩ => show win3_0.index t (1 : Fin 2) * 128 + 1 * (j 1).val = win3_4.index t (1 : Fin 2) * 128 + 1 * (j 1).val; omega
  have h1 : ((cfg3.win 1).blk t).view.emb j = ((cfg3.win 4).blk t).view.emb j := by
    funext a; apply Fin.ext
    match a with
    | ⟨0, _⟩ => show win3_1.index t (0 : Fin 2) * 2000 + 1 * (j 0).val = win3_4.index t (0 : Fin 2) * 2000 + 1 * (j 0).val; omega
    | ⟨1, _⟩ => show win3_1.index t (1 : Fin 2) * 128 + 1 * (j 1).val = win3_4.index t (1 : Fin 2) * 128 + 1 * (j 1).val; omega
  have h2 : ((cfg3.win 2).blk t).view.emb (ix2 (j 0) (0 : Fin 1)) = (ix2 ((((cfg3.win 4).blk t).view.emb j) 0) (0 : Fin 1) : Cert.Spec.N1.Idx) := by
    funext a; apply Fin.ext
    match a with
    | ⟨0, _⟩ => show win3_2.index t (0 : Fin 2) * 2000 + 1 * (j 0).val = win3_4.index t (0 : Fin 2) * 2000 + 1 * (j 0).val; omega
    | ⟨1, _⟩ => show win3_2.index t (1 : Fin 2) * 1 + 1 * 0 = 0; omega
  have h3 : ((cfg3.win 3).blk t).view.emb (ix2 (0 : Fin 1) (j 1)) = (ix2 (0 : Fin 1) ((((cfg3.win 4).blk t).view.emb j) 1) : Cert.Spec.R1.Idx) := by
    funext a; apply Fin.ext
    match a with
    | ⟨0, _⟩ => show win3_3.index t (0 : Fin 2) * 1 + 1 * 0 = 0; omega
    | ⟨1, _⟩ => show win3_3.index t (1 : Fin 2) * 128 + 1 * (j 1).val = win3_4.index t (1 : Fin 2) * 128 + 1 * (j 1).val; omega
  show k1_pay1 (F := Ideal) (iblk3 V c 0 t) (iblk3 V c 1 t) (iblk3 V c 2 t) (iblk3 V c 3 t) j
    = Cert.Spec.combineRelu (V c main_v56 : Cert.Spec.NH.Idx → EReal) (V c main_v45 : Cert.Spec.NH.Idx → EReal)
        (V c main_v11 : Cert.Spec.N1.Idx → EReal) (V c main_v59 : Cert.Spec.R1.Idx → EReal) (((cfg3.win 4).blk t).view.emb j)
  refine combineRelu_block (iblk3 V c 0 t) (iblk3 V c 1 t) (iblk3 V c 2 t) (iblk3 V c 3 t)
    (V c main_v56) (V c main_v45) (V c main_v11) (V c main_v59) j (((cfg3.win 4).blk t).view.emb j) ?_ ?_ ?_ ?_
  · show V c main_v56 (((cfg3.win 0).blk t).view.emb j) = V c main_v56 (((cfg3.win 4).blk t).view.emb j)
    rw [h0]
  · show V c main_v45 (((cfg3.win 1).blk t).view.emb j) = V c main_v45 (((cfg3.win 4).blk t).view.emb j)
    rw [h1]
  · show V c main_v11 (((cfg3.win 2).blk t).view.emb (ix2 (j 0) (0 : Fin 1))) = V c main_v11 (ix2 ((((cfg3.win 4).blk t).view.emb j) 0) (0 : Fin 1))
    rw [h2]
  · show V c main_v59 (((cfg3.win 3).blk t).view.emb (ix2 (0 : Fin 1) (j 1))) = V c main_v59 (ix2 (0 : Fin 1) ((((cfg3.win 4).blk t).view.emb j) 1))
    rw [h3]

/-- An index of the output array is in point `t`'s block iff each coordinate is in the block's range on its axis. -/
theorem mem_blk3 (t : Fin cfg3.N) (i : S50000x128.Idx) :
    i ∈ ((cfg3.win 4).blk t).view.set ↔ ∀ a : Fin 2, win3_4.index t a * S2000x128.size a ≤ (i a).val ∧ (i a).val < win3_4.index t a * S2000x128.size a + S2000x128.size a := by
  show i ∈ ((View.whole main_v60).slice (win3_4.rect t)).set ↔ _
  rw [View.set_slice_whole, Rect.mem_set_unit]
  exact Iff.rfl

/-- Every entry of the output is written: row `r` by the point `r / 2000`. -/
theorem cover3 (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 25 := N_3
  have hlt : (i 0).val / 2000 < cfg3.N := by rw [hN]; omega
  obtain ⟨-, -, -, -, -, -, -, -, a40, a41⟩ := idx_facts3 ⟨(i 0).val / 2000, hlt⟩
  have a40' : win3_4.index ⟨(i 0).val / 2000, hlt⟩ (0 : Fin 2) = (i 0).val / 2000 := a40
  refine ⟨⟨(i 0).val / 2000, hlt⟩, flush3_4 _, ?_⟩
  rw [mem_blk3]
  intro a
  match a with
  | ⟨0, _⟩ =>
    show win3_4.index ⟨(i 0).val / 2000, hlt⟩ (0 : Fin 2) * 2000 ≤ (i 0).val ∧ (i 0).val < win3_4.index ⟨(i 0).val / 2000, hlt⟩ (0 : Fin 2) * 2000 + 2000
    rw [a40']; omega
  | ⟨1, _⟩ =>
    show win3_4.index ⟨(i 0).val / 2000, hlt⟩ (1 : Fin 2) * 128 ≤ (i 1).val ∧ (i 1).val < win3_4.index ⟨(i 0).val / 2000, hlt⟩ (1 : Fin 2) * 128 + 128
    rw [a41]; omega

/-- The output array after the whole grid is the whole-array combine of the four input arrays. -/
theorem final3 (c : Dev nD) :
    (dat3 (F := Ideal) V c).arrAt 4 cfg3.N
      = Cert.Spec.combineRelu (V c main_v56 : Cert.Spec.NH.Idx → EReal) (V c main_v45 : Cert.Spec.NH.Idx → EReal)
          (V c main_v11 : Cert.Spec.N1.Idx → EReal) (V c main_v59 : Cert.Spec.R1.Idx → EReal) :=
  (dat3 V c).arrAt_eq_of_cover 4 _ (fun t _ => flushed3_eq V c t) cover3

end Cert.KernelIdeal.RegionValue

end
-- ==== Proof.Region4.lean ====
/- Region 4 (batch normalisation and projection): the output array after all 25 grid points, as one function of
   the seven input arrays. Point t works on rows 2000 t .. 2000 t + 1999: it reads those rows of the features and of
   the column of degree weights, and the whole of the four per-channel rows (mean, variance, scale, shift) and of the
   128 x 128 matrix, and writes those rows of the output. The block a point writes back is the block of the
   whole-array function, and the 25 row blocks tile the 50000 rows. -/
import proofs.«113380_j111669150109_2_alg».proof.Proof.Gen.KernelIdeal.Frame
import proofs.«113380_j111669150109_2_alg».proof.Proof.Spec
import proofs.«113380_j111669150109_2_alg».proof.Proof.RegionPayBn
import Idealize.ShloMosaic.Lib.Pipeline.Value

noncomputable section

namespace Cert.KernelIdeal.RegionValue

open Cert.KernelIdeal Cert.KernelIdeal.Gen Idealize.ShloMosaic Idealize.ShloMosaic.ValueIdx

open Idealize.ShloMosaic.TcCoe Idealize.SL.Sem
open Idealize.ShloMosaic.Pipeline (Dat)

variable (V : (c : Dev nD) → (b : Ref sig .tc) → Buf (Elt Ideal) ((c : Thread nD τ).loc b))

/-- The block indices at point `t`: the row-blocked windows sit at row block `t`, the whole-array windows at their one block. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = t.val ∧ win4_7.index t (1 : Fin 2) = 0 :=
  (by decide +kernel : ∀ t : Fin grid4.N, _)

set_option maxHeartbeats 1000000 in
/-- What point `t` writes back is block `t` of the whole-array function of the arrays as the region finds them. -/
theorem flushed4_eq (c : Dev nD) (t : Fin cfg4.N) :
    (dat4 (F := Ideal) V c).flushed 7 t = ((cfg4.win 7).blk t).view.read (Elt Ideal)
      (Cert.Spec.bnConv (V c main_v60 : Cert.Spec.NH.Idx → EReal) (V c main_v71 : Cert.Spec.R1.Idx → EReal)
        (V c main_v72 : Cert.Spec.R1.Idx → EReal) (V c main_v73 : Cert.Spec.R1.Idx → EReal) (V c main_v74 : Cert.Spec.R1.Idx → EReal)
        (V c main_v70 : Cert.Spec.HH.Idx → EReal) (V c main_v11 : Cert.Spec.N1.Idx → EReal)) := by
  show (cfg4.win 7).cut (grid4.coords t) ((dat4 V c).after 7 t) = _
  rw [after4_7]
  unfold out4_7
  rw [View.canon_unit_zero hz2]
  simp only [View.ld_unit_zero (S := S2000x128) hz2, View.ld_unit_zero (S := S128x128) hz2, View.ld_unit_zero (S := S1x128) hz2,
    View.ld_unit_zero (S := S2000x1) hz2]
  rw [pay4_eq]
  obtain ⟨a00, a01, a10, a11, a20, a21, a30, a31, a40, a41, a50, a51, a60, a61, a70, a71⟩ := idx_facts4 t
  funext j
  have hj0 : (j 0).val < 2000 := (j 0).isLt
  have hj1 : (j 1).val < 128 := (j 1).isLt
  have h0 : ∀ k : Fin 128, ((cfg4.win 0).blk t).view.emb (ix2 (j 0) k : S2000x128.Idx) = (ix2 ((((cfg4.win 7).blk t).view.emb j) 0) k : Cert.Spec.NH.Idx) := by
    intro k; funext a; apply Fin.ext
    match a with
    | ⟨0, _⟩ => show win4_0.index t (0 : Fin 2) * 2000 + 1 * (j 0).val = win4_7.index t (0 : Fin 2) * 2000 + 1 * (j 0).val; omega
    | ⟨1, _⟩ => show win4_0.index t (1 : Fin 2) * 128 + 1 * k.val = k.val; omega
  have h1 : ∀ k : Fin 128, ((cfg4.win 1).blk t).view.emb (ix2 (0 : Fin 1) k : S1x128.Idx) = (ix2 (0 : Fin 1) k : Cert.Spec.R1.Idx) := by
    intro k; funext a; apply Fin.ext
    match a with
    | ⟨0, _⟩ => show win4_1.index t (0 : Fin 2) * 1 + 1 * 0 = 0; omega
    | ⟨1, _⟩ => show win4_1.index t (1 : Fin 2) * 128 + 1 * k.val = k.val; omega
  have h2 : ∀ k : Fin 128, ((cfg4.win 2).blk t).view.emb (ix2 (0 : Fin 1) k : S1x128.Idx) = (ix2 (0 : Fin 1) k : Cert.Spec.R1.Idx) := by
    intro k; funext a; apply Fin.ext
    match a with
    | ⟨0, _⟩ => show win4_2.index t (0 : Fin 2) * 1 + 1 * 0 = 0; omega
    | ⟨1, _⟩ => show win4_2.index t (1 : Fin 2) * 128 + 1 * k.val = k.val; omega
  have h3 : ∀ k : Fin 128, ((cfg4.win 3).blk t).view.emb (ix2 (0 : Fin 1) k : S1x128.Idx) = (ix2 (0 : Fin 1) k : Cert.Spec.R1.Idx) := by
    intro k; funext a; apply Fin.ext
    match a with
    | ⟨0, _⟩ => show win4_3.index t (0 : Fin 2) * 1 + 1 * 0 = 0; omega
    | ⟨1, _⟩ => show win4_3.index t (1 : Fin 2) * 128 + 1 * k.val = k.val; omega
  have h4 : ∀ k : Fin 128, ((cfg4.win 4).blk t).view.emb (ix2 (0 : Fin 1) k : S1x128.Idx) = (ix2 (0 : Fin 1) k : Cert.Spec.R1.Idx) := by
    intro k; funext a; apply Fin.ext
    match a with
    | ⟨0, _⟩ => show win4_4.index t (0 : Fin 2) * 1 + 1 * 0 = 0; omega
    | ⟨1, _⟩ => show win4_4.index t (1 : Fin 2) * 128 + 1 * k.val = k.val; omega
  have h5 : ∀ k : Fin 128, ((cfg4.win 5).blk t).view.emb (ix2 k (j 1) : S128x128.Idx) = (ix2 k ((((cfg4.win 7).blk t).view.emb j) 1) : Cert.Spec.HH.Idx) := by
    intro k; funext a; apply Fin.ext
    match a with
    | ⟨0, _⟩ => show win4_5.index t (0 : Fin 2) * 128 + 1 * k.val = k.val; omega
    | ⟨1, _⟩ => show win4_5.index t (1 : Fin 2) * 128 + 1 * (j 1).val = win4_7.index t (1 : Fin 2) * 128 + 1 * (j 1).val; omega
  have h6 : ((cfg4.win 6).blk t).view.emb (ix2 (j 0) (0 : Fin 1) : S2000x1.Idx) = (ix2 ((((cfg4.win 7).blk t).view.emb j) 0) (0 : Fin 1) : Cert.Spec.N1.Idx) := by
    funext a; apply Fin.ext
    match a with
    | ⟨0, _⟩ => show win4_6.index t (0 : Fin 2) * 2000 + 1 * (j 0).val = win4_7.index t (0 : Fin 2) * 2000 + 1 * (j 0).val; omega
    | ⟨1, _⟩ => show win4_6.index t (1 : Fin 2) * 1 + 1 * 0 = 0; omega
  show k2_pay1 (F := Ideal) (iblk4 V c 2 t) (iblk4 V c 0 t) (iblk4 V c 1 t) (iblk4 V c 3 t) (iblk4 V c 4 t) (iblk4 V c 5 t) (iblk4 V c 6 t) j
    = Cert.Spec.bnConv (V c main_v60 : Cert.Spec.NH.Idx → EReal) (V c main_v71 : Cert.Spec.R1.Idx → EReal)
        (V c main_v72 : Cert.Spec.R1.Idx → EReal) (V c main_v73 : Cert.Spec.R1.Idx → EReal) (V c main_v74 : Cert.Spec.R1.Idx → EReal)
        (V c main_v70 : Cert.Spec.HH.Idx → EReal) (V c main_v11 : Cert.Spec.N1.Idx → EReal) (((cfg4.win 7).blk t).view.emb j)
  refine bnConv_block (iblk4 V c 2 t) (iblk4 V c 0 t) (iblk4 V c 1 t) (iblk4 V c 3 t) (iblk4 V c 4 t) (iblk4 V c 5 t) (iblk4 V c 6 t)
    (V c main_v60) (V c main_v71) (V c main_v72) (V c main_v73) (V c main_v74) (V c main_v70) (V c main_v11) j (((cfg4.win 7).blk t).view.emb j) ?_ ?_ ?_ ?_ ?_ ?_ ?_
  · intro k
    show V c main_v60 (((cfg4.win 0).blk t).view.emb (ix2 (j 0) k : S2000x128.Idx)) = V c main_v60 (ix2 ((((cfg4.win 7).blk t).view.emb j) 0) k : Cert.Spec.NH.Idx)
    rw [h0 k]
  · intro k
    show V c main_v71 (((cfg4.win 1).blk t).view.emb (ix2 (0 : Fin 1) k : S1x128.Idx)) = V c main_v71 (ix2 (0 : Fin 1) k : Cert.Spec.R1.Idx)
    rw [h1 k]
  · intro k
    show V c main_v72 (((cfg4.win 2).blk t).view.emb (ix2 (0 : Fin 1) k : S1x128.Idx)) = V c main_v72 (ix2 (0 : Fin 1) k : Cert.Spec.R1.Idx)
    rw [h2 k]
  · intro k
    show V c main_v73 (((cfg4.win 3).blk t).view.emb (ix2 (0 : Fin 1) k : S1x128.Idx)) = V c main_v73 (ix2 (0 : Fin 1) k : Cert.Spec.R1.Idx)
    rw [h3 k]
  · intro k
    show V c main_v74 (((cfg4.win 4).blk t).view.emb (ix2 (0 : Fin 1) k : S1x128.Idx)) = V c main_v74 (ix2 (0 : Fin 1) k : Cert.Spec.R1.Idx)
    rw [h4 k]
  · intro k
    show V c main_v70 (((cfg4.win 5).blk t).view.emb (ix2 k (j 1) : S128x128.Idx)) = V c main_v70 (ix2 k ((((cfg4.win 7).blk t).view.emb j) 1) : Cert.Spec.HH.Idx)
    rw [h5 k]
  · show V c main_v11 (((cfg4.win 6).blk t).view.emb (ix2 (j 0) (0 : Fin 1) : S2000x1.Idx)) = V c main_v11 (ix2 ((((cfg4.win 7).blk t).view.emb j) 0) (0 : Fin 1) : Cert.Spec.N1.Idx)
    rw [h6]

/-- An index of the output array is in point `t`'s block iff each coordinate is in the block's range on its axis. -/
theorem mem_blk4 (t : Fin cfg4.N) (i : S50000x128.Idx) :
    i ∈ ((cfg4.win 7).blk t).view.set ↔ ∀ a : Fin 2, win4_7.index t a * S2000x128.size a ≤ (i a).val ∧ (i a).val < win4_7.index t a * S2000x128.size a + S2000x128.size a := by
  show i ∈ ((View.whole main_v75).slice (win4_7.rect t)).set ↔ _
  rw [View.set_slice_whole, Rect.mem_set_unit]
  exact Iff.rfl

/-- Every entry of the output is written: row `r` by the point `r / 2000`. -/
theorem cover4 (i : S50000x128.Idx) :
    ∃ t : Fin cfg4.N, (cfg4.win 7).flush t = true ∧ i ∈ ((cfg4.win 7).blk t).view.set := by
  have hi0 : (i 0).val < 50000 := (i 0).isLt
  have hi1 : (i 1).val < 128 := (i 1).isLt
  have hN : cfg4.N = 25 := N_4
  have hlt : (i 0).val / 2000 < cfg4.N := by rw [hN]; omega
  obtain ⟨-, -, -, -, -, -, -, -, -, -, -, -, -, -, ao0, ao1⟩ := idx_facts4 ⟨(i 0).val / 2000, hlt⟩
  have ao0' : win4_7.index ⟨(i 0).val / 2000, hlt⟩ (0 : Fin 2) = (i 0).val / 2000 := ao0
  refine ⟨⟨(i 0).val / 2000, hlt⟩, flush4_7 _, ?_⟩
  rw [mem_blk4]
  intro a
  match a with
  | ⟨0, _⟩ =>
    show win4_7.index ⟨(i 0).val / 2000, hlt⟩ (0 : Fin 2) * 2000 ≤ (i 0).val ∧ (i 0).val < win4_7.index ⟨(i 0).val / 2000, hlt⟩ (0 : Fin 2) * 2000 + 2000
    rw [ao0']; omega
  | ⟨1, _⟩ =>
    show win4_7.index ⟨(i 0).val / 2000, hlt⟩ (1 : Fin 2) * 128 ≤ (i 1).val ∧ (i 1).val < win4_7.index ⟨(i 0).val / 2000, hlt⟩ (1 : Fin 2) * 128 + 128
    rw [ao1]; omega

/-- The output array after the whole grid is the whole-array function of the seven input arrays. -/
theorem final4 (c : Dev nD) :
    (dat4 (F := Ideal) V c).arrAt 7 cfg4.N
      = Cert.Spec.bnConv (V c main_v60 : Cert.Spec.NH.Idx → EReal) (V c main_v71 : Cert.Spec.R1.Idx → EReal)
        (V c main_v72 : Cert.Spec.R1.Idx → EReal) (V c main_v73 : Cert.Spec.R1.Idx → EReal) (V c main_v74 : Cert.Spec.R1.Idx → EReal)
        (V c main_v70 : Cert.Spec.HH.Idx → EReal) (V c main_v11 : Cert.Spec.N1.Idx → EReal) :=
  (dat4 V c).arrAt_eq_of_cover 7 _ (fun t _ => flushed4_eq V c t) cover4

end Cert.KernelIdeal.RegionValue

end
-- ==== Proof.Region5.lean ====
/- Region 5 (a combine region): the output array after all 25 grid points, as one function of the four
   input arrays. Point t of the grid works on rows 2000 t .. 2000 t + 1999: it reads those rows of the two feature
   arrays and of the column of degree weights, and the one row of biases, and writes those rows of the output. So
   the block a point writes back is the block of the whole-array combine, and since the 25 row blocks tile the
   50000 rows, the array ends holding the whole-array combine. -/
import proofs.«113380_j111669150109_2_alg».proof.Proof.Gen.KernelIdeal.Frame
import proofs.«113380_j111669150109_2_alg».proof.Proof.Spec
import proofs.«113380_j111669150109_2_alg».proof.Proof.RegionPayCombine
import Idealize.ShloMosaic.Lib.Pipeline.Value

noncomputable section

namespace Cert.KernelIdeal.RegionValue

open Cert.KernelIdeal Cert.KernelIdeal.Gen Idealize.ShloMosaic Idealize.ShloMosaic.ValueIdx

open Idealize.ShloMosaic.TcCoe Idealize.SL.Sem
open Idealize.ShloMosaic.Pipeline (Dat)

variable (V : (c : Dev nD) → (b : Ref sig .tc) → Buf (Elt Ideal) ((c : Thread nD τ).loc b))

/-- The block indices at point `t`: the row-blocked windows sit at row block `t`, the bias at its one block. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- What point `t` writes back is block `t` of the whole-array combine of the arrays as the region finds them. -/
theorem flushed5_eq (c : Dev nD) (t : Fin cfg5.N) :
    (dat5 (F := Ideal) V c).flushed 4 t = ((cfg5.win 4).blk t).view.read (Elt Ideal)
      (Cert.Spec.combineRelu (V c main_v86 : Cert.Spec.NH.Idx → EReal) (V c main_v75 : Cert.Spec.NH.Idx → EReal)
        (V c main_v11 : Cert.Spec.N1.Idx → EReal) (V c main_v89 : Cert.Spec.R1.Idx → EReal)) := by
  show (cfg5.win 4).cut (grid5.coords t) ((dat5 V c).after 4 t) = _
  rw [after5_4]
  unfold out5_4
  rw [View.canon_unit_zero hz2]
  simp only [View.ld_unit_zero (S := S2000x128) hz2, View.ld_unit_zero (S := S2000x1) hz2, View.ld_unit_zero (S := S1x128) hz2]
  rw [pay5_eq]
  obtain ⟨a00, a01, a10, a11, a20, a21, a30, a31, a40, a41⟩ := idx_facts5 t
  funext j
  have hj0 : (j 0).val < 2000 := (j 0).isLt
  have hj1 : (j 1).val < 128 := (j 1).isLt
  have h0 : ((cfg5.win 0).blk t).view.emb j = ((cfg5.win 4).blk t).view.emb j := by
    funext a; apply Fin.ext
    match a with
    | ⟨0, _⟩ => show win5_0.index t (0 : Fin 2) * 2000 + 1 * (j 0).val = win5_4.index t (0 : Fin 2) * 2000 + 1 * (j 0).val; omega
    | ⟨1, _⟩ => show win5_0.index t (1 : Fin 2) * 128 + 1 * (j 1).val = win5_4.index t (1 : Fin 2) * 128 + 1 * (j 1).val; omega
  have h1 : ((cfg5.win 1).blk t).view.emb j = ((cfg5.win 4).blk t).view.emb j := by
    funext a; apply Fin.ext
    match a with
    | ⟨0, _⟩ => show win5_1.index t (0 : Fin 2) * 2000 + 1 * (j 0).val = win5_4.index t (0 : Fin 2) * 2000 + 1 * (j 0).val; omega
    | ⟨1, _⟩ => show win5_1.index t (1 : Fin 2) * 128 + 1 * (j 1).val = win5_4.index t (1 : Fin 2) * 128 + 1 * (j 1).val; omega
  have h2 : ((cfg5.win 2).blk t).view.emb (ix2 (j 0) (0 : Fin 1)) = (ix2 ((((cfg5.win 4).blk t).view.emb j) 0) (0 : Fin 1) : Cert.Spec.N1.Idx) := by
    funext a; apply Fin.ext
    match a with
    | ⟨0, _⟩ => show win5_2.index t (0 : Fin 2) * 2000 + 1 * (j 0).val = win5_4.index t (0 : Fin 2) * 2000 + 1 * (j 0).val; omega
    | ⟨1, _⟩ => show win5_2.index t (1 : Fin 2) * 1 + 1 * 0 = 0; omega
  have h3 : ((cfg5.win 3).blk t).view.emb (ix2 (0 : Fin 1) (j 1)) = (ix2 (0 : Fin 1) ((((cfg5.win 4).blk t).view.emb j) 1) : Cert.Spec.R1.Idx) := by
    funext a; apply Fin.ext
    match a with
    | ⟨0, _⟩ => show win5_3.index t (0 : Fin 2) * 1 + 1 * 0 = 0; omega
    | ⟨1, _⟩ => show win5_3.index t (1 : Fin 2) * 128 + 1 * (j 1).val = win5_4.index t (1 : Fin 2) * 128 + 1 * (j 1).val; omega
  show k1_pay1 (F := Ideal) (iblk5 V c 0 t) (iblk5 V c 1 t) (iblk5 V c 2 t) (iblk5 V c 3 t) j
    = Cert.Spec.combineRelu (V c main_v86 : Cert.Spec.NH.Idx → EReal) (V c main_v75 : Cert.Spec.NH.Idx → EReal)
        (V c main_v11 : Cert.Spec.N1.Idx → EReal) (V c main_v89 : Cert.Spec.R1.Idx → EReal) (((cfg5.win 4).blk t).view.emb j)
  refine combineRelu_block (iblk5 V c 0 t) (iblk5 V c 1 t) (iblk5 V c 2 t) (iblk5 V c 3 t)
    (V c main_v86) (V c main_v75) (V c main_v11) (V c main_v89) j (((cfg5.win 4).blk t).view.emb j) ?_ ?_ ?_ ?_
  · show V c main_v86 (((cfg5.win 0).blk t).view.emb j) = V c main_v86 (((cfg5.win 4).blk t).view.emb j)
    rw [h0]
  · show V c main_v75 (((cfg5.win 1).blk t).view.emb j) = V c main_v75 (((cfg5.win 4).blk t).view.emb j)
    rw [h1]
  · show V c main_v11 (((cfg5.win 2).blk t).view.emb (ix2 (j 0) (0 : Fin 1))) = V c main_v11 (ix2 ((((cfg5.win 4).blk t).view.emb j) 0) (0 : Fin 1))
    rw [h2]
  · show V c main_v89 (((cfg5.win 3).blk t).view.emb (ix2 (0 : Fin 1) (j 1))) = V c main_v89 (ix2 (0 : Fin 1) ((((cfg5.win 4).blk t).view.emb j) 1))
    rw [h3]

/-- An index of the output array is in point `t`'s block iff each coordinate is in the block's range on its axis. -/
theorem mem_blk5 (t : Fin cfg5.N) (i : S50000x128.Idx) :
    i ∈ ((cfg5.win 4).blk t).view.set ↔ ∀ a : Fin 2, win5_4.index t a * S2000x128.size a ≤ (i a).val ∧ (i a).val < win5_4.index t a * S2000x128.size a + S2000x128.size a := by
  show i ∈ ((View.whole main_v90).slice (win5_4.rect t)).set ↔ _
  rw [View.set_slice_whole, Rect.mem_set_unit]
  exact Iff.rfl

/-- Every entry of the output is written: row `r` by the point `r / 2000`. -/
theorem cover5 (i : S50000x128.Idx) :
    ∃ t : Fin cfg5.N, (cfg5.win 4).flush t = true ∧ i ∈ ((cfg5.win 4).blk t).view.set := by
  have hi0 : (i 0).val < 50000 := (i 0).isLt
  have hi1 : (i 1).val < 128 := (i 1).isLt
  have hN : cfg5.N = 25 := N_5
  have hlt : (i 0).val / 2000 < cfg5.N := by rw [hN]; omega
  obtain ⟨-, -, -, -, -, -, -, -, a40, a41⟩ := idx_facts5 ⟨(i 0).val / 2000, hlt⟩
  have a40' : win5_4.index ⟨(i 0).val / 2000, hlt⟩ (0 : Fin 2) = (i 0).val / 2000 := a40
  refine ⟨⟨(i 0).val / 2000, hlt⟩, flush5_4 _, ?_⟩
  rw [mem_blk5]
  intro a
  match a with
  | ⟨0, _⟩ =>
    show win5_4.index ⟨(i 0).val / 2000, hlt⟩ (0 : Fin 2) * 2000 ≤ (i 0).val ∧ (i 0).val < win5_4.index ⟨(i 0).val / 2000, hlt⟩ (0 : Fin 2) * 2000 + 2000
    rw [a40']; omega
  | ⟨1, _⟩ =>
    show win5_4.index ⟨(i 0).val / 2000, hlt⟩ (1 : Fin 2) * 128 ≤ (i 1).val ∧ (i 1).val < win5_4.index ⟨(i 0).val / 2000, hlt⟩ (1 : Fin 2) * 128 + 128
    rw [a41]; omega

/-- The output array after the whole grid is the whole-array combine of the four input arrays. -/
theorem final5 (c : Dev nD) :
    (dat5 (F := Ideal) V c).arrAt 4 cfg5.N
      = Cert.Spec.combineRelu (V c main_v86 : Cert.Spec.NH.Idx → EReal) (V c main_v75 : Cert.Spec.NH.Idx → EReal)
          (V c main_v11 : Cert.Spec.N1.Idx → EReal) (V c main_v89 : Cert.Spec.R1.Idx → EReal) :=
  (dat5 V c).arrAt_eq_of_cover 4 _ (fun t _ => flushed5_eq V c t) cover5

end Cert.KernelIdeal.RegionValue

end
-- ==== Proof.Region6.lean ====
/- Region 6 (batch normalisation and projection): the output array after all 25 grid points, as one function of
   the seven input arrays. Point t works on rows 2000 t .. 2000 t + 1999: it reads those rows of the features and of
   the column of degree weights, and the whole of the four per-channel rows (mean, variance, scale, shift) and of the
   128 x 128 matrix, and writes those rows of the output. The block a point writes back is the block of the
   whole-array function, and the 25 row blocks tile the 50000 rows. -/
import proofs.«113380_j111669150109_2_alg».proof.Proof.Gen.KernelIdeal.Frame
import proofs.«113380_j111669150109_2_alg».proof.Proof.Spec
import proofs.«113380_j111669150109_2_alg».proof.Proof.RegionPayBn
import Idealize.ShloMosaic.Lib.Pipeline.Value

noncomputable section

namespace Cert.KernelIdeal.RegionValue

open Cert.KernelIdeal Cert.KernelIdeal.Gen Idealize.ShloMosaic Idealize.ShloMosaic.ValueIdx

open Idealize.ShloMosaic.TcCoe Idealize.SL.Sem
open Idealize.ShloMosaic.Pipeline (Dat)

variable (V : (c : Dev nD) → (b : Ref sig .tc) → Buf (Elt Ideal) ((c : Thread nD τ).loc b))

/-- The block indices at point `t`: the row-blocked windows sit at row block `t`, the whole-array windows at their one block. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0
    ∧ win6_7.index t (0 : Fin 2) = t.val ∧ win6_7.index t (1 : Fin 2) = 0 :=
  (by decide +kernel : ∀ t : Fin grid6.N, _)

set_option maxHeartbeats 1000000 in
/-- What point `t` writes back is block `t` of the whole-array function of the arrays as the region finds them. -/
theorem flushed6_eq (c : Dev nD) (t : Fin cfg6.N) :
    (dat6 (F := Ideal) V c).flushed 7 t = ((cfg6.win 7).blk t).view.read (Elt Ideal)
      (Cert.Spec.bnConv (V c main_v90 : Cert.Spec.NH.Idx → EReal) (V c main_v101 : Cert.Spec.R1.Idx → EReal)
        (V c main_v102 : Cert.Spec.R1.Idx → EReal) (V c main_v103 : Cert.Spec.R1.Idx → EReal) (V c main_v104 : Cert.Spec.R1.Idx → EReal)
        (V c main_v100 : Cert.Spec.HH.Idx → EReal) (V c main_v11 : Cert.Spec.N1.Idx → EReal)) := by
  show (cfg6.win 7).cut (grid6.coords t) ((dat6 V c).after 7 t) = _
  rw [after6_7]
  unfold out6_7
  rw [View.canon_unit_zero hz2]
  simp only [View.ld_unit_zero (S := S2000x128) hz2, View.ld_unit_zero (S := S128x128) hz2, View.ld_unit_zero (S := S1x128) hz2,
    View.ld_unit_zero (S := S2000x1) hz2]
  rw [pay6_eq]
  obtain ⟨a00, a01, a10, a11, a20, a21, a30, a31, a40, a41, a50, a51, a60, a61, a70, a71⟩ := idx_facts6 t
  funext j
  have hj0 : (j 0).val < 2000 := (j 0).isLt
  have hj1 : (j 1).val < 128 := (j 1).isLt
  have h0 : ∀ k : Fin 128, ((cfg6.win 0).blk t).view.emb (ix2 (j 0) k : S2000x128.Idx) = (ix2 ((((cfg6.win 7).blk t).view.emb j) 0) k : Cert.Spec.NH.Idx) := by
    intro k; funext a; apply Fin.ext
    match a with
    | ⟨0, _⟩ => show win6_0.index t (0 : Fin 2) * 2000 + 1 * (j 0).val = win6_7.index t (0 : Fin 2) * 2000 + 1 * (j 0).val; omega
    | ⟨1, _⟩ => show win6_0.index t (1 : Fin 2) * 128 + 1 * k.val = k.val; omega
  have h1 : ∀ k : Fin 128, ((cfg6.win 1).blk t).view.emb (ix2 (0 : Fin 1) k : S1x128.Idx) = (ix2 (0 : Fin 1) k : Cert.Spec.R1.Idx) := by
    intro k; funext a; apply Fin.ext
    match a with
    | ⟨0, _⟩ => show win6_1.index t (0 : Fin 2) * 1 + 1 * 0 = 0; omega
    | ⟨1, _⟩ => show win6_1.index t (1 : Fin 2) * 128 + 1 * k.val = k.val; omega
  have h2 : ∀ k : Fin 128, ((cfg6.win 2).blk t).view.emb (ix2 (0 : Fin 1) k : S1x128.Idx) = (ix2 (0 : Fin 1) k : Cert.Spec.R1.Idx) := by
    intro k; funext a; apply Fin.ext
    match a with
    | ⟨0, _⟩ => show win6_2.index t (0 : Fin 2) * 1 + 1 * 0 = 0; omega
    | ⟨1, _⟩ => show win6_2.index t (1 : Fin 2) * 128 + 1 * k.val = k.val; omega
  have h3 : ∀ k : Fin 128, ((cfg6.win 3).blk t).view.emb (ix2 (0 : Fin 1) k : S1x128.Idx) = (ix2 (0 : Fin 1) k : Cert.Spec.R1.Idx) := by
    intro k; funext a; apply Fin.ext
    match a with
    | ⟨0, _⟩ => show win6_3.index t (0 : Fin 2) * 1 + 1 * 0 = 0; omega
    | ⟨1, _⟩ => show win6_3.index t (1 : Fin 2) * 128 + 1 * k.val = k.val; omega
  have h4 : ∀ k : Fin 128, ((cfg6.win 4).blk t).view.emb (ix2 (0 : Fin 1) k : S1x128.Idx) = (ix2 (0 : Fin 1) k : Cert.Spec.R1.Idx) := by
    intro k; funext a; apply Fin.ext
    match a with
    | ⟨0, _⟩ => show win6_4.index t (0 : Fin 2) * 1 + 1 * 0 = 0; omega
    | ⟨1, _⟩ => show win6_4.index t (1 : Fin 2) * 128 + 1 * k.val = k.val; omega
  have h5 : ∀ k : Fin 128, ((cfg6.win 5).blk t).view.emb (ix2 k (j 1) : S128x128.Idx) = (ix2 k ((((cfg6.win 7).blk t).view.emb j) 1) : Cert.Spec.HH.Idx) := by
    intro k; funext a; apply Fin.ext
    match a with
    | ⟨0, _⟩ => show win6_5.index t (0 : Fin 2) * 128 + 1 * k.val = k.val; omega
    | ⟨1, _⟩ => show win6_5.index t (1 : Fin 2) * 128 + 1 * (j 1).val = win6_7.index t (1 : Fin 2) * 128 + 1 * (j 1).val; omega
  have h6 : ((cfg6.win 6).blk t).view.emb (ix2 (j 0) (0 : Fin 1) : S2000x1.Idx) = (ix2 ((((cfg6.win 7).blk t).view.emb j) 0) (0 : Fin 1) : Cert.Spec.N1.Idx) := by
    funext a; apply Fin.ext
    match a with
    | ⟨0, _⟩ => show win6_6.index t (0 : Fin 2) * 2000 + 1 * (j 0).val = win6_7.index t (0 : Fin 2) * 2000 + 1 * (j 0).val; omega
    | ⟨1, _⟩ => show win6_6.index t (1 : Fin 2) * 1 + 1 * 0 = 0; omega
  show k2_pay1 (F := Ideal) (iblk6 V c 2 t) (iblk6 V c 0 t) (iblk6 V c 1 t) (iblk6 V c 3 t) (iblk6 V c 4 t) (iblk6 V c 5 t) (iblk6 V c 6 t) j
    = Cert.Spec.bnConv (V c main_v90 : Cert.Spec.NH.Idx → EReal) (V c main_v101 : Cert.Spec.R1.Idx → EReal)
        (V c main_v102 : Cert.Spec.R1.Idx → EReal) (V c main_v103 : Cert.Spec.R1.Idx → EReal) (V c main_v104 : Cert.Spec.R1.Idx → EReal)
        (V c main_v100 : Cert.Spec.HH.Idx → EReal) (V c main_v11 : Cert.Spec.N1.Idx → EReal) (((cfg6.win 7).blk t).view.emb j)
  refine bnConv_block (iblk6 V c 2 t) (iblk6 V c 0 t) (iblk6 V c 1 t) (iblk6 V c 3 t) (iblk6 V c 4 t) (iblk6 V c 5 t) (iblk6 V c 6 t)
    (V c main_v90) (V c main_v101) (V c main_v102) (V c main_v103) (V c main_v104) (V c main_v100) (V c main_v11) j (((cfg6.win 7).blk t).view.emb j) ?_ ?_ ?_ ?_ ?_ ?_ ?_
  · intro k
    show V c main_v90 (((cfg6.win 0).blk t).view.emb (ix2 (j 0) k : S2000x128.Idx)) = V c main_v90 (ix2 ((((cfg6.win 7).blk t).view.emb j) 0) k : Cert.Spec.NH.Idx)
    rw [h0 k]
  · intro k
    show V c main_v101 (((cfg6.win 1).blk t).view.emb (ix2 (0 : Fin 1) k : S1x128.Idx)) = V c main_v101 (ix2 (0 : Fin 1) k : Cert.Spec.R1.Idx)
    rw [h1 k]
  · intro k
    show V c main_v102 (((cfg6.win 2).blk t).view.emb (ix2 (0 : Fin 1) k : S1x128.Idx)) = V c main_v102 (ix2 (0 : Fin 1) k : Cert.Spec.R1.Idx)
    rw [h2 k]
  · intro k
    show V c main_v103 (((cfg6.win 3).blk t).view.emb (ix2 (0 : Fin 1) k : S1x128.Idx)) = V c main_v103 (ix2 (0 : Fin 1) k : Cert.Spec.R1.Idx)
    rw [h3 k]
  · intro k
    show V c main_v104 (((cfg6.win 4).blk t).view.emb (ix2 (0 : Fin 1) k : S1x128.Idx)) = V c main_v104 (ix2 (0 : Fin 1) k : Cert.Spec.R1.Idx)
    rw [h4 k]
  · intro k
    show V c main_v100 (((cfg6.win 5).blk t).view.emb (ix2 k (j 1) : S128x128.Idx)) = V c main_v100 (ix2 k ((((cfg6.win 7).blk t).view.emb j) 1) : Cert.Spec.HH.Idx)
    rw [h5 k]
  · show V c main_v11 (((cfg6.win 6).blk t).view.emb (ix2 (j 0) (0 : Fin 1) : S2000x1.Idx)) = V c main_v11 (ix2 ((((cfg6.win 7).blk t).view.emb j) 0) (0 : Fin 1) : Cert.Spec.N1.Idx)
    rw [h6]

/-- An index of the output array is in point `t`'s block iff each coordinate is in the block's range on its axis. -/
theorem mem_blk6 (t : Fin cfg6.N) (i : S50000x128.Idx) :
    i ∈ ((cfg6.win 7).blk t).view.set ↔ ∀ a : Fin 2, win6_7.index t a * S2000x128.size a ≤ (i a).val ∧ (i a).val < win6_7.index t a * S2000x128.size a + S2000x128.size a := by
  show i ∈ ((View.whole main_v105).slice (win6_7.rect t)).set ↔ _
  rw [View.set_slice_whole, Rect.mem_set_unit]
  exact Iff.rfl

/-- Every entry of the output is written: row `r` by the point `r / 2000`. -/
theorem cover6 (i : S50000x128.Idx) :
    ∃ t : Fin cfg6.N, (cfg6.win 7).flush t = true ∧ i ∈ ((cfg6.win 7).blk t).view.set := by
  have hi0 : (i 0).val < 50000 := (i 0).isLt
  have hi1 : (i 1).val < 128 := (i 1).isLt
  have hN : cfg6.N = 25 := N_6
  have hlt : (i 0).val / 2000 < cfg6.N := by rw [hN]; omega
  obtain ⟨-, -, -, -, -, -, -, -, -, -, -, -, -, -, ao0, ao1⟩ := idx_facts6 ⟨(i 0).val / 2000, hlt⟩
  have ao0' : win6_7.index ⟨(i 0).val / 2000, hlt⟩ (0 : Fin 2) = (i 0).val / 2000 := ao0
  refine ⟨⟨(i 0).val / 2000, hlt⟩, flush6_7 _, ?_⟩
  rw [mem_blk6]
  intro a
  match a with
  | ⟨0, _⟩ =>
    show win6_7.index ⟨(i 0).val / 2000, hlt⟩ (0 : Fin 2) * 2000 ≤ (i 0).val ∧ (i 0).val < win6_7.index ⟨(i 0).val / 2000, hlt⟩ (0 : Fin 2) * 2000 + 2000
    rw [ao0']; omega
  | ⟨1, _⟩ =>
    show win6_7.index ⟨(i 0).val / 2000, hlt⟩ (1 : Fin 2) * 128 ≤ (i 1).val ∧ (i 1).val < win6_7.index ⟨(i 0).val / 2000, hlt⟩ (1 : Fin 2) * 128 + 128
    rw [ao1]; omega

/-- The output array after the whole grid is the whole-array function of the seven input arrays. -/
theorem final6 (c : Dev nD) :
    (dat6 (F := Ideal) V c).arrAt 7 cfg6.N
      = Cert.Spec.bnConv (V c main_v90 : Cert.Spec.NH.Idx → EReal) (V c main_v101 : Cert.Spec.R1.Idx → EReal)
        (V c main_v102 : Cert.Spec.R1.Idx → EReal) (V c main_v103 : Cert.Spec.R1.Idx → EReal) (V c main_v104 : Cert.Spec.R1.Idx → EReal)
        (V c main_v100 : Cert.Spec.HH.Idx → EReal) (V c main_v11 : Cert.Spec.N1.Idx → EReal) :=
  (dat6 V c).arrAt_eq_of_cover 7 _ (fun t _ => flushed6_eq V c t) cover6

end Cert.KernelIdeal.RegionValue

end
-- ==== Proof.Region7.lean ====
/- Region 7 (a combine region): the output array after all 25 grid points, as one function of the four
   input arrays. Point t of the grid works on rows 2000 t .. 2000 t + 1999: it reads those rows of the two feature
   arrays and of the column of degree weights, and the one row of biases, and writes those rows of the output. So
   the block a point writes back is the block of the whole-array combine, and since the 25 row blocks tile the
   50000 rows, the array ends holding the whole-array combine. -/
import proofs.«113380_j111669150109_2_alg».proof.Proof.Gen.KernelIdeal.Frame
import proofs.«113380_j111669150109_2_alg».proof.Proof.Spec
import proofs.«113380_j111669150109_2_alg».proof.Proof.RegionPayCombine
import Idealize.ShloMosaic.Lib.Pipeline.Value

noncomputable section

namespace Cert.KernelIdeal.RegionValue

open Cert.KernelIdeal Cert.KernelIdeal.Gen Idealize.ShloMosaic Idealize.ShloMosaic.ValueIdx

open Idealize.ShloMosaic.TcCoe Idealize.SL.Sem
open Idealize.ShloMosaic.Pipeline (Dat)

variable (V : (c : Dev nD) → (b : Ref sig .tc) → Buf (Elt Ideal) ((c : Thread nD τ).loc b))

/-- The block indices at point `t`: the row-blocked windows sit at row block `t`, the bias at its one block. -/
theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-- What point `t` writes back is block `t` of the whole-array combine of the arrays as the region finds them. -/
theorem flushed7_eq (c : Dev nD) (t : Fin cfg7.N) :
    (dat7 (F := Ideal) V c).flushed 4 t = ((cfg7.win 4).blk t).view.read (Elt Ideal)
      (Cert.Spec.combine (V c main_v116 : Cert.Spec.NH.Idx → EReal) (V c main_v105 : Cert.Spec.NH.Idx → EReal)
        (V c main_v11 : Cert.Spec.N1.Idx → EReal) (V c main_v119 : Cert.Spec.R1.Idx → EReal)) := by
  show (cfg7.win 4).cut (grid7.coords t) ((dat7 V c).after 4 t) = _
  rw [after7_4]
  unfold out7_4
  rw [View.canon_unit_zero hz2]
  simp only [View.ld_unit_zero (S := S2000x128) hz2, View.ld_unit_zero (S := S2000x1) hz2, View.ld_unit_zero (S := S1x128) hz2]
  obtain ⟨a00, a01, a10, a11, a20, a21, a30, a31, a40, a41⟩ := idx_facts7 t
  funext j
  have hj0 : (j 0).val < 2000 := (j 0).isLt
  have hj1 : (j 1).val < 128 := (j 1).isLt
  have h0 : ((cfg7.win 0).blk t).view.emb j = ((cfg7.win 4).blk t).view.emb j := by
    funext a; apply Fin.ext
    match a with
    | ⟨0, _⟩ => show win7_0.index t (0 : Fin 2) * 2000 + 1 * (j 0).val = win7_4.index t (0 : Fin 2) * 2000 + 1 * (j 0).val; omega
    | ⟨1, _⟩ => show win7_0.index t (1 : Fin 2) * 128 + 1 * (j 1).val = win7_4.index t (1 : Fin 2) * 128 + 1 * (j 1).val; omega
  have h1 : ((cfg7.win 1).blk t).view.emb j = ((cfg7.win 4).blk t).view.emb j := by
    funext a; apply Fin.ext
    match a with
    | ⟨0, _⟩ => show win7_1.index t (0 : Fin 2) * 2000 + 1 * (j 0).val = win7_4.index t (0 : Fin 2) * 2000 + 1 * (j 0).val; omega
    | ⟨1, _⟩ => show win7_1.index t (1 : Fin 2) * 128 + 1 * (j 1).val = win7_4.index t (1 : Fin 2) * 128 + 1 * (j 1).val; omega
  have h2 : ((cfg7.win 2).blk t).view.emb (ix2 (j 0) (0 : Fin 1)) = (ix2 ((((cfg7.win 4).blk t).view.emb j) 0) (0 : Fin 1) : Cert.Spec.N1.Idx) := by
    funext a; apply Fin.ext
    match a with
    | ⟨0, _⟩ => show win7_2.index t (0 : Fin 2) * 2000 + 1 * (j 0).val = win7_4.index t (0 : Fin 2) * 2000 + 1 * (j 0).val; omega
    | ⟨1, _⟩ => show win7_2.index t (1 : Fin 2) * 1 + 1 * 0 = 0; omega
  have h3 : ((cfg7.win 3).blk t).view.emb (ix2 (0 : Fin 1) (j 1)) = (ix2 (0 : Fin 1) ((((cfg7.win 4).blk t).view.emb j) 1) : Cert.Spec.R1.Idx) := by
    funext a; apply Fin.ext
    match a with
    | ⟨0, _⟩ => show win7_3.index t (0 : Fin 2) * 1 + 1 * 0 = 0; omega
    | ⟨1, _⟩ => show win7_3.index t (1 : Fin 2) * 128 + 1 * (j 1).val = win7_4.index t (1 : Fin 2) * 128 + 1 * (j 1).val; omega
  show k7_pay1 (F := Ideal) (iblk7 V c 0 t) (iblk7 V c 1 t) (iblk7 V c 2 t) (iblk7 V c 3 t) j
    = Cert.Spec.combine (V c main_v116 : Cert.Spec.NH.Idx → EReal) (V c main_v105 : Cert.Spec.NH.Idx → EReal)
        (V c main_v11 : Cert.Spec.N1.Idx → EReal) (V c main_v119 : Cert.Spec.R1.Idx → EReal) (((cfg7.win 4).blk t).view.emb j)
  refine combine_block (iblk7 V c 0 t) (iblk7 V c 1 t) (iblk7 V c 2 t) (iblk7 V c 3 t)
    (V c main_v116) (V c main_v105) (V c main_v11) (V c main_v119) j (((cfg7.win 4).blk t).view.emb j) ?_ ?_ ?_ ?_
  · show V c main_v116 (((cfg7.win 0).blk t).view.emb j) = V c main_v116 (((cfg7.win 4).blk t).view.emb j)
    rw [h0]
  · show V c main_v105 (((cfg7.win 1).blk t).view.emb j) = V c main_v105 (((cfg7.win 4).blk t).view.emb j)
    rw [h1]
  · show V c main_v11 (((cfg7.win 2).blk t).view.emb (ix2 (j 0) (0 : Fin 1))) = V c main_v11 (ix2 ((((cfg7.win 4).blk t).view.emb j) 0) (0 : Fin 1))
    rw [h2]
  · show V c main_v119 (((cfg7.win 3).blk t).view.emb (ix2 (0 : Fin 1) (j 1))) = V c main_v119 (ix2 (0 : Fin 1) ((((cfg7.win 4).blk t).view.emb j) 1))
    rw [h3]

/-- An index of the output array is in point `t`'s block iff each coordinate is in the block's range on its axis. -/
theorem mem_blk7 (t : Fin cfg7.N) (i : S50000x128.Idx) :
    i ∈ ((cfg7.win 4).blk t).view.set ↔ ∀ a : Fin 2, win7_4.index t a * S2000x128.size a ≤ (i a).val ∧ (i a).val < win7_4.index t a * S2000x128.size a + S2000x128.size a := by
  show i ∈ ((View.whole main_v120).slice (win7_4.rect t)).set ↔ _
  rw [View.set_slice_whole, Rect.mem_set_unit]
  exact Iff.rfl

/-- Every entry of the output is written: row `r` by the point `r / 2000`. -/
theorem cover7 (i : S50000x128.Idx) :
    ∃ t : Fin cfg7.N, (cfg7.win 4).flush t = true ∧ i ∈ ((cfg7.win 4).blk t).view.set := by
  have hi0 : (i 0).val < 50000 := (i 0).isLt
  have hi1 : (i 1).val < 128 := (i 1).isLt
  have hN : cfg7.N = 25 := N_7
  have hlt : (i 0).val / 2000 < cfg7.N := by rw [hN]; omega
  obtain ⟨-, -, -, -, -, -, -, -, a40, a41⟩ := idx_facts7 ⟨(i 0).val / 2000, hlt⟩
  have a40' : win7_4.index ⟨(i 0).val / 2000, hlt⟩ (0 : Fin 2) = (i 0).val / 2000 := a40
  refine ⟨⟨(i 0).val / 2000, hlt⟩, flush7_4 _, ?_⟩
  rw [mem_blk7]
  intro a
  match a with
  | ⟨0, _⟩ =>
    show win7_4.index ⟨(i 0).val / 2000, hlt⟩ (0 : Fin 2) * 2000 ≤ (i 0).val ∧ (i 0).val < win7_4.index ⟨(i 0).val / 2000, hlt⟩ (0 : Fin 2) * 2000 + 2000
    rw [a40']; omega
  | ⟨1, _⟩ =>
    show win7_4.index ⟨(i 0).val / 2000, hlt⟩ (1 : Fin 2) * 128 ≤ (i 1).val ∧ (i 1).val < win7_4.index ⟨(i 0).val / 2000, hlt⟩ (1 : Fin 2) * 128 + 128
    rw [a41]; omega

/-- The output array after the whole grid is the whole-array combine of the four input arrays. -/
theorem final7 (c : Dev nD) :
    (dat7 (F := Ideal) V c).arrAt 4 cfg7.N
      = Cert.Spec.combine (V c main_v116 : Cert.Spec.NH.Idx → EReal) (V c main_v105 : Cert.Spec.NH.Idx → EReal)
          (V c main_v11 : Cert.Spec.N1.Idx → EReal) (V c main_v119 : Cert.Spec.R1.Idx → EReal) :=
  (dat7 V c).arrAt_eq_of_cover 4 _ (fun t _ => flushed7_eq V c t) cover7

end Cert.KernelIdeal.RegionValue

end
-- ==== Proof.KerValue.lean ====
/- The kernel program's result as one composition. The launch memory is folded through the nine host stretches and
   the eight regions; at each boundary the buffer the next step reads is named: a region's output is the region's
   whole-array function of the buffers it finds, a host stretch's outputs are the host functions of the buffers it
   finds, and the edge endpoints, degree weights and arguments are kept throughout. Substituting boundary by
   boundary gives the composition of region functions and host functions, which is the kernel program's net. -/
import proofs.«113380_j111669150109_2_alg».proof.Proof.KerInv
import proofs.«113380_j111669150109_2_alg».proof.Proof.Nets
import proofs.«113380_j111669150109_2_alg».proof.Proof.Region0
import proofs.«113380_j111669150109_2_alg».proof.Proof.Region1
import proofs.«113380_j111669150109_2_alg».proof.Proof.Region2
import proofs.«113380_j111669150109_2_alg».proof.Proof.Region3
import proofs.«113380_j111669150109_2_alg».proof.Proof.Region4
import proofs.«113380_j111669150109_2_alg».proof.Proof.Region5
import proofs.«113380_j111669150109_2_alg».proof.Proof.Region6
import proofs.«113380_j111669150109_2_alg».proof.Proof.Region7

set_option maxRecDepth 16384

noncomputable section

namespace Cert.KernelIdeal.KerValue

open Cert.KernelIdeal Cert.KernelIdeal.Gen Idealize.ShloMosaic Idealize.ShloMosaic.TcCoe Idealize.ShloMosaic.StableHlo Idealize.SL.Sem

variable {F : FTy → Type} [FloatOps F]

open Idealize.ShloMosaic.Pipeline (Dat)
open Cert.KernelIdeal.RegionValue

/-! ## The composition over abstract intermediate arrays -/

/-- If the intermediate arrays satisfy the layer equations one after the other, the last one pooled is the net. -/
theorem ker_compose (x : FVec Ideal Cert.Shared.NH .f32) (e : IVec Cert.Shared.SE2 32) (batch : IVec Cert.Shared.SV 32) (Wemb : FVec Ideal Cert.Shared.HH .f32)
    (bemb : FVec Ideal Cert.Shared.SH .f32) (Wc : FVec Ideal Cert.Shared.S4HH .f32) (bc : FVec Ideal Cert.Shared.S4H .f32) (g beta : FVec Ideal Cert.Shared.S3H .f32)
    (u0 u1 u2 u3 : FVec Ideal Cert.Shared.NH .bf16) (a0 a1 a2 a3 : FVec Ideal Cert.Shared.NH .f32) (r : FVec Ideal Cert.Shared.SGH .f32)
    (hu0 : u0 = Cert.Spec.embedConv x Wemb (Cert.Shared.rowOf1 bemb) (Cert.Shared.sliceW0 Wc) (Cert.Shared.colOf (Cert.Shared.dinvF (F := Ideal) (Cert.Shared.dstOf e))))
    (ha0 : a0 = Cert.Spec.combineRelu (Cert.Shared.kerSeg u0 (Cert.Shared.srcOf e) (Cert.Shared.dstOf e)) u0 (Cert.Shared.colOf (Cert.Shared.dinvF (F := Ideal) (Cert.Shared.dstOf e))) (Cert.Shared.rowOf1 (Cert.Shared.sliceB0 bc)))
    (hu1 : u1 = Cert.Spec.bnConv a0 (Cert.Shared.rowOf1 (Cert.Shared.meanF a0)) (Cert.Shared.rowOf1 (Cert.Shared.varF a0)) (Cert.Shared.rowOf1 (Cert.Shared.sliceG0 g)) (Cert.Shared.rowOf1 (Cert.Shared.sliceG0 beta)) (Cert.Shared.sliceW1 Wc) (Cert.Shared.colOf (Cert.Shared.dinvF (F := Ideal) (Cert.Shared.dstOf e))))
    (ha1 : a1 = Cert.Spec.combineRelu (Cert.Shared.kerSeg u1 (Cert.Shared.srcOf e) (Cert.Shared.dstOf e)) u1 (Cert.Shared.colOf (Cert.Shared.dinvF (F := Ideal) (Cert.Shared.dstOf e))) (Cert.Shared.rowOf1 (Cert.Shared.sliceB1 bc)))
    (hu2 : u2 = Cert.Spec.bnConv a1 (Cert.Shared.rowOf1 (Cert.Shared.meanF a1)) (Cert.Shared.rowOf1 (Cert.Shared.varF a1)) (Cert.Shared.rowOf1 (Cert.Shared.sliceG1 g)) (Cert.Shared.rowOf1 (Cert.Shared.sliceG1 beta)) (Cert.Shared.sliceW2 Wc) (Cert.Shared.colOf (Cert.Shared.dinvF (F := Ideal) (Cert.Shared.dstOf e))))
    (ha2 : a2 = Cert.Spec.combineRelu (Cert.Shared.kerSeg u2 (Cert.Shared.srcOf e) (Cert.Shared.dstOf e)) u2 (Cert.Shared.colOf (Cert.Shared.dinvF (F := Ideal) (Cert.Shared.dstOf e))) (Cert.Shared.rowOf1 (Cert.Shared.sliceB2 bc)))
    (hu3 : u3 = Cert.Spec.bnConv a2 (Cert.Shared.rowOf1 (Cert.Shared.meanF a2)) (Cert.Shared.rowOf1 (Cert.Shared.varF a2)) (Cert.Shared.rowOf1 (Cert.Shared.sliceG2 g)) (Cert.Shared.rowOf1 (Cert.Shared.sliceG2 beta)) (Cert.Shared.sliceW3 Wc) (Cert.Shared.colOf (Cert.Shared.dinvF (F := Ideal) (Cert.Shared.dstOf e))))
    (ha3 : a3 = Cert.Spec.combine (Cert.Shared.kerSeg u3 (Cert.Shared.srcOf e) (Cert.Shared.dstOf e)) u3 (Cert.Shared.colOf (Cert.Shared.dinvF (F := Ideal) (Cert.Shared.dstOf e))) (Cert.Shared.rowOf1 (Cert.Shared.sliceB3 bc)))
    (hr : r = Cert.Shared.poolF a3 batch) :
    r = Cert.Nets.kerNet x e batch Wemb bemb Wc bc g beta := by
  subst hr; subst ha3; subst hu3; subst ha2; subst hu2; subst ha1; subst hu1; subst ha0; subst hu0
  rfl

variable (m : (ℓ : Loc nD τ sig) → Buf (Elt Ideal) ℓ) (ρ : Dev nD → PrngReg) (c : Dev nD)

/-! ## Each region's output at its exit boundary -/

theorem val_u0 : W2 m ρ c (Proc.devRef .tc main_v15) = Cert.Spec.embedConv (W1 m ρ c (Proc.devRef .tc main_arg0)) (W1 m ρ c (Proc.devRef .tc main_arg3)) (W1 m ρ c (Proc.devRef .tc main_v14)) (W1 m ρ c (Proc.devRef .tc main_v13)) (W1 m ρ c (Proc.devRef .tc main_v11)) :=
  (W2_arr m ρ c 5).trans (final0 (V1 m ρ) c)
theorem val_a0 : W4 m ρ c (Proc.devRef .tc main_v30) = Cert.Spec.combineRelu (W3 m ρ c (Proc.devRef .tc main_v26)) (W3 m ρ c (Proc.devRef .tc main_v15)) (W3 m ρ c (Proc.devRef .tc main_v11)) (W3 m ρ c (Proc.devRef .tc main_v29)) :=
  (W4_arr m ρ c 4).trans (final1 (V3 m ρ) c)
theorem val_u1 : W8 m ρ c (Proc.devRef .tc main_v45) = Cert.Spec.bnConv (W7 m ρ c (Proc.devRef .tc main_v30)) (W7 m ρ c (Proc.devRef .tc main_v41)) (W7 m ρ c (Proc.devRef .tc main_v42)) (W7 m ρ c (Proc.devRef .tc main_v43)) (W7 m ρ c (Proc.devRef .tc main_v44)) (W7 m ρ c (Proc.devRef .tc main_v40)) (W7 m ρ c (Proc.devRef .tc main_v11)) :=
  (W8_arr m ρ c 7).trans (final2 (V7 m ρ) c)
theorem val_a1 : W10 m ρ c (Proc.devRef .tc main_v60) = Cert.Spec.combineRelu (W9 m ρ c (Proc.devRef .tc main_v56)) (W9 m ρ c (Proc.devRef .tc main_v45)) (W9 m ρ c (Proc.devRef .tc main_v11)) (W9 m ρ c (Proc.devRef .tc main_v59)) :=
  (W10_arr m ρ c 4).trans (final3 (V9 m ρ) c)
theorem val_u2 : W14 m ρ c (Proc.devRef .tc main_v75) = Cert.Spec.bnConv (W13 m ρ c (Proc.devRef .tc main_v60)) (W13 m ρ c (Proc.devRef .tc main_v71)) (W13 m ρ c (Proc.devRef .tc main_v72)) (W13 m ρ c (Proc.devRef .tc main_v73)) (W13 m ρ c (Proc.devRef .tc main_v74)) (W13 m ρ c (Proc.devRef .tc main_v70)) (W13 m ρ c (Proc.devRef .tc main_v11)) :=
  (W14_arr m ρ c 7).trans (final4 (V13 m ρ) c)
theorem val_a2 : W16 m ρ c (Proc.devRef .tc main_v90) = Cert.Spec.combineRelu (W15 m ρ c (Proc.devRef .tc main_v86)) (W15 m ρ c (Proc.devRef .tc main_v75)) (W15 m ρ c (Proc.devRef .tc main_v11)) (W15 m ρ c (Proc.devRef .tc main_v89)) :=
  (W16_arr m ρ c 4).trans (final5 (V15 m ρ) c)
theorem val_u3 : W20 m ρ c (Proc.devRef .tc main_v105) = Cert.Spec.bnConv (W19 m ρ c (Proc.devRef .tc main_v90)) (W19 m ρ c (Proc.devRef .tc main_v101)) (W19 m ρ c (Proc.devRef .tc main_v102)) (W19 m ρ c (Proc.devRef .tc main_v103)) (W19 m ρ c (Proc.devRef .tc main_v104)) (W19 m ρ c (Proc.devRef .tc main_v100)) (W19 m ρ c (Proc.devRef .tc main_v11)) :=
  (W20_arr m ρ c 7).trans (final6 (V19 m ρ) c)
theorem val_a3 : W22 m ρ c (Proc.devRef .tc main_v120) = Cert.Spec.combine (W21 m ρ c (Proc.devRef .tc main_v116)) (W21 m ρ c (Proc.devRef .tc main_v105)) (W21 m ρ c (Proc.devRef .tc main_v11)) (W21 m ρ c (Proc.devRef .tc main_v119)) :=
  (W22_arr m ρ c 4).trans (final7 (V21 m ρ) c)

/-! ## The boundaries kept -/

/-- After the first host stretch the kept buffers hold the host functions of the arguments. -/
theorem inv1 : Inv (W1 m ρ c) (Cert.Shared.srcOf (m ((c.tc : Thread nD τ).loc main_arg1))) (Cert.Shared.dstOf (m ((c.tc : Thread nD τ).loc main_arg1)))
    (Cert.Shared.colOf (Cert.Shared.dinvF (F := Ideal) (Cert.Shared.dstOf (m ((c.tc : Thread nD τ).loc main_arg1))))) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) :=
  ⟨h0_src (F := Ideal) (W0 m ρ c), h0_dst (F := Ideal) (W0 m ρ c), h0_dcol (F := Ideal) (W0 m ρ c), h0_keep_arg2 (F := Ideal) (W0 m ρ c),
   h0_keep_arg5 (F := Ideal) (W0 m ρ c), h0_keep_arg6 (F := Ideal) (W0 m ρ c), h0_keep_arg7 (F := Ideal) (W0 m ρ c), h0_keep_arg8 (F := Ideal) (W0 m ρ c)⟩

/-! ## The result -/

/-- The result buffer at the last boundary is the kernel program's net of the nine arguments. -/
theorem ker_result :
    Gen.W23 m ρ c (Proc.devRef .tc main_v132)
      = Cert.Nets.kerNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have i1 := inv1 m ρ c
  have i2 := inv_r0 m ρ c i1
  have i3 : Inv (W3 m ρ c) _ _ _ _ _ _ _ _ := inv_h1 i2
  have i4 := inv_r1 m ρ c i3
  have i7 : Inv (W7 m ρ c) _ _ _ _ _ _ _ _ := inv_h2 i4
  have i8 := inv_r2 m ρ c i7
  have i9 : Inv (W9 m ρ c) _ _ _ _ _ _ _ _ := inv_h3 i8
  have i10 := inv_r3 m ρ c i9
  have i13 : Inv (W13 m ρ c) _ _ _ _ _ _ _ _ := inv_h4 i10
  have i14 := inv_r4 m ρ c i13
  have i15 : Inv (W15 m ρ c) _ _ _ _ _ _ _ _ := inv_h5 i14
  have i16 := inv_r5 m ρ c i15
  have i19 : Inv (W19 m ρ c) _ _ _ _ _ _ _ _ := inv_h6 i16
  have i20 := inv_r6 m ρ c i19
  have i21 : Inv (W21 m ρ c) _ _ _ _ _ _ _ _ := inv_h7 i20
  have i22 := inv_r7 m ρ c i21
  refine ker_compose _ _ _ _ _ _ _ _ _ (W2 m ρ c (Proc.devRef .tc main_v15)) (W8 m ρ c (Proc.devRef .tc main_v45)) (W14 m ρ c (Proc.devRef .tc main_v75)) (W20 m ρ c (Proc.devRef .tc main_v105))
    (W4 m ρ c (Proc.devRef .tc main_v30)) (W10 m ρ c (Proc.devRef .tc main_v60)) (W16 m ρ c (Proc.devRef .tc main_v90)) (W22 m ρ c (Proc.devRef .tc main_v120)) _ ?_ ?_ ?_ ?_ ?_ ?_ ?_ ?_ ?_
  · -- region 0
    rw [val_u0 m ρ c, i1.v11]
    rw [show W1 m ρ c (Proc.devRef .tc main_arg0) = m ((c.tc : Thread nD τ).loc main_arg0) from h0_keep_arg0 (F := Ideal) (W0 m ρ c),
      show W1 m ρ c (Proc.devRef .tc main_arg3) = m ((c.tc : Thread nD τ).loc main_arg3) from h0_keep_arg3 (F := Ideal) (W0 m ρ c),
      show W1 m ρ c (Proc.devRef .tc main_v14) = Cert.Shared.rowOf1 (F := Ideal) (m ((c.tc : Thread nD τ).loc main_arg4)) from h0_bemb (F := Ideal) (W0 m ρ c),
      show W1 m ρ c (Proc.devRef .tc main_v13) = Cert.Shared.sliceW0 (F := Ideal) (m ((c.tc : Thread nD τ).loc main_arg5)) from h0_w0 (F := Ideal) (W0 m ρ c)]
  · -- region 1
    rw [val_a0 m ρ c, i3.v11,
      show W3 m ρ c (Proc.devRef .tc main_v26) = _ from h1_seg (F := Ideal) (W2 m ρ c),
      show W3 m ρ c (Proc.devRef .tc main_v15) = _ from h1_keep_v15 (F := Ideal) (W2 m ρ c),
      show W3 m ρ c (Proc.devRef .tc main_v29) = _ from h1_bias (F := Ideal) (W2 m ρ c), i2.v1, i2.v3, i2.a6]
  · -- region 2
    rw [val_u1 m ρ c, i7.v11,
      show W7 m ρ c (Proc.devRef .tc main_v30) = _ from h2_keep_v30 (F := Ideal) (W4 m ρ c),
      show W7 m ρ c (Proc.devRef .tc main_v41) = _ from h2_mean (F := Ideal) (W4 m ρ c),
      show W7 m ρ c (Proc.devRef .tc main_v42) = _ from h2_var (F := Ideal) (W4 m ρ c),
      show W7 m ρ c (Proc.devRef .tc main_v43) = _ from h2_gamma (F := Ideal) (W4 m ρ c),
      show W7 m ρ c (Proc.devRef .tc main_v44) = _ from h2_beta (F := Ideal) (W4 m ρ c),
      show W7 m ρ c (Proc.devRef .tc main_v40) = _ from h2_w (F := Ideal) (W4 m ρ c), i4.a7, i4.a8, i4.a5]
  · -- region 3
    rw [val_a1 m ρ c, i9.v11,
      show W9 m ρ c (Proc.devRef .tc main_v56) = _ from h3_seg (F := Ideal) (W8 m ρ c),
      show W9 m ρ c (Proc.devRef .tc main_v45) = _ from h3_keep_v45 (F := Ideal) (W8 m ρ c),
      show W9 m ρ c (Proc.devRef .tc main_v59) = _ from h3_bias (F := Ideal) (W8 m ρ c), i8.v1, i8.v3, i8.a6]
  · -- region 4
    rw [val_u2 m ρ c, i13.v11,
      show W13 m ρ c (Proc.devRef .tc main_v60) = _ from h4_keep_v60 (F := Ideal) (W10 m ρ c),
      show W13 m ρ c (Proc.devRef .tc main_v71) = _ from h4_mean (F := Ideal) (W10 m ρ c),
      show W13 m ρ c (Proc.devRef .tc main_v72) = _ from h4_var (F := Ideal) (W10 m ρ c),
      show W13 m ρ c (Proc.devRef .tc main_v73) = _ from h4_gamma (F := Ideal) (W10 m ρ c),
      show W13 m ρ c (Proc.devRef .tc main_v74) = _ from h4_beta (F := Ideal) (W10 m ρ c),
      show W13 m ρ c (Proc.devRef .tc main_v70) = _ from h4_w (F := Ideal) (W10 m ρ c), i10.a7, i10.a8, i10.a5]
  · -- region 5
    rw [val_a2 m ρ c, i15.v11,
      show W15 m ρ c (Proc.devRef .tc main_v86) = _ from h5_seg (F := Ideal) (W14 m ρ c),
      show W15 m ρ c (Proc.devRef .tc main_v75) = _ from h5_keep_v75 (F := Ideal) (W14 m ρ c),
      show W15 m ρ c (Proc.devRef .tc main_v89) = _ from h5_bias (F := Ideal) (W14 m ρ c), i14.v1, i14.v3, i14.a6]
  · -- region 6
    rw [val_u3 m ρ c, i19.v11,
      show W19 m ρ c (Proc.devRef .tc main_v90) = _ from h6_keep_v90 (F := Ideal) (W16 m ρ c),
      show W19 m ρ c (Proc.devRef .tc main_v101) = _ from h6_mean (F := Ideal) (W16 m ρ c),
      show W19 m ρ c (Proc.devRef .tc main_v102) = _ from h6_var (F := Ideal) (W16 m ρ c),
      show W19 m ρ c (Proc.devRef .tc main_v103) = _ from h6_gamma (F := Ideal) (W16 m ρ c),
      show W19 m ρ c (Proc.devRef .tc main_v104) = _ from h6_beta (F := Ideal) (W16 m ρ c),
      show W19 m ρ c (Proc.devRef .tc main_v100) = _ from h6_w (F := Ideal) (W16 m ρ c), i16.a7, i16.a8, i16.a5]
  · -- region 7
    rw [val_a3 m ρ c, i21.v11,
      show W21 m ρ c (Proc.devRef .tc main_v116) = _ from h7_seg (F := Ideal) (W20 m ρ c),
      show W21 m ρ c (Proc.devRef .tc main_v105) = _ from h7_keep_v105 (F := Ideal) (W20 m ρ c),
      show W21 m ρ c (Proc.devRef .tc main_v119) = _ from h7_bias (F := Ideal) (W20 m ρ c), i20.v1, i20.v3, i20.a6]
  · -- the pool
    rw [show W23 m ρ c (Proc.devRef .tc main_v132) = _ from h8_pool (F := Ideal) (W22 m ρ c), i22.a2]

end Cert.KernelIdeal.KerValue

end
-- ==== Proof.RefRun.lean ====
/- The reference program's @main as a list of its host operations — the three rectifier calls and the three variance
   calls (each with its nested select) written out at their call sites over the calls' own buffers —, cut into nine
   consecutive stretches at the values the layers hand to one another: the degree weights and the embedding; each
   layer's output (rectified where it is); each batch normalisation's output; the pooled result.  Its run: every
   weakly fair execution terminates with every buffer at the fold of these operations over the launch contents. -/
import proofs.«113380_j111669150109_2_alg».proof.ReferenceIdeal
import proofs.«113380_j111669150109_2_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Stretch 0: source and destination indices, the degree weights, the embedding (18 operations). -/
abbrev ops0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_cst (constant S_ .f32 0x3F800000#32),
    StableHlo.unary main_cst main_v4 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v5 (broadcastInDim S50000 ![] bcast_S_S50000 : (⟨S_, .f32⟩ : BufTy).Contents (Elt F) → (⟨S50000, .f32⟩ : BufTy).Contents (Elt F)),
    StableHlo.unary main_v3 main_v6 (broadcastInDim S800000x1 ![0] bcast_S800000_S800000x1_0 : (⟨S800000, .i32⟩ : BufTy).Contents (Elt F) → (⟨S800000x1, .i32⟩ : BufTy).Contents (Elt F)),
    StableHlo.ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.unary main_cst_1 main_v8 (broadcastInDim S50000 ![] bcast_S_S50000 : (⟨S_, .f32⟩ : BufTy).Contents (Elt F) → (⟨S50000, .f32⟩ : BufTy).Contents (Elt F)),
    StableHlo.binary main_v7 main_v8 main_v9 (addf : (⟨S50000, .f32⟩ : BufTy).Contents (Elt F) → (⟨S50000, .f32⟩ : BufTy).Contents (Elt F) → (⟨S50000, .f32⟩ : BufTy).Contents (Elt F)),
    StableHlo.unary main_v9 main_v10 (Host.rsqrt : (⟨S50000, .f32⟩ : BufTy).Contents (Elt F) → (⟨S50000, .f32⟩ : BufTy).Contents (Elt F)),
    StableHlo.binary main_arg0 main_arg3 main_v11 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v12 (broadcastInDim S1x128 ![1] bcast_S128_S1x128_1 : (⟨S128, .f32⟩ : BufTy).Contents (Elt F) → (⟨S1x128, .f32⟩ : BufTy).Contents (Elt F)),
    StableHlo.unary main_v12 main_v13 (broadcastInDim S50000x128 ![0, 1] bcast_S1x128_S50000x128_0_1 : (⟨S1x128, .f32⟩ : BufTy).Contents (Elt F) → (⟨S50000x128, .f32⟩ : BufTy).Contents (Elt F)),
    StableHlo.binary main_v11 main_v13 main_v14 (addf : (⟨S50000x128, .f32⟩ : BufTy).Contents (Elt F) → (⟨S50000x128, .f32⟩ : BufTy).Contents (Elt F) → (⟨S50000x128, .f32⟩ : BufTy).Contents (Elt F)) ]
theorem ops0_sub : (ops0 : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub ..⟩

/-- Stretch 1: layer 0: projection, normalised aggregation, self-loop, bias, rectifier (51 operations). -/
abbrev ops1 : List (HloOp τ sig (Elt F)) :=
  [ StableHlo.unary main_arg5 main_v15 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v15 main_v16 rfl shapeCasts_S1x128x128_S128x128,
    StableHlo.unary main_arg6 main_v17 ((extractStridedSlice S1x128 ![0, 0] · slices_S4x128_S1x128_0_0) : (⟨S4x128, .f32⟩ : BufTy).Contents (Elt F) → (⟨S1x128, .f32⟩ : BufTy).Contents (Elt F)),
    StableHlo.reshape main_v17 main_v18 rfl shapeCasts_S1x128_S128,
    StableHlo.binary main_v14 main_v16 main_v19 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c (constantI S_ 32 0#32),
    StableHlo.unary main_c main_v20 (broadcastInDim S800000 ![] bcast_S_S800000 : (⟨S_, .i32⟩ : BufTy).Contents (Elt F) → (⟨S800000, .i32⟩ : BufTy).Contents (Elt F)),
    StableHlo.binary main_v1 main_v20 main_v21 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v22 (broadcastInDim S800000 ![] bcast_S_S800000 : (⟨S_, .i32⟩ : BufTy).Contents (Elt F) → (⟨S800000, .i32⟩ : BufTy).Contents (Elt F)),
    StableHlo.binary main_v1 main_v22 main_v23 (addi : (⟨S800000, .i32⟩ : BufTy).Contents (Elt F) → (⟨S800000, .i32⟩ : BufTy).Contents (Elt F) → (⟨S800000, .i32⟩ : BufTy).Contents (Elt F)),
    StableHlo.ternary main_v21 main_v23 main_v1 main_v24 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v24 main_v25 (broadcastInDim S800000x1 ![0] bcast_S800000_S800000x1_0 : (⟨S800000, .i32⟩ : BufTy).Contents (Elt F) → (⟨S800000x1, .i32⟩ : BufTy).Contents (Elt F)),
    StableHlo.binary main_v10 main_v25 main_v26 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_3 (constantI S_ 32 0#32),
    StableHlo.unary main_c_3 main_v27 (broadcastInDim S800000 ![] bcast_S_S800000 : (⟨S_, .i32⟩ : BufTy).Contents (Elt F) → (⟨S800000, .i32⟩ : BufTy).Contents (Elt F)),
    StableHlo.binary main_v3 main_v27 main_v28 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v29 (broadcastInDim S800000 ![] bcast_S_S800000 : (⟨S_, .i32⟩ : BufTy).Contents (Elt F) → (⟨S800000, .i32⟩ : BufTy).Contents (Elt F)),
    StableHlo.binary main_v3 main_v29 main_v30 (addi : (⟨S800000, .i32⟩ : BufTy).Contents (Elt F) → (⟨S800000, .i32⟩ : BufTy).Contents (Elt F) → (⟨S800000, .i32⟩ : BufTy).Contents (Elt F)),
    StableHlo.ternary main_v28 main_v30 main_v3 main_v31 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v31 main_v32 (broadcastInDim S800000x1 ![0] bcast_S800000_S800000x1_0 : (⟨S800000, .i32⟩ : BufTy).Contents (Elt F) → (⟨S800000x1, .i32⟩ : BufTy).Contents (Elt F)),
    StableHlo.binary main_v10 main_v32 main_v33 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v26 main_v33 main_v34 (mulf : (⟨S800000, .f32⟩ : BufTy).Contents (Elt F) → (⟨S800000, .f32⟩ : BufTy).Contents (Elt F) → (⟨S800000, .f32⟩ : BufTy).Contents (Elt F)),
    StableHlo.unary main_v34 main_v35 (broadcastInDim S800000x1 ![0] bcast_S800000_S800000x1_0 : (⟨S800000, .f32⟩ : BufTy).Contents (Elt F) → (⟨S800000x1, .f32⟩ : BufTy).Contents (Elt F)),
    StableHlo.nullary main_c_5 (constantI S_ 32 0#32),
    StableHlo.unary main_c_5 main_v36 (broadcastInDim S800000 ![] bcast_S_S800000 : (⟨S_, .i32⟩ : BufTy).Contents (Elt F) → (⟨S800000, .i32⟩ : BufTy).Contents (Elt F)),
    StableHlo.binary main_v1 main_v36 main_v37 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v38 (broadcastInDim S800000 ![] bcast_S_S800000 : (⟨S_, .i32⟩ : BufTy).Contents (Elt F) → (⟨S800000, .i32⟩ : BufTy).Contents (Elt F)),
    StableHlo.binary main_v1 main_v38 main_v39 (addi : (⟨S800000, .i32⟩ : BufTy).Contents (Elt F) → (⟨S800000, .i32⟩ : BufTy).Contents (Elt F) → (⟨S800000, .i32⟩ : BufTy).Contents (Elt F)),
    StableHlo.ternary main_v37 main_v39 main_v1 main_v40 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v40 main_v41 (broadcastInDim S800000x1 ![0] bcast_S800000_S800000x1_0 : (⟨S800000, .i32⟩ : BufTy).Contents (Elt F) → (⟨S800000x1, .i32⟩ : BufTy).Contents (Elt F)),
    StableHlo.binary main_v19 main_v41 main_v42 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v35 main_v43 (broadcastInDim S800000x128 ![0, 1] bcast_S800000x1_S800000x128_0_1 : (⟨S800000x1, .f32⟩ : BufTy).Contents (Elt F) → (⟨S800000x128, .f32⟩ : BufTy).Contents (Elt F)),
    StableHlo.binary main_v43 main_v42 main_v44 (mulf : (⟨S800000x128, .f32⟩ : BufTy).Contents (Elt F) → (⟨S800000x128, .f32⟩ : BufTy).Contents (Elt F) → (⟨S800000x128, .f32⟩ : BufTy).Contents (Elt F)),
    StableHlo.nullary main_cst_7 (constant S_ .f32 0x00000000#32),
    StableHlo.unary main_cst_7 main_v45 (broadcastInDim S50000x128 ![] bcast_S_S50000x128 : (⟨S_, .f32⟩ : BufTy).Contents (Elt F) → (⟨S50000x128, .f32⟩ : BufTy).Contents (Elt F)),
    StableHlo.unary main_v3 main_v46 (broadcastInDim S800000x1 ![0] bcast_S800000_S800000x1_0 : (⟨S800000, .i32⟩ : BufTy).Contents (Elt F) → (⟨S800000x1, .i32⟩ : BufTy).Contents (Elt F)),
    StableHlo.ternary main_v45 main_v46 main_v44 main_v47 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v10 main_v10 main_v48 (mulf : (⟨S50000, .f32⟩ : BufTy).Contents (Elt F) → (⟨S50000, .f32⟩ : BufTy).Contents (Elt F) → (⟨S50000, .f32⟩ : BufTy).Contents (Elt F)),
    StableHlo.unary main_v48 main_v49 (broadcastInDim S50000x1 ![0] bcast_S50000_S50000x1_0 : (⟨S50000, .f32⟩ : BufTy).Contents (Elt F) → (⟨S50000x1, .f32⟩ : BufTy).Contents (Elt F)),
    StableHlo.unary main_v49 main_v50 (broadcastInDim S50000x128 ![0, 1] bcast_S50000x1_S50000x128_0_1 : (⟨S50000x1, .f32⟩ : BufTy).Contents (Elt F) → (⟨S50000x128, .f32⟩ : BufTy).Contents (Elt F)),
    StableHlo.binary main_v50 main_v19 main_v51 (mulf : (⟨S50000x128, .f32⟩ : BufTy).Contents (Elt F) → (⟨S50000x128, .f32⟩ : BufTy).Contents (Elt F) → (⟨S50000x128, .f32⟩ : BufTy).Contents (Elt F)),
    StableHlo.binary main_v47 main_v51 main_v52 (addf : (⟨S50000x128, .f32⟩ : BufTy).Contents (Elt F) → (⟨S50000x128, .f32⟩ : BufTy).Contents (Elt F) → (⟨S50000x128, .f32⟩ : BufTy).Contents (Elt F)),
    StableHlo.unary main_v18 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S50000x128 ![0, 1] bcast_S1x128_S50000x128_0_1 : (⟨S1x128, .f32⟩ : BufTy).Contents (Elt F) → (⟨S50000x128, .f32⟩ : BufTy).Contents (Elt F)),
    StableHlo.binary main_v52 main_v54 main_v55 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (.of main_v55 : StableHlo.TRef sig ⟨S50000x128, .f32⟩) main_call0.v0 main_call0.v1 maximumf ]
theorem ops1_sub : (ops1 : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- Stretch 2: batch normalisation after layer 0 (mean, variance, affine) (48 operations). -/
abbrev ops2 : List (HloOp τ sig (Elt F)) :=
  [ StableHlo.unary main_arg7 main_v57 ((extractStridedSlice S1x128 ![0, 0] · slices_S3x128_S1x128_0_0) : (⟨S3x128, .f32⟩ : BufTy).Contents (Elt F) → (⟨S1x128, .f32⟩ : BufTy).Contents (Elt F)),
    StableHlo.reshape main_v57 main_v58 rfl shapeCasts_S1x128_S128,
    StableHlo.unary main_arg8 main_v59 ((extractStridedSlice S1x128 ![0, 0] · slices_S3x128_S1x128_0_0) : (⟨S3x128, .f32⟩ : BufTy).Contents (Elt F) → (⟨S1x128, .f32⟩ : BufTy).Contents (Elt F)),
    StableHlo.reshape main_v59 main_v60 rfl shapeCasts_S1x128_S128,
    StableHlo.nullary main_cst_8 (constant S_ .f32 0x00000000#32),
    StableHlo.binary main_v56 main_cst_8 main_v61 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_9 (constant S_ .f32 0x47435000#32),
    StableHlo.unary main_cst_9 main_v62 (broadcastInDim S128 ![] bcast_S_S128 : (⟨S_, .f32⟩ : BufTy).Contents (Elt F) → (⟨S128, .f32⟩ : BufTy).Contents (Elt F)),
    StableHlo.binary main_v61 main_v62 main_v63 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call1.cst (constant S_ .f32 0x00000000#32),
    StableHlo.TRef.binary (.of main_v56 : StableHlo.TRef sig ⟨S50000x128, .f32⟩) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (.of main_v56 : StableHlo.TRef sig ⟨S50000x128, .f32⟩) main_call1.v4 main_call1.v5 subf,
    StableHlo.TRef.binary main_call1.v5 main_call1.v5 main_call1.v6 mulf,
    StableHlo.TRef.unary (.of main_c_10 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v63 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S50000x128 ![0, 1] bcast_S1x128_S50000x128_0_1 : (⟨S1x128, .f32⟩ : BufTy).Contents (Elt F) → (⟨S50000x128, .f32⟩ : BufTy).Contents (Elt F)),
    StableHlo.binary main_v56 main_v66 main_v67 (subf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3727C5AC#32),
    StableHlo.unary main_cst_11 main_v68 (broadcastInDim S128 ![] bcast_S_S128 : (⟨S_, .f32⟩ : BufTy).Contents (Elt F) → (⟨S128, .f32⟩ : BufTy).Contents (Elt F)),
    StableHlo.binary main_v64 main_v68 main_v69 (addf : (⟨S128, .f32⟩ : BufTy).Contents (Elt F) → (⟨S128, .f32⟩ : BufTy).Contents (Elt F) → (⟨S128, .f32⟩ : BufTy).Contents (Elt F)),
    StableHlo.unary main_v69 main_v70 (Host.rsqrt : (⟨S128, .f32⟩ : BufTy).Contents (Elt F) → (⟨S128, .f32⟩ : BufTy).Contents (Elt F)),
    StableHlo.unary main_v70 main_v71 (broadcastInDim S1x128 ![1] bcast_S128_S1x128_1 : (⟨S128, .f32⟩ : BufTy).Contents (Elt F) → (⟨S1x128, .f32⟩ : BufTy).Contents (Elt F)),
    StableHlo.unary main_v71 main_v72 (broadcastInDim S50000x128 ![0, 1] bcast_S1x128_S50000x128_0_1 : (⟨S1x128, .f32⟩ : BufTy).Contents (Elt F) → (⟨S50000x128, .f32⟩ : BufTy).Contents (Elt F)),
    StableHlo.binary main_v67 main_v72 main_v73 (mulf : (⟨S50000x128, .f32⟩ : BufTy).Contents (Elt F) → (⟨S50000x128, .f32⟩ : BufTy).Contents (Elt F) → (⟨S50000x128, .f32⟩ : BufTy).Contents (Elt F)),
    StableHlo.unary main_v58 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S50000x128 ![0, 1] bcast_S1x128_S50000x128_0_1 : (⟨S1x128, .f32⟩ : BufTy).Contents (Elt F) → (⟨S50000x128, .f32⟩ : BufTy).Contents (Elt F)),
    StableHlo.binary main_v73 main_v75 main_v76 (mulf : (⟨S50000x128, .f32⟩ : BufTy).Contents (Elt F) → (⟨S50000x128, .f32⟩ : BufTy).Contents (Elt F) → (⟨S50000x128, .f32⟩ : BufTy).Contents (Elt F)),
    StableHlo.unary main_v60 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S50000x128 ![0, 1] bcast_S1x128_S50000x128_0_1 : (⟨S1x128, .f32⟩ : BufTy).Contents (Elt F) → (⟨S50000x128, .f32⟩ : BufTy).Contents (Elt F)),
    StableHlo.binary main_v76 main_v78 main_v79 (addf : (⟨S50000x128, .f32⟩ : BufTy).Contents (Elt F) → (⟨S50000x128, .f32⟩ : BufTy).Contents (Elt F) → (⟨S50000x128, .f32⟩ : BufTy).Contents (Elt F)) ]
theorem ops2_sub : (ops2 : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩

/-- Stretch 3: layer 1 (51 operations). -/
abbrev ops3 : List (HloOp τ sig (Elt F)) :=
  [ StableHlo.unary main_arg5 main_v80 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v80 main_v81 rfl shapeCasts_S1x128x128_S128x128,
    StableHlo.unary main_arg6 main_v82 ((extractStridedSlice S1x128 ![1, 0] · slices_S4x128_S1x128_1_0) : (⟨S4x128, .f32⟩ : BufTy).Contents (Elt F) → (⟨S1x128, .f32⟩ : BufTy).Contents (Elt F)),
    StableHlo.reshape main_v82 main_v83 rfl shapeCasts_S1x128_S128,
    StableHlo.binary main_v79 main_v81 main_v84 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_12 (constantI S_ 32 0#32),
    StableHlo.unary main_c_12 main_v85 (broadcastInDim S800000 ![] bcast_S_S800000 : (⟨S_, .i32⟩ : BufTy).Contents (Elt F) → (⟨S800000, .i32⟩ : BufTy).Contents (Elt F)),
    StableHlo.binary main_v1 main_v85 main_v86 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v87 (broadcastInDim S800000 ![] bcast_S_S800000 : (⟨S_, .i32⟩ : BufTy).Contents (Elt F) → (⟨S800000, .i32⟩ : BufTy).Contents (Elt F)),
    StableHlo.binary main_v1 main_v87 main_v88 (addi : (⟨S800000, .i32⟩ : BufTy).Contents (Elt F) → (⟨S800000, .i32⟩ : BufTy).Contents (Elt F) → (⟨S800000, .i32⟩ : BufTy).Contents (Elt F)),
    StableHlo.ternary main_v86 main_v88 main_v1 main_v89 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v89 main_v90 (broadcastInDim S800000x1 ![0] bcast_S800000_S800000x1_0 : (⟨S800000, .i32⟩ : BufTy).Contents (Elt F) → (⟨S800000x1, .i32⟩ : BufTy).Contents (Elt F)),
    StableHlo.binary main_v10 main_v90 main_v91 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_14 (constantI S_ 32 0#32),
    StableHlo.unary main_c_14 main_v92 (broadcastInDim S800000 ![] bcast_S_S800000 : (⟨S_, .i32⟩ : BufTy).Contents (Elt F) → (⟨S800000, .i32⟩ : BufTy).Contents (Elt F)),
    StableHlo.binary main_v3 main_v92 main_v93 (cmpi .slt : (⟨S800000, .i32⟩ : BufTy).Contents (Elt F) → (⟨S800000, .i32⟩ : BufTy).Contents (Elt F) → (⟨S800000, .i1⟩ : BufTy).Contents (Elt F)),
    StableHlo.nullary main_c_15 (constantI S_ 32 50000#32),
    StableHlo.unary main_c_15 main_v94 (broadcastInDim S800000 ![] bcast_S_S800000 : (⟨S_, .i32⟩ : BufTy).Contents (Elt F) → (⟨S800000, .i32⟩ : BufTy).Contents (Elt F)),
    StableHlo.binary main_v3 main_v94 main_v95 (addi : (⟨S800000, .i32⟩ : BufTy).Contents (Elt F) → (⟨S800000, .i32⟩ : BufTy).Contents (Elt F) → (⟨S800000, .i32⟩ : BufTy).Contents (Elt F)),
    StableHlo.ternary main_v93 main_v95 main_v3 main_v96 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v96 main_v97 (broadcastInDim S800000x1 ![0] bcast_S800000_S800000x1_0 : (⟨S800000, .i32⟩ : BufTy).Contents (Elt F) → (⟨S800000x1, .i32⟩ : BufTy).Contents (Elt F)),
    StableHlo.binary main_v10 main_v97 main_v98 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v91 main_v98 main_v99 (mulf : (⟨S800000, .f32⟩ : BufTy).Contents (Elt F) → (⟨S800000, .f32⟩ : BufTy).Contents (Elt F) → (⟨S800000, .f32⟩ : BufTy).Contents (Elt F)),
    StableHlo.unary main_v99 main_v100 (broadcastInDim S800000x1 ![0] bcast_S800000_S800000x1_0 : (⟨S800000, .f32⟩ : BufTy).Contents (Elt F) → (⟨S800000x1, .f32⟩ : BufTy).Contents (Elt F)),
    StableHlo.nullary main_c_16 (constantI S_ 32 0#32),
    StableHlo.unary main_c_16 main_v101 (broadcastInDim S800000 ![] bcast_S_S800000 : (⟨S_, .i32⟩ : BufTy).Contents (Elt F) → (⟨S800000, .i32⟩ : BufTy).Contents (Elt F)),
    StableHlo.binary main_v1 main_v101 main_v102 (cmpi .slt : (⟨S800000, .i32⟩ : BufTy).Contents (Elt F) → (⟨S800000, .i32⟩ : BufTy).Contents (Elt F) → (⟨S800000, .i1⟩ : BufTy).Contents (Elt F)),
    StableHlo.nullary main_c_17 (constantI S_ 32 50000#32),
    StableHlo.unary main_c_17 main_v103 (broadcastInDim S800000 ![] bcast_S_S800000 : (⟨S_, .i32⟩ : BufTy).Contents (Elt F) → (⟨S800000, .i32⟩ : BufTy).Contents (Elt F)),
    StableHlo.binary main_v1 main_v103 main_v104 (addi : (⟨S800000, .i32⟩ : BufTy).Contents (Elt F) → (⟨S800000, .i32⟩ : BufTy).Contents (Elt F) → (⟨S800000, .i32⟩ : BufTy).Contents (Elt F)),
    StableHlo.ternary main_v102 main_v104 main_v1 main_v105 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v105 main_v106 (broadcastInDim S800000x1 ![0] bcast_S800000_S800000x1_0 : (⟨S800000, .i32⟩ : BufTy).Contents (Elt F) → (⟨S800000x1, .i32⟩ : BufTy).Contents (Elt F)),
    StableHlo.binary main_v84 main_v106 main_v107 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v100 main_v108 (broadcastInDim S800000x128 ![0, 1] bcast_S800000x1_S800000x128_0_1 : (⟨S800000x1, .f32⟩ : BufTy).Contents (Elt F) → (⟨S800000x128, .f32⟩ : BufTy).Contents (Elt F)),
    StableHlo.binary main_v108 main_v107 main_v109 (mulf : (⟨S800000x128, .f32⟩ : BufTy).Contents (Elt F) → (⟨S800000x128, .f32⟩ : BufTy).Contents (Elt F) → (⟨S800000x128, .f32⟩ : BufTy).Contents (Elt F)),
    StableHlo.nullary main_cst_18 (constant S_ .f32 0x00000000#32),
    StableHlo.unary main_cst_18 main_v110 (broadcastInDim S50000x128 ![] bcast_S_S50000x128 : (⟨S_, .f32⟩ : BufTy).Contents (Elt F) → (⟨S50000x128, .f32⟩ : BufTy).Contents (Elt F)),
    StableHlo.unary main_v3 main_v111 (broadcastInDim S800000x1 ![0] bcast_S800000_S800000x1_0 : (⟨S800000, .i32⟩ : BufTy).Contents (Elt F) → (⟨S800000x1, .i32⟩ : BufTy).Contents (Elt F)),
    StableHlo.ternary main_v110 main_v111 main_v109 main_v112 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v10 main_v10 main_v113 (mulf : (⟨S50000, .f32⟩ : BufTy).Contents (Elt F) → (⟨S50000, .f32⟩ : BufTy).Contents (Elt F) → (⟨S50000, .f32⟩ : BufTy).Contents (Elt F)),
    StableHlo.unary main_v113 main_v114 (broadcastInDim S50000x1 ![0] bcast_S50000_S50000x1_0 : (⟨S50000, .f32⟩ : BufTy).Contents (Elt F) → (⟨S50000x1, .f32⟩ : BufTy).Contents (Elt F)),
    StableHlo.unary main_v114 main_v115 (broadcastInDim S50000x128 ![0, 1] bcast_S50000x1_S50000x128_0_1 : (⟨S50000x1, .f32⟩ : BufTy).Contents (Elt F) → (⟨S50000x128, .f32⟩ : BufTy).Contents (Elt F)),
    StableHlo.binary main_v115 main_v84 main_v116 (mulf : (⟨S50000x128, .f32⟩ : BufTy).Contents (Elt F) → (⟨S50000x128, .f32⟩ : BufTy).Contents (Elt F) → (⟨S50000x128, .f32⟩ : BufTy).Contents (Elt F)),
    StableHlo.binary main_v112 main_v116 main_v117 (addf : (⟨S50000x128, .f32⟩ : BufTy).Contents (Elt F) → (⟨S50000x128, .f32⟩ : BufTy).Contents (Elt F) → (⟨S50000x128, .f32⟩ : BufTy).Contents (Elt F)),
    StableHlo.unary main_v83 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S50000x128 ![0, 1] bcast_S1x128_S50000x128_0_1 : (⟨S1x128, .f32⟩ : BufTy).Contents (Elt F) → (⟨S50000x128, .f32⟩ : BufTy).Contents (Elt F)),
    StableHlo.binary main_v117 main_v119 main_v120 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v120 : StableHlo.TRef sig ⟨S50000x128, .f32⟩) main_call2.v0 main_call2.v1 maximumf ]
theorem ops3_sub : (ops3 : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- Stretch 4: batch normalisation after layer 1 (48 operations). -/
abbrev ops4 : List (HloOp τ sig (Elt F)) :=
  [ StableHlo.unary main_arg7 main_v122 ((extractStridedSlice S1x128 ![1, 0] · slices_S3x128_S1x128_1_0) : (⟨S3x128, .f32⟩ : BufTy).Contents (Elt F) → (⟨S1x128, .f32⟩ : BufTy).Contents (Elt F)),
    StableHlo.reshape main_v122 main_v123 rfl shapeCasts_S1x128_S128,
    StableHlo.unary main_arg8 main_v124 ((extractStridedSlice S1x128 ![1, 0] · slices_S3x128_S1x128_1_0) : (⟨S3x128, .f32⟩ : BufTy).Contents (Elt F) → (⟨S1x128, .f32⟩ : BufTy).Contents (Elt F)),
    StableHlo.reshape main_v124 main_v125 rfl shapeCasts_S1x128_S128,
    StableHlo.nullary main_cst_19 (constant S_ .f32 0x00000000#32),
    StableHlo.binary main_v121 main_cst_19 main_v126 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_20 (constant S_ .f32 0x47435000#32),
    StableHlo.unary main_cst_20 main_v127 (broadcastInDim S128 ![] bcast_S_S128 : (⟨S_, .f32⟩ : BufTy).Contents (Elt F) → (⟨S128, .f32⟩ : BufTy).Contents (Elt F)),
    StableHlo.binary main_v126 main_v127 main_v128 (Host.divf : (⟨S128, .f32⟩ : BufTy).Contents (Elt F) → (⟨S128, .f32⟩ : BufTy).Contents (Elt F) → (⟨S128, .f32⟩ : BufTy).Contents (Elt F)),
    StableHlo.nullary main_c_21 (constantI S_ 32 0#32),
    StableHlo.TRef.nullary main_call3.cst (constant S_ .f32 0x00000000#32),
    StableHlo.TRef.binary (.of main_v121 : StableHlo.TRef sig ⟨S50000x128, .f32⟩) main_call3.cst main_call3.v0 (fun x v => Host.reduceAdd x v reducesTo_S50000x128_S128_d0 h_S_),
    StableHlo.TRef.unary main_call3.v0 main_call3.v1 (broadcastInDim S1x128 ![1] bcast_S128_S1x128_1),
    StableHlo.TRef.nullary main_call3.cst_0 (constant S_ .f32 0x47435000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S50000x128 ![0, 1] bcast_S1x128_S50000x128_0_1),
    StableHlo.TRef.binary (.of main_v121 : StableHlo.TRef sig ⟨S50000x128, .f32⟩) main_call3.v4 main_call3.v5 subf,
    StableHlo.TRef.binary main_call3.v5 main_call3.v5 main_call3.v6 mulf,
    StableHlo.TRef.unary (.of main_c_21 : StableHlo.TRef sig ⟨S_, .i32⟩) main_call3.v7 (sitofp .f32),
    StableHlo.TRef.nullary main_call3.cst_1 (constant S_ .f32 0x47435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b),
    StableHlo.unary main_v128 main_v130 (broadcastInDim S1x128 ![1] bcast_S128_S1x128_1 : (⟨S128, .f32⟩ : BufTy).Contents (Elt F) → (⟨S1x128, .f32⟩ : BufTy).Contents (Elt F)),
    StableHlo.unary main_v130 main_v131 (broadcastInDim S50000x128 ![0, 1] bcast_S1x128_S50000x128_0_1 : (⟨S1x128, .f32⟩ : BufTy).Contents (Elt F) → (⟨S50000x128, .f32⟩ : BufTy).Contents (Elt F)),
    StableHlo.binary main_v121 main_v131 main_v132 (subf : (⟨S50000x128, .f32⟩ : BufTy).Contents (Elt F) → (⟨S50000x128, .f32⟩ : BufTy).Contents (Elt F) → (⟨S50000x128, .f32⟩ : BufTy).Contents (Elt F)),
    StableHlo.nullary main_cst_22 (constant S_ .f32 0x3727C5AC#32),
    StableHlo.unary main_cst_22 main_v133 (broadcastInDim S128 ![] bcast_S_S128 : (⟨S_, .f32⟩ : BufTy).Contents (Elt F) → (⟨S128, .f32⟩ : BufTy).Contents (Elt F)),
    StableHlo.binary main_v129 main_v133 main_v134 (addf : (⟨S128, .f32⟩ : BufTy).Contents (Elt F) → (⟨S128, .f32⟩ : BufTy).Contents (Elt F) → (⟨S128, .f32⟩ : BufTy).Contents (Elt F)),
    StableHlo.unary main_v134 main_v135 (Host.rsqrt : (⟨S128, .f32⟩ : BufTy).Contents (Elt F) → (⟨S128, .f32⟩ : BufTy).Contents (Elt F)),
    StableHlo.unary main_v135 main_v136 (broadcastInDim S1x128 ![1] bcast_S128_S1x128_1 : (⟨S128, .f32⟩ : BufTy).Contents (Elt F) → (⟨S1x128, .f32⟩ : BufTy).Contents (Elt F)),
    StableHlo.unary main_v136 main_v137 (broadcastInDim S50000x128 ![0, 1] bcast_S1x128_S50000x128_0_1 : (⟨S1x128, .f32⟩ : BufTy).Contents (Elt F) → (⟨S50000x128, .f32⟩ : BufTy).Contents (Elt F)),
    StableHlo.binary main_v132 main_v137 main_v138 (mulf : (⟨S50000x128, .f32⟩ : BufTy).Contents (Elt F) → (⟨S50000x128, .f32⟩ : BufTy).Contents (Elt F) → (⟨S50000x128, .f32⟩ : BufTy).Contents (Elt F)),
    StableHlo.unary main_v123 main_v139 (broadcastInDim S1x128 ![1] bcast_S128_S1x128_1 : (⟨S128, .f32⟩ : BufTy).Contents (Elt F) → (⟨S1x128, .f32⟩ : BufTy).Contents (Elt F)),
    StableHlo.unary main_v139 main_v140 (broadcastInDim S50000x128 ![0, 1] bcast_S1x128_S50000x128_0_1 : (⟨S1x128, .f32⟩ : BufTy).Contents (Elt F) → (⟨S50000x128, .f32⟩ : BufTy).Contents (Elt F)),
    StableHlo.binary main_v138 main_v140 main_v141 (mulf : (⟨S50000x128, .f32⟩ : BufTy).Contents (Elt F) → (⟨S50000x128, .f32⟩ : BufTy).Contents (Elt F) → (⟨S50000x128, .f32⟩ : BufTy).Contents (Elt F)),
    StableHlo.unary main_v125 main_v142 (broadcastInDim S1x128 ![1] bcast_S128_S1x128_1 : (⟨S128, .f32⟩ : BufTy).Contents (Elt F) → (⟨S1x128, .f32⟩ : BufTy).Contents (Elt F)),
    StableHlo.unary main_v142 main_v143 (broadcastInDim S50000x128 ![0, 1] bcast_S1x128_S50000x128_0_1 : (⟨S1x128, .f32⟩ : BufTy).Contents (Elt F) → (⟨S50000x128, .f32⟩ : BufTy).Contents (Elt F)),
    StableHlo.binary main_v141 main_v143 main_v144 (addf : (⟨S50000x128, .f32⟩ : BufTy).Contents (Elt F) → (⟨S50000x128, .f32⟩ : BufTy).Contents (Elt F) → (⟨S50000x128, .f32⟩ : BufTy).Contents (Elt F)) ]
theorem ops4_sub : (ops4 : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩

/-- Stretch 5: layer 2 (51 operations). -/
abbrev ops5 : List (HloOp τ sig (Elt F)) :=
  [ StableHlo.unary main_arg5 main_v145 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v145 main_v146 rfl shapeCasts_S1x128x128_S128x128,
    StableHlo.unary main_arg6 main_v147 ((extractStridedSlice S1x128 ![2, 0] · slices_S4x128_S1x128_2_0) : (⟨S4x128, .f32⟩ : BufTy).Contents (Elt F) → (⟨S1x128, .f32⟩ : BufTy).Contents (Elt F)),
    StableHlo.reshape main_v147 main_v148 rfl shapeCasts_S1x128_S128,
    StableHlo.binary main_v144 main_v146 main_v149 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_23 (constantI S_ 32 0#32),
    StableHlo.unary main_c_23 main_v150 (broadcastInDim S800000 ![] bcast_S_S800000 : (⟨S_, .i32⟩ : BufTy).Contents (Elt F) → (⟨S800000, .i32⟩ : BufTy).Contents (Elt F)),
    StableHlo.binary main_v1 main_v150 main_v151 (cmpi .slt : (⟨S800000, .i32⟩ : BufTy).Contents (Elt F) → (⟨S800000, .i32⟩ : BufTy).Contents (Elt F) → (⟨S800000, .i1⟩ : BufTy).Contents (Elt F)),
    StableHlo.nullary main_c_24 (constantI S_ 32 50000#32),
    StableHlo.unary main_c_24 main_v152 (broadcastInDim S800000 ![] bcast_S_S800000 : (⟨S_, .i32⟩ : BufTy).Contents (Elt F) → (⟨S800000, .i32⟩ : BufTy).Contents (Elt F)),
    StableHlo.binary main_v1 main_v152 main_v153 (addi : (⟨S800000, .i32⟩ : BufTy).Contents (Elt F) → (⟨S800000, .i32⟩ : BufTy).Contents (Elt F) → (⟨S800000, .i32⟩ : BufTy).Contents (Elt F)),
    StableHlo.ternary main_v151 main_v153 main_v1 main_v154 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v154 main_v155 (broadcastInDim S800000x1 ![0] bcast_S800000_S800000x1_0 : (⟨S800000, .i32⟩ : BufTy).Contents (Elt F) → (⟨S800000x1, .i32⟩ : BufTy).Contents (Elt F)),
    StableHlo.binary main_v10 main_v155 main_v156 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_25 (constantI S_ 32 0#32),
    StableHlo.unary main_c_25 main_v157 (broadcastInDim S800000 ![] bcast_S_S800000 : (⟨S_, .i32⟩ : BufTy).Contents (Elt F) → (⟨S800000, .i32⟩ : BufTy).Contents (Elt F)),
    StableHlo.binary main_v3 main_v157 main_v158 (cmpi .slt : (⟨S800000, .i32⟩ : BufTy).Contents (Elt F) → (⟨S800000, .i32⟩ : BufTy).Contents (Elt F) → (⟨S800000, .i1⟩ : BufTy).Contents (Elt F)),
    StableHlo.nullary main_c_26 (constantI S_ 32 50000#32),
    StableHlo.unary main_c_26 main_v159 (broadcastInDim S800000 ![] bcast_S_S800000 : (⟨S_, .i32⟩ : BufTy).Contents (Elt F) → (⟨S800000, .i32⟩ : BufTy).Contents (Elt F)),
    StableHlo.binary main_v3 main_v159 main_v160 (addi : (⟨S800000, .i32⟩ : BufTy).Contents (Elt F) → (⟨S800000, .i32⟩ : BufTy).Contents (Elt F) → (⟨S800000, .i32⟩ : BufTy).Contents (Elt F)),
    StableHlo.ternary main_v158 main_v160 main_v3 main_v161 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v161 main_v162 (broadcastInDim S800000x1 ![0] bcast_S800000_S800000x1_0 : (⟨S800000, .i32⟩ : BufTy).Contents (Elt F) → (⟨S800000x1, .i32⟩ : BufTy).Contents (Elt F)),
    StableHlo.binary main_v10 main_v162 main_v163 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v156 main_v163 main_v164 (mulf : (⟨S800000, .f32⟩ : BufTy).Contents (Elt F) → (⟨S800000, .f32⟩ : BufTy).Contents (Elt F) → (⟨S800000, .f32⟩ : BufTy).Contents (Elt F)),
    StableHlo.unary main_v164 main_v165 (broadcastInDim S800000x1 ![0] bcast_S800000_S800000x1_0 : (⟨S800000, .f32⟩ : BufTy).Contents (Elt F) → (⟨S800000x1, .f32⟩ : BufTy).Contents (Elt F)),
    StableHlo.nullary main_c_27 (constantI S_ 32 0#32),
    StableHlo.unary main_c_27 main_v166 (broadcastInDim S800000 ![] bcast_S_S800000 : (⟨S_, .i32⟩ : BufTy).Contents (Elt F) → (⟨S800000, .i32⟩ : BufTy).Contents (Elt F)),
    StableHlo.binary main_v1 main_v166 main_v167 (cmpi .slt : (⟨S800000, .i32⟩ : BufTy).Contents (Elt F) → (⟨S800000, .i32⟩ : BufTy).Contents (Elt F) → (⟨S800000, .i1⟩ : BufTy).Contents (Elt F)),
    StableHlo.nullary main_c_28 (constantI S_ 32 50000#32),
    StableHlo.unary main_c_28 main_v168 (broadcastInDim S800000 ![] bcast_S_S800000 : (⟨S_, .i32⟩ : BufTy).Contents (Elt F) → (⟨S800000, .i32⟩ : BufTy).Contents (Elt F)),
    StableHlo.binary main_v1 main_v168 main_v169 (addi : (⟨S800000, .i32⟩ : BufTy).Contents (Elt F) → (⟨S800000, .i32⟩ : BufTy).Contents (Elt F) → (⟨S800000, .i32⟩ : BufTy).Contents (Elt F)),
    StableHlo.ternary main_v167 main_v169 main_v1 main_v170 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v170 main_v171 (broadcastInDim S800000x1 ![0] bcast_S800000_S800000x1_0 : (⟨S800000, .i32⟩ : BufTy).Contents (Elt F) → (⟨S800000x1, .i32⟩ : BufTy).Contents (Elt F)),
    StableHlo.binary main_v149 main_v171 main_v172 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v165 main_v173 (broadcastInDim S800000x128 ![0, 1] bcast_S800000x1_S800000x128_0_1 : (⟨S800000x1, .f32⟩ : BufTy).Contents (Elt F) → (⟨S800000x128, .f32⟩ : BufTy).Contents (Elt F)),
    StableHlo.binary main_v173 main_v172 main_v174 (mulf : (⟨S800000x128, .f32⟩ : BufTy).Contents (Elt F) → (⟨S800000x128, .f32⟩ : BufTy).Contents (Elt F) → (⟨S800000x128, .f32⟩ : BufTy).Contents (Elt F)),
    StableHlo.nullary main_cst_29 (constant S_ .f32 0x00000000#32),
    StableHlo.unary main_cst_29 main_v175 (broadcastInDim S50000x128 ![] bcast_S_S50000x128 : (⟨S_, .f32⟩ : BufTy).Contents (Elt F) → (⟨S50000x128, .f32⟩ : BufTy).Contents (Elt F)),
    StableHlo.unary main_v3 main_v176 (broadcastInDim S800000x1 ![0] bcast_S800000_S800000x1_0 : (⟨S800000, .i32⟩ : BufTy).Contents (Elt F) → (⟨S800000x1, .i32⟩ : BufTy).Contents (Elt F)),
    StableHlo.ternary main_v175 main_v176 main_v174 main_v177 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v10 main_v10 main_v178 (mulf : (⟨S50000, .f32⟩ : BufTy).Contents (Elt F) → (⟨S50000, .f32⟩ : BufTy).Contents (Elt F) → (⟨S50000, .f32⟩ : BufTy).Contents (Elt F)),
    StableHlo.unary main_v178 main_v179 (broadcastInDim S50000x1 ![0] bcast_S50000_S50000x1_0 : (⟨S50000, .f32⟩ : BufTy).Contents (Elt F) → (⟨S50000x1, .f32⟩ : BufTy).Contents (Elt F)),
    StableHlo.unary main_v179 main_v180 (broadcastInDim S50000x128 ![0, 1] bcast_S50000x1_S50000x128_0_1 : (⟨S50000x1, .f32⟩ : BufTy).Contents (Elt F) → (⟨S50000x128, .f32⟩ : BufTy).Contents (Elt F)),
    StableHlo.binary main_v180 main_v149 main_v181 (mulf : (⟨S50000x128, .f32⟩ : BufTy).Contents (Elt F) → (⟨S50000x128, .f32⟩ : BufTy).Contents (Elt F) → (⟨S50000x128, .f32⟩ : BufTy).Contents (Elt F)),
    StableHlo.binary main_v177 main_v181 main_v182 (addf : (⟨S50000x128, .f32⟩ : BufTy).Contents (Elt F) → (⟨S50000x128, .f32⟩ : BufTy).Contents (Elt F) → (⟨S50000x128, .f32⟩ : BufTy).Contents (Elt F)),
    StableHlo.unary main_v148 main_v183 (broadcastInDim S1x128 ![1] bcast_S128_S1x128_1 : (⟨S128, .f32⟩ : BufTy).Contents (Elt F) → (⟨S1x128, .f32⟩ : BufTy).Contents (Elt F)),
    StableHlo.unary main_v183 main_v184 (broadcastInDim S50000x128 ![0, 1] bcast_S1x128_S50000x128_0_1 : (⟨S1x128, .f32⟩ : BufTy).Contents (Elt F) → (⟨S50000x128, .f32⟩ : BufTy).Contents (Elt F)),
    StableHlo.binary main_v182 main_v184 main_v185 (addf : (⟨S50000x128, .f32⟩ : BufTy).Contents (Elt F) → (⟨S50000x128, .f32⟩ : BufTy).Contents (Elt F) → (⟨S50000x128, .f32⟩ : BufTy).Contents (Elt F)),
    StableHlo.TRef.nullary main_call4.cst (constant S_ .f32 0x00000000#32),
    StableHlo.TRef.unary main_call4.cst main_call4.v0 (broadcastInDim S50000x128 ![] bcast_S_S50000x128),
    StableHlo.TRef.binary (.of main_v185 : StableHlo.TRef sig ⟨S50000x128, .f32⟩) main_call4.v0 main_call4.v1 maximumf ]
theorem ops5_sub : (ops5 : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- Stretch 6: batch normalisation after layer 2 (48 operations). -/
abbrev ops6 : List (HloOp τ sig (Elt F)) :=
  [ StableHlo.unary main_arg7 main_v187 ((extractStridedSlice S1x128 ![2, 0] · slices_S3x128_S1x128_2_0) : (⟨S3x128, .f32⟩ : BufTy).Contents (Elt F) → (⟨S1x128, .f32⟩ : BufTy).Contents (Elt F)),
    StableHlo.reshape main_v187 main_v188 rfl shapeCasts_S1x128_S128,
    StableHlo.unary main_arg8 main_v189 ((extractStridedSlice S1x128 ![2, 0] · slices_S3x128_S1x128_2_0) : (⟨S3x128, .f32⟩ : BufTy).Contents (Elt F) → (⟨S1x128, .f32⟩ : BufTy).Contents (Elt F)),
    StableHlo.reshape main_v189 main_v190 rfl shapeCasts_S1x128_S128,
    StableHlo.nullary main_cst_30 (constant S_ .f32 0x00000000#32),
    StableHlo.binary main_v186 main_cst_30 main_v191 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_31 (constant S_ .f32 0x47435000#32),
    StableHlo.unary main_cst_31 main_v192 (broadcastInDim S128 ![] bcast_S_S128 : (⟨S_, .f32⟩ : BufTy).Contents (Elt F) → (⟨S128, .f32⟩ : BufTy).Contents (Elt F)),
    StableHlo.binary main_v191 main_v192 main_v193 (Host.divf : (⟨S128, .f32⟩ : BufTy).Contents (Elt F) → (⟨S128, .f32⟩ : BufTy).Contents (Elt F) → (⟨S128, .f32⟩ : BufTy).Contents (Elt F)),
    StableHlo.nullary main_c_32 (constantI S_ 32 0#32),
    StableHlo.TRef.nullary main_call5.cst (constant S_ .f32 0x00000000#32),
    StableHlo.TRef.binary (.of main_v186 : StableHlo.TRef sig ⟨S50000x128, .f32⟩) main_call5.cst main_call5.v0 (fun x v => Host.reduceAdd x v reducesTo_S50000x128_S128_d0 h_S_),
    StableHlo.TRef.unary main_call5.v0 main_call5.v1 (broadcastInDim S1x128 ![1] bcast_S128_S1x128_1),
    StableHlo.TRef.nullary main_call5.cst_0 (constant S_ .f32 0x47435000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S50000x128 ![0, 1] bcast_S1x128_S50000x128_0_1),
    StableHlo.TRef.binary (.of main_v186 : StableHlo.TRef sig ⟨S50000x128, .f32⟩) main_call5.v4 main_call5.v5 subf,
    StableHlo.TRef.binary main_call5.v5 main_call5.v5 main_call5.v6 mulf,
    StableHlo.TRef.unary (.of main_c_32 : StableHlo.TRef sig ⟨S_, .i32⟩) main_call5.v7 (sitofp .f32),
    StableHlo.TRef.nullary main_call5.cst_1 (constant S_ .f32 0x47435000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S50000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b),
    StableHlo.unary main_v193 main_v195 (broadcastInDim S1x128 ![1] bcast_S128_S1x128_1 : (⟨S128, .f32⟩ : BufTy).Contents (Elt F) → (⟨S1x128, .f32⟩ : BufTy).Contents (Elt F)),
    StableHlo.unary main_v195 main_v196 (broadcastInDim S50000x128 ![0, 1] bcast_S1x128_S50000x128_0_1 : (⟨S1x128, .f32⟩ : BufTy).Contents (Elt F) → (⟨S50000x128, .f32⟩ : BufTy).Contents (Elt F)),
    StableHlo.binary main_v186 main_v196 main_v197 (subf : (⟨S50000x128, .f32⟩ : BufTy).Contents (Elt F) → (⟨S50000x128, .f32⟩ : BufTy).Contents (Elt F) → (⟨S50000x128, .f32⟩ : BufTy).Contents (Elt F)),
    StableHlo.nullary main_cst_33 (constant S_ .f32 0x3727C5AC#32),
    StableHlo.unary main_cst_33 main_v198 (broadcastInDim S128 ![] bcast_S_S128 : (⟨S_, .f32⟩ : BufTy).Contents (Elt F) → (⟨S128, .f32⟩ : BufTy).Contents (Elt F)),
    StableHlo.binary main_v194 main_v198 main_v199 (addf : (⟨S128, .f32⟩ : BufTy).Contents (Elt F) → (⟨S128, .f32⟩ : BufTy).Contents (Elt F) → (⟨S128, .f32⟩ : BufTy).Contents (Elt F)),
    StableHlo.unary main_v199 main_v200 (Host.rsqrt : (⟨S128, .f32⟩ : BufTy).Contents (Elt F) → (⟨S128, .f32⟩ : BufTy).Contents (Elt F)),
    StableHlo.unary main_v200 main_v201 (broadcastInDim S1x128 ![1] bcast_S128_S1x128_1 : (⟨S128, .f32⟩ : BufTy).Contents (Elt F) → (⟨S1x128, .f32⟩ : BufTy).Contents (Elt F)),
    StableHlo.unary main_v201 main_v202 (broadcastInDim S50000x128 ![0, 1] bcast_S1x128_S50000x128_0_1 : (⟨S1x128, .f32⟩ : BufTy).Contents (Elt F) → (⟨S50000x128, .f32⟩ : BufTy).Contents (Elt F)),
    StableHlo.binary main_v197 main_v202 main_v203 (mulf : (⟨S50000x128, .f32⟩ : BufTy).Contents (Elt F) → (⟨S50000x128, .f32⟩ : BufTy).Contents (Elt F) → (⟨S50000x128, .f32⟩ : BufTy).Contents (Elt F)),
    StableHlo.unary main_v188 main_v204 (broadcastInDim S1x128 ![1] bcast_S128_S1x128_1 : (⟨S128, .f32⟩ : BufTy).Contents (Elt F) → (⟨S1x128, .f32⟩ : BufTy).Contents (Elt F)),
    StableHlo.unary main_v204 main_v205 (broadcastInDim S50000x128 ![0, 1] bcast_S1x128_S50000x128_0_1 : (⟨S1x128, .f32⟩ : BufTy).Contents (Elt F) → (⟨S50000x128, .f32⟩ : BufTy).Contents (Elt F)),
    StableHlo.binary main_v203 main_v205 main_v206 (mulf : (⟨S50000x128, .f32⟩ : BufTy).Contents (Elt F) → (⟨S50000x128, .f32⟩ : BufTy).Contents (Elt F) → (⟨S50000x128, .f32⟩ : BufTy).Contents (Elt F)),
    StableHlo.unary main_v190 main_v207 (broadcastInDim S1x128 ![1] bcast_S128_S1x128_1 : (⟨S128, .f32⟩ : BufTy).Contents (Elt F) → (⟨S1x128, .f32⟩ : BufTy).Contents (Elt F)),
    StableHlo.unary main_v207 main_v208 (broadcastInDim S50000x128 ![0, 1] bcast_S1x128_S50000x128_0_1 : (⟨S1x128, .f32⟩ : BufTy).Contents (Elt F) → (⟨S50000x128, .f32⟩ : BufTy).Contents (Elt F)),
    StableHlo.binary main_v206 main_v208 main_v209 (addf : (⟨S50000x128, .f32⟩ : BufTy).Contents (Elt F) → (⟨S50000x128, .f32⟩ : BufTy).Contents (Elt F) → (⟨S50000x128, .f32⟩ : BufTy).Contents (Elt F)) ]
theorem ops6_sub : (ops6 : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩

/-- Stretch 7: layer 3 (no rectifier) (48 operations). -/
abbrev ops7 : List (HloOp τ sig (Elt F)) :=
  [ StableHlo.unary main_arg5 main_v210 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v210 main_v211 rfl shapeCasts_S1x128x128_S128x128,
    StableHlo.unary main_arg6 main_v212 ((extractStridedSlice S1x128 ![3, 0] · slices_S4x128_S1x128_3_0) : (⟨S4x128, .f32⟩ : BufTy).Contents (Elt F) → (⟨S1x128, .f32⟩ : BufTy).Contents (Elt F)),
    StableHlo.reshape main_v212 main_v213 rfl shapeCasts_S1x128_S128,
    StableHlo.binary main_v209 main_v211 main_v214 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_34 (constantI S_ 32 0#32),
    StableHlo.unary main_c_34 main_v215 (broadcastInDim S800000 ![] bcast_S_S800000 : (⟨S_, .i32⟩ : BufTy).Contents (Elt F) → (⟨S800000, .i32⟩ : BufTy).Contents (Elt F)),
    StableHlo.binary main_v1 main_v215 main_v216 (cmpi .slt : (⟨S800000, .i32⟩ : BufTy).Contents (Elt F) → (⟨S800000, .i32⟩ : BufTy).Contents (Elt F) → (⟨S800000, .i1⟩ : BufTy).Contents (Elt F)),
    StableHlo.nullary main_c_35 (constantI S_ 32 50000#32),
    StableHlo.unary main_c_35 main_v217 (broadcastInDim S800000 ![] bcast_S_S800000 : (⟨S_, .i32⟩ : BufTy).Contents (Elt F) → (⟨S800000, .i32⟩ : BufTy).Contents (Elt F)),
    StableHlo.binary main_v1 main_v217 main_v218 (addi : (⟨S800000, .i32⟩ : BufTy).Contents (Elt F) → (⟨S800000, .i32⟩ : BufTy).Contents (Elt F) → (⟨S800000, .i32⟩ : BufTy).Contents (Elt F)),
    StableHlo.ternary main_v216 main_v218 main_v1 main_v219 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v219 main_v220 (broadcastInDim S800000x1 ![0] bcast_S800000_S800000x1_0 : (⟨S800000, .i32⟩ : BufTy).Contents (Elt F) → (⟨S800000x1, .i32⟩ : BufTy).Contents (Elt F)),
    StableHlo.binary main_v10 main_v220 main_v221 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_36 (constantI S_ 32 0#32),
    StableHlo.unary main_c_36 main_v222 (broadcastInDim S800000 ![] bcast_S_S800000 : (⟨S_, .i32⟩ : BufTy).Contents (Elt F) → (⟨S800000, .i32⟩ : BufTy).Contents (Elt F)),
    StableHlo.binary main_v3 main_v222 main_v223 (cmpi .slt : (⟨S800000, .i32⟩ : BufTy).Contents (Elt F) → (⟨S800000, .i32⟩ : BufTy).Contents (Elt F) → (⟨S800000, .i1⟩ : BufTy).Contents (Elt F)),
    StableHlo.nullary main_c_37 (constantI S_ 32 50000#32),
    StableHlo.unary main_c_37 main_v224 (broadcastInDim S800000 ![] bcast_S_S800000 : (⟨S_, .i32⟩ : BufTy).Contents (Elt F) → (⟨S800000, .i32⟩ : BufTy).Contents (Elt F)),
    StableHlo.binary main_v3 main_v224 main_v225 (addi : (⟨S800000, .i32⟩ : BufTy).Contents (Elt F) → (⟨S800000, .i32⟩ : BufTy).Contents (Elt F) → (⟨S800000, .i32⟩ : BufTy).Contents (Elt F)),
    StableHlo.ternary main_v223 main_v225 main_v3 main_v226 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v226 main_v227 (broadcastInDim S800000x1 ![0] bcast_S800000_S800000x1_0 : (⟨S800000, .i32⟩ : BufTy).Contents (Elt F) → (⟨S800000x1, .i32⟩ : BufTy).Contents (Elt F)),
    StableHlo.binary main_v10 main_v227 main_v228 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v221 main_v228 main_v229 (mulf : (⟨S800000, .f32⟩ : BufTy).Contents (Elt F) → (⟨S800000, .f32⟩ : BufTy).Contents (Elt F) → (⟨S800000, .f32⟩ : BufTy).Contents (Elt F)),
    StableHlo.unary main_v229 main_v230 (broadcastInDim S800000x1 ![0] bcast_S800000_S800000x1_0 : (⟨S800000, .f32⟩ : BufTy).Contents (Elt F) → (⟨S800000x1, .f32⟩ : BufTy).Contents (Elt F)),
    StableHlo.nullary main_c_38 (constantI S_ 32 0#32),
    StableHlo.unary main_c_38 main_v231 (broadcastInDim S800000 ![] bcast_S_S800000 : (⟨S_, .i32⟩ : BufTy).Contents (Elt F) → (⟨S800000, .i32⟩ : BufTy).Contents (Elt F)),
    StableHlo.binary main_v1 main_v231 main_v232 (cmpi .slt : (⟨S800000, .i32⟩ : BufTy).Contents (Elt F) → (⟨S800000, .i32⟩ : BufTy).Contents (Elt F) → (⟨S800000, .i1⟩ : BufTy).Contents (Elt F)),
    StableHlo.nullary main_c_39 (constantI S_ 32 50000#32),
    StableHlo.unary main_c_39 main_v233 (broadcastInDim S800000 ![] bcast_S_S800000 : (⟨S_, .i32⟩ : BufTy).Contents (Elt F) → (⟨S800000, .i32⟩ : BufTy).Contents (Elt F)),
    StableHlo.binary main_v1 main_v233 main_v234 (addi : (⟨S800000, .i32⟩ : BufTy).Contents (Elt F) → (⟨S800000, .i32⟩ : BufTy).Contents (Elt F) → (⟨S800000, .i32⟩ : BufTy).Contents (Elt F)),
    StableHlo.ternary main_v232 main_v234 main_v1 main_v235 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v235 main_v236 (broadcastInDim S800000x1 ![0] bcast_S800000_S800000x1_0 : (⟨S800000, .i32⟩ : BufTy).Contents (Elt F) → (⟨S800000x1, .i32⟩ : BufTy).Contents (Elt F)),
    StableHlo.binary main_v214 main_v236 main_v237 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v230 main_v238 (broadcastInDim S800000x128 ![0, 1] bcast_S800000x1_S800000x128_0_1 : (⟨S800000x1, .f32⟩ : BufTy).Contents (Elt F) → (⟨S800000x128, .f32⟩ : BufTy).Contents (Elt F)),
    StableHlo.binary main_v238 main_v237 main_v239 (mulf : (⟨S800000x128, .f32⟩ : BufTy).Contents (Elt F) → (⟨S800000x128, .f32⟩ : BufTy).Contents (Elt F) → (⟨S800000x128, .f32⟩ : BufTy).Contents (Elt F)),
    StableHlo.nullary main_cst_40 (constant S_ .f32 0x00000000#32),
    StableHlo.unary main_cst_40 main_v240 (broadcastInDim S50000x128 ![] bcast_S_S50000x128 : (⟨S_, .f32⟩ : BufTy).Contents (Elt F) → (⟨S50000x128, .f32⟩ : BufTy).Contents (Elt F)),
    StableHlo.unary main_v3 main_v241 (broadcastInDim S800000x1 ![0] bcast_S800000_S800000x1_0 : (⟨S800000, .i32⟩ : BufTy).Contents (Elt F) → (⟨S800000x1, .i32⟩ : BufTy).Contents (Elt F)),
    StableHlo.ternary main_v240 main_v241 main_v239 main_v242 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v10 main_v10 main_v243 (mulf : (⟨S50000, .f32⟩ : BufTy).Contents (Elt F) → (⟨S50000, .f32⟩ : BufTy).Contents (Elt F) → (⟨S50000, .f32⟩ : BufTy).Contents (Elt F)),
    StableHlo.unary main_v243 main_v244 (broadcastInDim S50000x1 ![0] bcast_S50000_S50000x1_0 : (⟨S50000, .f32⟩ : BufTy).Contents (Elt F) → (⟨S50000x1, .f32⟩ : BufTy).Contents (Elt F)),
    StableHlo.unary main_v244 main_v245 (broadcastInDim S50000x128 ![0, 1] bcast_S50000x1_S50000x128_0_1 : (⟨S50000x1, .f32⟩ : BufTy).Contents (Elt F) → (⟨S50000x128, .f32⟩ : BufTy).Contents (Elt F)),
    StableHlo.binary main_v245 main_v214 main_v246 (mulf : (⟨S50000x128, .f32⟩ : BufTy).Contents (Elt F) → (⟨S50000x128, .f32⟩ : BufTy).Contents (Elt F) → (⟨S50000x128, .f32⟩ : BufTy).Contents (Elt F)),
    StableHlo.binary main_v242 main_v246 main_v247 (addf : (⟨S50000x128, .f32⟩ : BufTy).Contents (Elt F) → (⟨S50000x128, .f32⟩ : BufTy).Contents (Elt F) → (⟨S50000x128, .f32⟩ : BufTy).Contents (Elt F)),
    StableHlo.unary main_v213 main_v248 (broadcastInDim S1x128 ![1] bcast_S128_S1x128_1 : (⟨S128, .f32⟩ : BufTy).Contents (Elt F) → (⟨S1x128, .f32⟩ : BufTy).Contents (Elt F)),
    StableHlo.unary main_v248 main_v249 (broadcastInDim S50000x128 ![0, 1] bcast_S1x128_S50000x128_0_1 : (⟨S1x128, .f32⟩ : BufTy).Contents (Elt F) → (⟨S50000x128, .f32⟩ : BufTy).Contents (Elt F)),
    StableHlo.binary main_v247 main_v249 main_v250 (addf : (⟨S50000x128, .f32⟩ : BufTy).Contents (Elt F) → (⟨S50000x128, .f32⟩ : BufTy).Contents (Elt F) → (⟨S50000x128, .f32⟩ : BufTy).Contents (Elt F)) ]
theorem ops7_sub : (ops7 : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub ..⟩

/-- Stretch 8: the mean pool over graphs (16 operations). -/
abbrev ops8 : List (HloOp τ sig (Elt F)) :=
  [ StableHlo.nullary main_cst_41 (constant S_ .f32 0x3F800000#32),
    StableHlo.unary main_cst_41 main_v251 (broadcastInDim S50000 ![] bcast_S_S50000 : (⟨S_, .f32⟩ : BufTy).Contents (Elt F) → (⟨S50000, .f32⟩ : BufTy).Contents (Elt F)),
    StableHlo.nullary main_cst_42 (constant S_ .f32 0x00000000#32),
    StableHlo.unary main_cst_42 main_v252 (broadcastInDim S512 ![] bcast_S_S512 : (⟨S_, .f32⟩ : BufTy).Contents (Elt F) → (⟨S512, .f32⟩ : BufTy).Contents (Elt F)),
    StableHlo.unary main_arg2 main_v253 (broadcastInDim S50000x1 ![0] bcast_S50000_S50000x1_0 : (⟨S50000, .i32⟩ : BufTy).Contents (Elt F) → (⟨S50000x1, .i32⟩ : BufTy).Contents (Elt F)),
    StableHlo.ternary main_v252 main_v253 main_v251 main_v254 ((fun x i u => Host.scatterAdd scatter_S512_S50000x1_S50000_n_0_0_1 x i u) : (⟨S512, .f32⟩ : BufTy).Contents (Elt F) → (⟨S50000x1, .i32⟩ : BufTy).Contents (Elt F) → (⟨S50000, .f32⟩ : BufTy).Contents (Elt F) → (⟨S512, .f32⟩ : BufTy).Contents (Elt F)),
    StableHlo.nullary main_cst_43 (constant S_ .f32 0x00000000#32),
    StableHlo.unary main_cst_43 main_v255 (broadcastInDim S512x128 ![] bcast_S_S512x128 : (⟨S_, .f32⟩ : BufTy).Contents (Elt F) → (⟨S512x128, .f32⟩ : BufTy).Contents (Elt F)),
    StableHlo.unary main_arg2 main_v256 (broadcastInDim S50000x1 ![0] bcast_S50000_S50000x1_0 : (⟨S50000, .i32⟩ : BufTy).Contents (Elt F) → (⟨S50000x1, .i32⟩ : BufTy).Contents (Elt F)),
    StableHlo.ternary main_v255 main_v256 main_v250 main_v257 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    StableHlo.nullary main_cst_44 (constant S_ .f32 0x3F800000#32),
    StableHlo.unary main_cst_44 main_v258 (broadcastInDim S512 ![] bcast_S_S512 : (⟨S_, .f32⟩ : BufTy).Contents (Elt F) → (⟨S512, .f32⟩ : BufTy).Contents (Elt F)),
    StableHlo.binary main_v254 main_v258 main_v259 (maximumf : (⟨S512, .f32⟩ : BufTy).Contents (Elt F) → (⟨S512, .f32⟩ : BufTy).Contents (Elt F) → (⟨S512, .f32⟩ : BufTy).Contents (Elt F)),
    StableHlo.unary main_v259 main_v260 (broadcastInDim S512x1 ![0] bcast_S512_S512x1_0 : (⟨S512, .f32⟩ : BufTy).Contents (Elt F) → (⟨S512x1, .f32⟩ : BufTy).Contents (Elt F)),
    StableHlo.unary main_v260 main_v261 (broadcastInDim S512x128 ![0, 1] bcast_S512x1_S512x128_0_1 : (⟨S512x1, .f32⟩ : BufTy).Contents (Elt F) → (⟨S512x128, .f32⟩ : BufTy).Contents (Elt F)),
    StableHlo.binary main_v257 main_v261 main_v262 (Host.divf : (⟨S512x128, .f32⟩ : BufTy).Contents (Elt F) → (⟨S512x128, .f32⟩ : BufTy).Contents (Elt F) → (⟨S512x128, .f32⟩ : BufTy).Contents (Elt F)) ]
theorem ops8_sub : (ops8 : List (HloOp τ sig (Elt F))).Forall fun op => op.bufs ⊆ tcRefs τ sig :=
  ⟨StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub ..⟩

/-- @main's operations, in order. -/
abbrev ops : List (HloOp τ sig (Elt F)) := ops0 ++ (ops1 ++ (ops2 ++ (ops3 ++ (ops4 ++ (ops5 ++ (ops6 ++ (ops7 ++ ops8)))))))

theorem main_eq (c : Dev nD) : main (F := F) c = seq ops := by chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.2 ⟨ops0_sub, List.forall_append.2 ⟨ops1_sub, List.forall_append.2 ⟨ops2_sub, List.forall_append.2 ⟨ops3_sub,
    List.forall_append.2 ⟨ops4_sub, List.forall_append.2 ⟨ops5_sub, List.forall_append.2 ⟨ops6_sub, List.forall_append.2 ⟨ops7_sub, ops8_sub⟩⟩⟩⟩⟩⟩⟩⟩

theorem ops0_fresh : (ops0 : List (HloOp τ sig (Elt F))).Forall fun op => op.fresh = ∅ := by
  simp only [List.Forall]; repeat' constructor
theorem ops1_fresh : (ops1 : List (HloOp τ sig (Elt F))).Forall fun op => op.fresh = ∅ := by
  simp only [List.Forall]; repeat' constructor
theorem ops2_fresh : (ops2 : List (HloOp τ sig (Elt F))).Forall fun op => op.fresh = ∅ := by
  simp only [List.Forall]; repeat' constructor
theorem ops3_fresh : (ops3 : List (HloOp τ sig (Elt F))).Forall fun op => op.fresh = ∅ := by
  simp only [List.Forall]; repeat' constructor
theorem ops4_fresh : (ops4 : List (HloOp τ sig (Elt F))).Forall fun op => op.fresh = ∅ := by
  simp only [List.Forall]; repeat' constructor
theorem ops5_fresh : (ops5 : List (HloOp τ sig (Elt F))).Forall fun op => op.fresh = ∅ := by
  simp only [List.Forall]; repeat' constructor
theorem ops6_fresh : (ops6 : List (HloOp τ sig (Elt F))).Forall fun op => op.fresh = ∅ := by
  simp only [List.Forall]; repeat' constructor
theorem ops7_fresh : (ops7 : List (HloOp τ sig (Elt F))).Forall fun op => op.fresh = ∅ := by
  simp only [List.Forall]; repeat' constructor
theorem ops8_fresh : (ops8 : List (HloOp τ sig (Elt F))).Forall fun op => op.fresh = ∅ := by
  simp only [List.Forall]; repeat' constructor

theorem ops_fresh : ∀ op ∈ (ops : List (HloOp τ sig (Elt F))), op.fresh = ∅ :=
  List.forall_iff_forall_mem.1 (List.forall_append.2 ⟨ops0_fresh, List.forall_append.2 ⟨ops1_fresh, List.forall_append.2 ⟨ops2_fresh, List.forall_append.2 ⟨ops3_fresh,
    List.forall_append.2 ⟨ops4_fresh, List.forall_append.2 ⟨ops5_fresh, List.forall_append.2 ⟨ops6_fresh, List.forall_append.2 ⟨ops7_fresh, ops8_fresh⟩⟩⟩⟩⟩⟩⟩⟩)

/-- From any memory with zero counters: every weakly fair execution of @main terminates, and every final state has
    each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefValue.lean ====
/- What each stretch of the reference's operations leaves in the buffer the next stretch reads, as one of the shared
   whole-array functions of the buffers it reads: read off the operations' fold, the typed references' paired
   transports cancelling. -/
import proofs.«113380_j111669150109_2_alg».proof.Proof.RefRun
import proofs.«113380_j111669150109_2_alg».proof.Proof.Shared
import proofs.«113380_j111669150109_2_alg».proof.Proof.LibTypedRef

set_option maxRecDepth 16384

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F] (V : Valuation τ sig (Elt F))

theorem c0_main_v1 : after (ops0 (F := F)) V (Proc.devRef .tc main_v1) = Cert.Shared.srcOf (V (Proc.devRef .tc main_arg1)) := by
  after_results_simp
  try simp only [Cert.LibTypedRef.ofBuf_toBuf, Cert.LibTypedRef.toBuf_ofBuf]
  rfl

theorem c0_main_v3 : after (ops0 (F := F)) V (Proc.devRef .tc main_v3) = Cert.Shared.dstOf (V (Proc.devRef .tc main_arg1)) := by
  after_results_simp
  try simp only [Cert.LibTypedRef.ofBuf_toBuf, Cert.LibTypedRef.toBuf_ofBuf]
  rfl

theorem c0_main_v10 : after (ops0 (F := F)) V (Proc.devRef .tc main_v10) = Cert.Shared.dinvF (Cert.Shared.dstOf (V (Proc.devRef .tc main_arg1))) := by
  after_results_simp
  try simp only [Cert.LibTypedRef.ofBuf_toBuf, Cert.LibTypedRef.toBuf_ofBuf]
  rfl

theorem c0_main_v14 : after (ops0 (F := F)) V (Proc.devRef .tc main_v14) = Cert.Shared.embF (V (Proc.devRef .tc main_arg0)) (V (Proc.devRef .tc main_arg3)) (V (Proc.devRef .tc main_arg4)) := by
  after_results_simp
  try simp only [Cert.LibTypedRef.ofBuf_toBuf, Cert.LibTypedRef.toBuf_ofBuf]
  rfl

theorem c1_main_v56 : after (ops1 (F := F)) V (Proc.devRef .tc main_v56) = Cert.Shared.reluF (Cert.Shared.refLayer (V (Proc.devRef .tc main_v14)) (V (Proc.devRef .tc main_v10)) (V (Proc.devRef .tc main_v1)) (V (Proc.devRef .tc main_v3)) (Cert.Shared.sliceW0 (V (Proc.devRef .tc main_arg5))) (Cert.Shared.sliceB0 (V (Proc.devRef .tc main_arg6)))) := by
  after_results_simp
  try simp only [Cert.LibTypedRef.ofBuf_toBuf, Cert.LibTypedRef.toBuf_ofBuf]
  rfl

theorem c2_main_v79 : after (ops2 (F := F)) V (Proc.devRef .tc main_v79) = Cert.Shared.bnF (V (Proc.devRef .tc main_v56)) (Cert.Shared.meanF (V (Proc.devRef .tc main_v56))) (Cert.Shared.varF (V (Proc.devRef .tc main_v56))) (Cert.Shared.sliceG0 (V (Proc.devRef .tc main_arg7))) (Cert.Shared.sliceG0 (V (Proc.devRef .tc main_arg8))) := by
  after_results_simp
  try simp only [Cert.LibTypedRef.ofBuf_toBuf, Cert.LibTypedRef.toBuf_ofBuf]
  rfl

theorem c3_main_v121 : after (ops3 (F := F)) V (Proc.devRef .tc main_v121) = Cert.Shared.reluF (Cert.Shared.refLayer (V (Proc.devRef .tc main_v79)) (V (Proc.devRef .tc main_v10)) (V (Proc.devRef .tc main_v1)) (V (Proc.devRef .tc main_v3)) (Cert.Shared.sliceW1 (V (Proc.devRef .tc main_arg5))) (Cert.Shared.sliceB1 (V (Proc.devRef .tc main_arg6)))) := by
  after_results_simp
  try simp only [Cert.LibTypedRef.ofBuf_toBuf, Cert.LibTypedRef.toBuf_ofBuf]
  rfl

theorem c4_main_v144 : after (ops4 (F := F)) V (Proc.devRef .tc main_v144) = Cert.Shared.bnF (V (Proc.devRef .tc main_v121)) (Cert.Shared.meanF (V (Proc.devRef .tc main_v121))) (Cert.Shared.varF (V (Proc.devRef .tc main_v121))) (Cert.Shared.sliceG1 (V (Proc.devRef .tc main_arg7))) (Cert.Shared.sliceG1 (V (Proc.devRef .tc main_arg8))) := by
  after_results_simp
  try simp only [Cert.LibTypedRef.ofBuf_toBuf, Cert.LibTypedRef.toBuf_ofBuf]
  rfl

theorem c5_main_v186 : after (ops5 (F := F)) V (Proc.devRef .tc main_v186) = Cert.Shared.reluF (Cert.Shared.refLayer (V (Proc.devRef .tc main_v144)) (V (Proc.devRef .tc main_v10)) (V (Proc.devRef .tc main_v1)) (V (Proc.devRef .tc main_v3)) (Cert.Shared.sliceW2 (V (Proc.devRef .tc main_arg5))) (Cert.Shared.sliceB2 (V (Proc.devRef .tc main_arg6)))) := by
  after_results_simp
  try simp only [Cert.LibTypedRef.ofBuf_toBuf, Cert.LibTypedRef.toBuf_ofBuf]
  rfl

theorem c6_main_v209 : after (ops6 (F := F)) V (Proc.devRef .tc main_v209) = Cert.Shared.bnF (V (Proc.devRef .tc main_v186)) (Cert.Shared.meanF (V (Proc.devRef .tc main_v186))) (Cert.Shared.varF (V (Proc.devRef .tc main_v186))) (Cert.Shared.sliceG2 (V (Proc.devRef .tc main_arg7))) (Cert.Shared.sliceG2 (V (Proc.devRef .tc main_arg8))) := by
  after_results_simp
  try simp only [Cert.LibTypedRef.ofBuf_toBuf, Cert.LibTypedRef.toBuf_ofBuf]
  rfl

theorem c7_main_v250 : after (ops7 (F := F)) V (Proc.devRef .tc main_v250) = Cert.Shared.refLayer (V (Proc.devRef .tc main_v209)) (V (Proc.devRef .tc main_v10)) (V (Proc.devRef .tc main_v1)) (V (Proc.devRef .tc main_v3)) (Cert.Shared.sliceW3 (V (Proc.devRef .tc main_arg5))) (Cert.Shared.sliceB3 (V (Proc.devRef .tc main_arg6))) := by
  after_results_simp
  try simp only [Cert.LibTypedRef.ofBuf_toBuf, Cert.LibTypedRef.toBuf_ofBuf]
  rfl

theorem c8_main_v262 : after (ops8 (F := F)) V (Proc.devRef .tc main_v262) = Cert.Shared.poolF (V (Proc.devRef .tc main_v250)) (V (Proc.devRef .tc main_arg2)) := by
  after_results_simp
  try simp only [Cert.LibTypedRef.ofBuf_toBuf, Cert.LibTypedRef.toBuf_ofBuf]
  rfl

end Cert.ReferenceIdeal.RefValue

end
-- ==== Proof.RefKeep.lean ====
/- Buffers a stretch of the reference's operations does not write keep their contents: the nine arguments through
   every stretch, and the edge endpoints and degree weights through every stretch after the first. -/
import proofs.«113380_j111669150109_2_alg».proof.Proof.RefRun

set_option maxRecDepth 16384

noncomputable section

namespace Cert.ReferenceIdeal.RefKeep

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F] (V : Valuation τ sig (Elt F))

theorem k0_main_arg0 : after (ops0 (F := F)) V (Proc.devRef .tc main_arg0) = V (Proc.devRef .tc main_arg0) := by after_results_simp
theorem k0_main_arg1 : after (ops0 (F := F)) V (Proc.devRef .tc main_arg1) = V (Proc.devRef .tc main_arg1) := by after_results_simp
theorem k0_main_arg2 : after (ops0 (F := F)) V (Proc.devRef .tc main_arg2) = V (Proc.devRef .tc main_arg2) := by after_results_simp
theorem k0_main_arg3 : after (ops0 (F := F)) V (Proc.devRef .tc main_arg3) = V (Proc.devRef .tc main_arg3) := by after_results_simp
theorem k0_main_arg4 : after (ops0 (F := F)) V (Proc.devRef .tc main_arg4) = V (Proc.devRef .tc main_arg4) := by after_results_simp
theorem k0_main_arg5 : after (ops0 (F := F)) V (Proc.devRef .tc main_arg5) = V (Proc.devRef .tc main_arg5) := by after_results_simp
theorem k0_main_arg6 : after (ops0 (F := F)) V (Proc.devRef .tc main_arg6) = V (Proc.devRef .tc main_arg6) := by after_results_simp
theorem k0_main_arg7 : after (ops0 (F := F)) V (Proc.devRef .tc main_arg7) = V (Proc.devRef .tc main_arg7) := by after_results_simp
theorem k0_main_arg8 : after (ops0 (F := F)) V (Proc.devRef .tc main_arg8) = V (Proc.devRef .tc main_arg8) := by after_results_simp
theorem k1_main_arg0 : after (ops1 (F := F)) V (Proc.devRef .tc main_arg0) = V (Proc.devRef .tc main_arg0) := by after_results_simp
theorem k1_main_arg1 : after (ops1 (F := F)) V (Proc.devRef .tc main_arg1) = V (Proc.devRef .tc main_arg1) := by after_results_simp
theorem k1_main_arg2 : after (ops1 (F := F)) V (Proc.devRef .tc main_arg2) = V (Proc.devRef .tc main_arg2) := by after_results_simp
theorem k1_main_arg3 : after (ops1 (F := F)) V (Proc.devRef .tc main_arg3) = V (Proc.devRef .tc main_arg3) := by after_results_simp
theorem k1_main_arg4 : after (ops1 (F := F)) V (Proc.devRef .tc main_arg4) = V (Proc.devRef .tc main_arg4) := by after_results_simp
theorem k1_main_arg5 : after (ops1 (F := F)) V (Proc.devRef .tc main_arg5) = V (Proc.devRef .tc main_arg5) := by after_results_simp
theorem k1_main_arg6 : after (ops1 (F := F)) V (Proc.devRef .tc main_arg6) = V (Proc.devRef .tc main_arg6) := by after_results_simp
theorem k1_main_arg7 : after (ops1 (F := F)) V (Proc.devRef .tc main_arg7) = V (Proc.devRef .tc main_arg7) := by after_results_simp
theorem k1_main_arg8 : after (ops1 (F := F)) V (Proc.devRef .tc main_arg8) = V (Proc.devRef .tc main_arg8) := by after_results_simp
theorem k1_main_v1 : after (ops1 (F := F)) V (Proc.devRef .tc main_v1) = V (Proc.devRef .tc main_v1) := by after_results_simp
theorem k1_main_v3 : after (ops1 (F := F)) V (Proc.devRef .tc main_v3) = V (Proc.devRef .tc main_v3) := by after_results_simp
theorem k1_main_v10 : after (ops1 (F := F)) V (Proc.devRef .tc main_v10) = V (Proc.devRef .tc main_v10) := by after_results_simp
theorem k2_main_arg0 : after (ops2 (F := F)) V (Proc.devRef .tc main_arg0) = V (Proc.devRef .tc main_arg0) := by after_results_simp
theorem k2_main_arg1 : after (ops2 (F := F)) V (Proc.devRef .tc main_arg1) = V (Proc.devRef .tc main_arg1) := by after_results_simp
theorem k2_main_arg2 : after (ops2 (F := F)) V (Proc.devRef .tc main_arg2) = V (Proc.devRef .tc main_arg2) := by after_results_simp
theorem k2_main_arg3 : after (ops2 (F := F)) V (Proc.devRef .tc main_arg3) = V (Proc.devRef .tc main_arg3) := by after_results_simp
theorem k2_main_arg4 : after (ops2 (F := F)) V (Proc.devRef .tc main_arg4) = V (Proc.devRef .tc main_arg4) := by after_results_simp
theorem k2_main_arg5 : after (ops2 (F := F)) V (Proc.devRef .tc main_arg5) = V (Proc.devRef .tc main_arg5) := by after_results_simp
theorem k2_main_arg6 : after (ops2 (F := F)) V (Proc.devRef .tc main_arg6) = V (Proc.devRef .tc main_arg6) := by after_results_simp
theorem k2_main_arg7 : after (ops2 (F := F)) V (Proc.devRef .tc main_arg7) = V (Proc.devRef .tc main_arg7) := by after_results_simp
theorem k2_main_arg8 : after (ops2 (F := F)) V (Proc.devRef .tc main_arg8) = V (Proc.devRef .tc main_arg8) := by after_results_simp
theorem k2_main_v1 : after (ops2 (F := F)) V (Proc.devRef .tc main_v1) = V (Proc.devRef .tc main_v1) := by after_results_simp
theorem k2_main_v3 : after (ops2 (F := F)) V (Proc.devRef .tc main_v3) = V (Proc.devRef .tc main_v3) := by after_results_simp
theorem k2_main_v10 : after (ops2 (F := F)) V (Proc.devRef .tc main_v10) = V (Proc.devRef .tc main_v10) := by after_results_simp
theorem k3_main_arg0 : after (ops3 (F := F)) V (Proc.devRef .tc main_arg0) = V (Proc.devRef .tc main_arg0) := by after_results_simp
theorem k3_main_arg1 : after (ops3 (F := F)) V (Proc.devRef .tc main_arg1) = V (Proc.devRef .tc main_arg1) := by after_results_simp
theorem k3_main_arg2 : after (ops3 (F := F)) V (Proc.devRef .tc main_arg2) = V (Proc.devRef .tc main_arg2) := by after_results_simp
theorem k3_main_arg3 : after (ops3 (F := F)) V (Proc.devRef .tc main_arg3) = V (Proc.devRef .tc main_arg3) := by after_results_simp
theorem k3_main_arg4 : after (ops3 (F := F)) V (Proc.devRef .tc main_arg4) = V (Proc.devRef .tc main_arg4) := by after_results_simp
theorem k3_main_arg5 : after (ops3 (F := F)) V (Proc.devRef .tc main_arg5) = V (Proc.devRef .tc main_arg5) := by after_results_simp
theorem k3_main_arg6 : after (ops3 (F := F)) V (Proc.devRef .tc main_arg6) = V (Proc.devRef .tc main_arg6) := by after_results_simp
theorem k3_main_arg7 : after (ops3 (F := F)) V (Proc.devRef .tc main_arg7) = V (Proc.devRef .tc main_arg7) := by after_results_simp
theorem k3_main_arg8 : after (ops3 (F := F)) V (Proc.devRef .tc main_arg8) = V (Proc.devRef .tc main_arg8) := by after_results_simp
theorem k3_main_v1 : after (ops3 (F := F)) V (Proc.devRef .tc main_v1) = V (Proc.devRef .tc main_v1) := by after_results_simp
theorem k3_main_v3 : after (ops3 (F := F)) V (Proc.devRef .tc main_v3) = V (Proc.devRef .tc main_v3) := by after_results_simp
theorem k3_main_v10 : after (ops3 (F := F)) V (Proc.devRef .tc main_v10) = V (Proc.devRef .tc main_v10) := by after_results_simp
theorem k4_main_arg0 : after (ops4 (F := F)) V (Proc.devRef .tc main_arg0) = V (Proc.devRef .tc main_arg0) := by after_results_simp
theorem k4_main_arg1 : after (ops4 (F := F)) V (Proc.devRef .tc main_arg1) = V (Proc.devRef .tc main_arg1) := by after_results_simp
theorem k4_main_arg2 : after (ops4 (F := F)) V (Proc.devRef .tc main_arg2) = V (Proc.devRef .tc main_arg2) := by after_results_simp
theorem k4_main_arg3 : after (ops4 (F := F)) V (Proc.devRef .tc main_arg3) = V (Proc.devRef .tc main_arg3) := by after_results_simp
theorem k4_main_arg4 : after (ops4 (F := F)) V (Proc.devRef .tc main_arg4) = V (Proc.devRef .tc main_arg4) := by after_results_simp
theorem k4_main_arg5 : after (ops4 (F := F)) V (Proc.devRef .tc main_arg5) = V (Proc.devRef .tc main_arg5) := by after_results_simp
theorem k4_main_arg6 : after (ops4 (F := F)) V (Proc.devRef .tc main_arg6) = V (Proc.devRef .tc main_arg6) := by after_results_simp
theorem k4_main_arg7 : after (ops4 (F := F)) V (Proc.devRef .tc main_arg7) = V (Proc.devRef .tc main_arg7) := by after_results_simp
theorem k4_main_arg8 : after (ops4 (F := F)) V (Proc.devRef .tc main_arg8) = V (Proc.devRef .tc main_arg8) := by after_results_simp
theorem k4_main_v1 : after (ops4 (F := F)) V (Proc.devRef .tc main_v1) = V (Proc.devRef .tc main_v1) := by after_results_simp
theorem k4_main_v3 : after (ops4 (F := F)) V (Proc.devRef .tc main_v3) = V (Proc.devRef .tc main_v3) := by after_results_simp
theorem k4_main_v10 : after (ops4 (F := F)) V (Proc.devRef .tc main_v10) = V (Proc.devRef .tc main_v10) := by after_results_simp
theorem k5_main_arg0 : after (ops5 (F := F)) V (Proc.devRef .tc main_arg0) = V (Proc.devRef .tc main_arg0) := by after_results_simp
theorem k5_main_arg1 : after (ops5 (F := F)) V (Proc.devRef .tc main_arg1) = V (Proc.devRef .tc main_arg1) := by after_results_simp
theorem k5_main_arg2 : after (ops5 (F := F)) V (Proc.devRef .tc main_arg2) = V (Proc.devRef .tc main_arg2) := by after_results_simp
theorem k5_main_arg3 : after (ops5 (F := F)) V (Proc.devRef .tc main_arg3) = V (Proc.devRef .tc main_arg3) := by after_results_simp
theorem k5_main_arg4 : after (ops5 (F := F)) V (Proc.devRef .tc main_arg4) = V (Proc.devRef .tc main_arg4) := by after_results_simp
theorem k5_main_arg5 : after (ops5 (F := F)) V (Proc.devRef .tc main_arg5) = V (Proc.devRef .tc main_arg5) := by after_results_simp
theorem k5_main_arg6 : after (ops5 (F := F)) V (Proc.devRef .tc main_arg6) = V (Proc.devRef .tc main_arg6) := by after_results_simp
theorem k5_main_arg7 : after (ops5 (F := F)) V (Proc.devRef .tc main_arg7) = V (Proc.devRef .tc main_arg7) := by after_results_simp
theorem k5_main_arg8 : after (ops5 (F := F)) V (Proc.devRef .tc main_arg8) = V (Proc.devRef .tc main_arg8) := by after_results_simp
theorem k5_main_v1 : after (ops5 (F := F)) V (Proc.devRef .tc main_v1) = V (Proc.devRef .tc main_v1) := by after_results_simp
theorem k5_main_v3 : after (ops5 (F := F)) V (Proc.devRef .tc main_v3) = V (Proc.devRef .tc main_v3) := by after_results_simp
theorem k5_main_v10 : after (ops5 (F := F)) V (Proc.devRef .tc main_v10) = V (Proc.devRef .tc main_v10) := by after_results_simp
theorem k6_main_arg0 : after (ops6 (F := F)) V (Proc.devRef .tc main_arg0) = V (Proc.devRef .tc main_arg0) := by after_results_simp
theorem k6_main_arg1 : after (ops6 (F := F)) V (Proc.devRef .tc main_arg1) = V (Proc.devRef .tc main_arg1) := by after_results_simp
theorem k6_main_arg2 : after (ops6 (F := F)) V (Proc.devRef .tc main_arg2) = V (Proc.devRef .tc main_arg2) := by after_results_simp
theorem k6_main_arg3 : after (ops6 (F := F)) V (Proc.devRef .tc main_arg3) = V (Proc.devRef .tc main_arg3) := by after_results_simp
theorem k6_main_arg4 : after (ops6 (F := F)) V (Proc.devRef .tc main_arg4) = V (Proc.devRef .tc main_arg4) := by after_results_simp
theorem k6_main_arg5 : after (ops6 (F := F)) V (Proc.devRef .tc main_arg5) = V (Proc.devRef .tc main_arg5) := by after_results_simp
theorem k6_main_arg6 : after (ops6 (F := F)) V (Proc.devRef .tc main_arg6) = V (Proc.devRef .tc main_arg6) := by after_results_simp
theorem k6_main_arg7 : after (ops6 (F := F)) V (Proc.devRef .tc main_arg7) = V (Proc.devRef .tc main_arg7) := by after_results_simp
theorem k6_main_arg8 : after (ops6 (F := F)) V (Proc.devRef .tc main_arg8) = V (Proc.devRef .tc main_arg8) := by after_results_simp
theorem k6_main_v1 : after (ops6 (F := F)) V (Proc.devRef .tc main_v1) = V (Proc.devRef .tc main_v1) := by after_results_simp
theorem k6_main_v3 : after (ops6 (F := F)) V (Proc.devRef .tc main_v3) = V (Proc.devRef .tc main_v3) := by after_results_simp
theorem k6_main_v10 : after (ops6 (F := F)) V (Proc.devRef .tc main_v10) = V (Proc.devRef .tc main_v10) := by after_results_simp
theorem k7_main_arg0 : after (ops7 (F := F)) V (Proc.devRef .tc main_arg0) = V (Proc.devRef .tc main_arg0) := by after_results_simp
theorem k7_main_arg1 : after (ops7 (F := F)) V (Proc.devRef .tc main_arg1) = V (Proc.devRef .tc main_arg1) := by after_results_simp
theorem k7_main_arg2 : after (ops7 (F := F)) V (Proc.devRef .tc main_arg2) = V (Proc.devRef .tc main_arg2) := by after_results_simp
theorem k7_main_arg3 : after (ops7 (F := F)) V (Proc.devRef .tc main_arg3) = V (Proc.devRef .tc main_arg3) := by after_results_simp
theorem k7_main_arg4 : after (ops7 (F := F)) V (Proc.devRef .tc main_arg4) = V (Proc.devRef .tc main_arg4) := by after_results_simp
theorem k7_main_arg5 : after (ops7 (F := F)) V (Proc.devRef .tc main_arg5) = V (Proc.devRef .tc main_arg5) := by after_results_simp
theorem k7_main_arg6 : after (ops7 (F := F)) V (Proc.devRef .tc main_arg6) = V (Proc.devRef .tc main_arg6) := by after_results_simp
theorem k7_main_arg7 : after (ops7 (F := F)) V (Proc.devRef .tc main_arg7) = V (Proc.devRef .tc main_arg7) := by after_results_simp
theorem k7_main_arg8 : after (ops7 (F := F)) V (Proc.devRef .tc main_arg8) = V (Proc.devRef .tc main_arg8) := by after_results_simp
theorem k7_main_v1 : after (ops7 (F := F)) V (Proc.devRef .tc main_v1) = V (Proc.devRef .tc main_v1) := by after_results_simp
theorem k7_main_v3 : after (ops7 (F := F)) V (Proc.devRef .tc main_v3) = V (Proc.devRef .tc main_v3) := by after_results_simp
theorem k7_main_v10 : after (ops7 (F := F)) V (Proc.devRef .tc main_v10) = V (Proc.devRef .tc main_v10) := by after_results_simp
theorem k8_main_arg0 : after (ops8 (F := F)) V (Proc.devRef .tc main_arg0) = V (Proc.devRef .tc main_arg0) := by after_results_simp
theorem k8_main_arg1 : after (ops8 (F := F)) V (Proc.devRef .tc main_arg1) = V (Proc.devRef .tc main_arg1) := by after_results_simp
theorem k8_main_arg2 : after (ops8 (F := F)) V (Proc.devRef .tc main_arg2) = V (Proc.devRef .tc main_arg2) := by after_results_simp
theorem k8_main_arg3 : after (ops8 (F := F)) V (Proc.devRef .tc main_arg3) = V (Proc.devRef .tc main_arg3) := by after_results_simp
theorem k8_main_arg4 : after (ops8 (F := F)) V (Proc.devRef .tc main_arg4) = V (Proc.devRef .tc main_arg4) := by after_results_simp
theorem k8_main_arg5 : after (ops8 (F := F)) V (Proc.devRef .tc main_arg5) = V (Proc.devRef .tc main_arg5) := by after_results_simp
theorem k8_main_arg6 : after (ops8 (F := F)) V (Proc.devRef .tc main_arg6) = V (Proc.devRef .tc main_arg6) := by after_results_simp
theorem k8_main_arg7 : after (ops8 (F := F)) V (Proc.devRef .tc main_arg7) = V (Proc.devRef .tc main_arg7) := by after_results_simp
theorem k8_main_arg8 : after (ops8 (F := F)) V (Proc.devRef .tc main_arg8) = V (Proc.devRef .tc main_arg8) := by after_results_simp
theorem k8_main_v1 : after (ops8 (F := F)) V (Proc.devRef .tc main_v1) = V (Proc.devRef .tc main_v1) := by after_results_simp
theorem k8_main_v3 : after (ops8 (F := F)) V (Proc.devRef .tc main_v3) = V (Proc.devRef .tc main_v3) := by after_results_simp
theorem k8_main_v10 : after (ops8 (F := F)) V (Proc.devRef .tc main_v10) = V (Proc.devRef .tc main_v10) := by after_results_simp

end Cert.ReferenceIdeal.RefKeep

end
-- ==== Proof.RefNet.lean ====
/- The reference program's result buffer after its whole run is `refNet` of the nine argument arrays: the nine
   stretches' values chained, each buffer a later stretch reads traced back through the stretches that keep it. -/
import proofs.«113380_j111669150109_2_alg».proof.Proof.RefValue
import proofs.«113380_j111669150109_2_alg».proof.Proof.RefKeep
import proofs.«113380_j111669150109_2_alg».proof.Proof.Nets

set_option maxRecDepth 16384

noncomputable section

namespace Cert.ReferenceIdeal.RefNet

open Cert.ReferenceIdeal Cert.ReferenceIdeal.Gen Cert.ReferenceIdeal.RefRun Idealize.ShloMosaic Idealize.ShloMosaic.TcCoe Idealize.SL.Sem Idealize.ShloMosaic.StableHlo

/-- The fold of a concatenation is the fold of the second list over the fold of the first. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

variable (V : Valuation τ sig (Elt Ideal))

/-! ## The contents after each stretch -/

abbrev S1 : Valuation τ sig (Elt Ideal) := after (ops0 (F := Ideal)) V
abbrev S2 : Valuation τ sig (Elt Ideal) := after (ops1 (F := Ideal)) (S1 V)
abbrev S3 : Valuation τ sig (Elt Ideal) := after (ops2 (F := Ideal)) (S2 V)
abbrev S4 : Valuation τ sig (Elt Ideal) := after (ops3 (F := Ideal)) (S3 V)
abbrev S5 : Valuation τ sig (Elt Ideal) := after (ops4 (F := Ideal)) (S4 V)
abbrev S6 : Valuation τ sig (Elt Ideal) := after (ops5 (F := Ideal)) (S5 V)
abbrev S7 : Valuation τ sig (Elt Ideal) := after (ops6 (F := Ideal)) (S6 V)
abbrev S8 : Valuation τ sig (Elt Ideal) := after (ops7 (F := Ideal)) (S7 V)
abbrev S9 : Valuation τ sig (Elt Ideal) := after (ops8 (F := Ideal)) (S8 V)

/-- The whole fold is the nine stretches' folds one after the other. -/
theorem after_ops : after (ops (F := Ideal)) V = S9 V := by
  show after (ops0 ++ (ops1 ++ (ops2 ++ (ops3 ++ (ops4 ++ (ops5 ++ (ops6 ++ (ops7 ++ ops8)))))))) V = _
  rw [after_append, after_append, after_append, after_append, after_append, after_append, after_append, after_append]

/-! ## The arguments are kept -/

/-- The fold keeps argument 0. -/
theorem ref_keep_main_arg0 : after (ops (F := Ideal)) V (Proc.devRef .tc main_arg0) = V (Proc.devRef .tc main_arg0) := by
  rw [after_ops]
  exact (Cert.ReferenceIdeal.RefKeep.k8_main_arg0 (F := Ideal) (S8 V)).trans ((Cert.ReferenceIdeal.RefKeep.k7_main_arg0 (F := Ideal) (S7 V)).trans ((Cert.ReferenceIdeal.RefKeep.k6_main_arg0 (F := Ideal) (S6 V)).trans ((Cert.ReferenceIdeal.RefKeep.k5_main_arg0 (F := Ideal) (S5 V)).trans ((Cert.ReferenceIdeal.RefKeep.k4_main_arg0 (F := Ideal) (S4 V)).trans ((Cert.ReferenceIdeal.RefKeep.k3_main_arg0 (F := Ideal) (S3 V)).trans ((Cert.ReferenceIdeal.RefKeep.k2_main_arg0 (F := Ideal) (S2 V)).trans ((Cert.ReferenceIdeal.RefKeep.k1_main_arg0 (F := Ideal) (S1 V)).trans (Cert.ReferenceIdeal.RefKeep.k0_main_arg0 (F := Ideal) V))))))))
/-- The fold keeps argument 1. -/
theorem ref_keep_main_arg1 : after (ops (F := Ideal)) V (Proc.devRef .tc main_arg1) = V (Proc.devRef .tc main_arg1) := by
  rw [after_ops]
  exact (Cert.ReferenceIdeal.RefKeep.k8_main_arg1 (F := Ideal) (S8 V)).trans ((Cert.ReferenceIdeal.RefKeep.k7_main_arg1 (F := Ideal) (S7 V)).trans ((Cert.ReferenceIdeal.RefKeep.k6_main_arg1 (F := Ideal) (S6 V)).trans ((Cert.ReferenceIdeal.RefKeep.k5_main_arg1 (F := Ideal) (S5 V)).trans ((Cert.ReferenceIdeal.RefKeep.k4_main_arg1 (F := Ideal) (S4 V)).trans ((Cert.ReferenceIdeal.RefKeep.k3_main_arg1 (F := Ideal) (S3 V)).trans ((Cert.ReferenceIdeal.RefKeep.k2_main_arg1 (F := Ideal) (S2 V)).trans ((Cert.ReferenceIdeal.RefKeep.k1_main_arg1 (F := Ideal) (S1 V)).trans (Cert.ReferenceIdeal.RefKeep.k0_main_arg1 (F := Ideal) V))))))))
/-- The fold keeps argument 2. -/
theorem ref_keep_main_arg2 : after (ops (F := Ideal)) V (Proc.devRef .tc main_arg2) = V (Proc.devRef .tc main_arg2) := by
  rw [after_ops]
  exact (Cert.ReferenceIdeal.RefKeep.k8_main_arg2 (F := Ideal) (S8 V)).trans ((Cert.ReferenceIdeal.RefKeep.k7_main_arg2 (F := Ideal) (S7 V)).trans ((Cert.ReferenceIdeal.RefKeep.k6_main_arg2 (F := Ideal) (S6 V)).trans ((Cert.ReferenceIdeal.RefKeep.k5_main_arg2 (F := Ideal) (S5 V)).trans ((Cert.ReferenceIdeal.RefKeep.k4_main_arg2 (F := Ideal) (S4 V)).trans ((Cert.ReferenceIdeal.RefKeep.k3_main_arg2 (F := Ideal) (S3 V)).trans ((Cert.ReferenceIdeal.RefKeep.k2_main_arg2 (F := Ideal) (S2 V)).trans ((Cert.ReferenceIdeal.RefKeep.k1_main_arg2 (F := Ideal) (S1 V)).trans (Cert.ReferenceIdeal.RefKeep.k0_main_arg2 (F := Ideal) V))))))))
/-- The fold keeps argument 3. -/
theorem ref_keep_main_arg3 : after (ops (F := Ideal)) V (Proc.devRef .tc main_arg3) = V (Proc.devRef .tc main_arg3) := by
  rw [after_ops]
  exact (Cert.ReferenceIdeal.RefKeep.k8_main_arg3 (F := Ideal) (S8 V)).trans ((Cert.ReferenceIdeal.RefKeep.k7_main_arg3 (F := Ideal) (S7 V)).trans ((Cert.ReferenceIdeal.RefKeep.k6_main_arg3 (F := Ideal) (S6 V)).trans ((Cert.ReferenceIdeal.RefKeep.k5_main_arg3 (F := Ideal) (S5 V)).trans ((Cert.ReferenceIdeal.RefKeep.k4_main_arg3 (F := Ideal) (S4 V)).trans ((Cert.ReferenceIdeal.RefKeep.k3_main_arg3 (F := Ideal) (S3 V)).trans ((Cert.ReferenceIdeal.RefKeep.k2_main_arg3 (F := Ideal) (S2 V)).trans ((Cert.ReferenceIdeal.RefKeep.k1_main_arg3 (F := Ideal) (S1 V)).trans (Cert.ReferenceIdeal.RefKeep.k0_main_arg3 (F := Ideal) V))))))))
/-- The fold keeps argument 4. -/
theorem ref_keep_main_arg4 : after (ops (F := Ideal)) V (Proc.devRef .tc main_arg4) = V (Proc.devRef .tc main_arg4) := by
  rw [after_ops]
  exact (Cert.ReferenceIdeal.RefKeep.k8_main_arg4 (F := Ideal) (S8 V)).trans ((Cert.ReferenceIdeal.RefKeep.k7_main_arg4 (F := Ideal) (S7 V)).trans ((Cert.ReferenceIdeal.RefKeep.k6_main_arg4 (F := Ideal) (S6 V)).trans ((Cert.ReferenceIdeal.RefKeep.k5_main_arg4 (F := Ideal) (S5 V)).trans ((Cert.ReferenceIdeal.RefKeep.k4_main_arg4 (F := Ideal) (S4 V)).trans ((Cert.ReferenceIdeal.RefKeep.k3_main_arg4 (F := Ideal) (S3 V)).trans ((Cert.ReferenceIdeal.RefKeep.k2_main_arg4 (F := Ideal) (S2 V)).trans ((Cert.ReferenceIdeal.RefKeep.k1_main_arg4 (F := Ideal) (S1 V)).trans (Cert.ReferenceIdeal.RefKeep.k0_main_arg4 (F := Ideal) V))))))))
/-- The fold keeps argument 5. -/
theorem ref_keep_main_arg5 : after (ops (F := Ideal)) V (Proc.devRef .tc main_arg5) = V (Proc.devRef .tc main_arg5) := by
  rw [after_ops]
  exact (Cert.ReferenceIdeal.RefKeep.k8_main_arg5 (F := Ideal) (S8 V)).trans ((Cert.ReferenceIdeal.RefKeep.k7_main_arg5 (F := Ideal) (S7 V)).trans ((Cert.ReferenceIdeal.RefKeep.k6_main_arg5 (F := Ideal) (S6 V)).trans ((Cert.ReferenceIdeal.RefKeep.k5_main_arg5 (F := Ideal) (S5 V)).trans ((Cert.ReferenceIdeal.RefKeep.k4_main_arg5 (F := Ideal) (S4 V)).trans ((Cert.ReferenceIdeal.RefKeep.k3_main_arg5 (F := Ideal) (S3 V)).trans ((Cert.ReferenceIdeal.RefKeep.k2_main_arg5 (F := Ideal) (S2 V)).trans ((Cert.ReferenceIdeal.RefKeep.k1_main_arg5 (F := Ideal) (S1 V)).trans (Cert.ReferenceIdeal.RefKeep.k0_main_arg5 (F := Ideal) V))))))))
/-- The fold keeps argument 6. -/
theorem ref_keep_main_arg6 : after (ops (F := Ideal)) V (Proc.devRef .tc main_arg6) = V (Proc.devRef .tc main_arg6) := by
  rw [after_ops]
  exact (Cert.ReferenceIdeal.RefKeep.k8_main_arg6 (F := Ideal) (S8 V)).trans ((Cert.ReferenceIdeal.RefKeep.k7_main_arg6 (F := Ideal) (S7 V)).trans ((Cert.ReferenceIdeal.RefKeep.k6_main_arg6 (F := Ideal) (S6 V)).trans ((Cert.ReferenceIdeal.RefKeep.k5_main_arg6 (F := Ideal) (S5 V)).trans ((Cert.ReferenceIdeal.RefKeep.k4_main_arg6 (F := Ideal) (S4 V)).trans ((Cert.ReferenceIdeal.RefKeep.k3_main_arg6 (F := Ideal) (S3 V)).trans ((Cert.ReferenceIdeal.RefKeep.k2_main_arg6 (F := Ideal) (S2 V)).trans ((Cert.ReferenceIdeal.RefKeep.k1_main_arg6 (F := Ideal) (S1 V)).trans (Cert.ReferenceIdeal.RefKeep.k0_main_arg6 (F := Ideal) V))))))))
/-- The fold keeps argument 7. -/
theorem ref_keep_main_arg7 : after (ops (F := Ideal)) V (Proc.devRef .tc main_arg7) = V (Proc.devRef .tc main_arg7) := by
  rw [after_ops]
  exact (Cert.ReferenceIdeal.RefKeep.k8_main_arg7 (F := Ideal) (S8 V)).trans ((Cert.ReferenceIdeal.RefKeep.k7_main_arg7 (F := Ideal) (S7 V)).trans ((Cert.ReferenceIdeal.RefKeep.k6_main_arg7 (F := Ideal) (S6 V)).trans ((Cert.ReferenceIdeal.RefKeep.k5_main_arg7 (F := Ideal) (S5 V)).trans ((Cert.ReferenceIdeal.RefKeep.k4_main_arg7 (F := Ideal) (S4 V)).trans ((Cert.ReferenceIdeal.RefKeep.k3_main_arg7 (F := Ideal) (S3 V)).trans ((Cert.ReferenceIdeal.RefKeep.k2_main_arg7 (F := Ideal) (S2 V)).trans ((Cert.ReferenceIdeal.RefKeep.k1_main_arg7 (F := Ideal) (S1 V)).trans (Cert.ReferenceIdeal.RefKeep.k0_main_arg7 (F := Ideal) V))))))))
/-- The fold keeps argument 8. -/
theorem ref_keep_main_arg8 : after (ops (F := Ideal)) V (Proc.devRef .tc main_arg8) = V (Proc.devRef .tc main_arg8) := by
  rw [after_ops]
  exact (Cert.ReferenceIdeal.RefKeep.k8_main_arg8 (F := Ideal) (S8 V)).trans ((Cert.ReferenceIdeal.RefKeep.k7_main_arg8 (F := Ideal) (S7 V)).trans ((Cert.ReferenceIdeal.RefKeep.k6_main_arg8 (F := Ideal) (S6 V)).trans ((Cert.ReferenceIdeal.RefKeep.k5_main_arg8 (F := Ideal) (S5 V)).trans ((Cert.ReferenceIdeal.RefKeep.k4_main_arg8 (F := Ideal) (S4 V)).trans ((Cert.ReferenceIdeal.RefKeep.k3_main_arg8 (F := Ideal) (S3 V)).trans ((Cert.ReferenceIdeal.RefKeep.k2_main_arg8 (F := Ideal) (S2 V)).trans ((Cert.ReferenceIdeal.RefKeep.k1_main_arg8 (F := Ideal) (S1 V)).trans (Cert.ReferenceIdeal.RefKeep.k0_main_arg8 (F := Ideal) V))))))))

/-! ## What every stretch after the first keeps -/

/-- The edge endpoints, the degree weights and the five arguments read later, as whole arrays. -/
structure RInv (W : Valuation τ sig (Elt Ideal)) (src dst : IVec Cert.Shared.SE 32) (d : FVec Ideal Cert.Shared.SV .f32)
    (batch : IVec Cert.Shared.SV 32) (Wc : FVec Ideal Cert.Shared.S4HH .f32) (bc : FVec Ideal Cert.Shared.S4H .f32)
    (g beta : FVec Ideal Cert.Shared.S3H .f32) : Prop where
  v1 : W (Proc.devRef .tc main_v1) = src
  v3 : W (Proc.devRef .tc main_v3) = dst
  v10 : W (Proc.devRef .tc main_v10) = d
  a2 : W (Proc.devRef .tc main_arg2) = batch
  a5 : W (Proc.devRef .tc main_arg5) = Wc
  a6 : W (Proc.devRef .tc main_arg6) = bc
  a7 : W (Proc.devRef .tc main_arg7) = g
  a8 : W (Proc.devRef .tc main_arg8) = beta

theorem rinv1 {W : Valuation τ sig (Elt Ideal)} {src dst : IVec Cert.Shared.SE 32} {d : FVec Ideal Cert.Shared.SV .f32}
    {batch : IVec Cert.Shared.SV 32} {Wc : FVec Ideal Cert.Shared.S4HH .f32} {bc : FVec Ideal Cert.Shared.S4H .f32} {g beta : FVec Ideal Cert.Shared.S3H .f32}
    (h : RInv W src dst d batch Wc bc g beta) : RInv (after (ops1 (F := Ideal)) W) src dst d batch Wc bc g beta :=
  ⟨(Cert.ReferenceIdeal.RefKeep.k1_main_v1 (F := Ideal) W).trans h.v1,
   (Cert.ReferenceIdeal.RefKeep.k1_main_v3 (F := Ideal) W).trans h.v3,
   (Cert.ReferenceIdeal.RefKeep.k1_main_v10 (F := Ideal) W).trans h.v10,
   (Cert.ReferenceIdeal.RefKeep.k1_main_arg2 (F := Ideal) W).trans h.a2,
   (Cert.ReferenceIdeal.RefKeep.k1_main_arg5 (F := Ideal) W).trans h.a5,
   (Cert.ReferenceIdeal.RefKeep.k1_main_arg6 (F := Ideal) W).trans h.a6,
   (Cert.ReferenceIdeal.RefKeep.k1_main_arg7 (F := Ideal) W).trans h.a7,
   (Cert.ReferenceIdeal.RefKeep.k1_main_arg8 (F := Ideal) W).trans h.a8⟩
theorem rinv2 {W : Valuation τ sig (Elt Ideal)} {src dst : IVec Cert.Shared.SE 32} {d : FVec Ideal Cert.Shared.SV .f32}
    {batch : IVec Cert.Shared.SV 32} {Wc : FVec Ideal Cert.Shared.S4HH .f32} {bc : FVec Ideal Cert.Shared.S4H .f32} {g beta : FVec Ideal Cert.Shared.S3H .f32}
    (h : RInv W src dst d batch Wc bc g beta) : RInv (after (ops2 (F := Ideal)) W) src dst d batch Wc bc g beta :=
  ⟨(Cert.ReferenceIdeal.RefKeep.k2_main_v1 (F := Ideal) W).trans h.v1,
   (Cert.ReferenceIdeal.RefKeep.k2_main_v3 (F := Ideal) W).trans h.v3,
   (Cert.ReferenceIdeal.RefKeep.k2_main_v10 (F := Ideal) W).trans h.v10,
   (Cert.ReferenceIdeal.RefKeep.k2_main_arg2 (F := Ideal) W).trans h.a2,
   (Cert.ReferenceIdeal.RefKeep.k2_main_arg5 (F := Ideal) W).trans h.a5,
   (Cert.ReferenceIdeal.RefKeep.k2_main_arg6 (F := Ideal) W).trans h.a6,
   (Cert.ReferenceIdeal.RefKeep.k2_main_arg7 (F := Ideal) W).trans h.a7,
   (Cert.ReferenceIdeal.RefKeep.k2_main_arg8 (F := Ideal) W).trans h.a8⟩
theorem rinv3 {W : Valuation τ sig (Elt Ideal)} {src dst : IVec Cert.Shared.SE 32} {d : FVec Ideal Cert.Shared.SV .f32}
    {batch : IVec Cert.Shared.SV 32} {Wc : FVec Ideal Cert.Shared.S4HH .f32} {bc : FVec Ideal Cert.Shared.S4H .f32} {g beta : FVec Ideal Cert.Shared.S3H .f32}
    (h : RInv W src dst d batch Wc bc g beta) : RInv (after (ops3 (F := Ideal)) W) src dst d batch Wc bc g beta :=
  ⟨(Cert.ReferenceIdeal.RefKeep.k3_main_v1 (F := Ideal) W).trans h.v1,
   (Cert.ReferenceIdeal.RefKeep.k3_main_v3 (F := Ideal) W).trans h.v3,
   (Cert.ReferenceIdeal.RefKeep.k3_main_v10 (F := Ideal) W).trans h.v10,
   (Cert.ReferenceIdeal.RefKeep.k3_main_arg2 (F := Ideal) W).trans h.a2,
   (Cert.ReferenceIdeal.RefKeep.k3_main_arg5 (F := Ideal) W).trans h.a5,
   (Cert.ReferenceIdeal.RefKeep.k3_main_arg6 (F := Ideal) W).trans h.a6,
   (Cert.ReferenceIdeal.RefKeep.k3_main_arg7 (F := Ideal) W).trans h.a7,
   (Cert.ReferenceIdeal.RefKeep.k3_main_arg8 (F := Ideal) W).trans h.a8⟩
theorem rinv4 {W : Valuation τ sig (Elt Ideal)} {src dst : IVec Cert.Shared.SE 32} {d : FVec Ideal Cert.Shared.SV .f32}
    {batch : IVec Cert.Shared.SV 32} {Wc : FVec Ideal Cert.Shared.S4HH .f32} {bc : FVec Ideal Cert.Shared.S4H .f32} {g beta : FVec Ideal Cert.Shared.S3H .f32}
    (h : RInv W src dst d batch Wc bc g beta) : RInv (after (ops4 (F := Ideal)) W) src dst d batch Wc bc g beta :=
  ⟨(Cert.ReferenceIdeal.RefKeep.k4_main_v1 (F := Ideal) W).trans h.v1,
   (Cert.ReferenceIdeal.RefKeep.k4_main_v3 (F := Ideal) W).trans h.v3,
   (Cert.ReferenceIdeal.RefKeep.k4_main_v10 (F := Ideal) W).trans h.v10,
   (Cert.ReferenceIdeal.RefKeep.k4_main_arg2 (F := Ideal) W).trans h.a2,
   (Cert.ReferenceIdeal.RefKeep.k4_main_arg5 (F := Ideal) W).trans h.a5,
   (Cert.ReferenceIdeal.RefKeep.k4_main_arg6 (F := Ideal) W).trans h.a6,
   (Cert.ReferenceIdeal.RefKeep.k4_main_arg7 (F := Ideal) W).trans h.a7,
   (Cert.ReferenceIdeal.RefKeep.k4_main_arg8 (F := Ideal) W).trans h.a8⟩
theorem rinv5 {W : Valuation τ sig (Elt Ideal)} {src dst : IVec Cert.Shared.SE 32} {d : FVec Ideal Cert.Shared.SV .f32}
    {batch : IVec Cert.Shared.SV 32} {Wc : FVec Ideal Cert.Shared.S4HH .f32} {bc : FVec Ideal Cert.Shared.S4H .f32} {g beta : FVec Ideal Cert.Shared.S3H .f32}
    (h : RInv W src dst d batch Wc bc g beta) : RInv (after (ops5 (F := Ideal)) W) src dst d batch Wc bc g beta :=
  ⟨(Cert.ReferenceIdeal.RefKeep.k5_main_v1 (F := Ideal) W).trans h.v1,
   (Cert.ReferenceIdeal.RefKeep.k5_main_v3 (F := Ideal) W).trans h.v3,
   (Cert.ReferenceIdeal.RefKeep.k5_main_v10 (F := Ideal) W).trans h.v10,
   (Cert.ReferenceIdeal.RefKeep.k5_main_arg2 (F := Ideal) W).trans h.a2,
   (Cert.ReferenceIdeal.RefKeep.k5_main_arg5 (F := Ideal) W).trans h.a5,
   (Cert.ReferenceIdeal.RefKeep.k5_main_arg6 (F := Ideal) W).trans h.a6,
   (Cert.ReferenceIdeal.RefKeep.k5_main_arg7 (F := Ideal) W).trans h.a7,
   (Cert.ReferenceIdeal.RefKeep.k5_main_arg8 (F := Ideal) W).trans h.a8⟩
theorem rinv6 {W : Valuation τ sig (Elt Ideal)} {src dst : IVec Cert.Shared.SE 32} {d : FVec Ideal Cert.Shared.SV .f32}
    {batch : IVec Cert.Shared.SV 32} {Wc : FVec Ideal Cert.Shared.S4HH .f32} {bc : FVec Ideal Cert.Shared.S4H .f32} {g beta : FVec Ideal Cert.Shared.S3H .f32}
    (h : RInv W src dst d batch Wc bc g beta) : RInv (after (ops6 (F := Ideal)) W) src dst d batch Wc bc g beta :=
  ⟨(Cert.ReferenceIdeal.RefKeep.k6_main_v1 (F := Ideal) W).trans h.v1,
   (Cert.ReferenceIdeal.RefKeep.k6_main_v3 (F := Ideal) W).trans h.v3,
   (Cert.ReferenceIdeal.RefKeep.k6_main_v10 (F := Ideal) W).trans h.v10,
   (Cert.ReferenceIdeal.RefKeep.k6_main_arg2 (F := Ideal) W).trans h.a2,
   (Cert.ReferenceIdeal.RefKeep.k6_main_arg5 (F := Ideal) W).trans h.a5,
   (Cert.ReferenceIdeal.RefKeep.k6_main_arg6 (F := Ideal) W).trans h.a6,
   (Cert.ReferenceIdeal.RefKeep.k6_main_arg7 (F := Ideal) W).trans h.a7,
   (Cert.ReferenceIdeal.RefKeep.k6_main_arg8 (F := Ideal) W).trans h.a8⟩
theorem rinv7 {W : Valuation τ sig (Elt Ideal)} {src dst : IVec Cert.Shared.SE 32} {d : FVec Ideal Cert.Shared.SV .f32}
    {batch : IVec Cert.Shared.SV 32} {Wc : FVec Ideal Cert.Shared.S4HH .f32} {bc : FVec Ideal Cert.Shared.S4H .f32} {g beta : FVec Ideal Cert.Shared.S3H .f32}
    (h : RInv W src dst d batch Wc bc g beta) : RInv (after (ops7 (F := Ideal)) W) src dst d batch Wc bc g beta :=
  ⟨(Cert.ReferenceIdeal.RefKeep.k7_main_v1 (F := Ideal) W).trans h.v1,
   (Cert.ReferenceIdeal.RefKeep.k7_main_v3 (F := Ideal) W).trans h.v3,
   (Cert.ReferenceIdeal.RefKeep.k7_main_v10 (F := Ideal) W).trans h.v10,
   (Cert.ReferenceIdeal.RefKeep.k7_main_arg2 (F := Ideal) W).trans h.a2,
   (Cert.ReferenceIdeal.RefKeep.k7_main_arg5 (F := Ideal) W).trans h.a5,
   (Cert.ReferenceIdeal.RefKeep.k7_main_arg6 (F := Ideal) W).trans h.a6,
   (Cert.ReferenceIdeal.RefKeep.k7_main_arg7 (F := Ideal) W).trans h.a7,
   (Cert.ReferenceIdeal.RefKeep.k7_main_arg8 (F := Ideal) W).trans h.a8⟩
theorem rinv8 {W : Valuation τ sig (Elt Ideal)} {src dst : IVec Cert.Shared.SE 32} {d : FVec Ideal Cert.Shared.SV .f32}
    {batch : IVec Cert.Shared.SV 32} {Wc : FVec Ideal Cert.Shared.S4HH .f32} {bc : FVec Ideal Cert.Shared.S4H .f32} {g beta : FVec Ideal Cert.Shared.S3H .f32}
    (h : RInv W src dst d batch Wc bc g beta) : RInv (after (ops8 (F := Ideal)) W) src dst d batch Wc bc g beta :=
  ⟨(Cert.ReferenceIdeal.RefKeep.k8_main_v1 (F := Ideal) W).trans h.v1,
   (Cert.ReferenceIdeal.RefKeep.k8_main_v3 (F := Ideal) W).trans h.v3,
   (Cert.ReferenceIdeal.RefKeep.k8_main_v10 (F := Ideal) W).trans h.v10,
   (Cert.ReferenceIdeal.RefKeep.k8_main_arg2 (F := Ideal) W).trans h.a2,
   (Cert.ReferenceIdeal.RefKeep.k8_main_arg5 (F := Ideal) W).trans h.a5,
   (Cert.ReferenceIdeal.RefKeep.k8_main_arg6 (F := Ideal) W).trans h.a6,
   (Cert.ReferenceIdeal.RefKeep.k8_main_arg7 (F := Ideal) W).trans h.a7,
   (Cert.ReferenceIdeal.RefKeep.k8_main_arg8 (F := Ideal) W).trans h.a8⟩

/-! ## The composition over abstract intermediate arrays -/

/-- If the intermediate arrays satisfy the layer equations one after the other, the last one pooled is the net. -/
theorem ref_compose (x : FVec Ideal Cert.Shared.NH .f32) (e : IVec Cert.Shared.SE2 32) (batch : IVec Cert.Shared.SV 32) (Wemb : FVec Ideal Cert.Shared.HH .f32)
    (bemb : FVec Ideal Cert.Shared.SH .f32) (Wc : FVec Ideal Cert.Shared.S4HH .f32) (bc : FVec Ideal Cert.Shared.S4H .f32) (g beta : FVec Ideal Cert.Shared.S3H .f32)
    (h0 a0 n0 a1 n1 a2 n2 a3 : FVec Ideal Cert.Shared.NH .f32) (r : FVec Ideal Cert.Shared.SGH .f32)
    (hh0 : h0 = Cert.Shared.embF x Wemb bemb)
    (ha0 : a0 = Cert.Shared.reluF (Cert.Shared.refLayer h0 (Cert.Shared.dinvF (F := Ideal) (Cert.Shared.dstOf e)) (Cert.Shared.srcOf e) (Cert.Shared.dstOf e) (Cert.Shared.sliceW0 Wc) (Cert.Shared.sliceB0 bc)))
    (hn0 : n0 = Cert.Shared.bnF a0 (Cert.Shared.meanF a0) (Cert.Shared.varF a0) (Cert.Shared.sliceG0 g) (Cert.Shared.sliceG0 beta))
    (ha1 : a1 = Cert.Shared.reluF (Cert.Shared.refLayer n0 (Cert.Shared.dinvF (F := Ideal) (Cert.Shared.dstOf e)) (Cert.Shared.srcOf e) (Cert.Shared.dstOf e) (Cert.Shared.sliceW1 Wc) (Cert.Shared.sliceB1 bc)))
    (hn1 : n1 = Cert.Shared.bnF a1 (Cert.Shared.meanF a1) (Cert.Shared.varF a1) (Cert.Shared.sliceG1 g) (Cert.Shared.sliceG1 beta))
    (ha2 : a2 = Cert.Shared.reluF (Cert.Shared.refLayer n1 (Cert.Shared.dinvF (F := Ideal) (Cert.Shared.dstOf e)) (Cert.Shared.srcOf e) (Cert.Shared.dstOf e) (Cert.Shared.sliceW2 Wc) (Cert.Shared.sliceB2 bc)))
    (hn2 : n2 = Cert.Shared.bnF a2 (Cert.Shared.meanF a2) (Cert.Shared.varF a2) (Cert.Shared.sliceG2 g) (Cert.Shared.sliceG2 beta))
    (ha3 : a3 = Cert.Shared.refLayer n2 (Cert.Shared.dinvF (F := Ideal) (Cert.Shared.dstOf e)) (Cert.Shared.srcOf e) (Cert.Shared.dstOf e) (Cert.Shared.sliceW3 Wc) (Cert.Shared.sliceB3 bc))
    (hr : r = Cert.Shared.poolF a3 batch) :
    r = Cert.Nets.refNet x e batch Wemb bemb Wc bc g beta := by
  subst hr; subst ha3; subst hn2; subst ha2; subst hn1; subst ha1; subst hn0; subst ha0; subst hh0
  rfl

/-! ## The result -/

/-- The fold of all the operations, read at the result buffer. -/
theorem ref_result :
    after (ops (F := Ideal)) V (Proc.devRef .tc main_v262)
      = Cert.Nets.refNet (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8)) := by
  rw [after_ops]
  have i1 : RInv (S1 V) (Cert.Shared.srcOf (V (Proc.devRef .tc main_arg1))) (Cert.Shared.dstOf (V (Proc.devRef .tc main_arg1)))
      (Cert.Shared.dinvF (F := Ideal) (Cert.Shared.dstOf (V (Proc.devRef .tc main_arg1)))) (V (Proc.devRef .tc main_arg2)) (V (Proc.devRef .tc main_arg5))
      (V (Proc.devRef .tc main_arg6)) (V (Proc.devRef .tc main_arg7)) (V (Proc.devRef .tc main_arg8)) :=
    ⟨Cert.ReferenceIdeal.RefValue.c0_main_v1 (F := Ideal) V, Cert.ReferenceIdeal.RefValue.c0_main_v3 (F := Ideal) V, Cert.ReferenceIdeal.RefValue.c0_main_v10 (F := Ideal) V, Cert.ReferenceIdeal.RefKeep.k0_main_arg2 (F := Ideal) V,
     Cert.ReferenceIdeal.RefKeep.k0_main_arg5 (F := Ideal) V, Cert.ReferenceIdeal.RefKeep.k0_main_arg6 (F := Ideal) V, Cert.ReferenceIdeal.RefKeep.k0_main_arg7 (F := Ideal) V, Cert.ReferenceIdeal.RefKeep.k0_main_arg8 (F := Ideal) V⟩
  have i2 : RInv (S2 V) _ _ _ _ _ _ _ _ := rinv1 i1
  have i3 : RInv (S3 V) _ _ _ _ _ _ _ _ := rinv2 i2
  have i4 : RInv (S4 V) _ _ _ _ _ _ _ _ := rinv3 i3
  have i5 : RInv (S5 V) _ _ _ _ _ _ _ _ := rinv4 i4
  have i6 : RInv (S6 V) _ _ _ _ _ _ _ _ := rinv5 i5
  have i7 : RInv (S7 V) _ _ _ _ _ _ _ _ := rinv6 i6
  have i8 : RInv (S8 V) _ _ _ _ _ _ _ _ := rinv7 i7
  refine ref_compose _ _ _ _ _ _ _ _ _ (S1 V (Proc.devRef .tc main_v14)) (S2 V (Proc.devRef .tc main_v56)) (S3 V (Proc.devRef .tc main_v79)) (S4 V (Proc.devRef .tc main_v121))
    (S5 V (Proc.devRef .tc main_v144)) (S6 V (Proc.devRef .tc main_v186)) (S7 V (Proc.devRef .tc main_v209)) (S8 V (Proc.devRef .tc main_v250)) _ ?_ ?_ ?_ ?_ ?_ ?_ ?_ ?_ ?_
  · exact Cert.ReferenceIdeal.RefValue.c0_main_v14 (F := Ideal) V
  · rw [show S2 V (Proc.devRef .tc main_v56) = _ from Cert.ReferenceIdeal.RefValue.c1_main_v56 (F := Ideal) (S1 V), i1.v10, i1.v1, i1.v3, i1.a5, i1.a6]
  · rw [show S3 V (Proc.devRef .tc main_v79) = _ from Cert.ReferenceIdeal.RefValue.c2_main_v79 (F := Ideal) (S2 V), i2.a7, i2.a8]
  · rw [show S4 V (Proc.devRef .tc main_v121) = _ from Cert.ReferenceIdeal.RefValue.c3_main_v121 (F := Ideal) (S3 V), i3.v10, i3.v1, i3.v3, i3.a5, i3.a6]
  · rw [show S5 V (Proc.devRef .tc main_v144) = _ from Cert.ReferenceIdeal.RefValue.c4_main_v144 (F := Ideal) (S4 V), i4.a7, i4.a8]
  · rw [show S6 V (Proc.devRef .tc main_v186) = _ from Cert.ReferenceIdeal.RefValue.c5_main_v186 (F := Ideal) (S5 V), i5.v10, i5.v1, i5.v3, i5.a5, i5.a6]
  · rw [show S7 V (Proc.devRef .tc main_v209) = _ from Cert.ReferenceIdeal.RefValue.c6_main_v209 (F := Ideal) (S6 V), i6.a7, i6.a8]
  · rw [show S8 V (Proc.devRef .tc main_v250) = _ from Cert.ReferenceIdeal.RefValue.c7_main_v250 (F := Ideal) (S7 V), i7.v10, i7.v1, i7.v3, i7.a5, i7.a6]
  · rw [show S9 V (Proc.devRef .tc main_v262) = _ from Cert.ReferenceIdeal.RefValue.c8_main_v262 (F := Ideal) (S8 V), i8.a2]

end Cert.ReferenceIdeal.RefNet

end
-- ==== Proof.ScatterRead.lean ====
/- Reading the row scatter's and the row gather's index arithmetic for the node/edge shapes of this network: an update
   at edge `e`, channel `c` lands on node `n`, channel `c` exactly when the edge's destination word, read as a signed
   integer, is `n`; a gathered row is the source word read signed and clamped into the node range. -/
import Idealize.ShloMosaic.PureOps.Ideal
import Idealize.ShloMosaic.Lib.ValueIdx

namespace Cert.ScatterRead

open Idealize.ShloMosaic Idealize.ShloMosaic.ValueIdx

abbrev SN : Shape := ⟨2, ![50000, 128]⟩
abbrev SE1 : Shape := ⟨2, ![800000, 1]⟩
abbrev SEC : Shape := ⟨2, ![800000, 128]⟩

/-- The row scatter's dimension numbers (update windows along the channels, the node axis inserted and scattered). -/
abbrev sd (hwf : ScatterDims.WF SN SE1 SEC [1] [0] [0] 1) : ScatterDims SN SE1 SEC := ⟨[1], [0], [0], 1, hwf⟩

variable (hwf : ScatterDims.WF SN SE1 SEC [1] [0] [0] 1)

theorem win1 (j : SEC.Idx) : (sd hwf).window j 1 = (j 1).val := by
  unfold ScatterDims.window
  simp [Shape.kept]
  rfl

theorem win0 (j : SEC.Idx) : (sd hwf).window j 0 = 0 := by
  unfold ScatterDims.window
  simp [Shape.kept]

theorem siIdx0 (j : SEC.Idx) (c) : (sd hwf).siIdx j c = ix2 (j 0) (0 : Fin 1) := by
  funext b
  unfold ScatterDims.siIdx
  match b with
  | ⟨0, _⟩ =>
    simp
    unfold ScatterDims.siCoord
    apply Fin.ext
    simp [Shape.kept]
    rfl
  | ⟨1, _⟩ =>
    simp
    have := c.isLt
    simp at this
    apply Fin.ext
    simp [this]

theorem start0 (j : SEC.Idx) (idx : IVec SE1 32) : (sd hwf).start j idx 0 = (idx (ix2 (j 0) 0)).toInt := by
  unfold ScatterDims.start
  rw [dif_pos (by simp), siIdx0]
  rfl

theorem start1 (j : SEC.Idx) (idx : IVec SE1 32) : (sd hwf).start j idx 1 = 0 := by
  unfold ScatterDims.start
  rw [dif_neg (by simp)]

/-- An update that lands lands on its own channel, at the node its destination word names. -/
theorem resultIdx_some (j : SEC.Idx) (idx : IVec SE1 32) (i : SN.Idx) (h : (sd hwf).resultIdx? j idx = some i) :
    (i 1).val = (j 1).val ∧ (idx (ix2 (j 0) 0)).toInt = ((i 0).val : Int) := by
  unfold ScatterDims.resultIdx? at h
  split at h
  · rename_i hb
    have hi := Option.some.inj h
    have h0 := hb 0
    have h1 := hb 1
    rw [start0, win0] at h0
    rw [start1, win1] at h1
    constructor
    · rw [← hi]
      show (((sd hwf).start j idx 1 + (sd hwf).window j 1).toNat) = _
      rw [start1, win1]; simp
    · rw [← hi]
      show _ = (((((sd hwf).start j idx 0 + (sd hwf).window j 0).toNat : Nat)) : Int)
      rw [start0, win0]
      omega
  · exact absurd h (by simp)

end Cert.ScatterRead
-- ==== Proof.GatherRead.lean ====
/- Reading the two gathers of this network at an index: a gathered row (of a node × channel array, or of the node
   vector of degree weights) is the row the edge's index word names, read as a signed integer and clamped into the
   node range. -/
import Idealize.ShloMosaic.PureOps.Ideal
import Idealize.ShloMosaic.Lib.ValueIdx

namespace Cert.GatherRead

open Idealize.ShloMosaic Idealize.ShloMosaic.ValueIdx

abbrev SN : Shape := ⟨2, ![50000, 128]⟩
abbrev SV : Shape := ⟨1, ![50000]⟩
abbrev SE : Shape := ⟨1, ![800000]⟩
abbrev SE1 : Shape := ⟨2, ![800000, 1]⟩
abbrev SEC : Shape := ⟨2, ![800000, 128]⟩

/-- The node an edge's index word names: the word read signed, clamped into `[0, 49999]`. -/
def rowOf (idx : IVec SE1 32) (e : Fin 800000) : Fin 50000 :=
  ⟨min (idx (ix2 e 0)).toInt.toNat 49999, by omega⟩

/-- The row gather's dimension numbers. -/
abbrev gdRows (hwf : GatherDims.WF SN SE1 SEC [1] [0] [] [0] [] 1 ![1, 128]) : GatherDims SN SE1 SEC :=
  ⟨[1], [0], [], [], [0], 1, ![1, 128], hwf⟩
/-- The vector gather's dimension numbers. -/
abbrev gdVec (hwf : GatherDims.WF SV SE1 SE [] [0] [] [0] [] 1 ![1]) : GatherDims SV SE1 SE :=
  ⟨[], [0], [], [], [0], 1, ![1], hwf⟩

section Rows
variable (hwf : GatherDims.WF SN SE1 SEC [1] [0] [] [0] [] 1 ![1, 128])

theorem rows_siIdx (j : SEC.Idx) (c) : (gdRows hwf).siIdx j c = ix2 (j 0) (0 : Fin 1) := by
  funext b
  unfold GatherDims.siIdx
  match b with
  | ⟨0, _⟩ =>
    simp
    unfold GatherDims.siCoord
    apply Fin.ext
    simp [Shape.kept]
    rfl
  | ⟨1, _⟩ =>
    simp
    have := c.isLt
    simp at this
    apply Fin.ext
    simp [this]

theorem rows_operandIdx (j : SEC.Idx) (idx : IVec SE1 32) :
    (gdRows hwf).operandIdx j idx = ix2 (rowOf idx (j 0)) (j 1) := by
  funext a
  apply Fin.ext
  unfold GatherDims.operandIdx
  match a with
  | ⟨0, _⟩ =>
    show (gdRows hwf).start j idx 0 + (gdRows hwf).batchCoord j 0 + (gdRows hwf).offCoord j 0 = _
    rw [GatherDims.batchCoord_eq_zero _ _ _ (by simp), GatherDims.offCoord_eq_zero _ _ _ (by simp [Shape.kept])]
    unfold GatherDims.start
    rw [dif_pos (by simp), rows_siIdx]
    rfl
  | ⟨1, _⟩ =>
    show (gdRows hwf).start j idx 1 + (gdRows hwf).batchCoord j 1 + (gdRows hwf).offCoord j 1 = _
    rw [GatherDims.batchCoord_eq_zero _ _ _ (by simp)]
    unfold GatherDims.start GatherDims.offCoord
    rw [dif_neg (by simp), dif_pos (by simp [Shape.kept])]
    simp [Shape.kept]
    rfl
end Rows

section Vec
variable (hwf : GatherDims.WF SV SE1 SE [] [0] [] [0] [] 1 ![1])

theorem vec_siIdx (j : SE.Idx) (c) : (gdVec hwf).siIdx j c = ix2 (j 0) (0 : Fin 1) := by
  funext b
  unfold GatherDims.siIdx
  match b with
  | ⟨0, _⟩ =>
    simp
    unfold GatherDims.siCoord
    apply Fin.ext
    simp [Shape.kept]
    rfl
  | ⟨1, _⟩ =>
    simp
    have := c.isLt
    simp at this
    apply Fin.ext
    simp [this]

theorem vec_operandIdx (j : SE.Idx) (idx : IVec SE1 32) :
    (gdVec hwf).operandIdx j idx = ix1 (rowOf idx (j 0)) := by
  funext a
  apply Fin.ext
  unfold GatherDims.operandIdx
  match a with
  | ⟨0, _⟩ =>
    show (gdVec hwf).start j idx 0 + (gdVec hwf).batchCoord j 0 + (gdVec hwf).offCoord j 0 = _
    rw [GatherDims.batchCoord_eq_zero _ _ _ (by simp), GatherDims.offCoord_eq_zero _ _ _ (by simp [Shape.kept])]
    unfold GatherDims.start
    rw [dif_pos (by simp), vec_siIdx]
    rfl
end Vec

end Cert.GatherRead
-- ==== Proof.LibBcastRead.lean ====
/- `broadcast_in_dim` read at an index, for the column and row forms a host program meets around a matrix:
   a vector made a column ([n] → [n,1]), a column spread over the channels ([n,1] → [n,m]), a vector made a row
   ([m] → [1,m]) and a row spread over the rows ([1,m] → [n,m]).  Each reads the operand at the coordinates the
   broadcast keeps.  Stated for any element type and any extents (extent one included). -/
import Idealize.ShloMosaic.Lib.Pipeline.Value
import Idealize.ShloMosaic.Lib.ValueIdx

namespace Cert.LibBcastRead

open Idealize.ShloMosaic Idealize.ShloMosaic.ValueIdx

variable {α : Type}

/-- A vector made a column: entry (r, 0) is entry r. -/
theorem col {n : Nat} (h : (⟨1, ![n]⟩ : Shape).BroadcastsInDim ⟨2, ![n, 1]⟩ ![0]) (x : (⟨1, ![n]⟩ : Shape).Idx → α)
    (j : (⟨2, ![n, 1]⟩ : Shape).Idx) : broadcastInDim ⟨2, ![n, 1]⟩ ![0] h x j = x (ix1 (j 0)) := by
  refine broadcastInDim_apply _ h x j _ fun a => ?_
  match a with
  | ⟨0, _⟩ =>
    show (j 0).val = if n = 1 then 0 else (j 0).val
    split
    · rename_i h1; have := (j 0).isLt; simp only [Matrix.cons_val_zero] at this; omega
    · rfl

/-- A column spread over the channels: entry (r, c) is entry (r, 0). -/
theorem colSpread {n m : Nat} (h : (⟨2, ![n, 1]⟩ : Shape).BroadcastsInDim ⟨2, ![n, m]⟩ ![0, 1])
    (x : (⟨2, ![n, 1]⟩ : Shape).Idx → α) (j : (⟨2, ![n, m]⟩ : Shape).Idx) :
    broadcastInDim ⟨2, ![n, m]⟩ ![0, 1] h x j = x (ix2 (j 0) 0) := by
  refine broadcastInDim_apply _ h x j _ fun a => ?_
  match a with
  | ⟨0, _⟩ =>
    show (j 0).val = if n = 1 then 0 else (j 0).val
    split
    · rename_i h1; have := (j 0).isLt; simp only [Matrix.cons_val_zero] at this; omega
    · rfl
  | ⟨1, _⟩ => rfl

/-- A vector made a row: entry (0, c) is entry c. -/
theorem row {m : Nat} (h : (⟨1, ![m]⟩ : Shape).BroadcastsInDim ⟨2, ![1, m]⟩ ![1]) (x : (⟨1, ![m]⟩ : Shape).Idx → α)
    (j : (⟨2, ![1, m]⟩ : Shape).Idx) : broadcastInDim ⟨2, ![1, m]⟩ ![1] h x j = x (ix1 (j 1)) := by
  refine broadcastInDim_apply _ h x j _ fun a => ?_
  match a with
  | ⟨0, _⟩ =>
    show (j 1).val = if m = 1 then 0 else (j 1).val
    split
    · rename_i h1; have := (j 1).isLt; simp only [Matrix.cons_val_one, Matrix.cons_val_zero] at this; omega
    · rfl

/-- A row spread over the rows: entry (r, c) is entry (0, c). -/
theorem rowSpread {n m : Nat} (h : (⟨2, ![1, m]⟩ : Shape).BroadcastsInDim ⟨2, ![n, m]⟩ ![0, 1])
    (x : (⟨2, ![1, m]⟩ : Shape).Idx → α) (j : (⟨2, ![n, m]⟩ : Shape).Idx) :
    broadcastInDim ⟨2, ![n, m]⟩ ![0, 1] h x j = x (ix2 0 (j 1)) := by
  refine broadcastInDim_apply _ h x j _ fun a => ?_
  match a with
  | ⟨0, _⟩ => rfl
  | ⟨1, _⟩ =>
    show (j 1).val = if m = 1 then 0 else (j 1).val
    split
    · rename_i h1; have := (j 1).isLt; simp only [Matrix.cons_val_one, Matrix.cons_val_zero] at this; omega
    · rfl

/-- A scalar spread over any shape reads the scalar. -/
theorem scalar {T : Shape} (h : (⟨0, ![]⟩ : Shape).BroadcastsInDim T ![]) (x : (⟨0, ![]⟩ : Shape).Idx → α) (j : T.Idx) :
    broadcastInDim T ![] h x j = x ix0 :=
  broadcastInDim_apply _ h x j _ fun a => a.elim0

end Cert.LibBcastRead
-- ==== Proof.LibScaleSum.lean ====
/- Scaling a sum on the extended reals.
   On the extended reals a product does not distribute over a sum in general (∞ + (−∞) is −∞ by convention, so a
   negative factor breaks it), but a factor that is a non-negative real number does: it is an order isomorphism of
   the extended line fixing 0 and both infinities, or the constant 0.  This file states that law for finite sums
   and the consequence used by symmetric graph normalisation: pulling the destination node's weight out of the
   sum over the incoming edges. -/
import Mathlib.Data.EReal.Inv
import Mathlib.Algebra.BigOperators.Group.Finset.Basic

namespace Cert.LibScaleSum

open Finset

/-- A non-negative finite factor distributes over a finite sum of extended reals. -/
theorem mul_sum {ι : Type*} (s : Finset ι) (a : EReal) (ha : 0 ≤ a) (ha' : a ≠ ⊤) (f : ι → EReal) :
    a * ∑ i ∈ s, f i = ∑ i ∈ s, a * f i := by
  classical
  induction s using Finset.induction_on with
  | empty => simp
  | insert x s hx ih =>
    rw [Finset.sum_insert hx, Finset.sum_insert hx, EReal.left_distrib_of_nonneg_of_ne_top ha ha', ih]

/-- The weight of the destination pulled out of a sum over incoming edges.  Every edge `j` of the set `s` carries
    the weight `w j` of its source and a value `v j`; all of them end at one node of weight `a` (`hd`: the
    destination weight `wd j` read on the edge is `a`).  Then summing `(w j · wd j) · v j` over the edges and adding
    the self-loop `(a · a) · x` is `a` times (the sum of `w j · v j` plus `a · x`). -/
theorem pull_out {ι : Type*} (s : Finset ι) (a : EReal) (ha : 0 ≤ a) (ha' : a ≠ ⊤) (w wd v : ι → EReal) (x : EReal)
    (hd : ∀ j ∈ s, wd j = a) :
    a * ((∑ j ∈ s, w j * v j) + a * x) = (∑ j ∈ s, (w j * wd j) * v j) + (a * a) * x := by
  rw [EReal.left_distrib_of_nonneg_of_ne_top ha ha', mul_sum s a ha ha', mul_assoc a a x]
  congr 1
  refine Finset.sum_congr rfl fun j hj => ?_
  rw [hd j hj, mul_comm (w j) a, mul_assoc]

end Cert.LibScaleSum
-- ==== Proof.Layer.lean ====
/- One graph-convolution layer, read entry by entry on the extended reals, and the law that joins the two programs.
   At node n, channel c, with S the set of (edge, channel) updates the scatter lands on (n, c):
     kernel program:  d n · ( Σ_{j ∈ S} u(src j, c_j) + u(n, c) ) + b c,      u(r, q) = d r · (h W)(r, q)
     reference:       Σ_{j ∈ S} (d(src j) · d(dst j)) · (h W)(src j, c_j) + (d n · d n) · (h W)(n, c) + b c.
   Every j in S has c_j = c and destination n, and d n is a non-negative real number, so it distributes over the sum. -/
import proofs.«113380_j111669150109_2_alg».proof.Proof.Shared
import proofs.«113380_j111669150109_2_alg».proof.Proof.Spec
import proofs.«113380_j111669150109_2_alg».proof.Proof.ScatterRead
import proofs.«113380_j111669150109_2_alg».proof.Proof.GatherRead
import proofs.«113380_j111669150109_2_alg».proof.Proof.LibBcastRead
import proofs.«113380_j111669150109_2_alg».proof.Proof.LibScaleSum
import Idealize.ShloMosaic.PureOps.Ideal.Laws
import Idealize.ShloMosaic.Lib.Pipeline.Value

noncomputable section

namespace Cert.Layer

open Idealize.ShloMosaic Idealize.ShloMosaic.ValueIdx Cert.Shared

/-- The zero array the scatters accumulate into. -/
abbrev Z : FVec Ideal NH .f32 := splat NH (by decide) (constant S_ .f32 0x00000000#32)

/-- The node an edge's (wrapped) source or destination word names. -/
abbrev node (x : IVec SE 32) (e : Fin 800000) : Fin 50000 := Cert.GatherRead.rowOf (wrapIdx x) e

/-- At the extended reals the host's accumulating scatter is the exact sum. -/
theorem scatter_ideal (x : FVec Ideal NH .f32) (idx : IVec SE1 32) (u : FVec Ideal SEC .f32) :
    Host.scatterAdd sdRows x idx u = Ideal.hostScatterAdd sdRows x idx u := by
  unfold Host.scatterAdd
  rw [Ideal.hostScatterAdd_def]

/-- A gathered row of a node × channel array. -/
theorem gatherRows_apply {φ : FTy} (u : FVec Ideal NH φ) (idx : IVec SE1 32) (j : SEC.Idx) :
    Host.gather gdRows u idx j = u (ix2 (Cert.GatherRead.rowOf idx (j 0)) (j 1)) := by
  unfold Host.gather
  rw [show gdRows = Cert.GatherRead.gdRows (by decide) from rfl, Cert.GatherRead.rows_operandIdx]
  rfl

/-- A gathered entry of a node vector. -/
theorem gatherVec_apply (d : FVec Ideal SV .f32) (idx : IVec SE1 32) (e : SE.Idx) :
    Host.gather gdVec d idx e = d (ix1 (Cert.GatherRead.rowOf idx (e 0))) := by
  unfold Host.gather
  rw [show gdVec = Cert.GatherRead.gdVec (by decide) from rfl, Cert.GatherRead.vec_operandIdx]

/-- The kernel program's update: the gathered row of `u`, widened. -/
theorem kerUpd (u : FVec Ideal NH .bf16) (idx : IVec SE1 32) :
    (extf .f32 (Host.gather gdRows u idx) (by decide) : FVec Ideal SEC .f32)
      = fun j => u (ix2 (Cert.GatherRead.rowOf idx (j 0)) (j 1)) := by
  funext j
  rw [extf_apply, gatherRows_apply]

/-- The kernel program's aggregation is the scatter of the gathered rows, row `node src e` of `u` for edge `e`. -/
theorem kerSeg_eq (u : FVec Ideal NH .bf16) (src dst : IVec SE 32) :
    kerSeg (F := Ideal) u src dst
      = Ideal.hostScatterAdd sdRows Z (colIdx dst) (fun j => u (ix2 (node src (j 0)) (j 1))) := by
  unfold kerSeg
  rw [scatter_ideal, kerUpd]

/-- The matrix product `h · W` on the host, at an entry. -/
theorem dot_apply (h : FVec Ideal NH .f32) (W : FVec Ideal HH .f32) (r : Fin 50000) (c : Fin 128) :
    Host.dotGeneral dotN none h W (ix2 r c) = Cert.Spec.mm h W r c := by
  unfold Host.dotGeneral Cert.Spec.mm
  rw [Ideal.dotGeneral_apply, ← Equiv.sum_comp (contrEquiv1 dotN 128 rfl rfl).symm]
  refine Finset.sum_congr rfl fun k _ => ?_
  have hk := contrEquiv1_symm_val dotN 128 rfl rfl k
  have el : dotN.lhsIdx (ix2 r c) ((contrEquiv1 dotN 128 rfl rfl).symm k) = ix2 r k := funext fun a => Fin.ext (by
    match a with
    | ⟨0, _⟩ => rfl
    | ⟨1, _⟩ => exact (DotDims.lhsIdx_val_of_single dotN (cl := 1) rfl _ _).trans hk)
  have er : dotN.rhsIdx (ix2 r c) ((contrEquiv1 dotN 128 rfl rfl).symm k) = ix2 k c := funext fun a => Fin.ext (by
    match a with
    | ⟨0, _⟩ => exact (DotDims.rhsIdx_val_of_single dotN (cr := 0) rfl _ _).trans hk
    | ⟨1, _⟩ => rfl)
  rw [el, er]

/-- The reference's update for an (edge, channel): both endpoints' weights times the gathered product entry. -/
theorem refUpd (d : FVec Ideal SV .f32) (ws wd : IVec SE1 32) (HW : FVec Ideal NH .f32) :
    (mulf
        (broadcastInDim SEC ![0, 1] (by decide)
          (broadcastInDim SE1 ![0] (by decide) (mulf (Host.gather gdVec d ws) (Host.gather gdVec d wd))))
        (Host.gather gdRows HW ws) : FVec Ideal SEC .f32)
      = fun j => (d (ix1 (Cert.GatherRead.rowOf ws (j 0))) * d (ix1 (Cert.GatherRead.rowOf wd (j 0))))
          * HW (ix2 (Cert.GatherRead.rowOf ws (j 0)) (j 1)) := by
  funext j
  rw [mulf_apply, Cert.LibBcastRead.colSpread, Cert.LibBcastRead.col, mulf_apply, gatherVec_apply, gatherVec_apply,
    gatherRows_apply]

/-- The self-loop term at an entry. -/
theorem selfTerm (d : FVec Ideal SV .f32) (HW : FVec Ideal NH .f32) (n : Fin 50000) (c : Fin 128) :
    (mulf (broadcastInDim NH ![0, 1] (by decide) (broadcastInDim N1 ![0] (by decide) (mulf d d))) HW : FVec Ideal NH .f32) (ix2 n c)
      = (d (ix1 n) * d (ix1 n)) * HW (ix2 n c) := by
  rw [mulf_apply, Cert.LibBcastRead.colSpread, Cert.LibBcastRead.col, mulf_apply]

/-- A channel vector spread over the nodes, at an entry. -/
theorem rowsOf_apply (b : FVec Ideal SH .f32) (n : Fin 50000) (c : Fin 128) : rowsOf b (ix2 n c) = b (ix1 c) := by
  unfold rowsOf
  rw [Cert.LibBcastRead.rowSpread, Cert.LibBcastRead.row]

/-- The reference's layer at an entry: the scatter of the doubly weighted gathered products, the self-loop, the bias. -/
theorem refLayer_apply (hin : FVec Ideal NH .f32) (d : FVec Ideal SV .f32) (src dst : IVec SE 32) (W : FVec Ideal HH .f32)
    (b : FVec Ideal SH .f32) (n : Fin 50000) (c : Fin 128) :
    refLayer (F := Ideal) hin d src dst W b (ix2 n c)
      = (Ideal.hostScatterAdd sdRows Z (colIdx dst)
            (fun j => (d (ix1 (node src (j 0))) * d (ix1 (node dst (j 0))))
              * Host.dotGeneral dotN none hin W (ix2 (node src (j 0)) (j 1))) (ix2 n c)
          + (d (ix1 n) * d (ix1 n)) * Host.dotGeneral dotN none hin W (ix2 n c))
        + b (ix1 c) := by
  unfold refLayer
  rw [addf_apply, addf_apply, selfTerm, rowsOf_apply, scatter_ideal, refUpd]

/-- An edge whose destination word, read signed, is the node `n` gathers the destination's weight at `n`:
    a non-negative word is not wrapped, and a node number is not clamped. -/
theorem node_of_dst (dst : IVec SE 32) (e : Fin 800000) (n : Fin 50000) (h : (dst (ix1 e)).toInt = (n.val : Int)) :
    node dst e = n := by
  have hn := n.isLt
  have hc : IntOp.cmpi .slt (dst (ix1 e)) (0#32) = 0#1 := by
    unfold IntOp.cmpi
    have : (dst (ix1 e)).slt 0#32 = false := by
      rw [BitVec.slt, h]; simp
    rw [this]; rfl
  have hw : wrapIdx dst (ix2 e 0) = dst (ix1 e) := by
    unfold wrapIdx
    rw [Cert.LibBcastRead.col, select_apply]
    show Scalar.select (IntOp.cmpi .slt (dst (ix1 e)) (0#32)) _ (dst (ix1 e)) = _
    rw [hc, select_zero]
  apply Fin.ext
  show min ((wrapIdx dst (ix2 e 0)).toInt.toNat) 49999 = n.val
  rw [hw, h]
  omega

/-- The zero accumulator at an entry. -/
theorem Z_apply (i : NH.Idx) : Z i = 0 := by
  show broadcastInDim NH ![] _ (constant (F := Ideal) S_ .f32 0x00000000#32) i = _
  rw [Cert.LibBcastRead.scalar, constant_apply, Ideal.ofBits_zero_f32]

/-- THE LAYER LAW.  With `u = d · (h W)` row by row and `d` a vector of non-negative reals, the kernel program's
    `d n · (Σ gathered rows of u + u n) + b` is the reference's layer at every entry. -/
theorem layer_law (hin : FVec Ideal NH .f32) (d : FVec Ideal SV .f32) (hd : ∀ i, 0 ≤ d i ∧ d i ≠ ⊤)
    (src dst : IVec SE 32) (W : FVec Ideal HH .f32) (b : FVec Ideal SH .f32) (u : FVec Ideal NH .bf16)
    (hu : ∀ r c, u (ix2 r c) = d (ix1 r) * Host.dotGeneral dotN none hin W (ix2 r c)) (n : Fin 50000) (c : Fin 128) :
    d (ix1 n) * (kerSeg (F := Ideal) u src dst (ix2 n c) + u (ix2 n c)) + b (ix1 c)
      = refLayer (F := Ideal) hin d src dst W b (ix2 n c) := by
  rw [refLayer_apply, kerSeg_eq]
  unfold Ideal.hostScatterAdd
  rw [Z_apply, zero_add, zero_add]
  rw [hu n c, Finset.sum_congr rfl (fun (x : SEC.Idx) _ => hu (node src (x 0)) (x 1))]
  refine congrArg (· + b (ix1 c)) ?_
  refine Cert.LibScaleSum.pull_out (ι := SEC.Idx) _ (d (ix1 n)) (hd _).1 (hd _).2 (fun j : SEC.Idx => d (ix1 (node src (j 0))))
    (fun j : SEC.Idx => d (ix1 (node dst (j 0)))) (fun j : SEC.Idx => Host.dotGeneral dotN none hin W (ix2 (node src (j 0)) (j 1)))
    (Host.dotGeneral dotN none hin W (ix2 n c)) fun j hj => ?_
  have hj' := (Finset.mem_filter.1 hj).2
  have hr := (Cert.ScatterRead.resultIdx_some (by decide) j (colIdx dst) (ix2 n c) hj').2
  have hcol : colIdx dst (ix2 (j 0) 0) = dst (ix1 (j 0)) := by
    unfold colIdx
    rw [Cert.LibBcastRead.col]
  rw [hcol] at hr
  rw [node_of_dst dst (j 0) n hr]

end Cert.Layer

end
-- ==== Proof.Dinv.lean ====
/- The degree weights are non-negative real numbers: one plus a count of edges is a real number at least one, and
   the reciprocal square root of a positive real is a non-negative real. -/
import proofs.«113380_j111669150109_2_alg».proof.Proof.Shared
import proofs.«113380_j111669150109_2_alg».proof.Proof.LibBcastRead
import Idealize.ShloMosaic.PureOps.Ideal.Laws
import Idealize.ShloMosaic.Lib.IdealHost
import Idealize.ShloMosaic.Lib.ValueIdx

noncomputable section

namespace Cert.Dinv

open Idealize.ShloMosaic Idealize.ShloMosaic.ValueIdx Cert.Shared

/-- The reciprocal square root of a positive real is a non-negative real. -/
theorem rsqrt_pos_real (r : ℝ) (hr : 0 < r) : 0 ≤ Ideal.rsqrt (r : EReal) ∧ Ideal.rsqrt (r : EReal) ≠ ⊤ := by
  rw [Ideal.rsqrt_coe, if_neg (not_lt.2 hr.le), if_neg hr.ne']
  exact ⟨by exact_mod_cast inv_nonneg.2 (Real.sqrt_nonneg r), EReal.coe_ne_top _⟩

/-- One plus a count, as an extended real, is the real number. -/
theorem count_succ (k : ℕ) : (k : EReal) + 1 = (((k : ℝ) + 1 : ℝ) : EReal) := by
  rw [← EReal.coe_coe_eq_natCast]
  norm_cast

/-- The host's reciprocal square root at an entry. -/
theorem hostRsqrt_apply (x : FVec Ideal SV .f32) (i : SV.Idx) : Host.rsqrt x i = Ideal.rsqrt (x i) := by
  unfold Host.rsqrt
  rw [Ideal.hostUnary_rsqrt_def]

/-- A scalar constant spread over a shape, at an entry. -/
theorem splat_const (T : Shape) (h : S_.BroadcastsInDim T (![] : Fin 0 → Fin T.rank)) (b : BitVec 32) (i : T.Idx) :
    splat T h (constant (F := Ideal) S_ .f32 b) i = Ideal.ofBits .f32 b := by
  show broadcastInDim T ![] h (constant (F := Ideal) S_ .f32 b) i = _
  rw [Cert.LibBcastRead.scalar, constant_apply]

/-- At the extended reals the host's accumulating scatter of scalars over nodes is the exact sum. -/
theorem scatterDeg_ideal (x : FVec Ideal SV .f32) (idx : IVec SE1 32) (u : FVec Ideal SE .f32) :
    Host.scatterAdd sdDeg x idx u = Ideal.hostScatterAdd sdDeg x idx u := by
  unfold Host.scatterAdd
  rw [Ideal.hostScatterAdd_def]

/-- The in-degree count at a node: the scatter of ones over the destinations. -/
theorem degree_eq (dst : IVec SE 32) (i : SV.Idx) :
    ∃ k : ℕ, Host.scatterAdd sdDeg (splat SV (by decide) (constant (F := Ideal) S_ .f32 0x00000000#32)) (colIdx dst)
        (splat SE (by decide) (constant S_ .f32 0x3F800000#32)) i = (k : EReal) := by
  rw [scatterDeg_ideal]
  unfold Ideal.hostScatterAdd
  rw [splat_const]
  simp only [splat_const]
  rw [Ideal.ofBits_zero_f32, Ideal.ofBits_one_f32, zero_add, Finset.sum_const, nsmul_one]
  exact ⟨_, rfl⟩

/-- A degree weight is non-negative and finite. -/
theorem dinvF_nonneg_finite (dst : IVec SE 32) (i : SV.Idx) :
    0 ≤ dinvF (F := Ideal) dst i ∧ dinvF (F := Ideal) dst i ≠ ⊤ := by
  obtain ⟨k, hk⟩ := degree_eq dst i
  unfold dinvF
  rw [hostRsqrt_apply, addf_apply, hk, splat_const, Ideal.ofBits_one_f32, count_succ]
  exact rsqrt_pos_real _ (by positivity)

end Cert.Dinv

end
-- ==== Proof.NetEq.lean ====
/- The two compositions are one function of the nine arguments: layer by layer the kernel program's combine region
   after its aggregation is the reference's layer (the layer law), the inputs of a layer agreeing entry by entry
   (the embedding, or the batch normalisation of the previous layer's common value with the common statistics). -/
import proofs.«113380_j111669150109_2_alg».proof.Proof.Nets
import proofs.«113380_j111669150109_2_alg».proof.Proof.Layer
import proofs.«113380_j111669150109_2_alg».proof.Proof.Dinv

noncomputable section

namespace Cert.NetEq

open Idealize.ShloMosaic Idealize.ShloMosaic.ValueIdx Cert.Shared Cert.Layer

/-- A node vector made a column, at an entry. -/
theorem colOf_apply (d : FVec Ideal SV .f32) (r : Fin 50000) : colOf d (ix2 r 0) = d (ix1 r) := by
  unfold colOf
  refine shapeCast_apply d _ _ _ ?_
  rw [Shape.rowMajor_val_one, Shape.rowMajor_val_two]
  show r.val = r.val * 1 + 0
  omega

/-- A channel vector made a row, at an entry. -/
theorem rowOf1_apply (b : FVec Ideal SH .f32) (k : Fin 128) : rowOf1 b (ix2 0 k) = b (ix1 k) := by
  unfold rowOf1
  refine shapeCast_apply b _ _ _ ?_
  rw [Shape.rowMajor_val_one, Shape.rowMajor_val_two]
  show k.val = 0 * 128 + k.val
  omega

/-- The host's reciprocal square root of a channel vector, at an entry. -/
theorem hostRsqrtH_apply (x : FVec Ideal SH .f32) (i : SH.Idx) : Host.rsqrt x i = Ideal.rsqrt (x i) := by
  unfold Host.rsqrt
  rw [Ideal.hostUnary_rsqrt_def]

/-- The embedding at an entry. -/
theorem embF_apply (x : FVec Ideal NH .f32) (W : FVec Ideal HH .f32) (b : FVec Ideal SH .f32) (r : Fin 50000) (k : Fin 128) :
    embF x W b (ix2 r k) = Cert.Spec.embed x W (rowOf1 b) r k := by
  unfold embF Cert.Spec.embed
  rw [addf_apply, dot_apply, rowsOf_apply, rowOf1_apply]

/-- Batch normalisation at an entry. -/
theorem bnF_apply (a : FVec Ideal NH .f32) (mu var g beta : FVec Ideal SH .f32) (r : Fin 50000) (k : Fin 128) :
    bnF a mu var g beta (ix2 r k) = Cert.Spec.bn a (rowOf1 mu) (rowOf1 var) (rowOf1 g) (rowOf1 beta) r k := by
  unfold bnF Cert.Spec.bn
  rw [addf_apply, mulf_apply, mulf_apply, subf_apply, rowsOf_apply, rowsOf_apply, rowsOf_apply, rowsOf_apply,
    hostRsqrtH_apply, addf_apply, rowOf1_apply, rowOf1_apply, rowOf1_apply, rowOf1_apply]
  show _ = (a (ix2 r k) - mu (ix1 k)) * Ideal.rsqrt (var (ix1 k) + Ideal.ofBits .f32 0x3727C5AC#32) * g (ix1 k) + beta (ix1 k)
  rw [show splat SH (by decide) (constant (F := Ideal) S_ .f32 0x3727C5AC#32) (ix1 k) = Ideal.ofBits .f32 0x3727C5AC#32 from
    Cert.Dinv.splat_const SH _ _ _]

/-- The first layer's weighted projection at an entry. -/
theorem embedConv_apply (x : FVec Ideal NH .f32) (W : FVec Ideal HH .f32) (b : FVec Ideal R1 .f32) (W0 : FVec Ideal HH .f32)
    (d2 : FVec Ideal N1 .f32) (r : Fin 50000) (c : Fin 128) :
    Cert.Spec.embedConv x W b W0 d2 (ix2 r c) = d2 (ix2 r 0) * ∑ k : Fin 128, Cert.Spec.embed x W b r k * W0 (ix2 k c) := rfl

/-- A later layer's weighted projection at an entry. -/
theorem bnConv_apply (h : FVec Ideal NH .f32) (mu var g beta : FVec Ideal R1 .f32) (W : FVec Ideal HH .f32)
    (d2 : FVec Ideal N1 .f32) (r : Fin 50000) (c : Fin 128) :
    Cert.Spec.bnConv h mu var g beta W d2 (ix2 r c) = d2 (ix2 r 0) * ∑ k : Fin 128, Cert.Spec.bn h mu var g beta r k * W (ix2 k c) := rfl

/-- One layer: the combine region over the aggregation of `u = d · (hn W)` is the reference's layer of an input
    that is `hn` entry by entry. -/
theorem layer_eq (hin : FVec Ideal NH .f32) (d : FVec Ideal SV .f32) (hd : ∀ i, 0 ≤ d i ∧ d i ≠ ⊤) (src dst : IVec SE 32)
    (W : FVec Ideal HH .f32) (b : FVec Ideal SH .f32) (hn : Fin 50000 → Fin 128 → EReal) (hh : ∀ r k, hin (ix2 r k) = hn r k)
    (u : FVec Ideal NH .bf16) (hu : ∀ r c, u (ix2 r c) = colOf d (ix2 r 0) * ∑ k : Fin 128, hn r k * W (ix2 k c)) :
    Cert.Spec.combine (kerSeg u src dst) u (colOf d) (rowOf1 b) = refLayer hin d src dst W b := by
  funext i
  obtain ⟨n, c, rfl⟩ : ∃ (n : Fin 50000) (c : Fin 128), i = ix2 n c := ⟨i 0, i 1, eq_ix2 i⟩
  show colOf d (ix2 n 0) * (kerSeg u src dst (ix2 n c) + u (ix2 n c)) + rowOf1 b (ix2 0 c) = _
  rw [colOf_apply, rowOf1_apply]
  refine layer_law hin d hd src dst W b u (fun r q => ?_) n c
  rw [hu, colOf_apply, dot_apply]
  unfold Cert.Spec.mm
  simp only [hh]

/-- The same with the rectifier on both sides. -/
theorem layer_relu_eq (hin : FVec Ideal NH .f32) (d : FVec Ideal SV .f32) (hd : ∀ i, 0 ≤ d i ∧ d i ≠ ⊤) (src dst : IVec SE 32)
    (W : FVec Ideal HH .f32) (b : FVec Ideal SH .f32) (hn : Fin 50000 → Fin 128 → EReal) (hh : ∀ r k, hin (ix2 r k) = hn r k)
    (u : FVec Ideal NH .bf16) (hu : ∀ r c, u (ix2 r c) = colOf d (ix2 r 0) * ∑ k : Fin 128, hn r k * W (ix2 k c)) :
    Cert.Spec.combineRelu (kerSeg u src dst) u (colOf d) (rowOf1 b) = reluF (refLayer hin d src dst W b) := by
  funext i
  unfold Cert.Spec.combineRelu reluF
  rw [layer_eq hin d hd src dst W b hn hh u hu, maximumf_apply, Cert.Dinv.splat_const]

/-- THE TWO PROGRAMS AGREE.  Layer by layer: the first layer's input is the embedding on both sides; each later
    layer's input is the batch normalisation of the common previous value with the common statistics; the pool is
    the same function of the common last value. -/
theorem net_eq (x : FVec Ideal NH .f32) (e : IVec SE2 32) (batch : IVec SV 32) (Wemb : FVec Ideal HH .f32) (bemb : FVec Ideal SH .f32)
    (Wc : FVec Ideal S4HH .f32) (bc : FVec Ideal S4H .f32) (g beta : FVec Ideal S3H .f32) :
    Cert.Nets.kerNet x e batch Wemb bemb Wc bc g beta = Cert.Nets.refNet x e batch Wemb bemb Wc bc g beta := by
  have hd := Cert.Dinv.dinvF_nonneg_finite (dstOf e)
  unfold Cert.Nets.kerNet Cert.Nets.refNet
  dsimp only
  generalize dinvF (F := Ideal) (dstOf e) = d at hd ⊢
  generalize srcOf e = src
  generalize dstOf e = dst
  rw [layer_relu_eq (embF x Wemb bemb) d hd src dst (sliceW0 Wc) (sliceB0 bc)
    (Cert.Spec.embed x Wemb (rowOf1 bemb)) (embF_apply x Wemb bemb)
    (Cert.Spec.embedConv x Wemb (rowOf1 bemb) (sliceW0 Wc) (colOf d)) (fun r c => embedConv_apply _ _ _ _ _ r c)]
  generalize reluF (refLayer (embF x Wemb bemb) d src dst (sliceW0 Wc) (sliceB0 bc)) = a0
  rw [layer_relu_eq (bnF a0 (meanF a0) (varF a0) (sliceG0 g) (sliceG0 beta)) d hd src dst (sliceW1 Wc) (sliceB1 bc)
    (Cert.Spec.bn a0 (rowOf1 (meanF a0)) (rowOf1 (varF a0)) (rowOf1 (sliceG0 g)) (rowOf1 (sliceG0 beta))) (bnF_apply _ _ _ _ _) (Cert.Spec.bnConv a0 (rowOf1 (meanF a0)) (rowOf1 (varF a0)) (rowOf1 (sliceG0 g)) (rowOf1 (sliceG0 beta)) (sliceW1 Wc) (colOf d)) (fun r c => bnConv_apply _ _ _ _ _ _ _ r c)]
  generalize reluF (refLayer (bnF a0 (meanF a0) (varF a0) (sliceG0 g) (sliceG0 beta)) d src dst (sliceW1 Wc) (sliceB1 bc)) = a1
  rw [layer_relu_eq (bnF a1 (meanF a1) (varF a1) (sliceG1 g) (sliceG1 beta)) d hd src dst (sliceW2 Wc) (sliceB2 bc)
    (Cert.Spec.bn a1 (rowOf1 (meanF a1)) (rowOf1 (varF a1)) (rowOf1 (sliceG1 g)) (rowOf1 (sliceG1 beta))) (bnF_apply _ _ _ _ _) (Cert.Spec.bnConv a1 (rowOf1 (meanF a1)) (rowOf1 (varF a1)) (rowOf1 (sliceG1 g)) (rowOf1 (sliceG1 beta)) (sliceW2 Wc) (colOf d)) (fun r c => bnConv_apply _ _ _ _ _ _ _ r c)]
  generalize reluF (refLayer (bnF a1 (meanF a1) (varF a1) (sliceG1 g) (sliceG1 beta)) d src dst (sliceW2 Wc) (sliceB2 bc)) = a2
  rw [layer_eq (bnF a2 (meanF a2) (varF a2) (sliceG2 g) (sliceG2 beta)) d hd src dst (sliceW3 Wc) (sliceB3 bc)
    (Cert.Spec.bn a2 (rowOf1 (meanF a2)) (rowOf1 (varF a2)) (rowOf1 (sliceG2 g)) (rowOf1 (sliceG2 beta))) (bnF_apply _ _ _ _ _) (Cert.Spec.bnConv a2 (rowOf1 (meanF a2)) (rowOf1 (varF a2)) (rowOf1 (sliceG2 g)) (rowOf1 (sliceG2 beta)) (sliceW3 Wc) (colOf d)) (fun r c => bnConv_apply _ _ _ _ _ _ _ r c)]

end Cert.NetEq

end
-- ==== Proof.lean ====
/- The certificate's five conjuncts.
   Both programs compute a four-layer graph convolution network on 50000 nodes and 800000 edges followed by a mean
   pool over 512 graphs.  With d = rsqrt(1 + in-degree) the reference forms, per layer,
     Σ_{e : dst e = n} (d(src e) · d(dst e)) · (h W)(src e) + (d n · d n) · (h W)(n) + b,
   and the kernel forms  d n · (Σ_{e : dst e = n} u(src e) + u n) + b  with  u = d · (h W)  row by row.
   The two agree on the extended reals because d n is a non-negative real number: multiplication by such a
   number distributes over every sum, finite or not. -/
import proofs.«113380_j111669150109_2_alg».proof.Defs
import proofs.«113380_j111669150109_2_alg».proof.Proof.Gen.Kernel
import proofs.«113380_j111669150109_2_alg».proof.Proof.Gen.Kernel.Frame
import proofs.«113380_j111669150109_2_alg».proof.Proof.Gen.KernelIdeal
import proofs.«113380_j111669150109_2_alg».proof.Proof.Gen.KernelIdeal.Frame
import proofs.«113380_j111669150109_2_alg».proof.Proof.Gen.ReferenceIdeal
import proofs.«113380_j111669150109_2_alg».proof.Proof.Gen.Pre_finite_inputs
import proofs.«113380_j111669150109_2_alg».proof.Proof.KerRun
import proofs.«113380_j111669150109_2_alg».proof.Proof.KerValue
import proofs.«113380_j111669150109_2_alg».proof.Proof.RefRun
import proofs.«113380_j111669150109_2_alg».proof.Proof.RefNet
import proofs.«113380_j111669150109_2_alg».proof.Proof.Nets
import proofs.«113380_j111669150109_2_alg».proof.Proof.NetEq
import Idealize.ShloMosaic.Adequacy
import Idealize.ShloMosaic.Init

noncomputable section

namespace Cert.Proof

open Idealize.ShloMosaic Idealize.SL.Sem

/-- The word-level kernel program runs and leaves its arguments as launched. -/
theorem frame_k : @Cert.frame_Kernel Cert.Kernel.Gen.facts Cert.Pre_finite_inputs.Gen.facts :=
  fun m ρ _ => Cert.Kernel.Gen.frame m ρ

/-- The idealized kernel program runs and leaves its arguments as launched. -/
theorem frame_ki : @Cert.frame_KernelIdeal Cert.KernelIdeal.Gen.facts Cert.Pre_finite_inputs.Gen.facts :=
  fun m ρ _ => Cert.KernelIdeal.Gen.frame m ρ

/-- The reference program runs and leaves its arguments as launched: its run ends with every buffer at the fold of
    its host operations over the launch contents, and no operation writes an argument. -/
theorem frame_ri : @Cert.frame_ReferenceIdeal Cert.ReferenceIdeal.Gen.facts Cert.Pre_finite_inputs.Gen.facts :=
  fun m ρ _ => (θ_run Cert.ReferenceIdeal.defs _ _).mono (fun _ h c =>
    ⟨(h c Cert.ReferenceIdeal.main_arg0).trans (Cert.ReferenceIdeal.RefNet.ref_keep_main_arg0 (StableHlo.launchContents m c)),
     (h c Cert.ReferenceIdeal.main_arg1).trans (Cert.ReferenceIdeal.RefNet.ref_keep_main_arg1 (StableHlo.launchContents m c)),
     (h c Cert.ReferenceIdeal.main_arg2).trans (Cert.ReferenceIdeal.RefNet.ref_keep_main_arg2 (StableHlo.launchContents m c)),
     (h c Cert.ReferenceIdeal.main_arg3).trans (Cert.ReferenceIdeal.RefNet.ref_keep_main_arg3 (StableHlo.launchContents m c)),
     (h c Cert.ReferenceIdeal.main_arg4).trans (Cert.ReferenceIdeal.RefNet.ref_keep_main_arg4 (StableHlo.launchContents m c)),
     (h c Cert.ReferenceIdeal.main_arg5).trans (Cert.ReferenceIdeal.RefNet.ref_keep_main_arg5 (StableHlo.launchContents m c)),
     (h c Cert.ReferenceIdeal.main_arg6).trans (Cert.ReferenceIdeal.RefNet.ref_keep_main_arg6 (StableHlo.launchContents m c)),
     (h c Cert.ReferenceIdeal.main_arg7).trans (Cert.ReferenceIdeal.RefNet.ref_keep_main_arg7 (StableHlo.launchContents m c)),
     (h c Cert.ReferenceIdeal.main_arg8).trans (Cert.ReferenceIdeal.RefNet.ref_keep_main_arg8 (StableHlo.launchContents m c))⟩)
    (Cert.ReferenceIdeal.RefRun.run_main (F := Ideal) m ρ)

/-- The idealization changed no operation, so there is nothing to preserve. -/
theorem preserves : Cert.preserves_Kernel_KernelIdeal := trivial

/-- From memories that agree on the nine arguments both programs run, leave the arguments as launched, and end with
    the same result: the kernel program's result buffer holds its net of the arguments (the regions' whole-array
    functions composed with the host functions between them), the reference's result buffer holds the reference net
    of the same arguments, and the two nets are one function. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Nets.kerNet (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.KerValue.ker_result m ρ c), (h c).2⟩)
      (Cert.KernelIdeal.Gen.run_result (F := Ideal) m ρ)
  · refine (θ_run Cert.ReferenceIdeal.defs _ _).mono (fun _ h c => ⟨?_,
      (h c Cert.ReferenceIdeal.main_arg0).trans (Cert.ReferenceIdeal.RefNet.ref_keep_main_arg0 (StableHlo.launchContents m' c)),
      (h c Cert.ReferenceIdeal.main_arg1).trans (Cert.ReferenceIdeal.RefNet.ref_keep_main_arg1 (StableHlo.launchContents m' c)),
      (h c Cert.ReferenceIdeal.main_arg2).trans (Cert.ReferenceIdeal.RefNet.ref_keep_main_arg2 (StableHlo.launchContents m' c)),
      (h c Cert.ReferenceIdeal.main_arg3).trans (Cert.ReferenceIdeal.RefNet.ref_keep_main_arg3 (StableHlo.launchContents m' c)),
      (h c Cert.ReferenceIdeal.main_arg4).trans (Cert.ReferenceIdeal.RefNet.ref_keep_main_arg4 (StableHlo.launchContents m' c)),
      (h c Cert.ReferenceIdeal.main_arg5).trans (Cert.ReferenceIdeal.RefNet.ref_keep_main_arg5 (StableHlo.launchContents m' c)),
      (h c Cert.ReferenceIdeal.main_arg6).trans (Cert.ReferenceIdeal.RefNet.ref_keep_main_arg6 (StableHlo.launchContents m' c)),
      (h c Cert.ReferenceIdeal.main_arg7).trans (Cert.ReferenceIdeal.RefNet.ref_keep_main_arg7 (StableHlo.launchContents m' c)),
      (h c Cert.ReferenceIdeal.main_arg8).trans (Cert.ReferenceIdeal.RefNet.ref_keep_main_arg8 (StableHlo.launchContents m' c))⟩)
      (Cert.ReferenceIdeal.RefRun.run_main (F := Ideal) m' ρ')
    have hk : Cert.Nets.refNet (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        = Cert.Nets.refNet (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)) := by
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    exact (h c Cert.ReferenceIdeal.main_v262).trans
      ((Cert.ReferenceIdeal.RefNet.ref_result (StableHlo.launchContents m' c)).trans
        (hk.trans (Cert.NetEq.net_eq _ _ _ _ _ _ _ _ _).symm))

/-- The five conjuncts together. -/
theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
